-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2x262144 : Shape := ⟨2, ![2, 262144]⟩
abbrev S262144 : Shape := ⟨1, ![262144]⟩
abbrev S128x512x1 : Shape := ⟨3, ![128, 512, 1]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S262144 : S_.BroadcastsInDim S262144 (![] : Fin 0 → Fin S262144.rank)
  reducesTo_S262144_S_d0 : S262144.ReducesTo [0] S_
  bcast_S_S128x512x1 : S_.BroadcastsInDim S128x512x1 (![] : Fin 0 → Fin S128x512x1.rank)
  reducesTo_S128x512x1_S_d0_1_2 : S128x512x1.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x256 .f32) (main_arg9 : FVec F S1024x256 .f32) (main_arg10 : FVec F S1024 .f32) (main_arg11 : FVec F S1024 .f32) (main_v33 : IVec S_ 1) : IVec S_ 1 :=
  let main_v34 : FVec F S1024x256 .f32 := Host.absf main_arg8
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024x256 .f32 := Host.absf main_arg9
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S1024x256 .f32) (main_arg9 : FVec F S1024x256 .f32) (main_arg10 : FVec F S1024 .f32) (main_arg11 : FVec F S1024 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S65536x256 .f32) (main_arg1 : IVec S2x262144 32) (main_arg2 : FVec F S262144 .f32) (main_arg3 : FVec F S128x512x1 .f32) (main_arg4 : FVec F S256x256 .f32) (main_arg5 : FVec F S256 .f32) (main_arg6 : FVec F S256x256 .f32) (main_arg7 : FVec F S256 .f32) (main_arg8 : FVec F S1024x256 .f32) (main_arg9 : FVec F S1024x256 .f32) (main_arg10 : FVec F S1024 .f32) (main_arg11 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128x512x1 .f32 := Host.absf main_arg3
  let main_cst_2 : FVec F S_ .f32 := constant S_ .f32 0x7F800000#32
  let main_v10 : FVec F S128x512x1 .f32 := broadcastInDim S128x512x1 ![] bcast_S_S128x512x1 main_cst_2
  let main_v11 : IVec S128x512x1 1 := cmpf .olt main_v9 main_v10
  let main_c_3 : IVec S_ 1 := constantI S_ 1 1#1
  let main_v12 : IVec S_ 1 := (fun x v => Host.reduce IntOp.andi x v reducesTo_S128x512x1_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S65536x256 : Shape := ⟨2, ![65536, 256]⟩
abbrev S2x262144 : Shape := ⟨2, ![2, 262144]⟩
abbrev S262144 : Shape := ⟨1, ![262144]⟩
abbrev S128x512x1 : Shape := ⟨3, ![128, 512, 1]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S65536 : Shape := ⟨1, ![65536]⟩
abbrev S1x262144 : Shape := ⟨2, ![1, 262144]⟩
abbrev S327680 : Shape := ⟨1, ![327680]⟩
abbrev S_ : Shape := ⟨0, ![]⟩
abbrev S327680x1 : Shape := ⟨2, ![327680, 1]⟩
abbrev S256x1024 : Shape := ⟨2, ![256, 1024]⟩
abbrev S1x1024 : Shape := ⟨2, ![1, 1024]⟩
abbrev S65536x1 : Shape := ⟨2, ![65536, 1]⟩
abbrev S4096x256 : Shape := ⟨2, ![4096, 256]⟩
abbrev S327680x256 : Shape := ⟨2, ![327680, 256]⟩
abbrev S1x256 : Shape := ⟨2, ![1, 256]⟩
abbrev S512x256 : Shape := ⟨2, ![512, 256]⟩
abbrev S512x1 : Shape := ⟨2, ![512, 1]⟩
abbrev S512x1024 : Shape := ⟨2, ![512, 1024]⟩
abbrev S128x512x256 : Shape := ⟨3, ![128, 512, 256]⟩

abbrev nBuf : Space → Nat
  | .hbm => 112
  | .vmem => 32
  | .smem => 0
  | _ => 0

abbrev bufTy : (tb : Table) → Fin (tcTables nBuf tb) → BufTy
  | .hbm, ⟨0, _⟩ => ⟨S65536x256, .f32⟩
  | .hbm, ⟨1, _⟩ => ⟨S2x262144, .i32⟩
  | .hbm, ⟨2, _⟩ => ⟨S262144, .f32⟩
  | .hbm, ⟨3, _⟩ => ⟨S128x512x1, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S65536, .i32⟩
  | .hbm, ⟨13, _⟩ => ⟨S1x262144, .i32⟩
  | .hbm, ⟨14, _⟩ => ⟨S262144, .i32⟩
  | .hbm, ⟨15, _⟩ => ⟨S327680, .i32⟩
  | .hbm, ⟨16, _⟩ => ⟨S1x262144, .i32⟩
  | .hbm, ⟨17, _⟩ => ⟨S262144, .i32⟩
  | .hbm, ⟨18, _⟩ => ⟨S327680, .i32⟩
  | .hbm, ⟨19, _⟩ => ⟨S_, .f32⟩
  | .hbm, ⟨20, _⟩ => ⟨S65536, .f32⟩
  | .hbm, ⟨21, _⟩ => ⟨S327680, .f32⟩
  | .hbm, ⟨22, _⟩ => ⟨S_, .f32⟩
  | .hbm, ⟨23, _⟩ => ⟨S65536, .f32⟩
  | .hbm, ⟨24, _⟩ => ⟨S327680x1, .i32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .i1⟩
  | .hbm, ⟨29, _⟩ => ⟨S65536, .f32⟩
  | .hbm, ⟨30, _⟩ => ⟨S_, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S_, .i32⟩
  | .hbm, ⟨35, _⟩ => ⟨S327680, .i32⟩
  | .hbm, ⟨36, _⟩ => ⟨S327680, .i1⟩
  | .hbm, ⟨37, _⟩ => ⟨S_, .i32⟩
  | .hbm, ⟨38, _⟩ => ⟨S327680, .i32⟩
  | .hbm, ⟨39, _⟩ => ⟨S327680, .i32⟩
  | .hbm, ⟨40, _⟩ => ⟨S327680, .i32⟩
  | .hbm, ⟨41, _⟩ => ⟨S327680x1, .i32⟩
  | .hbm, ⟨42, _⟩ => ⟨S327680, .f32⟩
  | .hbm, ⟨43, _⟩ => ⟨S327680, .f32⟩
  | .hbm, ⟨44, _⟩ => ⟨S_, .i32⟩
  | .hbm, ⟨45, _⟩ => ⟨S327680, .i32⟩
  | .hbm, ⟨46, _⟩ => ⟨S327680, .i1⟩
  | .hbm, ⟨47, _⟩ => ⟨S_, .i32⟩
  | .hbm, ⟨48, _⟩ => ⟨S327680, .i32⟩
  | .hbm, ⟨49, _⟩ => ⟨S327680, .i32⟩
  | .hbm, ⟨50, _⟩ => ⟨S327680, .i32⟩
  | .hbm, ⟨51, _⟩ => ⟨S327680x1, .i32⟩
  | .hbm, ⟨52, _⟩ => ⟨S327680, .f32⟩
  | .hbm, ⟨53, _⟩ => ⟨S327680, .f32⟩
  | .hbm, ⟨54, _⟩ => ⟨S256x256, .f32⟩
  | .hbm, ⟨55, _⟩ => ⟨S256x256, .bf16⟩
  | .hbm, ⟨56, _⟩ => ⟨S256x256, .f32⟩
  | .hbm, ⟨57, _⟩ => ⟨S256x256, .bf16⟩
  | .hbm, ⟨58, _⟩ => ⟨S256x1024, .f32⟩
  | .hbm, ⟨59, _⟩ => ⟨S256x1024, .bf16⟩
  | .hbm, ⟨60, _⟩ => ⟨S256x1024, .f32⟩
  | .hbm, ⟨61, _⟩ => ⟨S256x1024, .bf16⟩
  | .hbm, ⟨62, _⟩ => ⟨S1024, .f32⟩
  | .hbm, ⟨63, _⟩ => ⟨S1x1024, .f32⟩
  | .hbm, ⟨64, _⟩ => ⟨S65536x1, .f32⟩
  | .hbm, ⟨65, _⟩ => ⟨S_, .f32⟩
  | .hbm, ⟨66, _⟩ => ⟨S65536x1, .f32⟩
  | .hbm, ⟨67, _⟩ => ⟨S65536x256, .bf16⟩
  | .hbm, ⟨68, _⟩ => ⟨S_, .i32⟩
  | .hbm, ⟨69, _⟩ => ⟨S327680, .i32⟩
  | .hbm, ⟨70, _⟩ => ⟨S327680, .i1⟩
  | .hbm, ⟨71, _⟩ => ⟨S_, .i32⟩
  | .hbm, ⟨72, _⟩ => ⟨S327680, .i32⟩
  | .hbm, ⟨73, _⟩ => ⟨S327680, .i32⟩
  | .hbm, ⟨74, _⟩ => ⟨S327680, .i32⟩
  | .hbm, ⟨75, _⟩ => ⟨S327680x1, .i32⟩
  | .hbm, ⟨76, _⟩ => ⟨S327680x256, .bf16⟩
  | .hbm, ⟨77, _⟩ => ⟨S327680x256, .f32⟩
  | .hbm, ⟨78, _⟩ => ⟨S327680x1, .f32⟩
  | .hbm, ⟨79, _⟩ => ⟨S327680x256, .f32⟩
  | .hbm, ⟨80, _⟩ => ⟨S327680x256, .f32⟩
  | .hbm, ⟨81, _⟩ => ⟨S_, .f32⟩
  | .hbm, ⟨82, _⟩ => ⟨S65536x256, .f32⟩
  | .hbm, ⟨83, _⟩ => ⟨S327680x1, .i32⟩
  | .hbm, ⟨84, _⟩ => ⟨S65536x256, .f32⟩
  | .hbm, ⟨85, _⟩ => ⟨S1x256, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256, .bf16⟩
  | .hbm, ⟨90, _⟩ => ⟨S_, .i32⟩
  | .hbm, ⟨91, _⟩ => ⟨S327680, .i32⟩
  | .hbm, ⟨92, _⟩ => ⟨S327680, .i1⟩
  | .hbm, ⟨93, _⟩ => ⟨S_, .i32⟩
  | .hbm, ⟨94, _⟩ => ⟨S327680, .i32⟩
  | .hbm, ⟨95, _⟩ => ⟨S327680, .i32⟩
  | .hbm, ⟨96, _⟩ => ⟨S327680, .i32⟩
  | .hbm, ⟨97, _⟩ => ⟨S327680x1, .i32⟩
  | .hbm, ⟨98, _⟩ => ⟨S327680x256, .bf16⟩
  | .hbm, ⟨99, _⟩ => ⟨S327680x256, .f32⟩
  | .hbm, ⟨100, _⟩ => ⟨S327680x1, .f32⟩
  | .hbm, ⟨101, _⟩ => ⟨S327680x256, .f32⟩
  | .hbm, ⟨102, _⟩ => ⟨S327680x256, .f32⟩
  | .hbm, ⟨103, _⟩ => ⟨S_, .f32⟩
  | .hbm, ⟨104, _⟩ => ⟨S65536x256, .f32⟩
  | .hbm, ⟨105, _⟩ => ⟨S327680x1, .i32⟩
  | .hbm, ⟨106, _⟩ => ⟨S65536x256, .f32⟩
  | .hbm, ⟨107, _⟩ => ⟨S1x256, .f32⟩
  | .hbm, ⟨108, _⟩ => ⟨S65536x256, .f32⟩
  | .hbm, ⟨109, _⟩ => ⟨S65536x256, .f32⟩
  | .hbm, ⟨110, _⟩ => ⟨S65536x256, .f32⟩
  | .hbm, ⟨111, _⟩ => ⟨S128x512x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S4096x256, .bf16⟩
  | .local _ .vmem, ⟨4, _⟩ => ⟨S4096x256, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S512x1, .f32⟩
  | .local _ .vmem, ⟨13, _⟩ => ⟨S512x1, .f32⟩
  | .local _ .vmem, ⟨14, _⟩ => ⟨S512x256, .f32⟩
  | .local _ .vmem, ⟨15, _⟩ => ⟨S512x256, .f32⟩
  | .local _ .vmem, ⟨16, _⟩ => ⟨S4096x256, .f32⟩
  | .local _ .vmem, ⟨17, _⟩ => ⟨S4096x256, .f32⟩
  | .local _ .vmem, ⟨18, _⟩ => ⟨S256x256, .bf16⟩
  | .local _ .vmem, ⟨19, _⟩ => ⟨S4096x256, .bf16⟩
  | .local _ .vmem, ⟨20, _⟩ => ⟨S4096x256, .bf16⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S512x1, .f32⟩
  | .local _ .vmem, ⟨29, _⟩ => ⟨S512x1, .f32⟩
  | .local _ .vmem, ⟨30, _⟩ => ⟨S512x256, .f32⟩
  | .local _ .vmem, ⟨31, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x262144_S1x262144_0_0 : S2x262144.Slices ![0, 0] S1x262144
  shapeCasts_S1x262144_S262144 : S1x262144.ShapeCasts S262144
  concatenates_S262144_S65536_S327680_d0 : Shape.Concatenates [S262144, S65536] S327680 0
  slices_S2x262144_S1x262144_1_0 : S2x262144.Slices ![1, 0] S1x262144
  bcast_S_S65536 : S_.BroadcastsInDim S65536 (![] : Fin 0 → Fin S65536.rank)
  bcast_S327680_S327680x1_0 : S327680.BroadcastsInDim S327680x1 (![0] : Fin 1 → Fin S327680x1.rank)
  bcast_S_S327680 : S_.BroadcastsInDim S327680 (![] : Fin 0 → Fin S327680.rank)
  transposes_S256x256_S256x256_1_0 : S256x256.Transposes [1, 0] S256x256
  bitsLt_bf16_f32 : FTy.bits .bf16 < FTy.bits .f32
  transposes_S1024x256_S256x1024_1_0 : S1024x256.Transposes [1, 0] S256x1024
  shapeCasts_S1024_S1x1024 : S1024.ShapeCasts S1x1024
  shapeCasts_S128x512x1_S65536x1 : S128x512x1.ShapeCasts S65536x1
  bcast_S_S65536x1 : S_.BroadcastsInDim S65536x1 (![] : Fin 0 → Fin S65536x1.rank)
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S4096x256_S4096x256_0_0 : (Rect.unit (s := S4096x256) ![0, 0] S4096x256.size inb_S4096x256_S4096x256_0_0).PackedRows (EltTy.packing .bf16)
  bcast_S327680x1_S327680x256_0_1 : S327680x1.BroadcastsInDim S327680x256 (![0, 1] : Fin 2 → Fin S327680x256.rank)
  bcast_S_S65536x256 : S_.BroadcastsInDim S65536x256 (![] : Fin 0 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  shapeCasts_S4096x256_S4096x256 : S4096x256.ShapeCasts S4096x256
  shapeCasts_S65536x256_S128x512x256 : S65536x256.ShapeCasts S128x512x256
  scatter_S65536_S327680x1_S327680_n_0_0_1_wf : ScatterDims.WF S65536 S327680x1 S327680 [] [0] [0] 1
  gather_S65536_S327680x1_S327680_n_0_n_n_0_1_1_wf : GatherDims.WF S65536 S327680x1 S327680 [] [0] [] [0] [] 1 ![1]
  dot_S4096x256_S256x256_S4096x256_1_0_0_1_n_n_wf : DotDims.WF S4096x256 S256x256 S4096x256 [1] [0] [0] [1] [] []
  gather_S65536x256_S327680x1_S327680x256_1_0_n_n_0_1_1256_wf : GatherDims.WF S65536x256 S327680x1 S327680x256 [1] [0] [] [0] [] 1 ![1, 256]
  scatter_S65536x256_S327680x1_S327680x256_1_0_0_1_wf : ScatterDims.WF S65536x256 S327680x1 S327680x256 [1] [0] [0] 1
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .bf16 = 32 ∨ (Rect.block (s := S65536x256) S4096x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S65536x256.size a
  hwx1_0 : ∀ i : grid1.Coords, EltTy.bits .f32 = 32 ∨ (Rect.block (s := S65536x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S65536x256.size a
  hwx1_1 : ∀ i : grid1.Coords, EltTy.bits .f32 = 32 ∨ (Rect.block (s := S65536x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S65536x1.size a
  hwx1_5 : ∀ i : grid1.Coords, EltTy.bits .f32 = 32 ∨ (Rect.block (s := S65536x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S65536x256.size a
  hwx1_6 : ∀ i : grid1.Coords, EltTy.bits .f32 = 32 ∨ (Rect.block (s := S65536x256) S512x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S65536x256.size a
  hwx2_0 : ∀ i : grid2.Coords, EltTy.bits .f32 = 32 ∨ (Rect.block (s := S65536x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S65536x256.size a
  hwx2_2 : ∀ i : grid2.Coords, EltTy.bits .bf16 = 32 ∨ (Rect.block (s := S65536x256) S4096x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S65536x256.size a
  hwx3_0 : ∀ i : grid3.Coords, EltTy.bits .f32 = 32 ∨ (Rect.block (s := S65536x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S65536x256.size a
  hwx3_1 : ∀ i : grid3.Coords, EltTy.bits .f32 = 32 ∨ (Rect.block (s := S65536x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .bf16 = 32 ∨ (Rect.block (s := S256x1024) S256x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S256x1024.size a
  hwx3_3 : ∀ i : grid3.Coords, EltTy.bits .bf16 = 32 ∨ (Rect.block (s := S256x1024) S256x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S65536x1.size a
  hwx3_5 : ∀ i : grid3.Coords, EltTy.bits .f32 = 32 ∨ (Rect.block (s := S65536x1) S512x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x256.size a ≤ S65536x256.size a
  hwx3_6 : ∀ i : grid3.Coords, EltTy.bits .f32 = 32 ∨ (Rect.block (s := S65536x256) S512x256.size (cc3_transform_6 i) (hinb3_6 i)).WholeWords (EltTy.packing .f32)

variable [Facts₀]

def scatter_S65536_S327680x1_S327680_n_0_0_1 : ScatterDims S65536 S327680x1 S327680 where
  updateWindowDims := []
  insertedWindowDims := [0]
  scatterDimsToOperandDims := [0]
  indexVectorDim := 1
  wf := scatter_S65536_S327680x1_S327680_n_0_0_1_wf
def gather_S65536_S327680x1_S327680_n_0_n_n_0_1_1 : GatherDims S65536 S327680x1 S327680 where
  offsetDims := []
  collapsedSliceDims := [0]
  operandBatchingDims := []
  startIndicesBatchingDims := []
  startIndexMap := [0]
  indexVectorDim := 1
  sliceSizes := ![1]
  wf := gather_S65536_S327680x1_S327680_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S65536x256_S327680x1_S327680x256_1_0_n_n_0_1_1256 : GatherDims S65536x256 S327680x1 S327680x256 where
  offsetDims := [1]
  collapsedSliceDims := [0]
  operandBatchingDims := []
  startIndicesBatchingDims := []
  startIndexMap := [0]
  indexVectorDim := 1
  sliceSizes := ![1, 256]
  wf := gather_S65536x256_S327680x1_S327680x256_1_0_n_n_0_1_1256_wf
def scatter_S65536x256_S327680x1_S327680x256_1_0_0_1 : ScatterDims S65536x256 S327680x1 S327680x256 where
  updateWindowDims := [1]
  insertedWindowDims := [0]
  scatterDimsToOperandDims := [0]
  indexVectorDim := 1
  wf := scatter_S65536x256_S327680x1_S327680x256_1_0_0_1_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v62) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S4096x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S256x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S512x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v81) S512x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S65536x256 : Shape := ⟨2, ![65536, 256]⟩
abbrev S2x262144 : Shape := ⟨2, ![2, 262144]⟩
abbrev S262144 : Shape := ⟨1, ![262144]⟩
abbrev S128x512x1 : Shape := ⟨3, ![128, 512, 1]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S65536 : Shape := ⟨1, ![65536]⟩
abbrev S1x262144 : Shape := ⟨2, ![1, 262144]⟩
abbrev S327680 : Shape := ⟨1, ![327680]⟩
abbrev S_ : Shape := ⟨0, ![]⟩
abbrev S327680x1 : Shape := ⟨2, ![327680, 1]⟩
abbrev S327680x256 : Shape := ⟨2, ![327680, 256]⟩
abbrev S1x256 : Shape := ⟨2, ![1, 256]⟩
abbrev S256x1024 : Shape := ⟨2, ![256, 1024]⟩
abbrev S65536x1024 : Shape := ⟨2, ![65536, 1024]⟩
abbrev S1x1024 : Shape := ⟨2, ![1, 1024]⟩
abbrev S128x512x256 : Shape := ⟨3, ![128, 512, 256]⟩

abbrev nBuf : Space → Nat
  | .hbm => 311
  | .vmem => 0
  | .smem => 0
  | _ => 0

abbrev hbmTy0_0 (i : Nat) : BufTy := match i % 128 with
  | 0 => ⟨S65536x256, .f32⟩
  | 1 => ⟨S2x262144, .i32⟩
  | 2 => ⟨S262144, .f32⟩
  | 3 => ⟨S128x512x1, .f32⟩
  | 4 => ⟨S256x256, .f32⟩
  | 5 => ⟨S256, .f32⟩
  | 6 => ⟨S256x256, .f32⟩
  | 7 => ⟨S256, .f32⟩
  | 8 => ⟨S1024x256, .f32⟩
  | 9 => ⟨S1024x256, .f32⟩
  | 10 => ⟨S1024, .f32⟩
  | 11 => ⟨S1024, .f32⟩
  | 12 => ⟨S65536, .i32⟩
  | 13 => ⟨S1x262144, .i32⟩
  | 14 => ⟨S262144, .i32⟩
  | 15 => ⟨S327680, .i32⟩
  | 16 => ⟨S1x262144, .i32⟩
  | 17 => ⟨S262144, .i32⟩
  | 18 => ⟨S327680, .i32⟩
  | 19 => ⟨S_, .f32⟩
  | 20 => ⟨S65536, .f32⟩
  | 21 => ⟨S327680, .f32⟩
  | 22 => ⟨S256x256, .f32⟩
  | 23 => ⟨S65536x256, .f32⟩
  | 24 => ⟨S_, .f32⟩
  | 25 => ⟨S65536, .f32⟩
  | 26 => ⟨S327680x1, .i32⟩
  | 27 => ⟨S65536, .f32⟩
  | 28 => ⟨S_, .f32⟩
  | 29 => ⟨S65536, .f32⟩
  | 30 => ⟨S65536, .i1⟩
  | 31 => ⟨S65536, .f32⟩
  | 32 => ⟨S_, .f32⟩
  | 33 => ⟨S_, .f32⟩
  | 34 => ⟨S65536, .f32⟩
  | 35 => ⟨S65536, .f32⟩
  | 36 => ⟨S_, .i32⟩
  | 37 => ⟨S327680, .i32⟩
  | 38 => ⟨S327680, .i1⟩
  | 39 => ⟨S_, .i32⟩
  | 40 => ⟨S327680, .i32⟩
  | 41 => ⟨S327680, .i32⟩
  | 42 => ⟨S327680, .i32⟩
  | 43 => ⟨S327680x1, .i32⟩
  | 44 => ⟨S327680, .f32⟩
  | 45 => ⟨S327680, .f32⟩
  | 46 => ⟨S_, .i32⟩
  | 47 => ⟨S327680, .i32⟩
  | 48 => ⟨S327680, .i1⟩
  | 49 => ⟨S_, .i32⟩
  | 50 => ⟨S327680, .i32⟩
  | 51 => ⟨S327680, .i32⟩
  | 52 => ⟨S327680, .i32⟩
  | 53 => ⟨S327680x1, .i32⟩
  | 54 => ⟨S327680, .f32⟩
  | 55 => ⟨S327680, .f32⟩
  | 56 => ⟨S_, .i32⟩
  | 57 => ⟨S327680, .i32⟩
  | 58 => ⟨S327680, .i1⟩
  | 59 => ⟨S_, .i32⟩
  | 60 => ⟨S327680, .i32⟩
  | 61 => ⟨S327680, .i32⟩
  | 62 => ⟨S327680, .i32⟩
  | 63 => ⟨S327680x1, .i32⟩
  | 64 => ⟨S327680x256, .f32⟩
  | 65 => ⟨S327680x1, .f32⟩
  | 66 => ⟨S327680x256, .f32⟩
  | 67 => ⟨S327680x256, .f32⟩
  | 68 => ⟨S_, .f32⟩
  | 69 => ⟨S65536x256, .f32⟩
  | 70 => ⟨S327680x1, .i32⟩
  | 71 => ⟨S65536x256, .f32⟩
  | 72 => ⟨S1x256, .f32⟩
  | 73 => ⟨S65536x256, .f32⟩
  | 74 => ⟨S65536x256, .f32⟩
  | 75 => ⟨S_, .f32⟩
  | 76 => ⟨S65536x256, .f32⟩
  | 77 => ⟨S_, .f32⟩
  | 78 => ⟨S65536x256, .f32⟩
  | 79 => ⟨S256x1024, .f32⟩
  | 80 => ⟨S65536x1024, .f32⟩
  | 81 => ⟨S256x1024, .f32⟩
  | 82 => ⟨S65536x1024, .f32⟩
  | 83 => ⟨S65536x1024, .f32⟩
  | 84 => ⟨S1024, .f32⟩
  | 85 => ⟨S1x1024, .f32⟩
  | 86 => ⟨S65536x1024, .f32⟩
  | 87 => ⟨S65536x1024, .f32⟩
  | 88 => ⟨S65536x256, .f32⟩
  | 89 => ⟨S65536x256, .f32⟩
  | 90 => ⟨S65536x256, .f32⟩
  | 91 => ⟨S65536x256, .f32⟩
  | 92 => ⟨S65536x256, .f32⟩
  | 93 => ⟨S65536x256, .f32⟩
  | 94 => ⟨S_, .f32⟩
  | 95 => ⟨S65536x256, .f32⟩
  | 96 => ⟨S65536x256, .f32⟩
  | 97 => ⟨S_, .f32⟩
  | 98 => ⟨S65536x256, .f32⟩
  | 99 => ⟨S65536x256, .f32⟩
  | 100 => ⟨S65536x256, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S_, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S_, .f32⟩
  | 115 => ⟨S65536x256, .f32⟩
  | 116 => ⟨S65536x256, .f32⟩
  | 117 => ⟨S_, .f32⟩
  | 118 => ⟨S65536x256, .f32⟩
  | 119 => ⟨S65536x256, .f32⟩
  | 120 => ⟨S65536x256, .f32⟩
  | 121 => ⟨S65536x256, .f32⟩
  | 122 => ⟨S256x1024, .f32⟩
  | 123 => ⟨S65536x1024, .f32⟩
  | 124 => ⟨S256x1024, .f32⟩
  | 125 => ⟨S65536x1024, .f32⟩
  | 126 => ⟨S65536x1024, .f32⟩
  | 127 => ⟨S1024, .f32⟩
  | _ => ⟨S65536x256, .f32⟩

abbrev hbmTy0_1 (i : Nat) : BufTy := match i % 128 with
  | 0 => ⟨S1x1024, .f32⟩
  | 1 => ⟨S65536x1024, .f32⟩
  | 2 => ⟨S65536x1024, .f32⟩
  | 3 => ⟨S65536x256, .f32⟩
  | 4 => ⟨S65536x256, .f32⟩
  | 5 => ⟨S65536x256, .f32⟩
  | 6 => ⟨S65536x256, .f32⟩
  | 7 => ⟨S65536x256, .f32⟩
  | 8 => ⟨S65536x256, .f32⟩
  | 9 => ⟨S_, .f32⟩
  | 10 => ⟨S65536x256, .f32⟩
  | 11 => ⟨S65536x256, .f32⟩
  | 12 => ⟨S_, .f32⟩
  | 13 => ⟨S65536x256, .f32⟩
  | 14 => ⟨S65536x256, .f32⟩
  | 15 => ⟨S65536x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S_, .f32⟩
  | 22 => ⟨S65536x256, .f32⟩
  | 23 => ⟨S65536x256, .f32⟩
  | 24 => ⟨S65536x256, .f32⟩
  | 25 => ⟨S65536x256, .f32⟩
  | 26 => ⟨S65536x256, .f32⟩
  | 27 => ⟨S65536x256, .f32⟩
  | 28 => ⟨S65536x256, .f32⟩
  | 29 => ⟨S_, .f32⟩
  | 30 => ⟨S65536x256, .f32⟩
  | 31 => ⟨S65536x256, .f32⟩
  | 32 => ⟨S_, .f32⟩
  | 33 => ⟨S65536x256, .f32⟩
  | 34 => ⟨S65536x256, .f32⟩
  | 35 => ⟨S65536x256, .f32⟩
  | 36 => ⟨S65536x256, .f32⟩
  | 37 => ⟨S256x256, .f32⟩
  | 38 => ⟨S65536x256, .f32⟩
  | 39 => ⟨S_, .f32⟩
  | 40 => ⟨S65536, .f32⟩
  | 41 => ⟨S327680x1, .i32⟩
  | 42 => ⟨S65536, .f32⟩
  | 43 => ⟨S_, .f32⟩
  | 44 => ⟨S65536, .f32⟩
  | 45 => ⟨S65536, .i1⟩
  | 46 => ⟨S65536, .f32⟩
  | 47 => ⟨S_, .f32⟩
  | 48 => ⟨S_, .f32⟩
  | 49 => ⟨S65536, .f32⟩
  | 50 => ⟨S65536, .f32⟩
  | 51 => ⟨S_, .i32⟩
  | 52 => ⟨S327680, .i32⟩
  | 53 => ⟨S327680, .i1⟩
  | 54 => ⟨S_, .i32⟩
  | 55 => ⟨S327680, .i32⟩
  | 56 => ⟨S327680, .i32⟩
  | 57 => ⟨S327680, .i32⟩
  | 58 => ⟨S327680x1, .i32⟩
  | 59 => ⟨S327680, .f32⟩
  | 60 => ⟨S327680, .f32⟩
  | 61 => ⟨S_, .i32⟩
  | 62 => ⟨S327680, .i32⟩
  | 63 => ⟨S327680, .i1⟩
  | 64 => ⟨S_, .i32⟩
  | 65 => ⟨S327680, .i32⟩
  | 66 => ⟨S327680, .i32⟩
  | 67 => ⟨S327680, .i32⟩
  | 68 => ⟨S327680x1, .i32⟩
  | 69 => ⟨S327680, .f32⟩
  | 70 => ⟨S327680, .f32⟩
  | 71 => ⟨S_, .i32⟩
  | 72 => ⟨S327680, .i32⟩
  | 73 => ⟨S327680, .i1⟩
  | 74 => ⟨S_, .i32⟩
  | 75 => ⟨S327680, .i32⟩
  | 76 => ⟨S327680, .i32⟩
  | 77 => ⟨S327680, .i32⟩
  | 78 => ⟨S327680x1, .i32⟩
  | 79 => ⟨S327680x256, .f32⟩
  | 80 => ⟨S327680x1, .f32⟩
  | 81 => ⟨S327680x256, .f32⟩
  | 82 => ⟨S327680x256, .f32⟩
  | 83 => ⟨S_, .f32⟩
  | 84 => ⟨S65536x256, .f32⟩
  | 85 => ⟨S327680x1, .i32⟩
  | 86 => ⟨S65536x256, .f32⟩
  | 87 => ⟨S1x256, .f32⟩
  | 88 => ⟨S65536x256, .f32⟩
  | 89 => ⟨S65536x256, .f32⟩
  | 90 => ⟨S_, .f32⟩
  | 91 => ⟨S65536x256, .f32⟩
  | 92 => ⟨S_, .f32⟩
  | 93 => ⟨S65536x256, .f32⟩
  | 94 => ⟨S256x1024, .f32⟩
  | 95 => ⟨S65536x1024, .f32⟩
  | 96 => ⟨S256x1024, .f32⟩
  | 97 => ⟨S65536x1024, .f32⟩
  | 98 => ⟨S65536x1024, .f32⟩
  | 99 => ⟨S1024, .f32⟩
  | 100 => ⟨S1x1024, .f32⟩
  | 101 => ⟨S65536x1024, .f32⟩
  | 102 => ⟨S65536x1024, .f32⟩
  | 103 => ⟨S65536x256, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S_, .f32⟩
  | 119 => ⟨S65536x256, .f32⟩
  | 120 => ⟨S65536x256, .f32⟩
  | 121 => ⟨S_, .f32⟩
  | 122 => ⟨S65536x256, .f32⟩
  | 123 => ⟨S65536x256, .f32⟩
  | 124 => ⟨S65536x256, .f32⟩
  | 125 => ⟨S65536x256, .f32⟩
  | 126 => ⟨S65536x256, .f32⟩
  | 127 => ⟨S65536x256, .f32⟩
  | _ => ⟨S65536x256, .f32⟩

abbrev hbmTy0_2 (i : Nat) : BufTy := match i % 128 with
  | 0 => ⟨S65536x256, .f32⟩
  | 1 => ⟨S_, .f32⟩
  | 2 => ⟨S65536x256, .f32⟩
  | 3 => ⟨S65536x256, .f32⟩
  | 4 => ⟨S_, .f32⟩
  | 5 => ⟨S65536x256, .f32⟩
  | 6 => ⟨S65536x256, .f32⟩
  | 7 => ⟨S65536x256, .f32⟩
  | 8 => ⟨S65536x256, .f32⟩
  | 9 => ⟨S256x1024, .f32⟩
  | 10 => ⟨S65536x1024, .f32⟩
  | 11 => ⟨S256x1024, .f32⟩
  | 12 => ⟨S65536x1024, .f32⟩
  | 13 => ⟨S65536x1024, .f32⟩
  | 14 => ⟨S1024, .f32⟩
  | 15 => ⟨S1x1024, .f32⟩
  | 16 => ⟨S65536x1024, .f32⟩
  | 17 => ⟨S65536x1024, .f32⟩
  | 18 => ⟨S65536x256, .f32⟩
  | 19 => ⟨S65536x256, .f32⟩
  | 20 => ⟨S65536x256, .f32⟩
  | 21 => ⟨S65536x256, .f32⟩
  | 22 => ⟨S65536x256, .f32⟩
  | 23 => ⟨S65536x256, .f32⟩
  | 24 => ⟨S_, .f32⟩
  | 25 => ⟨S65536x256, .f32⟩
  | 26 => ⟨S65536x256, .f32⟩
  | 27 => ⟨S_, .f32⟩
  | 28 => ⟨S65536x256, .f32⟩
  | 29 => ⟨S65536x256, .f32⟩
  | 30 => ⟨S65536x256, .f32⟩
  | 31 => ⟨S65536x256, .f32⟩
  | 32 => ⟨S65536x256, .f32⟩
  | 33 => ⟨S_, .f32⟩
  | 34 => ⟨S65536x256, .f32⟩
  | 35 => ⟨S65536x256, .f32⟩
  | 36 => ⟨S_, .f32⟩
  | 37 => ⟨S65536x256, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S_, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S65536x256, .f32⟩
  | 51 => ⟨S65536x256, .f32⟩
  | 52 => ⟨S128x512x256, .f32⟩
  | 53 => ⟨S128x512x256, .f32⟩
  | 54 => ⟨S128x512x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_17 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_19 : Ref sig .tc := ⟨.hbm, 146, rfl⟩
abbrev main_v111 : Ref sig .tc := ⟨.hbm, 147, rfl⟩
abbrev main_v112 : Ref sig .tc := ⟨.hbm, 148, rfl⟩
abbrev main_cst_20 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_21 : Ref sig .tc := ⟨.hbm, 157, rfl⟩
abbrev main_v120 : Ref sig .tc := ⟨.hbm, 158, rfl⟩
abbrev main_v121 : Ref sig .tc := ⟨.hbm, 159, rfl⟩
abbrev main_cst_22 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_23 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_24 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_25 : Ref sig .tc := ⟨.hbm, 175, rfl⟩
abbrev main_call1_v0 : Ref sig .tc := ⟨.hbm, 176, rfl⟩
abbrev main_call1_v1 : Ref sig .tc := ⟨.hbm, 177, rfl⟩
abbrev main_v134 : Ref sig .tc := ⟨.hbm, 178, rfl⟩
abbrev main_c_26 : Ref sig .tc := ⟨.hbm, 179, rfl⟩
abbrev main_v135 : Ref sig .tc := ⟨.hbm, 180, rfl⟩
abbrev main_v136 : Ref sig .tc := ⟨.hbm, 181, rfl⟩
abbrev main_c_27 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_28 : Ref sig .tc := ⟨.hbm, 189, rfl⟩
abbrev main_v143 : Ref sig .tc := ⟨.hbm, 190, rfl⟩
abbrev main_v144 : Ref sig .tc := ⟨.hbm, 191, rfl⟩
abbrev main_c_29 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_30 : Ref sig .tc := ⟨.hbm, 199, rfl⟩
abbrev main_v151 : Ref sig .tc := ⟨.hbm, 200, rfl⟩
abbrev main_v152 : Ref sig .tc := ⟨.hbm, 201, rfl⟩
abbrev main_c_31 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_32 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_33 : Ref sig .tc := ⟨.hbm, 218, rfl⟩
abbrev main_v167 : Ref sig .tc := ⟨.hbm, 219, rfl⟩
abbrev main_cst_34 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_35 : Ref sig .tc := ⟨.hbm, 237, rfl⟩
abbrev main_v184 : Ref sig .tc := ⟨.hbm, 238, rfl⟩
abbrev main_v185 : Ref sig .tc := ⟨.hbm, 239, rfl⟩
abbrev main_cst_36 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_37 : Ref sig .tc := ⟨.hbm, 246, rfl⟩
abbrev main_v191 : Ref sig .tc := ⟨.hbm, 247, rfl⟩
abbrev main_v192 : Ref sig .tc := ⟨.hbm, 248, rfl⟩
abbrev main_cst_38 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_39 : Ref sig .tc := ⟨.hbm, 257, rfl⟩
abbrev main_v200 : Ref sig .tc := ⟨.hbm, 258, rfl⟩
abbrev main_v201 : Ref sig .tc := ⟨.hbm, 259, rfl⟩
abbrev main_cst_40 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_cst_41 : Ref sig .tc := ⟨.hbm, 280, rfl⟩
abbrev main_v221 : Ref sig .tc := ⟨.hbm, 281, rfl⟩
abbrev main_v222 : Ref sig .tc := ⟨.hbm, 282, rfl⟩
abbrev main_cst_42 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_cst_43 : Ref sig .tc := ⟨.hbm, 289, rfl⟩
abbrev main_v228 : Ref sig .tc := ⟨.hbm, 290, rfl⟩
abbrev main_v229 : Ref sig .tc := ⟨.hbm, 291, rfl⟩
abbrev main_cst_44 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_cst_45 : Ref sig .tc := ⟨.hbm, 300, rfl⟩
abbrev main_v237 : Ref sig .tc := ⟨.hbm, 301, rfl⟩
abbrev main_v238 : Ref sig .tc := ⟨.hbm, 302, rfl⟩
abbrev main_cst_46 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S65536_S327680_d0 : Shape.Concatenates [S262144, S65536] S327680 0
  slices_S2x262144_S1x262144_1_0 : S2x262144.Slices ![1, 0] S1x262144
  bcast_S_S65536 : S_.BroadcastsInDim S65536 (![] : Fin 0 → Fin S65536.rank)
  transposes_S256x256_S256x256_1_0 : S256x256.Transposes [1, 0] S256x256
  bcast_S327680_S327680x1_0 : S327680.BroadcastsInDim S327680x1 (![0] : Fin 1 → Fin S327680x1.rank)
  bcast_S_S327680 : S_.BroadcastsInDim S327680 (![] : Fin 0 → Fin S327680.rank)
  bcast_S327680x1_S327680x256_0_1 : S327680x1.BroadcastsInDim S327680x256 (![0, 1] : Fin 2 → Fin S327680x256.rank)
  bcast_S_S65536x256 : S_.BroadcastsInDim S65536x256 (![] : Fin 0 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  shapeCasts_S65536x256_S128x512x256 : S65536x256.ShapeCasts S128x512x256
  bcast_S128x512x1_S128x512x256_0_1_2 : S128x512x1.BroadcastsInDim S128x512x256 (![0, 1, 2] : Fin 3 → Fin S128x512x256.rank)
  dot_S65536x256_S256x256_S65536x256_1_0_0_1_n_n_wf : DotDims.WF S65536x256 S256x256 S65536x256 [1] [0] [0] [1] [] []
  scatter_S65536_S327680x1_S327680_n_0_0_1_wf : ScatterDims.WF S65536 S327680x1 S327680 [] [0] [0] 1
  gather_S65536_S327680x1_S327680_n_0_n_n_0_1_1_wf : GatherDims.WF S65536 S327680x1 S327680 [] [0] [] [0] [] 1 ![1]
  gather_S65536x256_S327680x1_S327680x256_1_0_n_n_0_1_1256_wf : GatherDims.WF S65536x256 S327680x1 S327680x256 [1] [0] [] [0] [] 1 ![1, 256]
  scatter_S65536x256_S327680x1_S327680x256_1_0_0_1_wf : ScatterDims.WF S65536x256 S327680x1 S327680x256 [1] [0] [0] 1
  dot_S65536x256_S256x1024_S65536x1024_1_0_0_1_n_n_wf : DotDims.WF S65536x256 S256x1024 S65536x1024 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def scatter_S65536_S327680x1_S327680_n_0_0_1 : ScatterDims S65536 S327680x1 S327680 where
  updateWindowDims := []
  insertedWindowDims := [0]
  scatterDimsToOperandDims := [0]
  indexVectorDim := 1
  wf := scatter_S65536_S327680x1_S327680_n_0_0_1_wf
def gather_S65536_S327680x1_S327680_n_0_n_n_0_1_1 : GatherDims S65536 S327680x1 S327680 where
  offsetDims := []
  collapsedSliceDims := [0]
  operandBatchingDims := []
  startIndicesBatchingDims := []
  startIndexMap := [0]
  indexVectorDim := 1
  sliceSizes := ![1]
  wf := gather_S65536_S327680x1_S327680_n_0_n_n_0_1_1_wf
def gather_S65536x256_S327680x1_S327680x256_1_0_n_n_0_1_1256 : GatherDims S65536x256 S327680x1 S327680x256 where
  offsetDims := [1]
  collapsedSliceDims := [0]
  operandBatchingDims := []
  startIndicesBatchingDims := []
  startIndexMap := [0]
  indexVectorDim := 1
  sliceSizes := ![1, 256]
  wf := gather_S65536x256_S327680x1_S327680x256_1_0_n_n_0_1_1256_wf
def scatter_S65536x256_S327680x1_S327680x256_1_0_0_1 : ScatterDims S65536x256 S327680x1 S327680x256 where
  updateWindowDims := [1]
  insertedWindowDims := [0]
  scatterDimsToOperandDims := [0]
  indexVectorDim := 1
  wf := scatter_S65536x256_S327680x1_S327680x256_1_0_0_1_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.KRun.lean ====
/-
  The kernel program's run with its result named: every weakly fair execution of @main terminates, nothing faulting,
  with the result buffer holding what the last boundary of the segment fold holds there (`Gen.W10 … main_v82`) and the
  argument arrays as launched. The run is the generated frame's: the same launch over the same ten segments; only the
  last step reads one more buffer of the final thread state, the result's.
-/
import proofs.«156547_j23003844837986_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.KV

end
-- ==== Proof.Spec.lean ====
/-
  The mathematics both programs compute, as functions of whole arrays over the extended reals.

  * `mm x wt`: the matrix product of the rows of `x` with a weight matrix given transposed, `wt (k, j)`.
  * `lstm x0 x1 wih whh b mask`: two steps of an LSTM cell from the zero state, row by row. Row `p` of the result
    depends only on row `p` of `x0` (the first step's input) and `x1` (the second step's), on the weights
    (given transposed: `wih (k, g)`, `whh (k, g)`, 1024 gate columns in the order input, forget, cell, output),
    on the bias `b g`, and on the row's mask value, which multiplies the last hidden state.
    The first step starts from `h = c = 0`, so its recurrent product and its forget gate drop out:
    `c₁ = σ(i₁)·tanh(g₁)`, `h₁ = σ(o₁)·tanh(c₁)`; the second step is the full cell.
-/
import Idealize.ShloMosaic.PureOps.Ideal
import Idealize.ShloMosaic.Lib.ValueIdx

noncomputable section

open scoped BigOperators
open Idealize.ShloMosaic Idealize.ShloMosaic.ValueIdx

namespace Cert.Spec

/-- An `n × m` array of extended reals. -/
abbrev Mat (n m : Nat) : Type := (⟨2, ![n, m]⟩ : Shape).Idx → EReal

/-- Entry `(p, j)` of `x · wt`: the sum over `k` of `x (p, k) · wt (k, j)`. -/
def mmAt {n : Nat} (x : Mat n 256) (wt : Mat 256 256) (p : Fin n) (j : Fin 256) : EReal :=
  ∑ k : Fin 256, x (ix2 p k) * wt (ix2 k j)

/-- The product `x · wt` as an array. -/
def mm {n : Nat} (x : Mat n 256) (wt : Mat 256 256) : Mat n 256 := fun i => mmAt x wt (i 0) (i 1)

/-- The gate column `j + off` among the 1024 (`off` = 0, 256, 512, 768 for input, forget, cell, output). -/
abbrev gate (off : Nat) (h : off + 256 ≤ 1024) (j : Fin 256) : Fin 1024 := ⟨j.val + off, by have := j.isLt; omega⟩

/-- Step one's pre-activation of gate column `g` for a row `x0`: `∑ₖ x0 k · wih (k, g) + b g`. -/
def z1 (x0 : Fin 256 → EReal) (wih : Mat 256 1024) (b : Fin 1024 → EReal) (g : Fin 1024) : EReal :=
  (∑ k : Fin 256, x0 k * wih (ix2 k g)) + b g

/-- Step one's cell state from the zero state: `σ(i)·tanh(g)`. -/
def c1 (x0 : Fin 256 → EReal) (wih : Mat 256 1024) (b : Fin 1024 → EReal) (j : Fin 256) : EReal :=
  Ideal.logistic (z1 x0 wih b (gate 0 (by omega) j)) * Ideal.tanh (z1 x0 wih b (gate 512 (by omega) j))

/-- Step one's hidden state: `σ(o)·tanh(c₁)`. -/
def h1 (x0 : Fin 256 → EReal) (wih : Mat 256 1024) (b : Fin 1024 → EReal) (j : Fin 256) : EReal :=
  Ideal.logistic (z1 x0 wih b (gate 768 (by omega) j)) * Ideal.tanh (c1 x0 wih b j)

/-- Step two's pre-activation: `(∑ₖ x1 k · wih (k, g) + ∑ₖ h₁ k · whh (k, g)) + b g`. -/
def z2 (x0 x1 : Fin 256 → EReal) (wih whh : Mat 256 1024) (b : Fin 1024 → EReal) (g : Fin 1024) : EReal :=
  ((∑ k : Fin 256, x1 k * wih (ix2 k g)) + (∑ k : Fin 256, h1 x0 wih b k * whh (ix2 k g))) + b g

/-- Step two's cell state: `σ(f)·c₁ + σ(i)·tanh(g)`. -/
def c2 (x0 x1 : Fin 256 → EReal) (wih whh : Mat 256 1024) (b : Fin 1024 → EReal) (j : Fin 256) : EReal :=
  Ideal.logistic (z2 x0 x1 wih whh b (gate 256 (by omega) j)) * c1 x0 wih b j
    + Ideal.logistic (z2 x0 x1 wih whh b (gate 0 (by omega) j)) * Ideal.tanh (z2 x0 x1 wih whh b (gate 512 (by omega) j))

/-- Step two's hidden state, the cell's output for the row: `σ(o)·tanh(c₂)`. -/
def h2 (x0 x1 : Fin 256 → EReal) (wih whh : Mat 256 1024) (b : Fin 1024 → EReal) (j : Fin 256) : EReal :=
  Ideal.logistic (z2 x0 x1 wih whh b (gate 768 (by omega) j)) * Ideal.tanh (c2 x0 x1 wih whh b j)

/-- Row `p` of an `n × 256` array. -/
abbrev row {n : Nat} (x : Mat n 256) (p : Fin n) : Fin 256 → EReal := fun k => x (ix2 p k)

/-- Entry `(p, j)` of the two-step LSTM: the row's last hidden state times the row's mask value. -/
def lstmAt {n : Nat} (x0 x1 : Mat n 256) (wih whh : Mat 256 1024) (b : Fin 1024 → EReal) (mask : Fin n → EReal)
    (p : Fin n) (j : Fin 256) : EReal :=
  h2 (row x0 p) (row x1 p) wih whh b j * mask p

/-- The two-step LSTM over all rows, as an array. -/
def lstm {n : Nat} (x0 x1 : Mat n 256) (wih whh : Mat 256 1024) (b : Fin 1024 → EReal) (mask : Fin n → EReal) :
    Mat n 256 := fun i => lstmAt x0 x1 wih whh b mask (i 0) (i 1)

/-- An entry of `mm` depends only on the entry's row of `x`. -/
theorem mmAt_congr {n n' : Nat} (x : Mat n 256) (x' : Mat n' 256) (wt : Mat 256 256) (p : Fin n) (p' : Fin n')
    (hx : ∀ k, x (ix2 p k) = x' (ix2 p' k)) (j : Fin 256) : mmAt x wt p j = mmAt x' wt p' j := by
  unfold mmAt; exact Finset.sum_congr rfl fun k _ => by rw [hx k]

/-- An entry of `lstm` depends only on the entry's rows of `x0`, `x1` and on the row's mask value. -/
theorem lstmAt_congr {n n' : Nat} (x0 x1 : Mat n 256) (x0' x1' : Mat n' 256) (wih whh : Mat 256 1024)
    (b : Fin 1024 → EReal) (mask : Fin n → EReal) (mask' : Fin n' → EReal) (p : Fin n) (p' : Fin n')
    (h0 : ∀ k, x0 (ix2 p k) = x0' (ix2 p' k)) (h1 : ∀ k, x1 (ix2 p k) = x1' (ix2 p' k)) (hm : mask p = mask' p')
    (j : Fin 256) : lstmAt x0 x1 wih whh b mask p j = lstmAt x0' x1' wih whh b mask' p' j := by
  unfold lstmAt
  rw [show row x0 p = row x0' p' from funext h0, show row x1 p = row x1' p' from funext h1, hm]

end Cert.Spec

end
-- ==== Proof.KDefs.lean ====
/-
  The kernel program's value, named piece by piece: what its host operations compute from the argument arrays around the
  four kernel launches, with each launch's result written as the specification's function of its operands
  (`Cert.Spec.mm` for the two dense projections, `Cert.Spec.lstm` for the two fused two-step cells).

  Edges: the edge list gets one self loop per node, so sources, targets and weights are the given 262144 entries
  followed by 65536 entries `0 … 65535` (weights `1`). The degree of a node is the sum of the weights of the edges that
  end there, `dinv = 1/√deg` where the degree is positive and `0` elsewhere, and an edge's normalisation is
  `dinv[src] · w · dinv[dst]`. A graph layer gathers the projected rows at the sources, scales each by its edge's
  normalisation, adds them up at the targets and adds the bias row.
-/
import proofs.«156547_j23003844837986_1_alg».proof.Proof.Gen.KernelIdeal
import proofs.«156547_j23003844837986_1_alg».proof.Proof.Spec

noncomputable section

namespace Cert.KernelIdeal.KV

open Cert.KernelIdeal Cert.KernelIdeal.Gen Idealize.ShloMosaic Idealize.ShloMosaic.ValueIdx

/-- Contents of a float buffer of shape `s` at the extended reals. -/
abbrev FA (s : Shape) : Type := FVec Ideal s .f32
/-- Contents of a 32-bit integer buffer of shape `s`. -/
abbrev IA (s : Shape) : Type := IVec s 32
/-- Contents of a bf16 buffer of shape `s` (at the extended reals the format is immaterial). -/
abbrev BA (s : Shape) : Type := FVec Ideal s .bf16

/-- Row `r` of the edge index (0: sources, 1: targets) followed by the self loops `0 … 65535`. -/
def kSrc (x1 : IA S2x262144) : IA S327680 :=
  concatenate S327680 0 [⟨S262144, (shapeCast _ (extractStridedSlice S1x262144 ![0, 0] x1 slices_S2x262144_S1x262144_0_0) shapeCasts_S1x262144_S262144)⟩, ⟨S65536, (iotaInDim S65536 32 0)⟩] concatenates_S262144_S65536_S327680_d0
def kDst (x1 : IA S2x262144) : IA S327680 :=
  concatenate S327680 0 [⟨S262144, (shapeCast _ (extractStridedSlice S1x262144 ![1, 0] x1 slices_S2x262144_S1x262144_1_0) shapeCasts_S1x262144_S262144)⟩, ⟨S65536, (iotaInDim S65536 32 0)⟩] concatenates_S262144_S65536_S327680_d0
/-- The edge weights followed by a weight `1` per self loop. -/
def kEw (x2 : FA S262144) : FA S327680 :=
  concatenate S327680 0 [⟨S262144, x2⟩, ⟨S65536, (broadcastInDim S65536 ![] bcast_S_S65536 (constant (F := Ideal) S_ .f32 0x3F800000#32))⟩] concatenates_S262144_S65536_S327680_d0
/-- A node's degree: the weights of the edges ending at it, summed. -/
def kDeg (x1 : IA S2x262144) (x2 : FA S262144) : FA S65536 :=
  Host.scatterAdd scatter_S65536_S327680x1_S327680_n_0_0_1 (broadcastInDim S65536 ![] bcast_S_S65536 (constant (F := Ideal) S_ .f32 0x00000000#32)) (broadcastInDim S327680x1 ![0] bcast_S327680_S327680x1_0 (kDst x1)) (kEw x2)
/-- `1/√deg` where the degree is positive, `0` elsewhere. -/
def kDinv (x1 : IA S2x262144) (x2 : FA S262144) : FA S65536 :=
  select (cmpf .ogt (kDeg x1 x2) (broadcastInDim S65536 ![] bcast_S_S65536 (constant (F := Ideal) S_ .f32 0x00000000#32))) (Host.rsqrt (kDeg x1 x2)) (broadcastInDim S65536 ![] bcast_S_S65536 (id (constant (F := Ideal) S_ .f32 0x00000000#32)))
/-- Node ids as gather indices: a negative id wraps around by 65536, then the ids stand in a column. -/
def kWrap (v : IA S327680) : IA S327680x1 :=
  broadcastInDim S327680x1 ![0] bcast_S327680_S327680x1_0 (select (cmpi .slt v (broadcastInDim S327680 ![] bcast_S_S327680 (constantI S_ 32 0#32))) (addi v (broadcastInDim S327680 ![] bcast_S_S327680 (constantI S_ 32 65536#32))) v)
/-- An edge's normalisation `dinv[src] · w · dinv[dst]`. -/
def kNorm (x1 : IA S2x262144) (x2 : FA S262144) : FA S327680 :=
  mulf (mulf (Host.gather gather_S65536_S327680x1_S327680_n_0_n_n_0_1_1 (kDinv x1 x2) (kWrap (kSrc x1))) (kEw x2)) (Host.gather gather_S65536_S327680x1_S327680_n_0_n_n_0_1_1 (kDinv x1 x2) (kWrap (kDst x1)))
/-- One graph layer after the projection `h`: gather at the sources, scale by the normalisation, sum at the targets, add the bias row. -/
def kAgg (h : BA S65536x256) (x1 : IA S2x262144) (x2 : FA S262144) (b : FA S256) : FA S65536x256 :=
  addf (Host.scatterAdd scatter_S65536x256_S327680x1_S327680x256_1_0_0_1 (broadcastInDim S65536x256 ![] bcast_S_S65536x256 (constant (F := Ideal) S_ .f32 0x00000000#32)) (broadcastInDim S327680x1 ![0] bcast_S327680_S327680x1_0 (kDst x1)) (mulf (extf .f32 (Host.gather gather_S65536x256_S327680x1_S327680x256_1_0_n_n_0_1_1256 h (kWrap (kSrc x1))) bitsLt_bf16_f32) (broadcastInDim S327680x256 ![0, 1] bcast_S327680x1_S327680x256_0_1 (broadcastInDim S327680x1 ![0] bcast_S327680_S327680x1_0 (kNorm x1 x2))))) (broadcastInDim S65536x256 ![0, 1] bcast_S1x256_S65536x256_0_1 (broadcastInDim S1x256 ![1] bcast_S256_S1x256_1 b))

/-- A projection's weights as the launches take them: transposed. -/
def kWt (w : FA S256x256) : BA S256x256 :=
  truncf .bf16 (transpose S256x256 [1, 0] w transposes_S256x256_S256x256_1_0) bitsLt_bf16_f32
/-- The cell's weights as the launches take them: transposed to 256 × 1024. -/
def kWg (w : FA S1024x256) : BA S256x1024 :=
  truncf .bf16 (transpose S256x1024 [1, 0] w transposes_S1024x256_S256x1024_1_0) bitsLt_bf16_f32
/-- The two bias vectors added, as one row. -/
def kBias (x10 x11 : FA S1024) : FA S1x1024 := shapeCast _ (addf x10 x11) shapeCasts_S1024_S1x1024
/-- The padding mask as one column over all 65536 rows. -/
def kMask (x3 : FA S128x512x1) : FA S65536x1 := shapeCast _ x3 shapeCasts_S128x512x1_S65536x1
/-- The all-ones column the first cell is masked by. -/
def kOnes : FA S65536x1 := broadcastInDim S65536x1 ![] bcast_S_S65536x1 (constant (F := Ideal) S_ .f32 0x3F800000#32)

/-- The first projection `x · W1ᵀ`. -/
def kH1 (x0 : FA S65536x256) (x4 : FA S256x256) : FA S65536x256 := Cert.Spec.mm x0 (kWt x4)
/-- The first cell: steps `x`, then the first graph layer's output; unmasked (the mask is all ones). -/
def kS1 (x0 : FA S65536x256) (x1 : IA S2x262144) (x2 : FA S262144) (x4 : FA S256x256) (x5 : FA S256) (x8 x9 : FA S1024x256) (x10 x11 : FA S1024) : FA S65536x256 :=
  Cert.Spec.lstm x0 (kAgg (kH1 x0 x4) x1 x2 x5) (kWg x8) (kWg x9) (fun g => kBias x10 x11 (ix2 (0 : Fin 1) g)) (fun p => kOnes (ix2 p (0 : Fin 1)))
/-- The second cell: steps the first cell's output, then the second graph layer's output; masked by the padding mask. -/
def kS2 (x0 : FA S65536x256) (x1 : IA S2x262144) (x2 : FA S262144) (x3 : FA S128x512x1) (x4 : FA S256x256) (x5 : FA S256) (x6 : FA S256x256) (x7 : FA S256) (x8 x9 : FA S1024x256) (x10 x11 : FA S1024) : FA S65536x256 :=
  Cert.Spec.lstm (kS1 x0 x1 x2 x4 x5 x8 x9 x10 x11) (kAgg (Cert.Spec.mm (kS1 x0 x1 x2 x4 x5 x8 x9 x10 x11) (kWt x6)) x1 x2 x7) (kWg x8) (kWg x9) (fun g => kBias x10 x11 (ix2 (0 : Fin 1) g)) (fun p => kMask x3 (ix2 p (0 : Fin 1)))
/-- The program's result: the second cell's output as 128 sequences of 512 rows. -/
def kOut (x0 : FA S65536x256) (x1 : IA S2x262144) (x2 : FA S262144) (x3 : FA S128x512x1) (x4 : FA S256x256) (x5 : FA S256) (x6 : FA S256x256) (x7 : FA S256) (x8 x9 : FA S1024x256) (x10 x11 : FA S1024) : FA S128x512x256 :=
  shapeCast _ (kS2 x0 x1 x2 x3 x4 x5 x6 x7 x8 x9 x10 x11) shapeCasts_S65536x256_S128x512x256

end Cert.KernelIdeal.KV

end
-- ==== Proof.KMatmul.lean ====
/-
  The two projection launches. Each runs over 16 grid points; point `t` reads rows `4096·t … 4096·t + 4095` of a
  65536 × 256 operand and the whole 256 × 256 weight (given transposed), multiplies them with a zero accumulator, and
  writes the product back as rows `4096·t …` of the result. Over the extended reals the roundings are the identity, so
  the block written at `t` is block `t` of `x · wt` of the whole arrays (an entry of the product depends only on its own
  row of `x`), and the 16 blocks tile the result: after the launch the result array holds `x · wt`.
-/
import proofs.«156547_j23003844837986_1_alg».proof.Proof.Gen.KernelIdeal.Frame
import proofs.«156547_j23003844837986_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

namespace Matmul

/-! ## The body's product: a 4096 × 256 block times the 256 × 256 weight -/

/-- The contraction's dimension record: axis 1 of the left operand against axis 0 of the right, no batch axis. -/
abbrev D0 := dot_S4096x256_S256x256_S4096x256_1_0_0_1_n_n

/-- At output index `(p, j)` and contraction index `k` the left operand is read at `(p, k)` … -/
theorem lhs0 (i : S4096x256.Idx) (q : D0.contr.Idx) : (D0.lhsIdx i q 0).val = (i 0).val := by
  unfold DotDims.lhsIdx
  rw [dif_neg (show ¬(0 : Fin S4096x256.rank) ∈ D0.lhsBatch by decide), dif_pos (show (0 : Fin S4096x256.rank) ∈ D0.lhsNonContracting by decide)]
  rfl
theorem lhs1 (i : S4096x256.Idx) (q : D0.contr.Idx) : (D0.lhsIdx i q 1).val = (q ⟨0, by decide⟩).val :=
  D0.lhsIdx_val_of_single rfl i q
/-- … and the right operand at `(k, j)`. -/
theorem rhs0 (i : S4096x256.Idx) (q : D0.contr.Idx) : (D0.rhsIdx i q 0).val = (q ⟨0, by decide⟩).val :=
  D0.rhsIdx_val_of_single rfl i q
theorem rhs1 (i : S4096x256.Idx) (q : D0.contr.Idx) : (D0.rhsIdx i q 1).val = (i 1).val := by
  unfold DotDims.rhsIdx
  rw [dif_neg (show ¬(1 : Fin S256x256.rank) ∈ D0.rhsBatch by decide), dif_pos (show (1 : Fin S256x256.rank) ∈ D0.rhsNonContracting by decide)]
  rfl

/-- The product with a zero accumulator, read at an entry, is the sum over the 256 contraction indices. -/
theorem mm_apply (x : FVec Ideal S4096x256 .bf16) (w : FVec Ideal S256x256 .bf16) (i : S4096x256.Idx) :
    FloatOps.matmul D0 none x w (constant S4096x256 .f32 0x00000000#32) i = Cert.Spec.mmAt x w (i 0) (i 1) := by
  rw [Ideal.matmul_constant_zero_apply, ← Equiv.sum_comp (contrEquiv1 D0 256 rfl rfl).symm]
  unfold Cert.Spec.mmAt
  refine Finset.sum_congr rfl fun k _ => ?_
  have hk := contrEquiv1_symm_val D0 256 rfl rfl k
  have el : D0.lhsIdx i ((contrEquiv1 D0 256 rfl rfl).symm k) = ix2 (i 0) k := funext fun a => Fin.ext (by
    match a with
    | ⟨0, _⟩ => exact lhs0 _ _
    | ⟨1, _⟩ => exact (lhs1 _ _).trans hk)
  have er : D0.rhsIdx i ((contrEquiv1 D0 256 rfl rfl).symm k) = ix2 k (i 1) := funext fun a => Fin.ext (by
    match a with
    | ⟨0, _⟩ => exact (rhs0 _ _).trans hk
    | ⟨1, _⟩ => exact rhs1 _ _)
  rw [el, er]
  rfl

/-- The first launch's body: both roundings and the reshape to the same shape are the identity, what is left is the product. -/
theorem pay_mm0 (v0 : Vec Ideal S4096x256 .f32) (v2 : Vec Ideal S256x256 .bf16) :
    k0_pay1 (F := Ideal) v0 v2 = Cert.Spec.mm v0 v2 := by
  funext i
  unfold k0_pay1
  simp only [truncf_apply]
  rw [shapeCast_self]
  exact mm_apply _ _ i

/-- The second launch's body: the same, with one more reshape to the same shape. -/
theorem pay_mm2 (v0 : Vec Ideal S4096x256 .f32) (v2 : Vec Ideal S256x256 .bf16) :
    k2_pay1 (F := Ideal) v0 v2 = Cert.Spec.mm v0 v2 := by
  funext i
  unfold k2_pay1
  simp only [truncf_apply]
  rw [shapeCast_self, shapeCast_self]
  exact mm_apply _ _ i

/-- The two stores' and loads' offsets are zero on both axes. -/
theorem zeroOffsets : (![0, 0] : Fin 2 → Nat) = fun _ => 0 := funext fun a => by fin_cases a <;> rfl

/-- An entry of a product depends only on its row of the left operand and its column of the right one. -/
theorem mmAt_block {n n' : Nat} (x : Cert.Spec.Mat n 256) (X : Cert.Spec.Mat n' 256) (w W : Cert.Spec.Mat 256 256)
    (p : Fin n) (P : Fin n') (j j' : Fin 256)
    (hx : ∀ k, x (ix2 p k) = X (ix2 P k)) (hw : ∀ k, w (ix2 k j) = W (ix2 k j')) :
    Cert.Spec.mmAt x w p j = Cert.Spec.mmAt X W P j' := by
  unfold Cert.Spec.mmAt; exact Finset.sum_congr rfl fun k _ => by rw [hx k, hw k]

/-! ## Projection launch one: the blocks and the array -/

/-- The block indices over the grid: the operand's row block moves with the result's, neither moves along the columns,
    and the weight's one block stays at the origin. -/
theorem blockIndex0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- What grid point `t` writes back is block `t` of `x · wt` of the two operand arrays: entry `(p, j)` of the block is
    the product's entry at row `4096 · (block index) + p`, which reads that same row of the operand — the row `p` of
    the operand's block at `t` — and column `j` of the whole weight. -/
theorem flushed0_eq (c : Dev nD) (t : Fin cfg0.N) :
    (dat0 (F := Ideal) V c).flushed 2 t
      = ((cfg0.win 2).blk t).view.read (Elt Ideal) (Cert.Spec.mm (V c main_arg0) (V c main_v33)) := by
  show (cfg0.win 2).cut (grid0.coords t) ((dat0 V c).after 2 t) = _
  rw [after0_2]
  unfold out0_2
  rw [View.canon_unit_zero zeroOffsets]
  simp only [View.ld_unit_zero (S := S4096x256) zeroOffsets, View.ld_unit_zero (S := S256x256) zeroOffsets]
  rw [pay_mm0]
  obtain ⟨e0, e1, e2, e3, e4⟩ := blockIndex0 t
  funext j
  show Cert.Spec.mmAt (iblk0 V c 0 t) (iblk0 V c 1 t) (j 0) (j 1)
    = Cert.Spec.mmAt (V c main_arg0) (V c main_v33) ((((cfg0.win 2).blk t).view.emb j) 0) ((((cfg0.win 2).blk t).view.emb j) 1)
  refine mmAt_block _ _ _ _ _ _ _ _ (fun k => ?_) (fun k => ?_)
  · -- the operand's block: row `index · 4096 + p`, column `k`
    show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 256 + 1 * k.val = k.val; omega
  · -- the weight's block is the whole weight: row `k`, column `j`
    show V c main_v33 (((cfg0.win 1).blk t).view.emb (ix2 k (j 1)))
      = V c main_v33 (ix2 k ((((cfg0.win 2).blk t).view.emb j) 1))
    refine congrArg (V c main_v33) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the result array is in point `t`'s block iff each coordinate is in the block's range on its axis. -/
theorem mem_block0 (t : Fin cfg0.N) (i : S65536x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v44).slice (win0_2.rect t)).set ↔ _
  rw [View.set_slice_whole, Rect.mem_set_unit]
  exact Iff.rfl

/-- Every one of the 16 row blocks is some grid point's. -/
theorem block_onto0 : ∀ q : Fin 16, ∃ t : Fin cfg0.N, win0_2.index t = ![q.val, 0] :=
  (by decide +kernel : ∀ q : Fin 16, ∃ t : Fin grid0.N, win0_2.index t = ![q.val, 0])

/-- The 16 blocks of 4096 rows tile the 65536 rows: row `r` lies in block `r / 4096`. -/
theorem cover0 (i : S65536x256.Idx) :
    ∃ t : Fin cfg0.N, (cfg0.win 2).flush t = true ∧ i ∈ ((cfg0.win 2).blk t).view.set := by
  have hi0 : (i 0).val < 65536 := (i 0).isLt
  have hi1 : (i 1).val < 256 := (i 1).isLt
  obtain ⟨t, ht⟩ := block_onto0 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

end Matmul

/-- After the first projection's launch its result array holds `x · wt` of the two operand arrays as the launch found them. -/
theorem mm0_final (c : Dev nD) :
    (dat0 (F := Ideal) V c).arrAt 2 cfg0.N = Cert.Spec.mm (V c main_arg0) (V c main_v33) :=
  (dat0 (F := Ideal) V c).arrAt_eq_of_cover 2 (Cert.Spec.mm (V c main_arg0) (V c main_v33))
    (fun t _ => Matmul.flushed0_eq V c t) Matmul.cover0

namespace Matmul

/-! ## Projection launch two: the blocks and the array -/

/-- The block indices over the grid: the operand's row block moves with the result's, neither moves along the columns,
    and the weight's one block stays at the origin. -/
theorem blockIndex2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0 :=
  (by decide +kernel : ∀ t : Fin grid2.N, _)

/-- What grid point `t` writes back is block `t` of `x · wt` of the two operand arrays: entry `(p, j)` of the block is
    the product's entry at row `4096 · (block index) + p`, which reads that same row of the operand — the row `p` of
    the operand's block at `t` — and column `j` of the whole weight. -/
theorem flushed2_eq (c : Dev nD) (t : Fin cfg2.N) :
    (dat2 (F := Ideal) V c).flushed 2 t
      = ((cfg2.win 2).blk t).view.read (Elt Ideal) (Cert.Spec.mm (V c main_v62) (V c main_v35)) := by
  show (cfg2.win 2).cut (grid2.coords t) ((dat2 V c).after 2 t) = _
  rw [after2_2]
  unfold out2_2
  rw [View.canon_unit_zero zeroOffsets]
  simp only [View.ld_unit_zero (S := S4096x256) zeroOffsets, View.ld_unit_zero (S := S256x256) zeroOffsets]
  rw [pay_mm2]
  obtain ⟨e0, e1, e2, e3, e4⟩ := blockIndex2 t
  funext j
  show Cert.Spec.mmAt (iblk2 V c 0 t) (iblk2 V c 1 t) (j 0) (j 1)
    = Cert.Spec.mmAt (V c main_v62) (V c main_v35) ((((cfg2.win 2).blk t).view.emb j) 0) ((((cfg2.win 2).blk t).view.emb j) 1)
  refine mmAt_block _ _ _ _ _ _ _ _ (fun k => ?_) (fun k => ?_)
  · -- the operand's block: row `index · 4096 + p`, column `k`
    show V c main_v62 (((cfg2.win 0).blk t).view.emb (ix2 (j 0) k))
      = V c main_v62 (ix2 ((((cfg2.win 2).blk t).view.emb j) 0) k)
    refine congrArg (V c main_v62) (funext fun a => Fin.ext ?_)
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 256 + 1 * k.val = k.val; omega
  · -- the weight's block is the whole weight: row `k`, column `j`
    show V c main_v35 (((cfg2.win 1).blk t).view.emb (ix2 k (j 1)))
      = V c main_v35 (ix2 k ((((cfg2.win 2).blk t).view.emb j) 1))
    refine congrArg (V c main_v35) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An index of the result array is in point `t`'s block iff each coordinate is in the block's range on its axis. -/
theorem mem_block2 (t : Fin cfg2.N) (i : S65536x256.Idx) :
    i ∈ ((cfg2.win 2).blk t).view.set ↔ ∀ a : Fin 2, win2_2.index t a * S4096x256.size a ≤ (i a).val
      ∧ (i a).val < win2_2.index t a * S4096x256.size a + S4096x256.size a := by
  show i ∈ ((View.whole main_v63).slice (win2_2.rect t)).set ↔ _
  rw [View.set_slice_whole, Rect.mem_set_unit]
  exact Iff.rfl

/-- Every one of the 16 row blocks is some grid point's. -/
theorem block_onto2 : ∀ q : Fin 16, ∃ t : Fin cfg2.N, win2_2.index t = ![q.val, 0] :=
  (by decide +kernel : ∀ q : Fin 16, ∃ t : Fin grid2.N, win2_2.index t = ![q.val, 0])

/-- The 16 blocks of 4096 rows tile the 65536 rows: row `r` lies in block `r / 4096`. -/
theorem cover2 (i : S65536x256.Idx) :
    ∃ t : Fin cfg2.N, (cfg2.win 2).flush t = true ∧ i ∈ ((cfg2.win 2).blk t).view.set := by
  have hi0 : (i 0).val < 65536 := (i 0).isLt
  have hi1 : (i 1).val < 256 := (i 1).isLt
  obtain ⟨t, ht⟩ := block_onto2 ⟨(i 0).val / 4096, by omega⟩
  have q0 : win2_2.index t (0 : Fin 2) = (i 0).val / 4096 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 256 ≤ (i 1).val ∧ (i 1).val < win2_2.index t (1 : Fin 2) * 256 + 256; omega

end Matmul

/-- After the second projection's launch likewise. -/
theorem mm2_final (c : Dev nD) :
    (dat2 (F := Ideal) V c).arrAt 2 cfg2.N = Cert.Spec.mm (V c main_v62) (V c main_v35) :=
  (dat2 (F := Ideal) V c).arrAt_eq_of_cover 2 (Cert.Spec.mm (V c main_v62) (V c main_v35))
    (fun t _ => Matmul.flushed2_eq V c t) Matmul.cover2

end Cert.KernelIdeal.KV

end
-- ==== Proof.KLstmPayload.lean ====
/-
  The LSTM cell's stored value, read entry by entry.

  The cell computes, over whole 512-row blocks: the 1024 gate pre-activations of step one (`x0 · w` plus the bias row),
  the gates as 256-column slices at column offsets 0 (input), 256 (forget), 512 (cell), 768 (output), step one's cell and
  hidden state from the zero state, step two's pre-activations (`x1 · w + h₁ · u` plus the bias row), step two's cell and
  hidden state, and last the product with the mask column broadcast along each row. Entry (p, j) of every one of these
  arrays depends only on row p of the inputs, and is the specification's formula for that row: a matrix product at
  (p, g) is the sum over the contracted axis, a slice at (p, j) reads column j + offset, the bias row read at (p, g) is
  its entry g, the mask column read at (p, j) is its entry p, and the pointwise operations act entry by entry.
-/
import proofs.«156547_j23003844837986_1_alg».proof.Proof.Gen.KernelIdeal.Frame
import proofs.«156547_j23003844837986_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! The operations at an entry. -/

/-- A matrix product into the zero accumulator, at entry (p, g): the sum over the contracted axis. -/
theorem mm_at (lhs : FVec Ideal S512x256 .bf16) (rhs : FVec Ideal S256x1024 .bf16) (p : Fin 512) (g : Fin 1024) :
    matmul dot_S512x256_S256x1024_S512x1024_1_0_0_1_n_n none lhs rhs (constant S512x1024 .f32 0x00000000#32) (ix2 p g)
      = ∑ k : Fin 256, lhs (ix2 p k) * rhs (ix2 k g) := by
  refine (Ideal.matmul_constant_zero_apply dot_S512x256_S256x1024_S512x1024_1_0_0_1_n_n none lhs rhs (ix2 p g)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p g) ((contrEquiv1 dot_S512x256_S256x1024_S512x1024_1_0_0_1_n_n 256 rfl rfl).symm k) = ix2 p k :=
    funext fun a => Fin.ext (by
      match a with
      | ⟨0, _⟩ =>
        show (dot_S512x256_S256x1024_S512x1024_1_0_0_1_n_n.lhsIdx (ix2 p g) _ 0).val = p.val
        unfold DotDims.lhsIdx
        rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
        rfl
      | ⟨1, _⟩ => exact (dot_S512x256_S256x1024_S512x1024_1_0_0_1_n_n.lhsIdx_val_of_single rfl (ix2 p g) _).trans hk)
  have er : dot_S512x256_S256x1024_S512x1024_1_0_0_1_n_n.rhsIdx (ix2 p g) ((contrEquiv1 dot_S512x256_S256x1024_S512x1024_1_0_0_1_n_n 256 rfl rfl).symm k) = ix2 k g :=
    funext fun a => Fin.ext (by
      match a with
      | ⟨0, _⟩ => exact (dot_S512x256_S256x1024_S512x1024_1_0_0_1_n_n.rhsIdx_val_of_single rfl (ix2 p g) _).trans hk
      | ⟨1, _⟩ =>
        show (dot_S512x256_S256x1024_S512x1024_1_0_0_1_n_n.rhsIdx (ix2 p g) _ 1).val = g.val
        unfold DotDims.rhsIdx
        rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
        rfl)
  rw [el, er]

/-- A 256-column slice of a 512 × 1024 array taken at column offset `off`, at entry (p, j): the array at (p, j + off). -/
theorem slice_at (off : Nat) (hoff : off + 256 ≤ 1024) (v : FVec Ideal S512x1024 .f32) (h : S512x1024.Slices ![0, off] S512x256)
    (p : Fin 512) (j : Fin 256) :
    extractStridedSlice S512x256 ![0, off] v h (ix2 p j) = v (ix2 p (⟨j.val + off, by have := j.isLt; omega⟩ : Fin 1024)) := by
  refine extractStridedSlice_apply ![0, off] v h (ix2 p j) (ix2 p (⟨j.val + off, by have := j.isLt; omega⟩ : Fin 1024)) fun a => ?_
  match a with
  | ⟨0, _⟩ => exact (Nat.zero_add _).symm
  | ⟨1, _⟩ => exact Nat.add_comm _ _

/-- The bias row broadcast down the 512 rows, at entry (p, g): the row's entry g. -/
theorem bcast_row_at (v : FVec Ideal S1x1024 .f32) (p : Fin 512) (g : Fin 1024) :
    broadcastTo S512x1024 v broadcasts_S1x1024_S512x1024 (ix2 p g) = v (ix2 (0 : Fin 1) g) := by
  refine broadcastTo_apply v broadcasts_S1x1024_S512x1024 (ix2 p g) (ix2 (0 : Fin 1) g) fun a => ?_
  match a with
  | ⟨0, _⟩ => rfl
  | ⟨1, _⟩ => rfl

/-- The mask column broadcast along the 256 columns, at entry (p, j): the column's entry p. -/
theorem bcast_col_at (v : FVec Ideal S512x1 .f32) (p : Fin 512) (j : Fin 256) :
    broadcastTo S512x256 v broadcasts_S512x1_S512x256 (ix2 p j) = v (ix2 p (0 : Fin 1)) := by
  refine broadcastTo_apply v broadcasts_S512x1_S512x256 (ix2 p j) (ix2 p (0 : Fin 1)) fun a => ?_
  match a with
  | ⟨0, _⟩ => rfl
  | ⟨1, _⟩ => rfl

/-! The cell's intermediate arrays, as functions of the two input blocks, the two weight blocks and the bias row. -/

section Cell
variable (x0 x1 : FVec Ideal S512x256 .f32) (w u : FVec Ideal S256x1024 .bf16) (bb : FVec Ideal S1x1024 .f32)

/-- Step one's pre-activations, all 1024 gate columns: `x0 · w` plus the bias row on every row. -/
def kz1 : FVec Ideal S512x1024 .f32 :=
  addf (matmul dot_S512x256_S256x1024_S512x1024_1_0_0_1_n_n none (truncf .bf16 x0 bitsLt_bf16_f32) w (constant S512x1024 .f32 0x00000000#32))
    (broadcastTo S512x1024 bb broadcasts_S1x1024_S512x1024)

/-- Step one's cell state from the zero state: `σ(i₁)·tanh(g₁)`. -/
def kc1 : FVec Ideal S512x256 .f32 :=
  mulf (logistic (extractStridedSlice S512x256 ![0, 0] (kz1 x0 w bb) slices_S512x1024_o0_0_S512x256))
    (tanh (extractStridedSlice S512x256 ![0, 512] (kz1 x0 w bb) slices_S512x1024_o0_512_S512x256))

/-- Step one's hidden state: `σ(o₁)·tanh(c₁)`. -/
def kh1 : FVec Ideal S512x256 .f32 :=
  mulf (logistic (extractStridedSlice S512x256 ![0, 768] (kz1 x0 w bb) slices_S512x1024_o0_768_S512x256)) (tanh (kc1 x0 w bb))

/-- Step two's pre-activations: `(x1 · w + h₁ · u)` plus the bias row on every row. -/
def kz2 : FVec Ideal S512x1024 .f32 :=
  addf (addf (matmul dot_S512x256_S256x1024_S512x1024_1_0_0_1_n_n none (truncf .bf16 x1 bitsLt_bf16_f32) w (constant S512x1024 .f32 0x00000000#32))
      (matmul dot_S512x256_S256x1024_S512x1024_1_0_0_1_n_n none (truncf .bf16 (kh1 x0 w bb) bitsLt_bf16_f32) u (constant S512x1024 .f32 0x00000000#32)))
    (broadcastTo S512x1024 bb broadcasts_S1x1024_S512x1024)

/-- Step two's cell state: `σ(f₂)·c₁ + σ(i₂)·tanh(g₂)`. -/
def kc2 : FVec Ideal S512x256 .f32 :=
  addf (mulf (logistic (extractStridedSlice S512x256 ![0, 256] (kz2 x0 x1 w u bb) slices_S512x1024_o0_256_S512x256)) (kc1 x0 w bb))
    (mulf (logistic (extractStridedSlice S512x256 ![0, 0] (kz2 x0 x1 w u bb) slices_S512x1024_o0_0_S512x256))
      (tanh (extractStridedSlice S512x256 ![0, 512] (kz2 x0 x1 w u bb) slices_S512x1024_o0_512_S512x256)))

/-- Step two's hidden state: `σ(o₂)·tanh(c₂)`. -/
def kh2 : FVec Ideal S512x256 .f32 :=
  mulf (logistic (extractStridedSlice S512x256 ![0, 768] (kz2 x0 x1 w u bb) slices_S512x1024_o0_768_S512x256)) (tanh (kc2 x0 x1 w u bb))

end Cell

/-- The first cell's payload is step two's hidden state of its (identically cast) operands. -/
theorem k1_pay2_eq (v0 v2 : Vec Ideal S512x256 .f32) (v5 v7 : Vec Ideal S256x1024 .bf16) (v9 : Vec Ideal S1x1024 .f32) :
    k1_pay2 (F := Ideal) v0 v2 v5 v7 v9
      = kh2 v0 (shapeCast S512x256 v2 shapeCasts_S512x256_S512x256) (shapeCast S256x1024 v5 shapeCasts_S256x1024_S256x1024)
          (shapeCast S256x1024 v7 shapeCasts_S256x1024_S256x1024) (shapeCast S1x1024 v9 shapeCasts_S1x1024_S1x1024) := rfl

/-- The second cell's payload likewise. -/
theorem k3_pay2_eq (v0 v3 : Vec Ideal S512x256 .f32) (v6 v8 : Vec Ideal S256x1024 .bf16) (v10 : Vec Ideal S1x1024 .f32) :
    k3_pay2 (F := Ideal) v0 v3 v6 v8 v10
      = kh2 (shapeCast S512x256 v0 shapeCasts_S512x256_S512x256) (shapeCast S512x256 v3 shapeCasts_S512x256_S512x256)
          (shapeCast S256x1024 v6 shapeCasts_S256x1024_S256x1024)
          (shapeCast S256x1024 v8 shapeCasts_S256x1024_S256x1024) (shapeCast S1x1024 v10 shapeCasts_S1x1024_S1x1024) := rfl

/-! The cell's arrays entry by entry: each is the specification's formula for its row. -/

section Entries
variable (x0 x1 : FVec Ideal S512x256 .f32) (w u : FVec Ideal S256x1024 .bf16) (bb : FVec Ideal S1x1024 .f32)

/-- Step one's pre-activation at (p, g): row p of `x0` against column g of `w`, plus the bias at g. -/
theorem kz1_at (p : Fin 512) (g : Fin 1024) :
    kz1 x0 w bb (ix2 p g) = Cert.Spec.z1 (Cert.Spec.row x0 p) w (fun g => bb (ix2 (0 : Fin 1) g)) g := by
  show matmul dot_S512x256_S256x1024_S512x1024_1_0_0_1_n_n none (truncf .bf16 x0 bitsLt_bf16_f32) w (constant S512x1024 .f32 0x00000000#32) (ix2 p g)
      + broadcastTo S512x1024 bb broadcasts_S1x1024_S512x1024 (ix2 p g) = _
  rw [mm_at, bcast_row_at]
  rfl

/-- Step one's cell state at (p, j): the input gate is column j, the cell gate column j + 512. -/
theorem kc1_at (p : Fin 512) (j : Fin 256) :
    kc1 x0 w bb (ix2 p j) = Cert.Spec.c1 (Cert.Spec.row x0 p) w (fun g => bb (ix2 (0 : Fin 1) g)) j := by
  show Ideal.logistic (extractStridedSlice S512x256 ![0, 0] (kz1 x0 w bb) slices_S512x1024_o0_0_S512x256 (ix2 p j))
      * Ideal.tanh (extractStridedSlice S512x256 ![0, 512] (kz1 x0 w bb) slices_S512x1024_o0_512_S512x256 (ix2 p j)) = _
  rw [slice_at 0 (by omega), slice_at 512 (by omega), kz1_at, kz1_at]
  rfl

/-- Step one's hidden state at (p, j): the output gate is column j + 768. -/
theorem kh1_at (p : Fin 512) (j : Fin 256) :
    kh1 x0 w bb (ix2 p j) = Cert.Spec.h1 (Cert.Spec.row x0 p) w (fun g => bb (ix2 (0 : Fin 1) g)) j := by
  show Ideal.logistic (extractStridedSlice S512x256 ![0, 768] (kz1 x0 w bb) slices_S512x1024_o0_768_S512x256 (ix2 p j))
      * Ideal.tanh (kc1 x0 w bb (ix2 p j)) = _
  rw [slice_at 768 (by omega), kz1_at, kc1_at]
  rfl

/-- Step two's pre-activation at (p, g): row p of `x1` against column g of `w`, plus row p of step one's hidden state
    against column g of `u`, plus the bias at g. The recurrent sum uses step one's hidden state at (p, k) for every k. -/
theorem kz2_at (p : Fin 512) (g : Fin 1024) :
    kz2 x0 x1 w u bb (ix2 p g)
      = Cert.Spec.z2 (Cert.Spec.row x0 p) (Cert.Spec.row x1 p) w u (fun g => bb (ix2 (0 : Fin 1) g)) g := by
  show (matmul dot_S512x256_S256x1024_S512x1024_1_0_0_1_n_n none (truncf .bf16 x1 bitsLt_bf16_f32) w (constant S512x1024 .f32 0x00000000#32) (ix2 p g)
        + matmul dot_S512x256_S256x1024_S512x1024_1_0_0_1_n_n none (truncf .bf16 (kh1 x0 w bb) bitsLt_bf16_f32) u (constant S512x1024 .f32 0x00000000#32) (ix2 p g))
      + broadcastTo S512x1024 bb broadcasts_S1x1024_S512x1024 (ix2 p g) = _
  rw [mm_at, mm_at, bcast_row_at]
  have hsum : (∑ k : Fin 256, (truncf .bf16 (kh1 x0 w bb) bitsLt_bf16_f32 : FVec Ideal S512x256 .bf16) (ix2 p k) * u (ix2 k g))
      = ∑ k : Fin 256, Cert.Spec.h1 (Cert.Spec.row x0 p) w (fun g => bb (ix2 (0 : Fin 1) g)) k * u (ix2 k g) :=
    Finset.sum_congr rfl fun k _ => congrArg (· * u (ix2 k g)) (kh1_at x0 w bb p k)
  rw [hsum]
  rfl

/-- Step two's cell state at (p, j): forget gate column j + 256, input gate column j, cell gate column j + 512. -/
theorem kc2_at (p : Fin 512) (j : Fin 256) :
    kc2 x0 x1 w u bb (ix2 p j)
      = Cert.Spec.c2 (Cert.Spec.row x0 p) (Cert.Spec.row x1 p) w u (fun g => bb (ix2 (0 : Fin 1) g)) j := by
  show Ideal.logistic (extractStridedSlice S512x256 ![0, 256] (kz2 x0 x1 w u bb) slices_S512x1024_o0_256_S512x256 (ix2 p j)) * kc1 x0 w bb (ix2 p j)
      + Ideal.logistic (extractStridedSlice S512x256 ![0, 0] (kz2 x0 x1 w u bb) slices_S512x1024_o0_0_S512x256 (ix2 p j))
        * Ideal.tanh (extractStridedSlice S512x256 ![0, 512] (kz2 x0 x1 w u bb) slices_S512x1024_o0_512_S512x256 (ix2 p j)) = _
  rw [slice_at 256 (by omega), slice_at 0 (by omega), slice_at 512 (by omega), kz2_at, kz2_at, kz2_at, kc1_at]
  rfl

/-- Step two's hidden state at (p, j): the output gate is column j + 768. -/
theorem kh2_at (p : Fin 512) (j : Fin 256) :
    kh2 x0 x1 w u bb (ix2 p j)
      = Cert.Spec.h2 (Cert.Spec.row x0 p) (Cert.Spec.row x1 p) w u (fun g => bb (ix2 (0 : Fin 1) g)) j := by
  show Ideal.logistic (extractStridedSlice S512x256 ![0, 768] (kz2 x0 x1 w u bb) slices_S512x1024_o0_768_S512x256 (ix2 p j))
      * Ideal.tanh (kc2 x0 x1 w u bb (ix2 p j)) = _
  rw [slice_at 768 (by omega), kz2_at, kc2_at]
  rfl

end Entries

/-- The first cell's stored value, entry by entry, is the specification's two-step cell of the loaded blocks. -/
theorem pay_lstm1 (v0 v2 : Vec Ideal S512x256 .f32) (v5 v7 : Vec Ideal S256x1024 .bf16) (v9 : Vec Ideal S1x1024 .f32) (v43 : Vec Ideal S512x1 .f32) :
    k1_pay1 (F := Ideal) (k1_pay2 (F := Ideal) v0 v2 v5 v7 v9) v43
      = Cert.Spec.lstm v0 v2 v5 v7 (fun g => v9 (ix2 (0 : Fin 1) g)) (fun p => v43 (ix2 p (0 : Fin 1))) := by
  funext i
  obtain ⟨p, j, rfl⟩ : ∃ (p : Fin 512) (j : Fin 256), i = ix2 p j := ⟨i 0, i 1, eq_ix2 i⟩
  show k1_pay2 (F := Ideal) v0 v2 v5 v7 v9 (ix2 p j)
      * broadcastTo S512x256 (shapeCast S512x1 v43 shapeCasts_S512x1_S512x1) broadcasts_S512x1_S512x256 (ix2 p j)
    = Cert.Spec.h2 (Cert.Spec.row v0 p) (Cert.Spec.row v2 p) v5 v7 (fun g => v9 (ix2 (0 : Fin 1) g)) j * v43 (ix2 p (0 : Fin 1))
  rw [k1_pay2_eq, bcast_col_at]
  simp only [shapeCast_self]
  rw [kh2_at]

/-- The second cell's stored value likewise. -/
theorem pay_lstm3 (v0 v3 : Vec Ideal S512x256 .f32) (v6 v8 : Vec Ideal S256x1024 .bf16) (v10 : Vec Ideal S1x1024 .f32) (v44 : Vec Ideal S512x1 .f32) :
    k3_pay1 (F := Ideal) (k3_pay2 (F := Ideal) v0 v3 v6 v8 v10) v44
      = Cert.Spec.lstm v0 v3 v6 v8 (fun g => v10 (ix2 (0 : Fin 1) g)) (fun p => v44 (ix2 p (0 : Fin 1))) := by
  funext i
  obtain ⟨p, j, rfl⟩ : ∃ (p : Fin 512) (j : Fin 256), i = ix2 p j := ⟨i 0, i 1, eq_ix2 i⟩
  show k3_pay2 (F := Ideal) v0 v3 v6 v8 v10 (ix2 p j)
      * broadcastTo S512x256 (shapeCast S512x1 v44 shapeCasts_S512x1_S512x1) broadcasts_S512x1_S512x256 (ix2 p j)
    = Cert.Spec.h2 (Cert.Spec.row v0 p) (Cert.Spec.row v3 p) v6 v8 (fun g => v10 (ix2 (0 : Fin 1) g)) j * v44 (ix2 p (0 : Fin 1))
  rw [k3_pay2_eq, bcast_col_at]
  simp only [shapeCast_self]
  rw [kh2_at]

end Cert.KernelIdeal.KV

end
-- ==== Proof.KLstmBlocks.lean ====
/-
  The two cell launches, from blocks to whole arrays.

  Each launch runs over 128 grid points. At point `t` the two row inputs and the result are staged as the 512 × 256 block
  of rows `t·512 … t·512 + 511` of their 65536 × 256 arrays, the mask as the 512 × 1 block of the same rows of its column,
  and the two 256 × 1024 weights and the 1 × 1024 bias row as the whole arrays (block (0, 0) at every point). Since the
  two-step cell is computed row by row (`Cert.Spec.lstmAt_congr`: an entry depends only on its row of the two inputs and on
  the row's mask value), what point `t` writes back is block `t` of the cell of the WHOLE arrays; the 128 blocks tile the
  result array, so after the launch it holds the cell of the whole arrays.
-/
import proofs.«156547_j23003844837986_1_alg».proof.Proof.Gen.KernelIdeal.Frame
import proofs.«156547_j23003844837986_1_alg».proof.Proof.Spec
import proofs.«156547_j23003844837986_1_alg».proof.Proof.KLstmPayload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace LstmBlocks

/-- The zero offset of a whole-buffer access, as the constant function. -/
theorem hz2 : (![0, 0] : Fin 2 → Nat) = fun _ => 0 := funext fun a => by fin_cases a <;> rfl

/-! ## The first cell's launch -/

/-- The index maps of the first cell's windows over the 128 grid points: the two row inputs, the mask and the output move
    with the point along the rows; the two weights and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry `y` of window 0's block at point `t` is the array's entry in row `t·512 + y₀`, same column. -/
theorem iblk1_0_apply (c : Dev nD) (t : Fin cfg1.N) (y : S512x256.Idx) (k : S65536x256.Idx)
    (hk0 : (k 0).val = t.val * 512 + (y 0).val) (hk1 : (k 1).val = (y 1).val) :
    (iblk1 V c 0 t : Vec Ideal S512x256 .f32) y = (V c main_arg0 : S65536x256.Idx → Elt Ideal .f32) k := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 256 + 1 * (y 1).val = (k 1).val; rw [e1, hk1]; omega

/-- Window 1's block likewise. -/
theorem iblk1_1_apply (c : Dev nD) (t : Fin cfg1.N) (y : S512x256.Idx) (k : S65536x256.Idx)
    (hk0 : (k 0).val = t.val * 512 + (y 0).val) (hk1 : (k 1).val = (y 1).val) :
    (iblk1 V c 1 t : Vec Ideal S512x256 .f32) y = (V c main_v61 : S65536x256.Idx → Elt Ideal .f32) k := by
  obtain ⟨-, -, e0, e1, -⟩ := idx_facts1 t
  unfold iblk1
  rw [View.read_apply]
  show V c main_v61 _ = V c main_v61 _
  congr 1
  funext a
  apply Fin.ext
  match a with
  | ⟨0, _⟩ => show win1_1.index t (0 : Fin 2) * 512 + 1 * (y 0).val = (k 0).val; rw [e0, hk0]; omega
  | ⟨1, _⟩ => show win1_1.index t (1 : Fin 2) * 256 + 1 * (y 1).val = (k 1).val; rw [e1, hk1]; omega

/-- The mask window's block: entry `y` is the mask column's entry in row `t·512 + y₀`. -/
theorem iblk1_5_apply (c : Dev nD) (t : Fin cfg1.N) (y : S512x1.Idx) (k : S65536x1.Idx)
    (hk0 : (k 0).val = t.val * 512 + (y 0).val) (hk1 : (k 1).val = (y 1).val) :
    (iblk1 V c 5 t : Vec Ideal S512x1 .f32) y = (V c main_v43 : S65536x1.Idx → Elt Ideal .f32) k := by
  obtain ⟨-, -, -, -, -, -, -, -, -, -, e0, e1, -⟩ := idx_facts1 t
  unfold iblk1
  rw [View.read_apply]
  show V c main_v43 _ = V c main_v43 _
  congr 1
  funext a
  apply Fin.ext
  match a with
  | ⟨0, _⟩ => show win1_5.index t (0 : Fin 2) * 512 + 1 * (y 0).val = (k 0).val; rw [e0, hk0]; omega
  | ⟨1, _⟩ => show win1_5.index t (1 : Fin 2) * 1 + 1 * (y 1).val = (k 1).val; rw [e1, hk1]; omega

/-- The first weight's window is the whole array at every point. -/
theorem iblk1_2_eq (c : Dev nD) (t : Fin cfg1.N) :
    (iblk1 V c 2 t : Vec Ideal S256x1024 .bf16) = (V c main_v37 : S256x1024.Idx → Elt Ideal .bf16) := by
  obtain ⟨-, -, -, -, e0, e1, -⟩ := idx_facts1 t
  funext y
  unfold iblk1
  rw [View.read_apply]
  show V c main_v37 _ = V c main_v37 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 1024 + 1 * (y 1).val = (y 1).val; rw [e1]; omega

/-- The second weight's window likewise. -/
theorem iblk1_3_eq (c : Dev nD) (t : Fin cfg1.N) :
    (iblk1 V c 3 t : Vec Ideal S256x1024 .bf16) = (V c main_v39 : S256x1024.Idx → Elt Ideal .bf16) := by
  obtain ⟨-, -, -, -, -, -, e0, e1, -⟩ := idx_facts1 t
  funext y
  unfold iblk1
  rw [View.read_apply]
  show V c main_v39 _ = V c main_v39 _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 1024 + 1 * (y 1).val = (y 1).val; rw [e1]; omega

/-- The bias row's window likewise. -/
theorem iblk1_4_eq (c : Dev nD) (t : Fin cfg1.N) :
    (iblk1 V c 4 t : Vec Ideal S1x1024 .f32) = (V c main_v41 : S1x1024.Idx → Elt Ideal .f32) := by
  obtain ⟨-, -, -, -, -, -, -, -, e0, e1, -⟩ := idx_facts1 t
  funext y
  unfold iblk1
  rw [View.read_apply]
  show V c main_v41 _ = V c main_v41 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

/-- WHAT POINT `t` WRITES BACK is block `t` of the two-step cell of the whole operand arrays: entry `(a, b)` of the block is
    the cell at row `a` of the blocks, which are rows `t·512 + a` of the arrays, and the array's entry under it is
    `(t·512 + a, b)`; the weights' and the bias's blocks are the arrays. -/
theorem flushed1_eq (c : Dev nD) (t : Fin cfg1.N) :
    (dat1 (F := Ideal) V c).flushed 6 t = ((cfg1.win 6).blk t).view.read (Elt Ideal)
      (Cert.Spec.lstm (V c main_arg0) (V c main_v61) (V c main_v37) (V c main_v39)
          (fun g => V c main_v41 (ix2 (0 : Fin 1) g)) (fun p => V c main_v43 (ix2 p (0 : Fin 1)))) := by
  show (cfg1.win 6).cut (grid1.coords t) ((dat1 V c).after 6 t) = _
  rw [after1_6]
  unfold out1_6
  rw [View.canon_unit_zero hz2]
  simp only [View.ld_unit_zero (S := S512x256) hz2, View.ld_unit_zero (S := S256x1024) hz2, View.ld_unit_zero (S := S1x1024) hz2, View.ld_unit_zero (S := S512x1) hz2]
  rw [pay_lstm1, iblk1_2_eq, iblk1_3_eq, iblk1_4_eq]
  obtain ⟨-, -, -, -, -, -, -, -, -, -, -, -, e0, e1⟩ := idx_facts1 t
  have hN : t.val < 128 := lt_of_lt_of_eq t.isLt N_1
  refine funext fun (j : S512x256.Idx) => ?_
  obtain ⟨a, b, rfl⟩ : ∃ (a : Fin 512) (b : Fin 256), j = ix2 a b := ⟨j 0, j 1, eq_ix2 j⟩
  rw [View.read_apply]
  have hemb : ((cfg1.win 6).blk t).view.emb (ix2 a b) = ix2 (⟨t.val * 512 + a.val, by omega⟩ : Fin 65536) b := by
    funext d; apply Fin.ext
    match d with
    | ⟨0, _⟩ => show win1_6.index t (0 : Fin 2) * 512 + 1 * a.val = t.val * 512 + a.val; rw [e0]; omega
    | ⟨1, _⟩ => show win1_6.index t (1 : Fin 2) * 256 + 1 * b.val = b.val; rw [e1]; omega
  rw [hemb]
  exact Cert.Spec.lstmAt_congr (iblk1 V c 0 t) (iblk1 V c 1 t) (V c main_arg0) (V c main_v61) (V c main_v37) (V c main_v39)
    (fun g => V c main_v41 (ix2 (0 : Fin 1) g)) (fun p => iblk1 V c 5 t (ix2 p (0 : Fin 1))) (fun p => V c main_v43 (ix2 p (0 : Fin 1)))
    a (⟨t.val * 512 + a.val, by omega⟩ : Fin 65536)
    (fun k => iblk1_0_apply V c t (ix2 a k) (ix2 (⟨t.val * 512 + a.val, by omega⟩ : Fin 65536) k) rfl rfl)
    (fun k => iblk1_1_apply V c t (ix2 a k) (ix2 (⟨t.val * 512 + a.val, by omega⟩ : Fin 65536) k) rfl rfl)
    (iblk1_5_apply V c t (ix2 a (0 : Fin 1)) (ix2 (⟨t.val * 512 + a.val, by omega⟩ : Fin 65536) (0 : Fin 1)) rfl rfl) b

/-- An index of the result array is in point `t`'s block iff each coordinate is in the block's range on its axis. -/
theorem mem_blk1 (t : Fin cfg1.N) (i : S65536x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v62).slice (win1_6.rect t)).set ↔ _
  rw [View.set_slice_whole, Rect.mem_set_unit]
  exact Iff.rfl

/-- Every index of the result array lies in the block of the point `i₀ / 512`: the 128 row blocks tile the 65536 rows. -/
theorem cover1 (i : S65536x256.Idx) :
    ∃ t : Fin cfg1.N, (cfg1.win 6).flush t = true ∧ i ∈ ((cfg1.win 6).blk t).view.set := by
  have hi0 : (i 0).val < 65536 := (i 0).isLt
  have hi1 : (i 1).val < 256 := (i 1).isLt
  obtain ⟨t, ht⟩ : ∃ t : Fin cfg1.N, t.val = (i 0).val / 512 :=
    ⟨⟨(i 0).val / 512, by rw [show cfg1.N = 128 from N_1]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ => show win1_6.index t (0 : Fin 2) * 512 ≤ (i 0).val ∧ (i 0).val < win1_6.index t (0 : Fin 2) * 512 + 512; rw [e0, ht]; omega
  | ⟨1, _⟩ => show win1_6.index t (1 : Fin 2) * 256 ≤ (i 1).val ∧ (i 1).val < win1_6.index t (1 : Fin 2) * 256 + 256; rw [e1]; omega

end LstmBlocks

/-- After the first cell's launch its result array holds the two-step cell of the operand arrays as the launch found them. -/
theorem lstm1_final (c : Dev nD) :
    (dat1 (F := Ideal) V c).arrAt 6 cfg1.N
      = Cert.Spec.lstm (V c main_arg0) (V c main_v61) (V c main_v37) (V c main_v39)
          (fun g => V c main_v41 (ix2 (0 : Fin 1) g)) (fun p => V c main_v43 (ix2 p (0 : Fin 1))) :=
  (dat1 (F := Ideal) V c).arrAt_eq_of_cover 6
    (Cert.Spec.lstm (V c main_arg0) (V c main_v61) (V c main_v37) (V c main_v39)
          (fun g => V c main_v41 (ix2 (0 : Fin 1) g)) (fun p => V c main_v43 (ix2 p (0 : Fin 1))))
    (fun t _ => LstmBlocks.flushed1_eq V c t) LstmBlocks.cover1

namespace LstmBlocks

/-! ## The second cell's launch -/

/-- The index maps of the second cell's windows over the 128 grid points: the two row inputs, the mask and the output move
    with the point along the rows; the two weights and the bias stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Entry `y` of window 0's block at point `t` is the array's entry in row `t·512 + y₀`, same column. -/
theorem iblk3_0_apply (c : Dev nD) (t : Fin cfg3.N) (y : S512x256.Idx) (k : S65536x256.Idx)
    (hk0 : (k 0).val = t.val * 512 + (y 0).val) (hk1 : (k 1).val = (y 1).val) :
    (iblk3 V c 0 t : Vec Ideal S512x256 .f32) y = (V c main_v62 : S65536x256.Idx → Elt Ideal .f32) k := by
  obtain ⟨e0, e1, -⟩ := idx_facts3 t
  unfold iblk3
  rw [View.read_apply]
  show V c main_v62 _ = V c main_v62 _
  congr 1
  funext a
  apply Fin.ext
  match a with
  | ⟨0, _⟩ => show win3_0.index t (0 : Fin 2) * 512 + 1 * (y 0).val = (k 0).val; rw [e0, hk0]; omega
  | ⟨1, _⟩ => show win3_0.index t (1 : Fin 2) * 256 + 1 * (y 1).val = (k 1).val; rw [e1, hk1]; omega

/-- Window 1's block likewise. -/
theorem iblk3_1_apply (c : Dev nD) (t : Fin cfg3.N) (y : S512x256.Idx) (k : S65536x256.Idx)
    (hk0 : (k 0).val = t.val * 512 + (y 0).val) (hk1 : (k 1).val = (y 1).val) :
    (iblk3 V c 1 t : Vec Ideal S512x256 .f32) y = (V c main_v80 : S65536x256.Idx → Elt Ideal .f32) k := by
  obtain ⟨-, -, e0, e1, -⟩ := idx_facts3 t
  unfold iblk3
  rw [View.read_apply]
  show V c main_v80 _ = V c main_v80 _
  congr 1
  funext a
  apply Fin.ext
  match a with
  | ⟨0, _⟩ => show win3_1.index t (0 : Fin 2) * 512 + 1 * (y 0).val = (k 0).val; rw [e0, hk0]; omega
  | ⟨1, _⟩ => show win3_1.index t (1 : Fin 2) * 256 + 1 * (y 1).val = (k 1).val; rw [e1, hk1]; omega

/-- The mask window's block: entry `y` is the mask column's entry in row `t·512 + y₀`. -/
theorem iblk3_5_apply (c : Dev nD) (t : Fin cfg3.N) (y : S512x1.Idx) (k : S65536x1.Idx)
    (hk0 : (k 0).val = t.val * 512 + (y 0).val) (hk1 : (k 1).val = (y 1).val) :
    (iblk3 V c 5 t : Vec Ideal S512x1 .f32) y = (V c main_v42 : S65536x1.Idx → Elt Ideal .f32) k := by
  obtain ⟨-, -, -, -, -, -, -, -, -, -, e0, e1, -⟩ := idx_facts3 t
  unfold iblk3
  rw [View.read_apply]
  show V c main_v42 _ = V c main_v42 _
  congr 1
  funext a
  apply Fin.ext
  match a with
  | ⟨0, _⟩ => show win3_5.index t (0 : Fin 2) * 512 + 1 * (y 0).val = (k 0).val; rw [e0, hk0]; omega
  | ⟨1, _⟩ => show win3_5.index t (1 : Fin 2) * 1 + 1 * (y 1).val = (k 1).val; rw [e1, hk1]; omega

/-- The first weight's window is the whole array at every point. -/
theorem iblk3_2_eq (c : Dev nD) (t : Fin cfg3.N) :
    (iblk3 V c 2 t : Vec Ideal S256x1024 .bf16) = (V c main_v37 : S256x1024.Idx → Elt Ideal .bf16) := by
  obtain ⟨-, -, -, -, e0, e1, -⟩ := idx_facts3 t
  funext y
  unfold iblk3
  rw [View.read_apply]
  show V c main_v37 _ = V c main_v37 _
  congr 1
  funext a
  apply Fin.ext
  match a with
  | ⟨0, _⟩ => show win3_2.index t (0 : Fin 2) * 256 + 1 * (y 0).val = (y 0).val; rw [e0]; omega
  | ⟨1, _⟩ => show win3_2.index t (1 : Fin 2) * 1024 + 1 * (y 1).val = (y 1).val; rw [e1]; omega

/-- The second weight's window likewise. -/
theorem iblk3_3_eq (c : Dev nD) (t : Fin cfg3.N) :
    (iblk3 V c 3 t : Vec Ideal S256x1024 .bf16) = (V c main_v39 : S256x1024.Idx → Elt Ideal .bf16) := by
  obtain ⟨-, -, -, -, -, -, e0, e1, -⟩ := idx_facts3 t
  funext y
  unfold iblk3
  rw [View.read_apply]
  show V c main_v39 _ = V c main_v39 _
  congr 1
  funext a
  apply Fin.ext
  match a with
  | ⟨0, _⟩ => show win3_3.index t (0 : Fin 2) * 256 + 1 * (y 0).val = (y 0).val; rw [e0]; omega
  | ⟨1, _⟩ => show win3_3.index t (1 : Fin 2) * 1024 + 1 * (y 1).val = (y 1).val; rw [e1]; omega

/-- The bias row's window likewise. -/
theorem iblk3_4_eq (c : Dev nD) (t : Fin cfg3.N) :
    (iblk3 V c 4 t : Vec Ideal S1x1024 .f32) = (V c main_v41 : S1x1024.Idx → Elt Ideal .f32) := by
  obtain ⟨-, -, -, -, -, -, -, -, e0, e1, -⟩ := idx_facts3 t
  funext y
  unfold iblk3
  rw [View.read_apply]
  show V c main_v41 _ = V c main_v41 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 1024 + 1 * (y 1).val = (y 1).val; rw [e1]; omega

/-- WHAT POINT `t` WRITES BACK is block `t` of the two-step cell of the whole operand arrays: entry `(a, b)` of the block is
    the cell at row `a` of the blocks, which are rows `t·512 + a` of the arrays, and the array's entry under it is
    `(t·512 + a, b)`; the weights' and the bias's blocks are the arrays. -/
theorem flushed3_eq (c : Dev nD) (t : Fin cfg3.N) :
    (dat3 (F := Ideal) V c).flushed 6 t = ((cfg3.win 6).blk t).view.read (Elt Ideal)
      (Cert.Spec.lstm (V c main_v62) (V c main_v80) (V c main_v37) (V c main_v39)
          (fun g => V c main_v41 (ix2 (0 : Fin 1) g)) (fun p => V c main_v42 (ix2 p (0 : Fin 1)))) := by
  show (cfg3.win 6).cut (grid3.coords t) ((dat3 V c).after 6 t) = _
  rw [after3_6]
  unfold out3_6
  rw [View.canon_unit_zero hz2]
  simp only [View.ld_unit_zero (S := S512x256) hz2, View.ld_unit_zero (S := S256x1024) hz2, View.ld_unit_zero (S := S1x1024) hz2, View.ld_unit_zero (S := S512x1) hz2]
  rw [pay_lstm3, iblk3_2_eq, iblk3_3_eq, iblk3_4_eq]
  obtain ⟨-, -, -, -, -, -, -, -, -, -, -, -, e0, e1⟩ := idx_facts3 t
  have hN : t.val < 128 := lt_of_lt_of_eq t.isLt N_3
  refine funext fun (j : S512x256.Idx) => ?_
  obtain ⟨a, b, rfl⟩ : ∃ (a : Fin 512) (b : Fin 256), j = ix2 a b := ⟨j 0, j 1, eq_ix2 j⟩
  rw [View.read_apply]
  have hemb : ((cfg3.win 6).blk t).view.emb (ix2 a b) = ix2 (⟨t.val * 512 + a.val, by omega⟩ : Fin 65536) b := by
    funext d; apply Fin.ext
    match d with
    | ⟨0, _⟩ => show win3_6.index t (0 : Fin 2) * 512 + 1 * a.val = t.val * 512 + a.val; rw [e0]; omega
    | ⟨1, _⟩ => show win3_6.index t (1 : Fin 2) * 256 + 1 * b.val = b.val; rw [e1]; omega
  rw [hemb]
  exact Cert.Spec.lstmAt_congr (iblk3 V c 0 t) (iblk3 V c 1 t) (V c main_v62) (V c main_v80) (V c main_v37) (V c main_v39)
    (fun g => V c main_v41 (ix2 (0 : Fin 1) g)) (fun p => iblk3 V c 5 t (ix2 p (0 : Fin 1))) (fun p => V c main_v42 (ix2 p (0 : Fin 1)))
    a (⟨t.val * 512 + a.val, by omega⟩ : Fin 65536)
    (fun k => iblk3_0_apply V c t (ix2 a k) (ix2 (⟨t.val * 512 + a.val, by omega⟩ : Fin 65536) k) rfl rfl)
    (fun k => iblk3_1_apply V c t (ix2 a k) (ix2 (⟨t.val * 512 + a.val, by omega⟩ : Fin 65536) k) rfl rfl)
    (iblk3_5_apply V c t (ix2 a (0 : Fin 1)) (ix2 (⟨t.val * 512 + a.val, by omega⟩ : Fin 65536) (0 : Fin 1)) rfl rfl) b

/-- An index of the result array is in point `t`'s block iff each coordinate is in the block's range on its axis. -/
theorem mem_blk3 (t : Fin cfg3.N) (i : S65536x256.Idx) :
    i ∈ ((cfg3.win 6).blk t).view.set ↔ ∀ a : Fin 2, win3_6.index t a * S512x256.size a ≤ (i a).val ∧ (i a).val < win3_6.index t a * S512x256.size a + S512x256.size a := by
  show i ∈ ((View.whole main_v81).slice (win3_6.rect t)).set ↔ _
  rw [View.set_slice_whole, Rect.mem_set_unit]
  exact Iff.rfl

/-- Every index of the result array lies in the block of the point `i₀ / 512`: the 128 row blocks tile the 65536 rows. -/
theorem cover3 (i : S65536x256.Idx) :
    ∃ t : Fin cfg3.N, (cfg3.win 6).flush t = true ∧ i ∈ ((cfg3.win 6).blk t).view.set := by
  have hi0 : (i 0).val < 65536 := (i 0).isLt
  have hi1 : (i 1).val < 256 := (i 1).isLt
  obtain ⟨t, ht⟩ : ∃ t : Fin cfg3.N, t.val = (i 0).val / 512 :=
    ⟨⟨(i 0).val / 512, by rw [show cfg3.N = 128 from N_3]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t (0 : Fin 2) * 512 ≤ (i 0).val ∧ (i 0).val < win3_6.index t (0 : Fin 2) * 512 + 512; rw [e0, ht]; omega
  | ⟨1, _⟩ => show win3_6.index t (1 : Fin 2) * 256 ≤ (i 1).val ∧ (i 1).val < win3_6.index t (1 : Fin 2) * 256 + 256; rw [e1]; omega

end LstmBlocks

/-- After the second cell's launch likewise. -/
theorem lstm3_final (c : Dev nD) :
    (dat3 (F := Ideal) V c).arrAt 6 cfg3.N
      = Cert.Spec.lstm (V c main_v62) (V c main_v80) (V c main_v37) (V c main_v39)
          (fun g => V c main_v41 (ix2 (0 : Fin 1) g)) (fun p => V c main_v42 (ix2 p (0 : Fin 1))) :=
  (dat3 (F := Ideal) V c).arrAt_eq_of_cover 6
    (Cert.Spec.lstm (V c main_v62) (V c main_v80) (V c main_v37) (V c main_v39)
          (fun g => V c main_v41 (ix2 (0 : Fin 1) g)) (fun p => V c main_v42 (ix2 p (0 : Fin 1))))
    (fun t _ => LstmBlocks.flushed3_eq V c t) LstmBlocks.cover3

end Cert.KernelIdeal.KV

end
-- ==== Proof.KHost.lean ====
/-
  The kernel program's result buffer, walked back to the launch memory.

  The run is a chain of boundaries: the launch memory; three host stretches (the edge list with one self loop per node
  and the degrees; `1/√deg`; the edges' normalisation, the weights transposed, the bias row and the mask columns); the
  first projection's launch; a host stretch (the first graph layer: gather at the sources, scale, sum at the targets, add
  the bias row); the first cell's launch; the second projection's launch; a host stretch (the second graph layer); the
  second cell's launch; and the last reshape.

  First each host stretch is read from arbitrary contents `X`: what it leaves in each buffer a later step reads, as a term
  over what `X` holds in the buffers the stretch reads. Then every buffer is carried from the boundary where it is written
  to the boundary where it is read, and each launch's result array is the specification's function (`Cert.Spec.mm`,
  `Cert.Spec.lstm`) of the launch's operand arrays as it found them. Composing these gives `kOut` of the argument arrays.
-/
import proofs.«156547_j23003844837986_1_alg».proof.Proof.Gen.KernelIdeal.Frame
import proofs.«156547_j23003844837986_1_alg».proof.Proof.Spec
import proofs.«156547_j23003844837986_1_alg».proof.Proof.KDefs
import proofs.«156547_j23003844837986_1_alg».proof.Proof.KMatmul
import proofs.«156547_j23003844837986_1_alg».proof.Proof.KLstmBlocks
import Idealize.ShloMosaic.Lib.Pipeline.Value
import Idealize.ShloMosaic.Lib.ValueIdx
import Idealize.ShloMosaic.Lib.StableHlo.Run

noncomputable section

namespace Cert.KernelIdeal.KV

open Cert.KernelIdeal Cert.KernelIdeal.Gen Idealize.ShloMosaic Idealize.ShloMosaic.TcCoe Idealize.SL.Sem Idealize.ShloMosaic.ValueIdx

/-! ## Each host stretch, from arbitrary contents `X`: what it leaves in the buffers read later -/

section Stretch
variable (X : Valuation τ sig (Elt Ideal))

theorem h0_v3 : StableHlo.after (hostOps0 (F := Ideal)) X (Proc.devRef .tc main_v3)
    = kSrc (X (Proc.devRef .tc main_arg1)) := by
  after_results <;> rfl
theorem h0_v6 : StableHlo.after (hostOps0 (F := Ideal)) X (Proc.devRef .tc main_v6)
    = kDst (X (Proc.devRef .tc main_arg1)) := by
  after_results <;> rfl
theorem h0_v8 : StableHlo.after (hostOps0 (F := Ideal)) X (Proc.devRef .tc main_v8)
    = kEw (X (Proc.devRef .tc main_arg2)) := by
  after_results <;> rfl
theorem h0_v13 : StableHlo.after (hostOps0 (F := Ideal)) X (Proc.devRef .tc main_v13)
    = cmpf .ogt (kDeg (X (Proc.devRef .tc main_arg1)) (X (Proc.devRef .tc main_arg2))) (broadcastInDim S65536 ![] bcast_S_S65536 (constant (F := Ideal) S_ .f32 0x00000000#32)) := by
  after_results <;> rfl
theorem h0_v14 : StableHlo.after (hostOps0 (F := Ideal)) X (Proc.devRef .tc main_v14)
    = Host.rsqrt (kDeg (X (Proc.devRef .tc main_arg1)) (X (Proc.devRef .tc main_arg2))) := by
  after_results <;> rfl
theorem h0_cst2 : StableHlo.after (hostOps0 (F := Ideal)) X (Proc.devRef .tc main_cst_2)
    = (constant (F := Ideal) S_ .f32 0x00000000#32) := by
  after_results <;> rfl
theorem h01_v15 : StableHlo.after (hostOps0_1 (F := Ideal)) X (Proc.devRef .tc main_v15)
    = select (X (Proc.devRef .tc main_v13)) (X (Proc.devRef .tc main_v14)) (broadcastInDim S65536 ![] bcast_S_S65536 (id (X (Proc.devRef .tc main_cst_2)))) := by
  after_results <;> rfl
theorem h02_v31 : StableHlo.after (hostOps0_2 (F := Ideal)) X (Proc.devRef .tc main_v31)
    = (mulf (mulf (Host.gather gather_S65536_S327680x1_S327680_n_0_n_n_0_1_1 (X (Proc.devRef .tc main_v15)) (kWrap (X (Proc.devRef .tc main_v3)))) (X (Proc.devRef .tc main_v8))) (Host.gather gather_S65536_S327680x1_S327680_n_0_n_n_0_1_1 (X (Proc.devRef .tc main_v15)) (kWrap (X (Proc.devRef .tc main_v6)))) : FA S327680) := by
  after_results_simp <;> rfl
theorem h02_v33 : StableHlo.after (hostOps0_2 (F := Ideal)) X (Proc.devRef .tc main_v33)
    = kWt (X (Proc.devRef .tc main_arg4)) := by
  after_results_simp <;> rfl
theorem h02_v35 : StableHlo.after (hostOps0_2 (F := Ideal)) X (Proc.devRef .tc main_v35)
    = kWt (X (Proc.devRef .tc main_arg6)) := by
  after_results_simp <;> rfl
theorem h02_v37 : StableHlo.after (hostOps0_2 (F := Ideal)) X (Proc.devRef .tc main_v37)
    = kWg (X (Proc.devRef .tc main_arg8)) := by
  after_results_simp <;> rfl
theorem h02_v39 : StableHlo.after (hostOps0_2 (F := Ideal)) X (Proc.devRef .tc main_v39)
    = kWg (X (Proc.devRef .tc main_arg9)) := by
  after_results_simp <;> rfl
theorem h02_v41 : StableHlo.after (hostOps0_2 (F := Ideal)) X (Proc.devRef .tc main_v41)
    = kBias (X (Proc.devRef .tc main_arg10)) (X (Proc.devRef .tc main_arg11)) := by
  after_results_simp <;> rfl
theorem h02_v42 : StableHlo.after (hostOps0_2 (F := Ideal)) X (Proc.devRef .tc main_v42)
    = kMask (X (Proc.devRef .tc main_arg3)) := by
  after_results_simp <;> rfl
theorem h02_v43 : StableHlo.after (hostOps0_2 (F := Ideal)) X (Proc.devRef .tc main_v43)
    = kOnes := by
  after_results_simp <;> rfl
theorem h1_v61 : StableHlo.after (hostOps1 (F := Ideal)) X (Proc.devRef .tc main_v61)
    = (addf (Host.scatterAdd scatter_S65536x256_S327680x1_S327680x256_1_0_0_1 (broadcastInDim S65536x256 ![] bcast_S_S65536x256 (constant (F := Ideal) S_ .f32 0x00000000#32)) (broadcastInDim S327680x1 ![0] bcast_S327680_S327680x1_0 (X (Proc.devRef .tc main_v6))) (mulf (extf .f32 (Host.gather gather_S65536x256_S327680x1_S327680x256_1_0_n_n_0_1_1256 (X (Proc.devRef .tc main_v44)) (kWrap (X (Proc.devRef .tc main_v3)))) bitsLt_bf16_f32) (broadcastInDim S327680x256 ![0, 1] bcast_S327680x1_S327680x256_0_1 (broadcastInDim S327680x1 ![0] bcast_S327680_S327680x1_0 (X (Proc.devRef .tc main_v31)))))) (broadcastInDim S65536x256 ![0, 1] bcast_S1x256_S65536x256_0_1 (broadcastInDim S1x256 ![1] bcast_S256_S1x256_1 (X (Proc.devRef .tc main_arg5)))) : FA S65536x256) := by
  after_results_simp <;> rfl
theorem h3_v80 : StableHlo.after (hostOps3 (F := Ideal)) X (Proc.devRef .tc main_v80)
    = (addf (Host.scatterAdd scatter_S65536x256_S327680x1_S327680x256_1_0_0_1 (broadcastInDim S65536x256 ![] bcast_S_S65536x256 (constant (F := Ideal) S_ .f32 0x00000000#32)) (broadcastInDim S327680x1 ![0] bcast_S327680_S327680x1_0 (X (Proc.devRef .tc main_v6))) (mulf (extf .f32 (Host.gather gather_S65536x256_S327680x1_S327680x256_1_0_n_n_0_1_1256 (X (Proc.devRef .tc main_v63)) (kWrap (X (Proc.devRef .tc main_v3)))) bitsLt_bf16_f32) (broadcastInDim S327680x256 ![0, 1] bcast_S327680x1_S327680x256_0_1 (broadcastInDim S327680x1 ![0] bcast_S327680_S327680x1_0 (X (Proc.devRef .tc main_v31)))))) (broadcastInDim S65536x256 ![0, 1] bcast_S1x256_S65536x256_0_1 (broadcastInDim S1x256 ![1] bcast_S256_S1x256_1 (X (Proc.devRef .tc main_arg7)))) : FA S65536x256) := by
  after_results_simp <;> rfl
theorem h4_v82 : StableHlo.after (hostOps4 (F := Ideal)) X (Proc.devRef .tc main_v82)
    = shapeCast _ (X (Proc.devRef .tc main_v81)) shapeCasts_S65536x256_S128x512x256 := by
  after_results <;> rfl

end Stretch

/-- A buffer no operation of a host stretch writes holds after it what it held before. -/
local macro "skip_host" : tactic => `(tactic|
  exact StableHlo.after_of_forall_not_mem _ _ (List.forall_iff_forall_mem.mp (by
    simp only [hostOps0, hostOps0_1, hostOps0_2, hostOps1, hostOps3, hostOps4, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))))

/-! ## The run walked back, boundary by boundary

Argument `k` as the launch memory holds it is `m (loc main_argk)`. A buffer is carried from the boundary where it is
written to the boundary where it is read: across a host stretch that does not write it, across a launch that does
not own it, or — for a launch's input array — through the launch, which leaves its inputs as it found them. -/

section Walk
variable (m : (ℓ : Loc nD τ sig) → Buf (Elt Ideal) ℓ) (ρ : Dev nD → PrngReg)

/-! ### The arguments -/
theorem W0_arg0 (c : Dev nD) : W0 m ρ c (Proc.devRef .tc main_arg0) = (m ((c : Thread nD τ).loc main_arg0)) := rfl
theorem W0_arg1 (c : Dev nD) : W0 m ρ c (Proc.devRef .tc main_arg1) = (m ((c : Thread nD τ).loc main_arg1)) := rfl
theorem W0_arg2 (c : Dev nD) : W0 m ρ c (Proc.devRef .tc main_arg2) = (m ((c : Thread nD τ).loc main_arg2)) := rfl
theorem W0_arg3 (c : Dev nD) : W0 m ρ c (Proc.devRef .tc main_arg3) = (m ((c : Thread nD τ).loc main_arg3)) := rfl
theorem W0_arg4 (c : Dev nD) : W0 m ρ c (Proc.devRef .tc main_arg4) = (m ((c : Thread nD τ).loc main_arg4)) := rfl
theorem W0_arg5 (c : Dev nD) : W0 m ρ c (Proc.devRef .tc main_arg5) = (m ((c : Thread nD τ).loc main_arg5)) := rfl
theorem W0_arg6 (c : Dev nD) : W0 m ρ c (Proc.devRef .tc main_arg6) = (m ((c : Thread nD τ).loc main_arg6)) := rfl
theorem W0_arg7 (c : Dev nD) : W0 m ρ c (Proc.devRef .tc main_arg7) = (m ((c : Thread nD τ).loc main_arg7)) := rfl
theorem W0_arg8 (c : Dev nD) : W0 m ρ c (Proc.devRef .tc main_arg8) = (m ((c : Thread nD τ).loc main_arg8)) := rfl
theorem W0_arg9 (c : Dev nD) : W0 m ρ c (Proc.devRef .tc main_arg9) = (m ((c : Thread nD τ).loc main_arg9)) := rfl
theorem W0_arg10 (c : Dev nD) : W0 m ρ c (Proc.devRef .tc main_arg10) = (m ((c : Thread nD τ).loc main_arg10)) := rfl
theorem W0_arg11 (c : Dev nD) : W0 m ρ c (Proc.devRef .tc main_arg11) = (m ((c : Thread nD τ).loc main_arg11)) := rfl
theorem W1_arg0 (c : Dev nD) : W1 m ρ c (Proc.devRef .tc main_arg0) = (m ((c : Thread nD τ).loc main_arg0)) :=
  (by skip_host : W1 m ρ c (Proc.devRef .tc main_arg0) = W0 m ρ c (Proc.devRef .tc main_arg0)).trans (W0_arg0 m ρ c)
theorem W2_arg0 (c : Dev nD) : W2 m ρ c (Proc.devRef .tc main_arg0) = (m ((c : Thread nD τ).loc main_arg0)) :=
  (by skip_host : W2 m ρ c (Proc.devRef .tc main_arg0) = W1 m ρ c (Proc.devRef .tc main_arg0)).trans (W1_arg0 m ρ c)
theorem W3_arg0 (c : Dev nD) : W3 m ρ c (Proc.devRef .tc main_arg0) = (m ((c : Thread nD τ).loc main_arg0)) :=
  (by skip_host : W3 m ρ c (Proc.devRef .tc main_arg0) = W2 m ρ c (Proc.devRef .tc main_arg0)).trans (W2_arg0 m ρ c)
theorem W4_arg0 (c : Dev nD) : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (W3_arg0 m ρ c)
theorem W5_arg0 (c : Dev nD) : W5 m ρ c (Proc.devRef .tc main_arg0) = (m ((c : Thread nD τ).loc main_arg0)) :=
  (by skip_host : W5 m ρ c (Proc.devRef .tc main_arg0) = W4 m ρ c (Proc.devRef .tc main_arg0)).trans (W4_arg0 m ρ c)
theorem W1_arg3 (c : Dev nD) : W1 m ρ c (Proc.devRef .tc main_arg3) = (m ((c : Thread nD τ).loc main_arg3)) :=
  (by skip_host : W1 m ρ c (Proc.devRef .tc main_arg3) = W0 m ρ c (Proc.devRef .tc main_arg3)).trans (W0_arg3 m ρ c)
theorem W2_arg3 (c : Dev nD) : W2 m ρ c (Proc.devRef .tc main_arg3) = (m ((c : Thread nD τ).loc main_arg3)) :=
  (by skip_host : W2 m ρ c (Proc.devRef .tc main_arg3) = W1 m ρ c (Proc.devRef .tc main_arg3)).trans (W1_arg3 m ρ c)
theorem W1_arg4 (c : Dev nD) : W1 m ρ c (Proc.devRef .tc main_arg4) = (m ((c : Thread nD τ).loc main_arg4)) :=
  (by skip_host : W1 m ρ c (Proc.devRef .tc main_arg4) = W0 m ρ c (Proc.devRef .tc main_arg4)).trans (W0_arg4 m ρ c)
theorem W2_arg4 (c : Dev nD) : W2 m ρ c (Proc.devRef .tc main_arg4) = (m ((c : Thread nD τ).loc main_arg4)) :=
  (by skip_host : W2 m ρ c (Proc.devRef .tc main_arg4) = W1 m ρ c (Proc.devRef .tc main_arg4)).trans (W1_arg4 m ρ c)
theorem W1_arg5 (c : Dev nD) : W1 m ρ c (Proc.devRef .tc main_arg5) = (m ((c : Thread nD τ).loc main_arg5)) :=
  (by skip_host : W1 m ρ c (Proc.devRef .tc main_arg5) = W0 m ρ c (Proc.devRef .tc main_arg5)).trans (W0_arg5 m ρ c)
theorem W2_arg5 (c : Dev nD) : W2 m ρ c (Proc.devRef .tc main_arg5) = (m ((c : Thread nD τ).loc main_arg5)) :=
  (by skip_host : W2 m ρ c (Proc.devRef .tc main_arg5) = W1 m ρ c (Proc.devRef .tc main_arg5)).trans (W1_arg5 m ρ c)
theorem W3_arg5 (c : Dev nD) : W3 m ρ c (Proc.devRef .tc main_arg5) = (m ((c : Thread nD τ).loc main_arg5)) :=
  (by skip_host : W3 m ρ c (Proc.devRef .tc main_arg5) = W2 m ρ c (Proc.devRef .tc main_arg5)).trans (W2_arg5 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W1_arg6 (c : Dev nD) : W1 m ρ c (Proc.devRef .tc main_arg6) = (m ((c : Thread nD τ).loc main_arg6)) :=
  (by skip_host : W1 m ρ c (Proc.devRef .tc main_arg6) = W0 m ρ c (Proc.devRef .tc main_arg6)).trans (W0_arg6 m ρ c)
theorem W2_arg6 (c : Dev nD) : W2 m ρ c (Proc.devRef .tc main_arg6) = (m ((c : Thread nD τ).loc main_arg6)) :=
  (by skip_host : W2 m ρ c (Proc.devRef .tc main_arg6) = W1 m ρ c (Proc.devRef .tc main_arg6)).trans (W1_arg6 m ρ c)
theorem W1_arg7 (c : Dev nD) : W1 m ρ c (Proc.devRef .tc main_arg7) = (m ((c : Thread nD τ).loc main_arg7)) :=
  (by skip_host : W1 m ρ c (Proc.devRef .tc main_arg7) = W0 m ρ c (Proc.devRef .tc main_arg7)).trans (W0_arg7 m ρ c)
theorem W2_arg7 (c : Dev nD) : W2 m ρ c (Proc.devRef .tc main_arg7) = (m ((c : Thread nD τ).loc main_arg7)) :=
  (by skip_host : W2 m ρ c (Proc.devRef .tc main_arg7) = W1 m ρ c (Proc.devRef .tc main_arg7)).trans (W1_arg7 m ρ c)
theorem W3_arg7 (c : Dev nD) : W3 m ρ c (Proc.devRef .tc main_arg7) = (m ((c : Thread nD τ).loc main_arg7)) :=
  (by skip_host : W3 m ρ c (Proc.devRef .tc main_arg7) = W2 m ρ c (Proc.devRef .tc main_arg7)).trans (W2_arg7 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W5_arg7 (c : Dev nD) : W5 m ρ c (Proc.devRef .tc main_arg7) = (m ((c : Thread nD τ).loc main_arg7)) :=
  (by skip_host : W5 m ρ c (Proc.devRef .tc main_arg7) = W4 m ρ c (Proc.devRef .tc main_arg7)).trans (W4_arg7 m ρ c)
theorem W6_arg7 (c : Dev nD) : W6 m ρ c (Proc.devRef .tc main_arg7) = (m ((c : Thread nD τ).loc main_arg7)) :=
  (W6_of_ne m ρ c main_arg7 (by decide)).trans (W5_arg7 m ρ c)
theorem W7_arg7 (c : Dev nD) : W7 m ρ c (Proc.devRef .tc main_arg7) = (m ((c : Thread nD τ).loc main_arg7)) :=
  (W7_of_ne m ρ c main_arg7 (by decide)).trans (W6_arg7 m ρ c)
theorem W1_arg8 (c : Dev nD) : W1 m ρ c (Proc.devRef .tc main_arg8) = (m ((c : Thread nD τ).loc main_arg8)) :=
  (by skip_host : W1 m ρ c (Proc.devRef .tc main_arg8) = W0 m ρ c (Proc.devRef .tc main_arg8)).trans (W0_arg8 m ρ c)
theorem W2_arg8 (c : Dev nD) : W2 m ρ c (Proc.devRef .tc main_arg8) = (m ((c : Thread nD τ).loc main_arg8)) :=
  (by skip_host : W2 m ρ c (Proc.devRef .tc main_arg8) = W1 m ρ c (Proc.devRef .tc main_arg8)).trans (W1_arg8 m ρ c)
theorem W1_arg9 (c : Dev nD) : W1 m ρ c (Proc.devRef .tc main_arg9) = (m ((c : Thread nD τ).loc main_arg9)) :=
  (by skip_host : W1 m ρ c (Proc.devRef .tc main_arg9) = W0 m ρ c (Proc.devRef .tc main_arg9)).trans (W0_arg9 m ρ c)
theorem W2_arg9 (c : Dev nD) : W2 m ρ c (Proc.devRef .tc main_arg9) = (m ((c : Thread nD τ).loc main_arg9)) :=
  (by skip_host : W2 m ρ c (Proc.devRef .tc main_arg9) = W1 m ρ c (Proc.devRef .tc main_arg9)).trans (W1_arg9 m ρ c)
theorem W1_arg10 (c : Dev nD) : W1 m ρ c (Proc.devRef .tc main_arg10) = (m ((c : Thread nD τ).loc main_arg10)) :=
  (by skip_host : W1 m ρ c (Proc.devRef .tc main_arg10) = W0 m ρ c (Proc.devRef .tc main_arg10)).trans (W0_arg10 m ρ c)
theorem W2_arg10 (c : Dev nD) : W2 m ρ c (Proc.devRef .tc main_arg10) = (m ((c : Thread nD τ).loc main_arg10)) :=
  (by skip_host : W2 m ρ c (Proc.devRef .tc main_arg10) = W1 m ρ c (Proc.devRef .tc main_arg10)).trans (W1_arg10 m ρ c)
theorem W1_arg11 (c : Dev nD) : W1 m ρ c (Proc.devRef .tc main_arg11) = (m ((c : Thread nD τ).loc main_arg11)) :=
  (by skip_host : W1 m ρ c (Proc.devRef .tc main_arg11) = W0 m ρ c (Proc.devRef .tc main_arg11)).trans (W0_arg11 m ρ c)
theorem W2_arg11 (c : Dev nD) : W2 m ρ c (Proc.devRef .tc main_arg11) = (m ((c : Thread nD τ).loc main_arg11)) :=
  (by skip_host : W2 m ρ c (Proc.devRef .tc main_arg11) = W1 m ρ c (Proc.devRef .tc main_arg11)).trans (W1_arg11 m ρ c)

/-! ### After the first stretch: the edge list with its self loops, the degrees -/
theorem W1_v3 (c : Dev nD) : W1 m ρ c (Proc.devRef .tc main_v3) = kSrc (m ((c : Thread nD τ).loc main_arg1)) :=
  h0_v3 (W0 m ρ c)
theorem W1_v6 (c : Dev nD) : W1 m ρ c (Proc.devRef .tc main_v6) = kDst (m ((c : Thread nD τ).loc main_arg1)) :=
  h0_v6 (W0 m ρ c)
theorem W1_v8 (c : Dev nD) : W1 m ρ c (Proc.devRef .tc main_v8) = kEw (m ((c : Thread nD τ).loc main_arg2)) :=
  h0_v8 (W0 m ρ c)
theorem W1_v13 (c : Dev nD) : W1 m ρ c (Proc.devRef .tc main_v13) = cmpf .ogt (kDeg (m ((c : Thread nD τ).loc main_arg1)) (m ((c : Thread nD τ).loc main_arg2))) (broadcastInDim S65536 ![] bcast_S_S65536 (constant (F := Ideal) S_ .f32 0x00000000#32)) :=
  h0_v13 (W0 m ρ c)
theorem W1_v14 (c : Dev nD) : W1 m ρ c (Proc.devRef .tc main_v14) = Host.rsqrt (kDeg (m ((c : Thread nD τ).loc main_arg1)) (m ((c : Thread nD τ).loc main_arg2))) :=
  h0_v14 (W0 m ρ c)
theorem W1_cst2 (c : Dev nD) : W1 m ρ c (Proc.devRef .tc main_cst_2) = (constant (F := Ideal) S_ .f32 0x00000000#32) :=
  h0_cst2 (W0 m ρ c)
theorem W2_v3 (c : Dev nD) : W2 m ρ c (Proc.devRef .tc main_v3) = kSrc (m ((c : Thread nD τ).loc main_arg1)) :=
  (by skip_host : W2 m ρ c (Proc.devRef .tc main_v3) = W1 m ρ c (Proc.devRef .tc main_v3)).trans (W1_v3 m ρ c)
theorem W3_v3 (c : Dev nD) : W3 m ρ c (Proc.devRef .tc main_v3) = kSrc (m ((c : Thread nD τ).loc main_arg1)) :=
  (by skip_host : W3 m ρ c (Proc.devRef .tc main_v3) = W2 m ρ c (Proc.devRef .tc main_v3)).trans (W2_v3 m ρ c)
theorem W4_v3 (c : Dev nD) : W4 m ρ c (Proc.devRef .tc main_v3) = kSrc (m ((c : Thread nD τ).loc main_arg1)) :=
  (W4_of_ne m ρ c main_v3 (by decide)).trans (W3_v3 m ρ c)
theorem W5_v3 (c : Dev nD) : W5 m ρ c (Proc.devRef .tc main_v3) = kSrc (m ((c : Thread nD τ).loc main_arg1)) :=
  (by skip_host : W5 m ρ c (Proc.devRef .tc main_v3) = W4 m ρ c (Proc.devRef .tc main_v3)).trans (W4_v3 m ρ c)
theorem W6_v3 (c : Dev nD) : W6 m ρ c (Proc.devRef .tc main_v3) = kSrc (m ((c : Thread nD τ).loc main_arg1)) :=
  (W6_of_ne m ρ c main_v3 (by decide)).trans (W5_v3 m ρ c)
theorem W7_v3 (c : Dev nD) : W7 m ρ c (Proc.devRef .tc main_v3) = kSrc (m ((c : Thread nD τ).loc main_arg1)) :=
  (W7_of_ne m ρ c main_v3 (by decide)).trans (W6_v3 m ρ c)
theorem W2_v6 (c : Dev nD) : W2 m ρ c (Proc.devRef .tc main_v6) = kDst (m ((c : Thread nD τ).loc main_arg1)) :=
  (by skip_host : W2 m ρ c (Proc.devRef .tc main_v6) = W1 m ρ c (Proc.devRef .tc main_v6)).trans (W1_v6 m ρ c)
theorem W3_v6 (c : Dev nD) : W3 m ρ c (Proc.devRef .tc main_v6) = kDst (m ((c : Thread nD τ).loc main_arg1)) :=
  (by skip_host : W3 m ρ c (Proc.devRef .tc main_v6) = W2 m ρ c (Proc.devRef .tc main_v6)).trans (W2_v6 m ρ c)
theorem W4_v6 (c : Dev nD) : W4 m ρ c (Proc.devRef .tc main_v6) = kDst (m ((c : Thread nD τ).loc main_arg1)) :=
  (W4_of_ne m ρ c main_v6 (by decide)).trans (W3_v6 m ρ c)
theorem W5_v6 (c : Dev nD) : W5 m ρ c (Proc.devRef .tc main_v6) = kDst (m ((c : Thread nD τ).loc main_arg1)) :=
  (by skip_host : W5 m ρ c (Proc.devRef .tc main_v6) = W4 m ρ c (Proc.devRef .tc main_v6)).trans (W4_v6 m ρ c)
theorem W6_v6 (c : Dev nD) : W6 m ρ c (Proc.devRef .tc main_v6) = kDst (m ((c : Thread nD τ).loc main_arg1)) :=
  (W6_of_ne m ρ c main_v6 (by decide)).trans (W5_v6 m ρ c)
theorem W7_v6 (c : Dev nD) : W7 m ρ c (Proc.devRef .tc main_v6) = kDst (m ((c : Thread nD τ).loc main_arg1)) :=
  (W7_of_ne m ρ c main_v6 (by decide)).trans (W6_v6 m ρ c)
theorem W2_v8 (c : Dev nD) : W2 m ρ c (Proc.devRef .tc main_v8) = kEw (m ((c : Thread nD τ).loc main_arg2)) :=
  (by skip_host : W2 m ρ c (Proc.devRef .tc main_v8) = W1 m ρ c (Proc.devRef .tc main_v8)).trans (W1_v8 m ρ c)

/-! ### After the second stretch: `1/√deg` -/
theorem W2_v15 (c : Dev nD) : W2 m ρ c (Proc.devRef .tc main_v15) = kDinv (m ((c : Thread nD τ).loc main_arg1)) (m ((c : Thread nD τ).loc main_arg2)) :=
  (h01_v15 (W1 m ρ c)).trans (by rw [W1_v13 m ρ c, W1_v14 m ρ c, W1_cst2 m ρ c]; rfl)

/-! ### After the third stretch: the edges' normalisation, the weights as the launches take them, the bias row, the masks -/
theorem W3_v31 (c : Dev nD) : W3 m ρ c (Proc.devRef .tc main_v31) = kNorm (m ((c : Thread nD τ).loc main_arg1)) (m ((c : Thread nD τ).loc main_arg2)) :=
  (h02_v31 (W2 m ρ c)).trans (by rw [W2_v15 m ρ c, W2_v3 m ρ c, W2_v8 m ρ c, W2_v6 m ρ c]; rfl)
theorem W3_v33 (c : Dev nD) : W3 m ρ c (Proc.devRef .tc main_v33) = kWt (m ((c : Thread nD τ).loc main_arg4)) :=
  (h02_v33 (W2 m ρ c)).trans (by rw [W2_arg4 m ρ c])
theorem W3_v35 (c : Dev nD) : W3 m ρ c (Proc.devRef .tc main_v35) = kWt (m ((c : Thread nD τ).loc main_arg6)) :=
  (h02_v35 (W2 m ρ c)).trans (by rw [W2_arg6 m ρ c])
theorem W3_v37 (c : Dev nD) : W3 m ρ c (Proc.devRef .tc main_v37) = kWg (m ((c : Thread nD τ).loc main_arg8)) :=
  (h02_v37 (W2 m ρ c)).trans (by rw [W2_arg8 m ρ c])
theorem W3_v39 (c : Dev nD) : W3 m ρ c (Proc.devRef .tc main_v39) = kWg (m ((c : Thread nD τ).loc main_arg9)) :=
  (h02_v39 (W2 m ρ c)).trans (by rw [W2_arg9 m ρ c])
theorem W3_v41 (c : Dev nD) : W3 m ρ c (Proc.devRef .tc main_v41) = kBias (m ((c : Thread nD τ).loc main_arg10)) (m ((c : Thread nD τ).loc main_arg11)) :=
  (h02_v41 (W2 m ρ c)).trans (by rw [W2_arg10 m ρ c, W2_arg11 m ρ c])
theorem W3_v42 (c : Dev nD) : W3 m ρ c (Proc.devRef .tc main_v42) = kMask (m ((c : Thread nD τ).loc main_arg3)) :=
  (h02_v42 (W2 m ρ c)).trans (by rw [W2_arg3 m ρ c])
theorem W3_v43 (c : Dev nD) : W3 m ρ c (Proc.devRef .tc main_v43) = kOnes :=
  h02_v43 (W2 m ρ c)
theorem W4_v31 (c : Dev nD) : W4 m ρ c (Proc.devRef .tc main_v31) = kNorm (m ((c : Thread nD τ).loc main_arg1)) (m ((c : Thread nD τ).loc main_arg2)) :=
  (W4_of_ne m ρ c main_v31 (by decide)).trans (W3_v31 m ρ c)
theorem W5_v31 (c : Dev nD) : W5 m ρ c (Proc.devRef .tc main_v31) = kNorm (m ((c : Thread nD τ).loc main_arg1)) (m ((c : Thread nD τ).loc main_arg2)) :=
  (by skip_host : W5 m ρ c (Proc.devRef .tc main_v31) = W4 m ρ c (Proc.devRef .tc main_v31)).trans (W4_v31 m ρ c)
theorem W6_v31 (c : Dev nD) : W6 m ρ c (Proc.devRef .tc main_v31) = kNorm (m ((c : Thread nD τ).loc main_arg1)) (m ((c : Thread nD τ).loc main_arg2)) :=
  (W6_of_ne m ρ c main_v31 (by decide)).trans (W5_v31 m ρ c)
theorem W7_v31 (c : Dev nD) : W7 m ρ c (Proc.devRef .tc main_v31) = kNorm (m ((c : Thread nD τ).loc main_arg1)) (m ((c : Thread nD τ).loc main_arg2)) :=
  (W7_of_ne m ρ c main_v31 (by decide)).trans (W6_v31 m ρ c)
theorem W4_v35 (c : Dev nD) : W4 m ρ c (Proc.devRef .tc main_v35) = kWt (m ((c : Thread nD τ).loc main_arg6)) :=
  (W4_of_ne m ρ c main_v35 (by decide)).trans (W3_v35 m ρ c)
theorem W5_v35 (c : Dev nD) : W5 m ρ c (Proc.devRef .tc main_v35) = kWt (m ((c : Thread nD τ).loc main_arg6)) :=
  (by skip_host : W5 m ρ c (Proc.devRef .tc main_v35) = W4 m ρ c (Proc.devRef .tc main_v35)).trans (W4_v35 m ρ c)
theorem W6_v35 (c : Dev nD) : W6 m ρ c (Proc.devRef .tc main_v35) = kWt (m ((c : Thread nD τ).loc main_arg6)) :=
  (W6_of_ne m ρ c main_v35 (by decide)).trans (W5_v35 m ρ c)
theorem W4_v37 (c : Dev nD) : W4 m ρ c (Proc.devRef .tc main_v37) = kWg (m ((c : Thread nD τ).loc main_arg8)) :=
  (W4_of_ne m ρ c main_v37 (by decide)).trans (W3_v37 m ρ c)
theorem W5_v37 (c : Dev nD) : W5 m ρ c (Proc.devRef .tc main_v37) = kWg (m ((c : Thread nD τ).loc main_arg8)) :=
  (by skip_host : W5 m ρ c (Proc.devRef .tc main_v37) = W4 m ρ c (Proc.devRef .tc main_v37)).trans (W4_v37 m ρ c)
theorem W6_v37 (c : Dev nD) : W6 m ρ c (Proc.devRef .tc main_v37) = kWg (m ((c : Thread nD τ).loc main_arg8)) :=
  ((W6_arr m ρ c 2).trans (((dat1 (V5 m ρ) c).arrAt_in 2 rfl _).trans (A_eq1 (V5 m ρ) c 2))).trans (W5_v37 m ρ c)
theorem W7_v37 (c : Dev nD) : W7 m ρ c (Proc.devRef .tc main_v37) = kWg (m ((c : Thread nD τ).loc main_arg8)) :=
  (W7_of_ne m ρ c main_v37 (by decide)).trans (W6_v37 m ρ c)
theorem W8_v37 (c : Dev nD) : W8 m ρ c (Proc.devRef .tc main_v37) = kWg (m ((c : Thread nD τ).loc main_arg8)) :=
  (by skip_host : W8 m ρ c (Proc.devRef .tc main_v37) = W7 m ρ c (Proc.devRef .tc main_v37)).trans (W7_v37 m ρ c)
theorem W4_v39 (c : Dev nD) : W4 m ρ c (Proc.devRef .tc main_v39) = kWg (m ((c : Thread nD τ).loc main_arg9)) :=
  (W4_of_ne m ρ c main_v39 (by decide)).trans (W3_v39 m ρ c)
theorem W5_v39 (c : Dev nD) : W5 m ρ c (Proc.devRef .tc main_v39) = kWg (m ((c : Thread nD τ).loc main_arg9)) :=
  (by skip_host : W5 m ρ c (Proc.devRef .tc main_v39) = W4 m ρ c (Proc.devRef .tc main_v39)).trans (W4_v39 m ρ c)
theorem W6_v39 (c : Dev nD) : W6 m ρ c (Proc.devRef .tc main_v39) = kWg (m ((c : Thread nD τ).loc main_arg9)) :=
  ((W6_arr m ρ c 3).trans (((dat1 (V5 m ρ) c).arrAt_in 3 rfl _).trans (A_eq1 (V5 m ρ) c 3))).trans (W5_v39 m ρ c)
theorem W7_v39 (c : Dev nD) : W7 m ρ c (Proc.devRef .tc main_v39) = kWg (m ((c : Thread nD τ).loc main_arg9)) :=
  (W7_of_ne m ρ c main_v39 (by decide)).trans (W6_v39 m ρ c)
theorem W8_v39 (c : Dev nD) : W8 m ρ c (Proc.devRef .tc main_v39) = kWg (m ((c : Thread nD τ).loc main_arg9)) :=
  (by skip_host : W8 m ρ c (Proc.devRef .tc main_v39) = W7 m ρ c (Proc.devRef .tc main_v39)).trans (W7_v39 m ρ c)
theorem W4_v41 (c : Dev nD) : W4 m ρ c (Proc.devRef .tc main_v41) = kBias (m ((c : Thread nD τ).loc main_arg10)) (m ((c : Thread nD τ).loc main_arg11)) :=
  (W4_of_ne m ρ c main_v41 (by decide)).trans (W3_v41 m ρ c)
theorem W5_v41 (c : Dev nD) : W5 m ρ c (Proc.devRef .tc main_v41) = kBias (m ((c : Thread nD τ).loc main_arg10)) (m ((c : Thread nD τ).loc main_arg11)) :=
  (by skip_host : W5 m ρ c (Proc.devRef .tc main_v41) = W4 m ρ c (Proc.devRef .tc main_v41)).trans (W4_v41 m ρ c)
theorem W6_v41 (c : Dev nD) : W6 m ρ c (Proc.devRef .tc main_v41) = kBias (m ((c : Thread nD τ).loc main_arg10)) (m ((c : Thread nD τ).loc main_arg11)) :=
  ((W6_arr m ρ c 4).trans (((dat1 (V5 m ρ) c).arrAt_in 4 rfl _).trans (A_eq1 (V5 m ρ) c 4))).trans (W5_v41 m ρ c)
theorem W7_v41 (c : Dev nD) : W7 m ρ c (Proc.devRef .tc main_v41) = kBias (m ((c : Thread nD τ).loc main_arg10)) (m ((c : Thread nD τ).loc main_arg11)) :=
  (W7_of_ne m ρ c main_v41 (by decide)).trans (W6_v41 m ρ c)
theorem W8_v41 (c : Dev nD) : W8 m ρ c (Proc.devRef .tc main_v41) = kBias (m ((c : Thread nD τ).loc main_arg10)) (m ((c : Thread nD τ).loc main_arg11)) :=
  (by skip_host : W8 m ρ c (Proc.devRef .tc main_v41) = W7 m ρ c (Proc.devRef .tc main_v41)).trans (W7_v41 m ρ c)
theorem W4_v42 (c : Dev nD) : W4 m ρ c (Proc.devRef .tc main_v42) = kMask (m ((c : Thread nD τ).loc main_arg3)) :=
  (W4_of_ne m ρ c main_v42 (by decide)).trans (W3_v42 m ρ c)
theorem W5_v42 (c : Dev nD) : W5 m ρ c (Proc.devRef .tc main_v42) = kMask (m ((c : Thread nD τ).loc main_arg3)) :=
  (by skip_host : W5 m ρ c (Proc.devRef .tc main_v42) = W4 m ρ c (Proc.devRef .tc main_v42)).trans (W4_v42 m ρ c)
theorem W6_v42 (c : Dev nD) : W6 m ρ c (Proc.devRef .tc main_v42) = kMask (m ((c : Thread nD τ).loc main_arg3)) :=
  (W6_of_ne m ρ c main_v42 (by decide)).trans (W5_v42 m ρ c)
theorem W7_v42 (c : Dev nD) : W7 m ρ c (Proc.devRef .tc main_v42) = kMask (m ((c : Thread nD τ).loc main_arg3)) :=
  (W7_of_ne m ρ c main_v42 (by decide)).trans (W6_v42 m ρ c)
theorem W8_v42 (c : Dev nD) : W8 m ρ c (Proc.devRef .tc main_v42) = kMask (m ((c : Thread nD τ).loc main_arg3)) :=
  (by skip_host : W8 m ρ c (Proc.devRef .tc main_v42) = W7 m ρ c (Proc.devRef .tc main_v42)).trans (W7_v42 m ρ c)
theorem W4_v43 (c : Dev nD) : W4 m ρ c (Proc.devRef .tc main_v43) = kOnes :=
  (W4_of_ne m ρ c main_v43 (by decide)).trans (W3_v43 m ρ c)
theorem W5_v43 (c : Dev nD) : W5 m ρ c (Proc.devRef .tc main_v43) = kOnes :=
  (by skip_host : W5 m ρ c (Proc.devRef .tc main_v43) = W4 m ρ c (Proc.devRef .tc main_v43)).trans (W4_v43 m ρ c)

/-! ### The first projection's launch -/
theorem W4_v44 (c : Dev nD) : W4 m ρ c (Proc.devRef .tc main_v44) = (kH1 (m ((c : Thread nD τ).loc main_arg0)) (m ((c : Thread nD τ).loc main_arg4))) :=
  (W4_arr m ρ c 2).trans ((mm0_final (V3 m ρ) c).trans (by
    unfold kH1
    show Cert.Spec.mm (W3 m ρ c (Proc.devRef .tc main_arg0)) (W3 m ρ c (Proc.devRef .tc main_v33)) = _
    rw [W3_arg0 m ρ c, W3_v33 m ρ c]))

/-! ### The first graph layer -/
theorem W5_v61 (c : Dev nD) : W5 m ρ c (Proc.devRef .tc main_v61) = kAgg (kH1 (m ((c : Thread nD τ).loc main_arg0)) (m ((c : Thread nD τ).loc main_arg4))) (m ((c : Thread nD τ).loc main_arg1)) (m ((c : Thread nD τ).loc main_arg2)) (m ((c : Thread nD τ).loc main_arg5)) :=
  (h1_v61 (W4 m ρ c)).trans (by
    unfold kAgg
    rw [W4_v6 m ρ c, W4_v44 m ρ c, W4_v3 m ρ c, W4_v31 m ρ c, W4_arg5 m ρ c])

/-! ### The first cell's launch -/
theorem W6_v62 (c : Dev nD) : W6 m ρ c (Proc.devRef .tc main_v62) = (kS1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) :=
  (W6_arr m ρ c 6).trans ((lstm1_final (V5 m ρ) c).trans (by
    unfold kS1
    show Cert.Spec.lstm (W5 m ρ c (Proc.devRef .tc main_arg0)) (W5 m ρ c (Proc.devRef .tc main_v61)) (W5 m ρ c (Proc.devRef .tc main_v37)) (W5 m ρ c (Proc.devRef .tc main_v39))
      (fun g => W5 m ρ c (Proc.devRef .tc main_v41) (ix2 (0 : Fin 1) g)) (fun p => W5 m ρ c (Proc.devRef .tc main_v43) (ix2 p (0 : Fin 1))) = _
    rw [W5_arg0 m ρ c, W5_v61 m ρ c, W5_v37 m ρ c, W5_v39 m ρ c, W5_v41 m ρ c, W5_v43 m ρ c]))
theorem W7_v62 (c : Dev nD) : W7 m ρ c (Proc.devRef .tc main_v62) = (kS1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) :=
  ((W7_arr m ρ c 0).trans (((dat2 (V6 m ρ) c).arrAt_in 0 rfl _).trans (A_eq2 (V6 m ρ) c 0))).trans (W6_v62 m ρ c)
theorem W8_v62 (c : Dev nD) : W8 m ρ c (Proc.devRef .tc main_v62) = (kS1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) :=
  (by skip_host : W8 m ρ c (Proc.devRef .tc main_v62) = W7 m ρ c (Proc.devRef .tc main_v62)).trans (W7_v62 m ρ c)

/-! ### The second projection's launch -/
theorem W7_v63 (c : Dev nD) : W7 m ρ c (Proc.devRef .tc main_v63) = (Cert.Spec.mm (kS1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) (kWt (m ((c : Thread nD τ).loc main_arg6)))) :=
  (W7_arr m ρ c 2).trans ((mm2_final (V6 m ρ) c).trans (by
    show Cert.Spec.mm (W6 m ρ c (Proc.devRef .tc main_v62)) (W6 m ρ c (Proc.devRef .tc main_v35)) = _
    rw [W6_v62 m ρ c, W6_v35 m ρ c]))

/-! ### The second graph layer -/
theorem W8_v80 (c : Dev nD) : W8 m ρ c (Proc.devRef .tc main_v80) = kAgg (Cert.Spec.mm (kS1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) (kWt (m ((c : Thread nD τ).loc main_arg6)))) (m ((c : Thread nD τ).loc main_arg1)) (m ((c : Thread nD τ).loc main_arg2)) (m ((c : Thread nD τ).loc main_arg7)) :=
  (h3_v80 (W7 m ρ c)).trans (by
    unfold kAgg
    rw [W7_v6 m ρ c, W7_v63 m ρ c, W7_v3 m ρ c, W7_v31 m ρ c, W7_arg7 m ρ c])

/-! ### The second cell's launch -/
theorem W9_v81 (c : Dev nD) : W9 m ρ c (Proc.devRef .tc main_v81) = (kS2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W9_arr m ρ c 6).trans ((lstm3_final (V8 m ρ) c).trans (by
    unfold kS2
    show Cert.Spec.lstm (W8 m ρ c (Proc.devRef .tc main_v62)) (W8 m ρ c (Proc.devRef .tc main_v80)) (W8 m ρ c (Proc.devRef .tc main_v37)) (W8 m ρ c (Proc.devRef .tc main_v39))
      (fun g => W8 m ρ c (Proc.devRef .tc main_v41) (ix2 (0 : Fin 1) g)) (fun p => W8 m ρ c (Proc.devRef .tc main_v42) (ix2 p (0 : Fin 1))) = _
    rw [W8_v62 m ρ c, W8_v80 m ρ c, W8_v37 m ρ c, W8_v39 m ρ c, W8_v41 m ρ c, W8_v42 m ρ c]))

/-! ### The result -/

/-- The result buffer's contents after the last host stretch, walked back through the four launches and the host
    stretches between them to the launch memory: the program's value `kOut` of the argument arrays. -/
theorem kernel_value (c : Dev nD) :
    W10 (F := Ideal) m ρ c (Proc.devRef .tc main_v82)
      = kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) :=
  (h4_v82 (W9 m ρ c)).trans (by
    unfold kOut
    rw [W9_v81 m ρ c])

end Walk

end Cert.KernelIdeal.KV

end
-- ==== Proof.RefSegs.lean ====
/-
  The reference program's host operations cut into six consecutive stretches, so that its run can be read back stretch by
  stretch: each stretch's results are read as functions of the few buffers it takes over from the stretches before it,
  and no term is ever written out in full (the whole result written as one term of the arguments repeats the first
  cell's term inside the second's many times over).
-/
import proofs.«156547_j23003844837986_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge arrays with their self loops, the first projection and the first graph layer (up to the layer's output). -/
abbrev opsA : List (HloOp τ sig (Elt F)) :=
  [ nullary main_v0 (iotaInDim S65536 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S327680 0 [⟨S262144, a⟩, ⟨S65536, b⟩] concatenates_S262144_S65536_S327680_d0) : (⟨S262144, .i32⟩ : BufTy).Contents (Elt F) → (⟨S65536, .i32⟩ : BufTy).Contents (Elt F) → (⟨S327680, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S327680 0 [⟨S262144, a⟩, ⟨S65536, b⟩] concatenates_S262144_S65536_S327680_d0) : (⟨S262144, .i32⟩ : BufTy).Contents (Elt F) → (⟨S65536, .i32⟩ : BufTy).Contents (Elt F) → (⟨S327680, .i32⟩ : BufTy).Contents (Elt F)),
    nullary main_cst (constant S_ .f32 0x3F800000#32),
    unary main_cst main_v7 (broadcastInDim S65536 ![] bcast_S_S65536 : (⟨S_, .f32⟩ : BufTy).Contents (Elt F) → (⟨S65536, .f32⟩ : BufTy).Contents (Elt F)),
    binary main_arg2 main_v7 main_v8 ((fun a b => concatenate S327680 0 [⟨S262144, a⟩, ⟨S65536, b⟩] concatenates_S262144_S65536_S327680_d0) : (⟨S262144, .f32⟩ : BufTy).Contents (Elt F) → (⟨S65536, .f32⟩ : BufTy).Contents (Elt F) → (⟨S327680, .f32⟩ : BufTy).Contents (Elt F)),
    unary main_arg4 main_v9 ((transpose S256x256 [1, 0] · transposes_S256x256_S256x256_1_0) : (⟨S256x256, .f32⟩ : BufTy).Contents (Elt F) → (⟨S256x256, .f32⟩ : BufTy).Contents (Elt F)),
    binary main_arg0 main_v9 main_v10 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    nullary main_cst_0 (constant S_ .f32 0x00000000#32),
    unary main_cst_0 main_v11 (broadcastInDim S65536 ![] bcast_S_S65536 : (⟨S_, .f32⟩ : BufTy).Contents (Elt F) → (⟨S65536, .f32⟩ : BufTy).Contents (Elt F)),
    unary main_v6 main_v12 (broadcastInDim S327680x1 ![0] bcast_S327680_S327680x1_0 : (⟨S327680, .i32⟩ : BufTy).Contents (Elt F) → (⟨S327680x1, .i32⟩ : BufTy).Contents (Elt F)),
    ternary main_v11 main_v12 main_v8 main_v13 ((fun x i u => Host.scatterAdd scatter_S65536_S327680x1_S327680_n_0_0_1 x i u) : (⟨S65536, .f32⟩ : BufTy).Contents (Elt F) → (⟨S327680x1, .i32⟩ : BufTy).Contents (Elt F) → (⟨S327680, .f32⟩ : BufTy).Contents (Elt F) → (⟨S65536, .f32⟩ : BufTy).Contents (Elt F)),
    nullary main_cst_1 (constant S_ .f32 0x00000000#32),
    unary main_cst_1 main_v14 (broadcastInDim S65536 ![] bcast_S_S65536 : (⟨S_, .f32⟩ : BufTy).Contents (Elt F) → (⟨S65536, .f32⟩ : BufTy).Contents (Elt F)),
    binary main_v13 main_v14 main_v15 (cmpf .ogt : (⟨S65536, .f32⟩ : BufTy).Contents (Elt F) → (⟨S65536, .f32⟩ : BufTy).Contents (Elt F) → (⟨S65536, .i1⟩ : BufTy).Contents (Elt F)),
    unary main_v13 main_v16 (Host.rsqrt : (⟨S65536, .f32⟩ : BufTy).Contents (Elt F) → (⟨S65536, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v15) (TRef.of (T := ⟨S65536, .f32⟩) main_v16) (TRef.of (T := ⟨S65536, .f32⟩) main_call0_v1) (TRef.of (T := ⟨S65536, .f32⟩) main_v17) select,
    nullary main_c (constantI S_ 32 0#32),
    unary main_c main_v18 (broadcastInDim S327680 ![] bcast_S_S327680 : (⟨S_, .i32⟩ : BufTy).Contents (Elt F) → (⟨S327680, .i32⟩ : BufTy).Contents (Elt F)),
    binary main_v3 main_v18 main_v19 (cmpi .slt : (⟨S327680, .i32⟩ : BufTy).Contents (Elt F) → (⟨S327680, .i32⟩ : BufTy).Contents (Elt F) → (⟨S327680, .i1⟩ : BufTy).Contents (Elt F)),
    nullary main_c_3 (constantI S_ 32 65536#32),
    unary main_c_3 main_v20 (broadcastInDim S327680 ![] bcast_S_S327680 : (⟨S_, .i32⟩ : BufTy).Contents (Elt F) → (⟨S327680, .i32⟩ : BufTy).Contents (Elt F)),
    binary main_v3 main_v20 main_v21 (addi : (⟨S327680, .i32⟩ : BufTy).Contents (Elt F) → (⟨S327680, .i32⟩ : BufTy).Contents (Elt F) → (⟨S327680, .i32⟩ : BufTy).Contents (Elt F)),
    ternary main_v19 main_v21 main_v3 main_v22 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v22 main_v23 (broadcastInDim S327680x1 ![0] bcast_S327680_S327680x1_0 : (⟨S327680, .i32⟩ : BufTy).Contents (Elt F) → (⟨S327680x1, .i32⟩ : BufTy).Contents (Elt F)),
    binary main_v17 main_v23 main_v24 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v24 main_v8 main_v25 (mulf : (⟨S327680, .f32⟩ : BufTy).Contents (Elt F) → (⟨S327680, .f32⟩ : BufTy).Contents (Elt F) → (⟨S327680, .f32⟩ : BufTy).Contents (Elt F)),
    nullary main_c_4 (constantI S_ 32 0#32),
    unary main_c_4 main_v26 (broadcastInDim S327680 ![] bcast_S_S327680 : (⟨S_, .i32⟩ : BufTy).Contents (Elt F) → (⟨S327680, .i32⟩ : BufTy).Contents (Elt F)),
    binary main_v6 main_v26 main_v27 (cmpi .slt : (⟨S327680, .i32⟩ : BufTy).Contents (Elt F) → (⟨S327680, .i32⟩ : BufTy).Contents (Elt F) → (⟨S327680, .i1⟩ : BufTy).Contents (Elt F)),
    nullary main_c_5 (constantI S_ 32 65536#32),
    unary main_c_5 main_v28 (broadcastInDim S327680 ![] bcast_S_S327680 : (⟨S_, .i32⟩ : BufTy).Contents (Elt F) → (⟨S327680, .i32⟩ : BufTy).Contents (Elt F)),
    binary main_v6 main_v28 main_v29 (addi : (⟨S327680, .i32⟩ : BufTy).Contents (Elt F) → (⟨S327680, .i32⟩ : BufTy).Contents (Elt F) → (⟨S327680, .i32⟩ : BufTy).Contents (Elt F)),
    ternary main_v27 main_v29 main_v6 main_v30 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v30 main_v31 (broadcastInDim S327680x1 ![0] bcast_S327680_S327680x1_0 : (⟨S327680, .i32⟩ : BufTy).Contents (Elt F) → (⟨S327680x1, .i32⟩ : BufTy).Contents (Elt F)),
    binary main_v17 main_v31 main_v32 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v25 main_v32 main_v33 (mulf : (⟨S327680, .f32⟩ : BufTy).Contents (Elt F) → (⟨S327680, .f32⟩ : BufTy).Contents (Elt F) → (⟨S327680, .f32⟩ : BufTy).Contents (Elt F)),
    nullary main_c_6 (constantI S_ 32 0#32),
    unary main_c_6 main_v34 (broadcastInDim S327680 ![] bcast_S_S327680 : (⟨S_, .i32⟩ : BufTy).Contents (Elt F) → (⟨S327680, .i32⟩ : BufTy).Contents (Elt F)),
    binary main_v3 main_v34 main_v35 (cmpi .slt : (⟨S327680, .i32⟩ : BufTy).Contents (Elt F) → (⟨S327680, .i32⟩ : BufTy).Contents (Elt F) → (⟨S327680, .i1⟩ : BufTy).Contents (Elt F)),
    nullary main_c_7 (constantI S_ 32 65536#32),
    unary main_c_7 main_v36 (broadcastInDim S327680 ![] bcast_S_S327680 : (⟨S_, .i32⟩ : BufTy).Contents (Elt F) → (⟨S327680, .i32⟩ : BufTy).Contents (Elt F)),
    binary main_v3 main_v36 main_v37 (addi : (⟨S327680, .i32⟩ : BufTy).Contents (Elt F) → (⟨S327680, .i32⟩ : BufTy).Contents (Elt F) → (⟨S327680, .i32⟩ : BufTy).Contents (Elt F)),
    ternary main_v35 main_v37 main_v3 main_v38 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v38 main_v39 (broadcastInDim S327680x1 ![0] bcast_S327680_S327680x1_0 : (⟨S327680, .i32⟩ : BufTy).Contents (Elt F) → (⟨S327680x1, .i32⟩ : BufTy).Contents (Elt F)),
    binary main_v10 main_v39 main_v40 ((fun x i => Host.gather gather_S65536x256_S327680x1_S327680x256_1_0_n_n_0_1_1256 x i) : (⟨S65536x256, .f32⟩ : BufTy).Contents (Elt F) → (⟨S327680x1, .i32⟩ : BufTy).Contents (Elt F) → (⟨S327680x256, .f32⟩ : BufTy).Contents (Elt F)),
    unary main_v33 main_v41 (broadcastInDim S327680x1 ![0] bcast_S327680_S327680x1_0 : (⟨S327680, .f32⟩ : BufTy).Contents (Elt F) → (⟨S327680x1, .f32⟩ : BufTy).Contents (Elt F)),
    unary main_v41 main_v42 (broadcastInDim S327680x256 ![0, 1] bcast_S327680x1_S327680x256_0_1 : (⟨S327680x1, .f32⟩ : BufTy).Contents (Elt F) → (⟨S327680x256, .f32⟩ : BufTy).Contents (Elt F)),
    binary main_v40 main_v42 main_v43 (mulf : (⟨S327680x256, .f32⟩ : BufTy).Contents (Elt F) → (⟨S327680x256, .f32⟩ : BufTy).Contents (Elt F) → (⟨S327680x256, .f32⟩ : BufTy).Contents (Elt F)),
    nullary main_cst_8 (constant S_ .f32 0x00000000#32),
    unary main_cst_8 main_v44 (broadcastInDim S65536x256 ![] bcast_S_S65536x256 : (⟨S_, .f32⟩ : BufTy).Contents (Elt F) → (⟨S65536x256, .f32⟩ : BufTy).Contents (Elt F)),
    unary main_v6 main_v45 (broadcastInDim S327680x1 ![0] bcast_S327680_S327680x1_0 : (⟨S327680, .i32⟩ : BufTy).Contents (Elt F) → (⟨S327680x1, .i32⟩ : BufTy).Contents (Elt F)),
    ternary main_v44 main_v45 main_v43 main_v46 ((fun x i u => Host.scatterAdd scatter_S65536x256_S327680x1_S327680x256_1_0_0_1 x i u) : (⟨S65536x256, .f32⟩ : BufTy).Contents (Elt F) → (⟨S327680x1, .i32⟩ : BufTy).Contents (Elt F) → (⟨S327680x256, .f32⟩ : BufTy).Contents (Elt F) → (⟨S65536x256, .f32⟩ : BufTy).Contents (Elt F)),
    unary main_arg5 main_v47 (broadcastInDim S1x256 ![1] bcast_S256_S1x256_1 : (⟨S256, .f32⟩ : BufTy).Contents (Elt F) → (⟨S1x256, .f32⟩ : BufTy).Contents (Elt F)),
    unary main_v47 main_v48 (broadcastInDim S65536x256 ![0, 1] bcast_S1x256_S65536x256_0_1 : (⟨S1x256, .f32⟩ : BufTy).Contents (Elt F) → (⟨S65536x256, .f32⟩ : BufTy).Contents (Elt F)),
    binary main_v46 main_v48 main_v49 (addf : (⟨S65536x256, .f32⟩ : BufTy).Contents (Elt F) → (⟨S65536x256, .f32⟩ : BufTy).Contents (Elt F) → (⟨S65536x256, .f32⟩ : BufTy).Contents (Elt F)) ]

/-- The first cell's first step, from the zero state. -/
abbrev opsB : List (HloOp τ sig (Elt F)) :=
  [ nullary main_cst_9 (constant S_ .f32 0x00000000#32),
    unary main_cst_9 main_v50 (broadcastInDim S65536x256 ![] bcast_S_S65536x256 : (⟨S_, .f32⟩ : BufTy).Contents (Elt F) → (⟨S65536x256, .f32⟩ : BufTy).Contents (Elt F)),
    nullary main_cst_10 (constant S_ .f32 0x00000000#32),
    unary main_cst_10 main_v51 (broadcastInDim S65536x256 ![] bcast_S_S65536x256 : (⟨S_, .f32⟩ : BufTy).Contents (Elt F) → (⟨S65536x256, .f32⟩ : BufTy).Contents (Elt F)),
    unary main_arg8 main_v52 ((transpose S256x1024 [1, 0] · transposes_S1024x256_S256x1024_1_0) : (⟨S1024x256, .f32⟩ : BufTy).Contents (Elt F) → (⟨S256x1024, .f32⟩ : BufTy).Contents (Elt F)),
    binary main_arg0 main_v52 main_v53 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v54 ((transpose S256x1024 [1, 0] · transposes_S1024x256_S256x1024_1_0) : (⟨S1024x256, .f32⟩ : BufTy).Contents (Elt F) → (⟨S256x1024, .f32⟩ : BufTy).Contents (Elt F)),
    binary main_v50 main_v54 main_v55 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v53 main_v55 main_v56 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v57 (addf : (⟨S1024, .f32⟩ : BufTy).Contents (Elt F) → (⟨S1024, .f32⟩ : BufTy).Contents (Elt F) → (⟨S1024, .f32⟩ : BufTy).Contents (Elt F)),
    unary main_v57 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    binary main_v56 main_v59 main_v60 (addf : (⟨S65536x1024, .f32⟩ : BufTy).Contents (Elt F) → (⟨S65536x1024, .f32⟩ : BufTy).Contents (Elt F) → (⟨S65536x1024, .f32⟩ : BufTy).Contents (Elt F)),
    unary main_v60 main_v61 ((extractStridedSlice S65536x256 ![0, 0] · slices_S65536x1024_S65536x256_0_0) : (⟨S65536x1024, .f32⟩ : BufTy).Contents (Elt F) → (⟨S65536x256, .f32⟩ : BufTy).Contents (Elt F)),
    unary main_v60 main_v62 ((extractStridedSlice S65536x256 ![0, 256] · slices_S65536x1024_S65536x256_0_256) : (⟨S65536x1024, .f32⟩ : BufTy).Contents (Elt F) → (⟨S65536x256, .f32⟩ : BufTy).Contents (Elt F)),
    unary main_v60 main_v63 ((extractStridedSlice S65536x256 ![0, 512] · slices_S65536x1024_S65536x256_0_512) : (⟨S65536x1024, .f32⟩ : BufTy).Contents (Elt F) → (⟨S65536x256, .f32⟩ : BufTy).Contents (Elt F)),
    unary main_v60 main_v64 ((extractStridedSlice S65536x256 ![0, 768] · slices_S65536x1024_S65536x256_0_768) : (⟨S65536x1024, .f32⟩ : BufTy).Contents (Elt F) → (⟨S65536x256, .f32⟩ : BufTy).Contents (Elt F)),
    unary main_v62 main_v65 (Host.negf : (⟨S65536x256, .f32⟩ : BufTy).Contents (Elt F) → (⟨S65536x256, .f32⟩ : BufTy).Contents (Elt F)),
    unary main_v65 main_v66 (Host.exp : (⟨S65536x256, .f32⟩ : BufTy).Contents (Elt F) → (⟨S65536x256, .f32⟩ : BufTy).Contents (Elt F)),
    nullary main_cst_11 (constant S_ .f32 0x3F800000#32),
    unary main_cst_11 main_v67 (broadcastInDim S65536x256 ![] bcast_S_S65536x256 : (⟨S_, .f32⟩ : BufTy).Contents (Elt F) → (⟨S65536x256, .f32⟩ : BufTy).Contents (Elt F)),
    binary main_v67 main_v66 main_v68 (addf : (⟨S65536x256, .f32⟩ : BufTy).Contents (Elt F) → (⟨S65536x256, .f32⟩ : BufTy).Contents (Elt F) → (⟨S65536x256, .f32⟩ : BufTy).Contents (Elt F)),
    nullary main_cst_12 (constant S_ .f32 0x3F800000#32),
    unary main_cst_12 main_v69 (broadcastInDim S65536x256 ![] bcast_S_S65536x256 : (⟨S_, .f32⟩ : BufTy).Contents (Elt F) → (⟨S65536x256, .f32⟩ : BufTy).Contents (Elt F)),
    binary main_v69 main_v68 main_v70 (Host.divf : (⟨S65536x256, .f32⟩ : BufTy).Contents (Elt F) → (⟨S65536x256, .f32⟩ : BufTy).Contents (Elt F) → (⟨S65536x256, .f32⟩ : BufTy).Contents (Elt F)),
    binary main_v70 main_v51 main_v71 (mulf : (⟨S65536x256, .f32⟩ : BufTy).Contents (Elt F) → (⟨S65536x256, .f32⟩ : BufTy).Contents (Elt F) → (⟨S65536x256, .f32⟩ : BufTy).Contents (Elt F)),
    unary main_v61 main_v72 (Host.negf : (⟨S65536x256, .f32⟩ : BufTy).Contents (Elt F) → (⟨S65536x256, .f32⟩ : BufTy).Contents (Elt F)),
    unary main_v72 main_v73 (Host.exp : (⟨S65536x256, .f32⟩ : BufTy).Contents (Elt F) → (⟨S65536x256, .f32⟩ : BufTy).Contents (Elt F)),
    nullary main_cst_13 (constant S_ .f32 0x3F800000#32),
    unary main_cst_13 main_v74 (broadcastInDim S65536x256 ![] bcast_S_S65536x256 : (⟨S_, .f32⟩ : BufTy).Contents (Elt F) → (⟨S65536x256, .f32⟩ : BufTy).Contents (Elt F)),
    binary main_v74 main_v73 main_v75 (addf : (⟨S65536x256, .f32⟩ : BufTy).Contents (Elt F) → (⟨S65536x256, .f32⟩ : BufTy).Contents (Elt F) → (⟨S65536x256, .f32⟩ : BufTy).Contents (Elt F)),
    nullary main_cst_14 (constant S_ .f32 0x3F800000#32),
    unary main_cst_14 main_v76 (broadcastInDim S65536x256 ![] bcast_S_S65536x256 : (⟨S_, .f32⟩ : BufTy).Contents (Elt F) → (⟨S65536x256, .f32⟩ : BufTy).Contents (Elt F)),
    binary main_v76 main_v75 main_v77 (Host.divf : (⟨S65536x256, .f32⟩ : BufTy).Contents (Elt F) → (⟨S65536x256, .f32⟩ : BufTy).Contents (Elt F) → (⟨S65536x256, .f32⟩ : BufTy).Contents (Elt F)),
    unary main_v63 main_v78 (Host.tanh : (⟨S65536x256, .f32⟩ : BufTy).Contents (Elt F) → (⟨S65536x256, .f32⟩ : BufTy).Contents (Elt F)),
    binary main_v77 main_v78 main_v79 (mulf : (⟨S65536x256, .f32⟩ : BufTy).Contents (Elt F) → (⟨S65536x256, .f32⟩ : BufTy).Contents (Elt F) → (⟨S65536x256, .f32⟩ : BufTy).Contents (Elt F)),
    binary main_v71 main_v79 main_v80 (addf : (⟨S65536x256, .f32⟩ : BufTy).Contents (Elt F) → (⟨S65536x256, .f32⟩ : BufTy).Contents (Elt F) → (⟨S65536x256, .f32⟩ : BufTy).Contents (Elt F)),
    unary main_v64 main_v81 (Host.negf : (⟨S65536x256, .f32⟩ : BufTy).Contents (Elt F) → (⟨S65536x256, .f32⟩ : BufTy).Contents (Elt F)),
    unary main_v81 main_v82 (Host.exp : (⟨S65536x256, .f32⟩ : BufTy).Contents (Elt F) → (⟨S65536x256, .f32⟩ : BufTy).Contents (Elt F)),
    nullary main_cst_15 (constant S_ .f32 0x3F800000#32),
    unary main_cst_15 main_v83 (broadcastInDim S65536x256 ![] bcast_S_S65536x256 : (⟨S_, .f32⟩ : BufTy).Contents (Elt F) → (⟨S65536x256, .f32⟩ : BufTy).Contents (Elt F)),
    binary main_v83 main_v82 main_v84 (addf : (⟨S65536x256, .f32⟩ : BufTy).Contents (Elt F) → (⟨S65536x256, .f32⟩ : BufTy).Contents (Elt F) → (⟨S65536x256, .f32⟩ : BufTy).Contents (Elt F)),
    nullary main_cst_16 (constant S_ .f32 0x3F800000#32),
    unary main_cst_16 main_v85 (broadcastInDim S65536x256 ![] bcast_S_S65536x256 : (⟨S_, .f32⟩ : BufTy).Contents (Elt F) → (⟨S65536x256, .f32⟩ : BufTy).Contents (Elt F)),
    binary main_v85 main_v84 main_v86 (Host.divf : (⟨S65536x256, .f32⟩ : BufTy).Contents (Elt F) → (⟨S65536x256, .f32⟩ : BufTy).Contents (Elt F) → (⟨S65536x256, .f32⟩ : BufTy).Contents (Elt F)),
    unary main_v80 main_v87 (Host.tanh : (⟨S65536x256, .f32⟩ : BufTy).Contents (Elt F) → (⟨S65536x256, .f32⟩ : BufTy).Contents (Elt F)),
    binary main_v86 main_v87 main_v88 (mulf : (⟨S65536x256, .f32⟩ : BufTy).Contents (Elt F) → (⟨S65536x256, .f32⟩ : BufTy).Contents (Elt F) → (⟨S65536x256, .f32⟩ : BufTy).Contents (Elt F)) ]

/-- The first cell's second step. -/
abbrev opsC : List (HloOp τ sig (Elt F)) :=
  [ unary main_arg8 main_v89 ((transpose S256x1024 [1, 0] · transposes_S1024x256_S256x1024_1_0) : (⟨S1024x256, .f32⟩ : BufTy).Contents (Elt F) → (⟨S256x1024, .f32⟩ : BufTy).Contents (Elt F)),
    binary main_v49 main_v89 main_v90 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v91 ((transpose S256x1024 [1, 0] · transposes_S1024x256_S256x1024_1_0) : (⟨S1024x256, .f32⟩ : BufTy).Contents (Elt F) → (⟨S256x1024, .f32⟩ : BufTy).Contents (Elt F)),
    binary main_v88 main_v91 main_v92 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v90 main_v92 main_v93 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v94 (addf : (⟨S1024, .f32⟩ : BufTy).Contents (Elt F) → (⟨S1024, .f32⟩ : BufTy).Contents (Elt F) → (⟨S1024, .f32⟩ : BufTy).Contents (Elt F)),
    unary main_v94 main_v95 (broadcastInDim S1x1024 ![1] bcast_S1024_S1x1024_1 : (⟨S1024, .f32⟩ : BufTy).Contents (Elt F) → (⟨S1x1024, .f32⟩ : BufTy).Contents (Elt F)),
    unary main_v95 main_v96 (broadcastInDim S65536x1024 ![0, 1] bcast_S1x1024_S65536x1024_0_1 : (⟨S1x1024, .f32⟩ : BufTy).Contents (Elt F) → (⟨S65536x1024, .f32⟩ : BufTy).Contents (Elt F)),
    binary main_v93 main_v96 main_v97 (addf : (⟨S65536x1024, .f32⟩ : BufTy).Contents (Elt F) → (⟨S65536x1024, .f32⟩ : BufTy).Contents (Elt F) → (⟨S65536x1024, .f32⟩ : BufTy).Contents (Elt F)),
    unary main_v97 main_v98 ((extractStridedSlice S65536x256 ![0, 0] · slices_S65536x1024_S65536x256_0_0) : (⟨S65536x1024, .f32⟩ : BufTy).Contents (Elt F) → (⟨S65536x256, .f32⟩ : BufTy).Contents (Elt F)),
    unary main_v97 main_v99 ((extractStridedSlice S65536x256 ![0, 256] · slices_S65536x1024_S65536x256_0_256) : (⟨S65536x1024, .f32⟩ : BufTy).Contents (Elt F) → (⟨S65536x256, .f32⟩ : BufTy).Contents (Elt F)),
    unary main_v97 main_v100 ((extractStridedSlice S65536x256 ![0, 512] · slices_S65536x1024_S65536x256_0_512) : (⟨S65536x1024, .f32⟩ : BufTy).Contents (Elt F) → (⟨S65536x256, .f32⟩ : BufTy).Contents (Elt F)),
    unary main_v97 main_v101 ((extractStridedSlice S65536x256 ![0, 768] · slices_S65536x1024_S65536x256_0_768) : (⟨S65536x1024, .f32⟩ : BufTy).Contents (Elt F) → (⟨S65536x256, .f32⟩ : BufTy).Contents (Elt F)),
    unary main_v99 main_v102 (Host.negf : (⟨S65536x256, .f32⟩ : BufTy).Contents (Elt F) → (⟨S65536x256, .f32⟩ : BufTy).Contents (Elt F)),
    unary main_v102 main_v103 (Host.exp : (⟨S65536x256, .f32⟩ : BufTy).Contents (Elt F) → (⟨S65536x256, .f32⟩ : BufTy).Contents (Elt F)),
    nullary main_cst_17 (constant S_ .f32 0x3F800000#32),
    unary main_cst_17 main_v104 (broadcastInDim S65536x256 ![] bcast_S_S65536x256 : (⟨S_, .f32⟩ : BufTy).Contents (Elt F) → (⟨S65536x256, .f32⟩ : BufTy).Contents (Elt F)),
    binary main_v104 main_v103 main_v105 (addf : (⟨S65536x256, .f32⟩ : BufTy).Contents (Elt F) → (⟨S65536x256, .f32⟩ : BufTy).Contents (Elt F) → (⟨S65536x256, .f32⟩ : BufTy).Contents (Elt F)),
    nullary main_cst_18 (constant S_ .f32 0x3F800000#32),
    unary main_cst_18 main_v106 (broadcastInDim S65536x256 ![] bcast_S_S65536x256 : (⟨S_, .f32⟩ : BufTy).Contents (Elt F) → (⟨S65536x256, .f32⟩ : BufTy).Contents (Elt F)),
    binary main_v106 main_v105 main_v107 (Host.divf : (⟨S65536x256, .f32⟩ : BufTy).Contents (Elt F) → (⟨S65536x256, .f32⟩ : BufTy).Contents (Elt F) → (⟨S65536x256, .f32⟩ : BufTy).Contents (Elt F)),
    binary main_v107 main_v80 main_v108 (mulf : (⟨S65536x256, .f32⟩ : BufTy).Contents (Elt F) → (⟨S65536x256, .f32⟩ : BufTy).Contents (Elt F) → (⟨S65536x256, .f32⟩ : BufTy).Contents (Elt F)),
    unary main_v98 main_v109 (Host.negf : (⟨S65536x256, .f32⟩ : BufTy).Contents (Elt F) → (⟨S65536x256, .f32⟩ : BufTy).Contents (Elt F)),
    unary main_v109 main_v110 (Host.exp : (⟨S65536x256, .f32⟩ : BufTy).Contents (Elt F) → (⟨S65536x256, .f32⟩ : BufTy).Contents (Elt F)),
    nullary main_cst_19 (constant S_ .f32 0x3F800000#32),
    unary main_cst_19 main_v111 (broadcastInDim S65536x256 ![] bcast_S_S65536x256 : (⟨S_, .f32⟩ : BufTy).Contents (Elt F) → (⟨S65536x256, .f32⟩ : BufTy).Contents (Elt F)),
    binary main_v111 main_v110 main_v112 (addf : (⟨S65536x256, .f32⟩ : BufTy).Contents (Elt F) → (⟨S65536x256, .f32⟩ : BufTy).Contents (Elt F) → (⟨S65536x256, .f32⟩ : BufTy).Contents (Elt F)),
    nullary main_cst_20 (constant S_ .f32 0x3F800000#32),
    unary main_cst_20 main_v113 (broadcastInDim S65536x256 ![] bcast_S_S65536x256 : (⟨S_, .f32⟩ : BufTy).Contents (Elt F) → (⟨S65536x256, .f32⟩ : BufTy).Contents (Elt F)),
    binary main_v113 main_v112 main_v114 (Host.divf : (⟨S65536x256, .f32⟩ : BufTy).Contents (Elt F) → (⟨S65536x256, .f32⟩ : BufTy).Contents (Elt F) → (⟨S65536x256, .f32⟩ : BufTy).Contents (Elt F)),
    unary main_v100 main_v115 (Host.tanh : (⟨S65536x256, .f32⟩ : BufTy).Contents (Elt F) → (⟨S65536x256, .f32⟩ : BufTy).Contents (Elt F)),
    binary main_v114 main_v115 main_v116 (mulf : (⟨S65536x256, .f32⟩ : BufTy).Contents (Elt F) → (⟨S65536x256, .f32⟩ : BufTy).Contents (Elt F) → (⟨S65536x256, .f32⟩ : BufTy).Contents (Elt F)),
    binary main_v108 main_v116 main_v117 (addf : (⟨S65536x256, .f32⟩ : BufTy).Contents (Elt F) → (⟨S65536x256, .f32⟩ : BufTy).Contents (Elt F) → (⟨S65536x256, .f32⟩ : BufTy).Contents (Elt F)),
    unary main_v101 main_v118 (Host.negf : (⟨S65536x256, .f32⟩ : BufTy).Contents (Elt F) → (⟨S65536x256, .f32⟩ : BufTy).Contents (Elt F)),
    unary main_v118 main_v119 (Host.exp : (⟨S65536x256, .f32⟩ : BufTy).Contents (Elt F) → (⟨S65536x256, .f32⟩ : BufTy).Contents (Elt F)),
    nullary main_cst_21 (constant S_ .f32 0x3F800000#32),
    unary main_cst_21 main_v120 (broadcastInDim S65536x256 ![] bcast_S_S65536x256 : (⟨S_, .f32⟩ : BufTy).Contents (Elt F) → (⟨S65536x256, .f32⟩ : BufTy).Contents (Elt F)),
    binary main_v120 main_v119 main_v121 (addf : (⟨S65536x256, .f32⟩ : BufTy).Contents (Elt F) → (⟨S65536x256, .f32⟩ : BufTy).Contents (Elt F) → (⟨S65536x256, .f32⟩ : BufTy).Contents (Elt F)),
    nullary main_cst_22 (constant S_ .f32 0x3F800000#32),
    unary main_cst_22 main_v122 (broadcastInDim S65536x256 ![] bcast_S_S65536x256 : (⟨S_, .f32⟩ : BufTy).Contents (Elt F) → (⟨S65536x256, .f32⟩ : BufTy).Contents (Elt F)),
    binary main_v122 main_v121 main_v123 (Host.divf : (⟨S65536x256, .f32⟩ : BufTy).Contents (Elt F) → (⟨S65536x256, .f32⟩ : BufTy).Contents (Elt F) → (⟨S65536x256, .f32⟩ : BufTy).Contents (Elt F)),
    unary main_v117 main_v124 (Host.tanh : (⟨S65536x256, .f32⟩ : BufTy).Contents (Elt F) → (⟨S65536x256, .f32⟩ : BufTy).Contents (Elt F)),
    binary main_v123 main_v124 main_v125 (mulf : (⟨S65536x256, .f32⟩ : BufTy).Contents (Elt F) → (⟨S65536x256, .f32⟩ : BufTy).Contents (Elt F) → (⟨S65536x256, .f32⟩ : BufTy).Contents (Elt F)) ]

/-- The second projection and the second graph layer (the normalisation computed again). -/
abbrev opsD : List (HloOp τ sig (Elt F)) :=
  [ unary main_arg6 main_v126 ((transpose S256x256 [1, 0] · transposes_S256x256_S256x256_1_0) : (⟨S256x256, .f32⟩ : BufTy).Contents (Elt F) → (⟨S256x256, .f32⟩ : BufTy).Contents (Elt F)),
    binary main_v125 main_v126 main_v127 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    nullary main_cst_23 (constant S_ .f32 0x00000000#32),
    unary main_cst_23 main_v128 (broadcastInDim S65536 ![] bcast_S_S65536 : (⟨S_, .f32⟩ : BufTy).Contents (Elt F) → (⟨S65536, .f32⟩ : BufTy).Contents (Elt F)),
    unary main_v6 main_v129 (broadcastInDim S327680x1 ![0] bcast_S327680_S327680x1_0 : (⟨S327680, .i32⟩ : BufTy).Contents (Elt F) → (⟨S327680x1, .i32⟩ : BufTy).Contents (Elt F)),
    ternary main_v128 main_v129 main_v8 main_v130 ((fun x i u => Host.scatterAdd scatter_S65536_S327680x1_S327680_n_0_0_1 x i u) : (⟨S65536, .f32⟩ : BufTy).Contents (Elt F) → (⟨S327680x1, .i32⟩ : BufTy).Contents (Elt F) → (⟨S327680, .f32⟩ : BufTy).Contents (Elt F) → (⟨S65536, .f32⟩ : BufTy).Contents (Elt F)),
    nullary main_cst_24 (constant S_ .f32 0x00000000#32),
    unary main_cst_24 main_v131 (broadcastInDim S65536 ![] bcast_S_S65536 : (⟨S_, .f32⟩ : BufTy).Contents (Elt F) → (⟨S65536, .f32⟩ : BufTy).Contents (Elt F)),
    binary main_v130 main_v131 main_v132 (cmpf .ogt : (⟨S65536, .f32⟩ : BufTy).Contents (Elt F) → (⟨S65536, .f32⟩ : BufTy).Contents (Elt F) → (⟨S65536, .i1⟩ : BufTy).Contents (Elt F)),
    unary main_v130 main_v133 (Host.rsqrt : (⟨S65536, .f32⟩ : BufTy).Contents (Elt F) → (⟨S65536, .f32⟩ : BufTy).Contents (Elt F)),
    nullary main_cst_25 (constant S_ .f32 0x00000000#32),
    TRef.unary (TRef.of (T := ⟨S_, .f32⟩) main_cst_25) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v132) (TRef.of (T := ⟨S65536, .f32⟩) main_v133) (TRef.of (T := ⟨S65536, .f32⟩) main_call1_v1) (TRef.of (T := ⟨S65536, .f32⟩) main_v134) select,
    nullary main_c_26 (constantI S_ 32 0#32),
    unary main_c_26 main_v135 (broadcastInDim S327680 ![] bcast_S_S327680 : (⟨S_, .i32⟩ : BufTy).Contents (Elt F) → (⟨S327680, .i32⟩ : BufTy).Contents (Elt F)),
    binary main_v3 main_v135 main_v136 (cmpi .slt : (⟨S327680, .i32⟩ : BufTy).Contents (Elt F) → (⟨S327680, .i32⟩ : BufTy).Contents (Elt F) → (⟨S327680, .i1⟩ : BufTy).Contents (Elt F)),
    nullary main_c_27 (constantI S_ 32 65536#32),
    unary main_c_27 main_v137 (broadcastInDim S327680 ![] bcast_S_S327680 : (⟨S_, .i32⟩ : BufTy).Contents (Elt F) → (⟨S327680, .i32⟩ : BufTy).Contents (Elt F)),
    binary main_v3 main_v137 main_v138 (addi : (⟨S327680, .i32⟩ : BufTy).Contents (Elt F) → (⟨S327680, .i32⟩ : BufTy).Contents (Elt F) → (⟨S327680, .i32⟩ : BufTy).Contents (Elt F)),
    ternary main_v136 main_v138 main_v3 main_v139 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v139 main_v140 (broadcastInDim S327680x1 ![0] bcast_S327680_S327680x1_0 : (⟨S327680, .i32⟩ : BufTy).Contents (Elt F) → (⟨S327680x1, .i32⟩ : BufTy).Contents (Elt F)),
    binary main_v134 main_v140 main_v141 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v141 main_v8 main_v142 (mulf : (⟨S327680, .f32⟩ : BufTy).Contents (Elt F) → (⟨S327680, .f32⟩ : BufTy).Contents (Elt F) → (⟨S327680, .f32⟩ : BufTy).Contents (Elt F)),
    nullary main_c_28 (constantI S_ 32 0#32),
    unary main_c_28 main_v143 (broadcastInDim S327680 ![] bcast_S_S327680 : (⟨S_, .i32⟩ : BufTy).Contents (Elt F) → (⟨S327680, .i32⟩ : BufTy).Contents (Elt F)),
    binary main_v6 main_v143 main_v144 (cmpi .slt : (⟨S327680, .i32⟩ : BufTy).Contents (Elt F) → (⟨S327680, .i32⟩ : BufTy).Contents (Elt F) → (⟨S327680, .i1⟩ : BufTy).Contents (Elt F)),
    nullary main_c_29 (constantI S_ 32 65536#32),
    unary main_c_29 main_v145 (broadcastInDim S327680 ![] bcast_S_S327680 : (⟨S_, .i32⟩ : BufTy).Contents (Elt F) → (⟨S327680, .i32⟩ : BufTy).Contents (Elt F)),
    binary main_v6 main_v145 main_v146 (addi : (⟨S327680, .i32⟩ : BufTy).Contents (Elt F) → (⟨S327680, .i32⟩ : BufTy).Contents (Elt F) → (⟨S327680, .i32⟩ : BufTy).Contents (Elt F)),
    ternary main_v144 main_v146 main_v6 main_v147 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v147 main_v148 (broadcastInDim S327680x1 ![0] bcast_S327680_S327680x1_0 : (⟨S327680, .i32⟩ : BufTy).Contents (Elt F) → (⟨S327680x1, .i32⟩ : BufTy).Contents (Elt F)),
    binary main_v134 main_v148 main_v149 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v142 main_v149 main_v150 (mulf : (⟨S327680, .f32⟩ : BufTy).Contents (Elt F) → (⟨S327680, .f32⟩ : BufTy).Contents (Elt F) → (⟨S327680, .f32⟩ : BufTy).Contents (Elt F)),
    nullary main_c_30 (constantI S_ 32 0#32),
    unary main_c_30 main_v151 (broadcastInDim S327680 ![] bcast_S_S327680 : (⟨S_, .i32⟩ : BufTy).Contents (Elt F) → (⟨S327680, .i32⟩ : BufTy).Contents (Elt F)),
    binary main_v3 main_v151 main_v152 (cmpi .slt : (⟨S327680, .i32⟩ : BufTy).Contents (Elt F) → (⟨S327680, .i32⟩ : BufTy).Contents (Elt F) → (⟨S327680, .i1⟩ : BufTy).Contents (Elt F)),
    nullary main_c_31 (constantI S_ 32 65536#32),
    unary main_c_31 main_v153 (broadcastInDim S327680 ![] bcast_S_S327680 : (⟨S_, .i32⟩ : BufTy).Contents (Elt F) → (⟨S327680, .i32⟩ : BufTy).Contents (Elt F)),
    binary main_v3 main_v153 main_v154 (addi : (⟨S327680, .i32⟩ : BufTy).Contents (Elt F) → (⟨S327680, .i32⟩ : BufTy).Contents (Elt F) → (⟨S327680, .i32⟩ : BufTy).Contents (Elt F)),
    ternary main_v152 main_v154 main_v3 main_v155 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v155 main_v156 (broadcastInDim S327680x1 ![0] bcast_S327680_S327680x1_0 : (⟨S327680, .i32⟩ : BufTy).Contents (Elt F) → (⟨S327680x1, .i32⟩ : BufTy).Contents (Elt F)),
    binary main_v127 main_v156 main_v157 ((fun x i => Host.gather gather_S65536x256_S327680x1_S327680x256_1_0_n_n_0_1_1256 x i) : (⟨S65536x256, .f32⟩ : BufTy).Contents (Elt F) → (⟨S327680x1, .i32⟩ : BufTy).Contents (Elt F) → (⟨S327680x256, .f32⟩ : BufTy).Contents (Elt F)),
    unary main_v150 main_v158 (broadcastInDim S327680x1 ![0] bcast_S327680_S327680x1_0 : (⟨S327680, .f32⟩ : BufTy).Contents (Elt F) → (⟨S327680x1, .f32⟩ : BufTy).Contents (Elt F)),
    unary main_v158 main_v159 (broadcastInDim S327680x256 ![0, 1] bcast_S327680x1_S327680x256_0_1 : (⟨S327680x1, .f32⟩ : BufTy).Contents (Elt F) → (⟨S327680x256, .f32⟩ : BufTy).Contents (Elt F)),
    binary main_v157 main_v159 main_v160 (mulf : (⟨S327680x256, .f32⟩ : BufTy).Contents (Elt F) → (⟨S327680x256, .f32⟩ : BufTy).Contents (Elt F) → (⟨S327680x256, .f32⟩ : BufTy).Contents (Elt F)),
    nullary main_cst_32 (constant S_ .f32 0x00000000#32),
    unary main_cst_32 main_v161 (broadcastInDim S65536x256 ![] bcast_S_S65536x256 : (⟨S_, .f32⟩ : BufTy).Contents (Elt F) → (⟨S65536x256, .f32⟩ : BufTy).Contents (Elt F)),
    unary main_v6 main_v162 (broadcastInDim S327680x1 ![0] bcast_S327680_S327680x1_0 : (⟨S327680, .i32⟩ : BufTy).Contents (Elt F) → (⟨S327680x1, .i32⟩ : BufTy).Contents (Elt F)),
    ternary main_v161 main_v162 main_v160 main_v163 ((fun x i u => Host.scatterAdd scatter_S65536x256_S327680x1_S327680x256_1_0_0_1 x i u) : (⟨S65536x256, .f32⟩ : BufTy).Contents (Elt F) → (⟨S327680x1, .i32⟩ : BufTy).Contents (Elt F) → (⟨S327680x256, .f32⟩ : BufTy).Contents (Elt F) → (⟨S65536x256, .f32⟩ : BufTy).Contents (Elt F)),
    unary main_arg7 main_v164 (broadcastInDim S1x256 ![1] bcast_S256_S1x256_1 : (⟨S256, .f32⟩ : BufTy).Contents (Elt F) → (⟨S1x256, .f32⟩ : BufTy).Contents (Elt F)),
    unary main_v164 main_v165 (broadcastInDim S65536x256 ![0, 1] bcast_S1x256_S65536x256_0_1 : (⟨S1x256, .f32⟩ : BufTy).Contents (Elt F) → (⟨S65536x256, .f32⟩ : BufTy).Contents (Elt F)),
    binary main_v163 main_v165 main_v166 (addf : (⟨S65536x256, .f32⟩ : BufTy).Contents (Elt F) → (⟨S65536x256, .f32⟩ : BufTy).Contents (Elt F) → (⟨S65536x256, .f32⟩ : BufTy).Contents (Elt F)) ]

/-- The second cell's first step, from the zero state. -/
abbrev opsE : List (HloOp τ sig (Elt F)) :=
  [ nullary main_cst_33 (constant S_ .f32 0x00000000#32),
    unary main_cst_33 main_v167 (broadcastInDim S65536x256 ![] bcast_S_S65536x256 : (⟨S_, .f32⟩ : BufTy).Contents (Elt F) → (⟨S65536x256, .f32⟩ : BufTy).Contents (Elt F)),
    nullary main_cst_34 (constant S_ .f32 0x00000000#32),
    unary main_cst_34 main_v168 (broadcastInDim S65536x256 ![] bcast_S_S65536x256 : (⟨S_, .f32⟩ : BufTy).Contents (Elt F) → (⟨S65536x256, .f32⟩ : BufTy).Contents (Elt F)),
    unary main_arg8 main_v169 ((transpose S256x1024 [1, 0] · transposes_S1024x256_S256x1024_1_0) : (⟨S1024x256, .f32⟩ : BufTy).Contents (Elt F) → (⟨S256x1024, .f32⟩ : BufTy).Contents (Elt F)),
    binary main_v125 main_v169 main_v170 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v171 ((transpose S256x1024 [1, 0] · transposes_S1024x256_S256x1024_1_0) : (⟨S1024x256, .f32⟩ : BufTy).Contents (Elt F) → (⟨S256x1024, .f32⟩ : BufTy).Contents (Elt F)),
    binary main_v167 main_v171 main_v172 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v170 main_v172 main_v173 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v174 (addf : (⟨S1024, .f32⟩ : BufTy).Contents (Elt F) → (⟨S1024, .f32⟩ : BufTy).Contents (Elt F) → (⟨S1024, .f32⟩ : BufTy).Contents (Elt F)),
    unary main_v174 main_v175 (broadcastInDim S1x1024 ![1] bcast_S1024_S1x1024_1 : (⟨S1024, .f32⟩ : BufTy).Contents (Elt F) → (⟨S1x1024, .f32⟩ : BufTy).Contents (Elt F)),
    unary main_v175 main_v176 (broadcastInDim S65536x1024 ![0, 1] bcast_S1x1024_S65536x1024_0_1 : (⟨S1x1024, .f32⟩ : BufTy).Contents (Elt F) → (⟨S65536x1024, .f32⟩ : BufTy).Contents (Elt F)),
    binary main_v173 main_v176 main_v177 (addf : (⟨S65536x1024, .f32⟩ : BufTy).Contents (Elt F) → (⟨S65536x1024, .f32⟩ : BufTy).Contents (Elt F) → (⟨S65536x1024, .f32⟩ : BufTy).Contents (Elt F)),
    unary main_v177 main_v178 ((extractStridedSlice S65536x256 ![0, 0] · slices_S65536x1024_S65536x256_0_0) : (⟨S65536x1024, .f32⟩ : BufTy).Contents (Elt F) → (⟨S65536x256, .f32⟩ : BufTy).Contents (Elt F)),
    unary main_v177 main_v179 ((extractStridedSlice S65536x256 ![0, 256] · slices_S65536x1024_S65536x256_0_256) : (⟨S65536x1024, .f32⟩ : BufTy).Contents (Elt F) → (⟨S65536x256, .f32⟩ : BufTy).Contents (Elt F)),
    unary main_v177 main_v180 ((extractStridedSlice S65536x256 ![0, 512] · slices_S65536x1024_S65536x256_0_512) : (⟨S65536x1024, .f32⟩ : BufTy).Contents (Elt F) → (⟨S65536x256, .f32⟩ : BufTy).Contents (Elt F)),
    unary main_v177 main_v181 ((extractStridedSlice S65536x256 ![0, 768] · slices_S65536x1024_S65536x256_0_768) : (⟨S65536x1024, .f32⟩ : BufTy).Contents (Elt F) → (⟨S65536x256, .f32⟩ : BufTy).Contents (Elt F)),
    unary main_v179 main_v182 (Host.negf : (⟨S65536x256, .f32⟩ : BufTy).Contents (Elt F) → (⟨S65536x256, .f32⟩ : BufTy).Contents (Elt F)),
    unary main_v182 main_v183 (Host.exp : (⟨S65536x256, .f32⟩ : BufTy).Contents (Elt F) → (⟨S65536x256, .f32⟩ : BufTy).Contents (Elt F)),
    nullary main_cst_35 (constant S_ .f32 0x3F800000#32),
    unary main_cst_35 main_v184 (broadcastInDim S65536x256 ![] bcast_S_S65536x256 : (⟨S_, .f32⟩ : BufTy).Contents (Elt F) → (⟨S65536x256, .f32⟩ : BufTy).Contents (Elt F)),
    binary main_v184 main_v183 main_v185 (addf : (⟨S65536x256, .f32⟩ : BufTy).Contents (Elt F) → (⟨S65536x256, .f32⟩ : BufTy).Contents (Elt F) → (⟨S65536x256, .f32⟩ : BufTy).Contents (Elt F)),
    nullary main_cst_36 (constant S_ .f32 0x3F800000#32),
    unary main_cst_36 main_v186 (broadcastInDim S65536x256 ![] bcast_S_S65536x256 : (⟨S_, .f32⟩ : BufTy).Contents (Elt F) → (⟨S65536x256, .f32⟩ : BufTy).Contents (Elt F)),
    binary main_v186 main_v185 main_v187 (Host.divf : (⟨S65536x256, .f32⟩ : BufTy).Contents (Elt F) → (⟨S65536x256, .f32⟩ : BufTy).Contents (Elt F) → (⟨S65536x256, .f32⟩ : BufTy).Contents (Elt F)),
    binary main_v187 main_v168 main_v188 (mulf : (⟨S65536x256, .f32⟩ : BufTy).Contents (Elt F) → (⟨S65536x256, .f32⟩ : BufTy).Contents (Elt F) → (⟨S65536x256, .f32⟩ : BufTy).Contents (Elt F)),
    unary main_v178 main_v189 (Host.negf : (⟨S65536x256, .f32⟩ : BufTy).Contents (Elt F) → (⟨S65536x256, .f32⟩ : BufTy).Contents (Elt F)),
    unary main_v189 main_v190 (Host.exp : (⟨S65536x256, .f32⟩ : BufTy).Contents (Elt F) → (⟨S65536x256, .f32⟩ : BufTy).Contents (Elt F)),
    nullary main_cst_37 (constant S_ .f32 0x3F800000#32),
    unary main_cst_37 main_v191 (broadcastInDim S65536x256 ![] bcast_S_S65536x256 : (⟨S_, .f32⟩ : BufTy).Contents (Elt F) → (⟨S65536x256, .f32⟩ : BufTy).Contents (Elt F)),
    binary main_v191 main_v190 main_v192 (addf : (⟨S65536x256, .f32⟩ : BufTy).Contents (Elt F) → (⟨S65536x256, .f32⟩ : BufTy).Contents (Elt F) → (⟨S65536x256, .f32⟩ : BufTy).Contents (Elt F)),
    nullary main_cst_38 (constant S_ .f32 0x3F800000#32),
    unary main_cst_38 main_v193 (broadcastInDim S65536x256 ![] bcast_S_S65536x256 : (⟨S_, .f32⟩ : BufTy).Contents (Elt F) → (⟨S65536x256, .f32⟩ : BufTy).Contents (Elt F)),
    binary main_v193 main_v192 main_v194 (Host.divf : (⟨S65536x256, .f32⟩ : BufTy).Contents (Elt F) → (⟨S65536x256, .f32⟩ : BufTy).Contents (Elt F) → (⟨S65536x256, .f32⟩ : BufTy).Contents (Elt F)),
    unary main_v180 main_v195 (Host.tanh : (⟨S65536x256, .f32⟩ : BufTy).Contents (Elt F) → (⟨S65536x256, .f32⟩ : BufTy).Contents (Elt F)),
    binary main_v194 main_v195 main_v196 (mulf : (⟨S65536x256, .f32⟩ : BufTy).Contents (Elt F) → (⟨S65536x256, .f32⟩ : BufTy).Contents (Elt F) → (⟨S65536x256, .f32⟩ : BufTy).Contents (Elt F)),
    binary main_v188 main_v196 main_v197 (addf : (⟨S65536x256, .f32⟩ : BufTy).Contents (Elt F) → (⟨S65536x256, .f32⟩ : BufTy).Contents (Elt F) → (⟨S65536x256, .f32⟩ : BufTy).Contents (Elt F)),
    unary main_v181 main_v198 (Host.negf : (⟨S65536x256, .f32⟩ : BufTy).Contents (Elt F) → (⟨S65536x256, .f32⟩ : BufTy).Contents (Elt F)),
    unary main_v198 main_v199 (Host.exp : (⟨S65536x256, .f32⟩ : BufTy).Contents (Elt F) → (⟨S65536x256, .f32⟩ : BufTy).Contents (Elt F)),
    nullary main_cst_39 (constant S_ .f32 0x3F800000#32),
    unary main_cst_39 main_v200 (broadcastInDim S65536x256 ![] bcast_S_S65536x256 : (⟨S_, .f32⟩ : BufTy).Contents (Elt F) → (⟨S65536x256, .f32⟩ : BufTy).Contents (Elt F)),
    binary main_v200 main_v199 main_v201 (addf : (⟨S65536x256, .f32⟩ : BufTy).Contents (Elt F) → (⟨S65536x256, .f32⟩ : BufTy).Contents (Elt F) → (⟨S65536x256, .f32⟩ : BufTy).Contents (Elt F)),
    nullary main_cst_40 (constant S_ .f32 0x3F800000#32),
    unary main_cst_40 main_v202 (broadcastInDim S65536x256 ![] bcast_S_S65536x256 : (⟨S_, .f32⟩ : BufTy).Contents (Elt F) → (⟨S65536x256, .f32⟩ : BufTy).Contents (Elt F)),
    binary main_v202 main_v201 main_v203 (Host.divf : (⟨S65536x256, .f32⟩ : BufTy).Contents (Elt F) → (⟨S65536x256, .f32⟩ : BufTy).Contents (Elt F) → (⟨S65536x256, .f32⟩ : BufTy).Contents (Elt F)),
    unary main_v197 main_v204 (Host.tanh : (⟨S65536x256, .f32⟩ : BufTy).Contents (Elt F) → (⟨S65536x256, .f32⟩ : BufTy).Contents (Elt F)),
    binary main_v203 main_v204 main_v205 (mulf : (⟨S65536x256, .f32⟩ : BufTy).Contents (Elt F) → (⟨S65536x256, .f32⟩ : BufTy).Contents (Elt F) → (⟨S65536x256, .f32⟩ : BufTy).Contents (Elt F)) ]

/-- The second cell's second step, the reshape into sequences and the product with the padding mask. -/
abbrev opsG : List (HloOp τ sig (Elt F)) :=
  [ unary main_arg8 main_v206 ((transpose S256x1024 [1, 0] · transposes_S1024x256_S256x1024_1_0) : (⟨S1024x256, .f32⟩ : BufTy).Contents (Elt F) → (⟨S256x1024, .f32⟩ : BufTy).Contents (Elt F)),
    binary main_v166 main_v206 main_v207 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v208 ((transpose S256x1024 [1, 0] · transposes_S1024x256_S256x1024_1_0) : (⟨S1024x256, .f32⟩ : BufTy).Contents (Elt F) → (⟨S256x1024, .f32⟩ : BufTy).Contents (Elt F)),
    binary main_v205 main_v208 main_v209 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v207 main_v209 main_v210 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v211 (addf : (⟨S1024, .f32⟩ : BufTy).Contents (Elt F) → (⟨S1024, .f32⟩ : BufTy).Contents (Elt F) → (⟨S1024, .f32⟩ : BufTy).Contents (Elt F)),
    unary main_v211 main_v212 (broadcastInDim S1x1024 ![1] bcast_S1024_S1x1024_1 : (⟨S1024, .f32⟩ : BufTy).Contents (Elt F) → (⟨S1x1024, .f32⟩ : BufTy).Contents (Elt F)),
    unary main_v212 main_v213 (broadcastInDim S65536x1024 ![0, 1] bcast_S1x1024_S65536x1024_0_1 : (⟨S1x1024, .f32⟩ : BufTy).Contents (Elt F) → (⟨S65536x1024, .f32⟩ : BufTy).Contents (Elt F)),
    binary main_v210 main_v213 main_v214 (addf : (⟨S65536x1024, .f32⟩ : BufTy).Contents (Elt F) → (⟨S65536x1024, .f32⟩ : BufTy).Contents (Elt F) → (⟨S65536x1024, .f32⟩ : BufTy).Contents (Elt F)),
    unary main_v214 main_v215 ((extractStridedSlice S65536x256 ![0, 0] · slices_S65536x1024_S65536x256_0_0) : (⟨S65536x1024, .f32⟩ : BufTy).Contents (Elt F) → (⟨S65536x256, .f32⟩ : BufTy).Contents (Elt F)),
    unary main_v214 main_v216 ((extractStridedSlice S65536x256 ![0, 256] · slices_S65536x1024_S65536x256_0_256) : (⟨S65536x1024, .f32⟩ : BufTy).Contents (Elt F) → (⟨S65536x256, .f32⟩ : BufTy).Contents (Elt F)),
    unary main_v214 main_v217 ((extractStridedSlice S65536x256 ![0, 512] · slices_S65536x1024_S65536x256_0_512) : (⟨S65536x1024, .f32⟩ : BufTy).Contents (Elt F) → (⟨S65536x256, .f32⟩ : BufTy).Contents (Elt F)),
    unary main_v214 main_v218 ((extractStridedSlice S65536x256 ![0, 768] · slices_S65536x1024_S65536x256_0_768) : (⟨S65536x1024, .f32⟩ : BufTy).Contents (Elt F) → (⟨S65536x256, .f32⟩ : BufTy).Contents (Elt F)),
    unary main_v216 main_v219 (Host.negf : (⟨S65536x256, .f32⟩ : BufTy).Contents (Elt F) → (⟨S65536x256, .f32⟩ : BufTy).Contents (Elt F)),
    unary main_v219 main_v220 (Host.exp : (⟨S65536x256, .f32⟩ : BufTy).Contents (Elt F) → (⟨S65536x256, .f32⟩ : BufTy).Contents (Elt F)),
    nullary main_cst_41 (constant S_ .f32 0x3F800000#32),
    unary main_cst_41 main_v221 (broadcastInDim S65536x256 ![] bcast_S_S65536x256 : (⟨S_, .f32⟩ : BufTy).Contents (Elt F) → (⟨S65536x256, .f32⟩ : BufTy).Contents (Elt F)),
    binary main_v221 main_v220 main_v222 (addf : (⟨S65536x256, .f32⟩ : BufTy).Contents (Elt F) → (⟨S65536x256, .f32⟩ : BufTy).Contents (Elt F) → (⟨S65536x256, .f32⟩ : BufTy).Contents (Elt F)),
    nullary main_cst_42 (constant S_ .f32 0x3F800000#32),
    unary main_cst_42 main_v223 (broadcastInDim S65536x256 ![] bcast_S_S65536x256 : (⟨S_, .f32⟩ : BufTy).Contents (Elt F) → (⟨S65536x256, .f32⟩ : BufTy).Contents (Elt F)),
    binary main_v223 main_v222 main_v224 (Host.divf : (⟨S65536x256, .f32⟩ : BufTy).Contents (Elt F) → (⟨S65536x256, .f32⟩ : BufTy).Contents (Elt F) → (⟨S65536x256, .f32⟩ : BufTy).Contents (Elt F)),
    binary main_v224 main_v197 main_v225 (mulf : (⟨S65536x256, .f32⟩ : BufTy).Contents (Elt F) → (⟨S65536x256, .f32⟩ : BufTy).Contents (Elt F) → (⟨S65536x256, .f32⟩ : BufTy).Contents (Elt F)),
    unary main_v215 main_v226 (Host.negf : (⟨S65536x256, .f32⟩ : BufTy).Contents (Elt F) → (⟨S65536x256, .f32⟩ : BufTy).Contents (Elt F)),
    unary main_v226 main_v227 (Host.exp : (⟨S65536x256, .f32⟩ : BufTy).Contents (Elt F) → (⟨S65536x256, .f32⟩ : BufTy).Contents (Elt F)),
    nullary main_cst_43 (constant S_ .f32 0x3F800000#32),
    unary main_cst_43 main_v228 (broadcastInDim S65536x256 ![] bcast_S_S65536x256 : (⟨S_, .f32⟩ : BufTy).Contents (Elt F) → (⟨S65536x256, .f32⟩ : BufTy).Contents (Elt F)),
    binary main_v228 main_v227 main_v229 (addf : (⟨S65536x256, .f32⟩ : BufTy).Contents (Elt F) → (⟨S65536x256, .f32⟩ : BufTy).Contents (Elt F) → (⟨S65536x256, .f32⟩ : BufTy).Contents (Elt F)),
    nullary main_cst_44 (constant S_ .f32 0x3F800000#32),
    unary main_cst_44 main_v230 (broadcastInDim S65536x256 ![] bcast_S_S65536x256 : (⟨S_, .f32⟩ : BufTy).Contents (Elt F) → (⟨S65536x256, .f32⟩ : BufTy).Contents (Elt F)),
    binary main_v230 main_v229 main_v231 (Host.divf : (⟨S65536x256, .f32⟩ : BufTy).Contents (Elt F) → (⟨S65536x256, .f32⟩ : BufTy).Contents (Elt F) → (⟨S65536x256, .f32⟩ : BufTy).Contents (Elt F)),
    unary main_v217 main_v232 (Host.tanh : (⟨S65536x256, .f32⟩ : BufTy).Contents (Elt F) → (⟨S65536x256, .f32⟩ : BufTy).Contents (Elt F)),
    binary main_v231 main_v232 main_v233 (mulf : (⟨S65536x256, .f32⟩ : BufTy).Contents (Elt F) → (⟨S65536x256, .f32⟩ : BufTy).Contents (Elt F) → (⟨S65536x256, .f32⟩ : BufTy).Contents (Elt F)),
    binary main_v225 main_v233 main_v234 (addf : (⟨S65536x256, .f32⟩ : BufTy).Contents (Elt F) → (⟨S65536x256, .f32⟩ : BufTy).Contents (Elt F) → (⟨S65536x256, .f32⟩ : BufTy).Contents (Elt F)),
    unary main_v218 main_v235 (Host.negf : (⟨S65536x256, .f32⟩ : BufTy).Contents (Elt F) → (⟨S65536x256, .f32⟩ : BufTy).Contents (Elt F)),
    unary main_v235 main_v236 (Host.exp : (⟨S65536x256, .f32⟩ : BufTy).Contents (Elt F) → (⟨S65536x256, .f32⟩ : BufTy).Contents (Elt F)),
    nullary main_cst_45 (constant S_ .f32 0x3F800000#32),
    unary main_cst_45 main_v237 (broadcastInDim S65536x256 ![] bcast_S_S65536x256 : (⟨S_, .f32⟩ : BufTy).Contents (Elt F) → (⟨S65536x256, .f32⟩ : BufTy).Contents (Elt F)),
    binary main_v237 main_v236 main_v238 (addf : (⟨S65536x256, .f32⟩ : BufTy).Contents (Elt F) → (⟨S65536x256, .f32⟩ : BufTy).Contents (Elt F) → (⟨S65536x256, .f32⟩ : BufTy).Contents (Elt F)),
    nullary main_cst_46 (constant S_ .f32 0x3F800000#32),
    unary main_cst_46 main_v239 (broadcastInDim S65536x256 ![] bcast_S_S65536x256 : (⟨S_, .f32⟩ : BufTy).Contents (Elt F) → (⟨S65536x256, .f32⟩ : BufTy).Contents (Elt F)),
    binary main_v239 main_v238 main_v240 (Host.divf : (⟨S65536x256, .f32⟩ : BufTy).Contents (Elt F) → (⟨S65536x256, .f32⟩ : BufTy).Contents (Elt F) → (⟨S65536x256, .f32⟩ : BufTy).Contents (Elt F)),
    unary main_v234 main_v241 (Host.tanh : (⟨S65536x256, .f32⟩ : BufTy).Contents (Elt F) → (⟨S65536x256, .f32⟩ : BufTy).Contents (Elt F)),
    binary main_v240 main_v241 main_v242 (mulf : (⟨S65536x256, .f32⟩ : BufTy).Contents (Elt F) → (⟨S65536x256, .f32⟩ : BufTy).Contents (Elt F) → (⟨S65536x256, .f32⟩ : BufTy).Contents (Elt F)),
    reshape main_v242 main_v243 rfl shapeCasts_S65536x256_S128x512x256,
    unary main_arg3 main_v244 (broadcastInDim S128x512x256 ![0, 1, 2] bcast_S128x512x1_S128x512x256_0_1_2 : (⟨S128x512x1, .f32⟩ : BufTy).Contents (Elt F) → (⟨S128x512x256, .f32⟩ : BufTy).Contents (Elt F)),
    binary main_v243 main_v244 main_v245 (mulf : (⟨S128x512x256, .f32⟩ : BufTy).Contents (Elt F) → (⟨S128x512x256, .f32⟩ : BufTy).Contents (Elt F) → (⟨S128x512x256, .f32⟩ : BufTy).Contents (Elt F)) ]

end Cert.ReferenceIdeal.RefRun

end
-- ==== Proof.RefOps.lean ====
/-
  The reference program as one list of its 299 host operations, in order, and its run: every weakly fair execution
  terminates, nothing faulting, with every buffer at the fold of the operations' results over the launch contents.
  The list is the six stretches of the neighbouring module, one after the other.
-/
import proofs.«156547_j23003844837986_1_alg».proof.Proof.RefSegs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 299 operations, in order (a called function's operations stand in its call's place). -/
abbrev ops : List (HloOp τ sig (Elt F)) :=
  [ nullary main_v0 (iotaInDim S65536 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S327680 0 [⟨S262144, a⟩, ⟨S65536, b⟩] concatenates_S262144_S65536_S327680_d0) : (⟨S262144, .i32⟩ : BufTy).Contents (Elt F) → (⟨S65536, .i32⟩ : BufTy).Contents (Elt F) → (⟨S327680, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S327680 0 [⟨S262144, a⟩, ⟨S65536, b⟩] concatenates_S262144_S65536_S327680_d0) : (⟨S262144, .i32⟩ : BufTy).Contents (Elt F) → (⟨S65536, .i32⟩ : BufTy).Contents (Elt F) → (⟨S327680, .i32⟩ : BufTy).Contents (Elt F)),
    nullary main_cst (constant S_ .f32 0x3F800000#32),
    unary main_cst main_v7 (broadcastInDim S65536 ![] bcast_S_S65536 : (⟨S_, .f32⟩ : BufTy).Contents (Elt F) → (⟨S65536, .f32⟩ : BufTy).Contents (Elt F)),
    binary main_arg2 main_v7 main_v8 ((fun a b => concatenate S327680 0 [⟨S262144, a⟩, ⟨S65536, b⟩] concatenates_S262144_S65536_S327680_d0) : (⟨S262144, .f32⟩ : BufTy).Contents (Elt F) → (⟨S65536, .f32⟩ : BufTy).Contents (Elt F) → (⟨S327680, .f32⟩ : BufTy).Contents (Elt F)),
    unary main_arg4 main_v9 ((transpose S256x256 [1, 0] · transposes_S256x256_S256x256_1_0) : (⟨S256x256, .f32⟩ : BufTy).Contents (Elt F) → (⟨S256x256, .f32⟩ : BufTy).Contents (Elt F)),
    binary main_arg0 main_v9 main_v10 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    nullary main_cst_0 (constant S_ .f32 0x00000000#32),
    unary main_cst_0 main_v11 (broadcastInDim S65536 ![] bcast_S_S65536 : (⟨S_, .f32⟩ : BufTy).Contents (Elt F) → (⟨S65536, .f32⟩ : BufTy).Contents (Elt F)),
    unary main_v6 main_v12 (broadcastInDim S327680x1 ![0] bcast_S327680_S327680x1_0 : (⟨S327680, .i32⟩ : BufTy).Contents (Elt F) → (⟨S327680x1, .i32⟩ : BufTy).Contents (Elt F)),
    ternary main_v11 main_v12 main_v8 main_v13 ((fun x i u => Host.scatterAdd scatter_S65536_S327680x1_S327680_n_0_0_1 x i u) : (⟨S65536, .f32⟩ : BufTy).Contents (Elt F) → (⟨S327680x1, .i32⟩ : BufTy).Contents (Elt F) → (⟨S327680, .f32⟩ : BufTy).Contents (Elt F) → (⟨S65536, .f32⟩ : BufTy).Contents (Elt F)),
    nullary main_cst_1 (constant S_ .f32 0x00000000#32),
    unary main_cst_1 main_v14 (broadcastInDim S65536 ![] bcast_S_S65536 : (⟨S_, .f32⟩ : BufTy).Contents (Elt F) → (⟨S65536, .f32⟩ : BufTy).Contents (Elt F)),
    binary main_v13 main_v14 main_v15 (cmpf .ogt : (⟨S65536, .f32⟩ : BufTy).Contents (Elt F) → (⟨S65536, .f32⟩ : BufTy).Contents (Elt F) → (⟨S65536, .i1⟩ : BufTy).Contents (Elt F)),
    unary main_v13 main_v16 (Host.rsqrt : (⟨S65536, .f32⟩ : BufTy).Contents (Elt F) → (⟨S65536, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v15) (TRef.of (T := ⟨S65536, .f32⟩) main_v16) (TRef.of (T := ⟨S65536, .f32⟩) main_call0_v1) (TRef.of (T := ⟨S65536, .f32⟩) main_v17) select,
    nullary main_c (constantI S_ 32 0#32),
    unary main_c main_v18 (broadcastInDim S327680 ![] bcast_S_S327680 : (⟨S_, .i32⟩ : BufTy).Contents (Elt F) → (⟨S327680, .i32⟩ : BufTy).Contents (Elt F)),
    binary main_v3 main_v18 main_v19 (cmpi .slt : (⟨S327680, .i32⟩ : BufTy).Contents (Elt F) → (⟨S327680, .i32⟩ : BufTy).Contents (Elt F) → (⟨S327680, .i1⟩ : BufTy).Contents (Elt F)),
    nullary main_c_3 (constantI S_ 32 65536#32),
    unary main_c_3 main_v20 (broadcastInDim S327680 ![] bcast_S_S327680 : (⟨S_, .i32⟩ : BufTy).Contents (Elt F) → (⟨S327680, .i32⟩ : BufTy).Contents (Elt F)),
    binary main_v3 main_v20 main_v21 (addi : (⟨S327680, .i32⟩ : BufTy).Contents (Elt F) → (⟨S327680, .i32⟩ : BufTy).Contents (Elt F) → (⟨S327680, .i32⟩ : BufTy).Contents (Elt F)),
    ternary main_v19 main_v21 main_v3 main_v22 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v22 main_v23 (broadcastInDim S327680x1 ![0] bcast_S327680_S327680x1_0 : (⟨S327680, .i32⟩ : BufTy).Contents (Elt F) → (⟨S327680x1, .i32⟩ : BufTy).Contents (Elt F)),
    binary main_v17 main_v23 main_v24 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v24 main_v8 main_v25 (mulf : (⟨S327680, .f32⟩ : BufTy).Contents (Elt F) → (⟨S327680, .f32⟩ : BufTy).Contents (Elt F) → (⟨S327680, .f32⟩ : BufTy).Contents (Elt F)),
    nullary main_c_4 (constantI S_ 32 0#32),
    unary main_c_4 main_v26 (broadcastInDim S327680 ![] bcast_S_S327680 : (⟨S_, .i32⟩ : BufTy).Contents (Elt F) → (⟨S327680, .i32⟩ : BufTy).Contents (Elt F)),
    binary main_v6 main_v26 main_v27 (cmpi .slt : (⟨S327680, .i32⟩ : BufTy).Contents (Elt F) → (⟨S327680, .i32⟩ : BufTy).Contents (Elt F) → (⟨S327680, .i1⟩ : BufTy).Contents (Elt F)),
    nullary main_c_5 (constantI S_ 32 65536#32),
    unary main_c_5 main_v28 (broadcastInDim S327680 ![] bcast_S_S327680 : (⟨S_, .i32⟩ : BufTy).Contents (Elt F) → (⟨S327680, .i32⟩ : BufTy).Contents (Elt F)),
    binary main_v6 main_v28 main_v29 (addi : (⟨S327680, .i32⟩ : BufTy).Contents (Elt F) → (⟨S327680, .i32⟩ : BufTy).Contents (Elt F) → (⟨S327680, .i32⟩ : BufTy).Contents (Elt F)),
    ternary main_v27 main_v29 main_v6 main_v30 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v30 main_v31 (broadcastInDim S327680x1 ![0] bcast_S327680_S327680x1_0 : (⟨S327680, .i32⟩ : BufTy).Contents (Elt F) → (⟨S327680x1, .i32⟩ : BufTy).Contents (Elt F)),
    binary main_v17 main_v31 main_v32 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v25 main_v32 main_v33 (mulf : (⟨S327680, .f32⟩ : BufTy).Contents (Elt F) → (⟨S327680, .f32⟩ : BufTy).Contents (Elt F) → (⟨S327680, .f32⟩ : BufTy).Contents (Elt F)),
    nullary main_c_6 (constantI S_ 32 0#32),
    unary main_c_6 main_v34 (broadcastInDim S327680 ![] bcast_S_S327680 : (⟨S_, .i32⟩ : BufTy).Contents (Elt F) → (⟨S327680, .i32⟩ : BufTy).Contents (Elt F)),
    binary main_v3 main_v34 main_v35 (cmpi .slt : (⟨S327680, .i32⟩ : BufTy).Contents (Elt F) → (⟨S327680, .i32⟩ : BufTy).Contents (Elt F) → (⟨S327680, .i1⟩ : BufTy).Contents (Elt F)),
    nullary main_c_7 (constantI S_ 32 65536#32),
    unary main_c_7 main_v36 (broadcastInDim S327680 ![] bcast_S_S327680 : (⟨S_, .i32⟩ : BufTy).Contents (Elt F) → (⟨S327680, .i32⟩ : BufTy).Contents (Elt F)),
    binary main_v3 main_v36 main_v37 (addi : (⟨S327680, .i32⟩ : BufTy).Contents (Elt F) → (⟨S327680, .i32⟩ : BufTy).Contents (Elt F) → (⟨S327680, .i32⟩ : BufTy).Contents (Elt F)),
    ternary main_v35 main_v37 main_v3 main_v38 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v38 main_v39 (broadcastInDim S327680x1 ![0] bcast_S327680_S327680x1_0 : (⟨S327680, .i32⟩ : BufTy).Contents (Elt F) → (⟨S327680x1, .i32⟩ : BufTy).Contents (Elt F)),
    binary main_v10 main_v39 main_v40 ((fun x i => Host.gather gather_S65536x256_S327680x1_S327680x256_1_0_n_n_0_1_1256 x i) : (⟨S65536x256, .f32⟩ : BufTy).Contents (Elt F) → (⟨S327680x1, .i32⟩ : BufTy).Contents (Elt F) → (⟨S327680x256, .f32⟩ : BufTy).Contents (Elt F)),
    unary main_v33 main_v41 (broadcastInDim S327680x1 ![0] bcast_S327680_S327680x1_0 : (⟨S327680, .f32⟩ : BufTy).Contents (Elt F) → (⟨S327680x1, .f32⟩ : BufTy).Contents (Elt F)),
    unary main_v41 main_v42 (broadcastInDim S327680x256 ![0, 1] bcast_S327680x1_S327680x256_0_1 : (⟨S327680x1, .f32⟩ : BufTy).Contents (Elt F) → (⟨S327680x256, .f32⟩ : BufTy).Contents (Elt F)),
    binary main_v40 main_v42 main_v43 (mulf : (⟨S327680x256, .f32⟩ : BufTy).Contents (Elt F) → (⟨S327680x256, .f32⟩ : BufTy).Contents (Elt F) → (⟨S327680x256, .f32⟩ : BufTy).Contents (Elt F)),
    nullary main_cst_8 (constant S_ .f32 0x00000000#32),
    unary main_cst_8 main_v44 (broadcastInDim S65536x256 ![] bcast_S_S65536x256 : (⟨S_, .f32⟩ : BufTy).Contents (Elt F) → (⟨S65536x256, .f32⟩ : BufTy).Contents (Elt F)),
    unary main_v6 main_v45 (broadcastInDim S327680x1 ![0] bcast_S327680_S327680x1_0 : (⟨S327680, .i32⟩ : BufTy).Contents (Elt F) → (⟨S327680x1, .i32⟩ : BufTy).Contents (Elt F)),
    ternary main_v44 main_v45 main_v43 main_v46 ((fun x i u => Host.scatterAdd scatter_S65536x256_S327680x1_S327680x256_1_0_0_1 x i u) : (⟨S65536x256, .f32⟩ : BufTy).Contents (Elt F) → (⟨S327680x1, .i32⟩ : BufTy).Contents (Elt F) → (⟨S327680x256, .f32⟩ : BufTy).Contents (Elt F) → (⟨S65536x256, .f32⟩ : BufTy).Contents (Elt F)),
    unary main_arg5 main_v47 (broadcastInDim S1x256 ![1] bcast_S256_S1x256_1 : (⟨S256, .f32⟩ : BufTy).Contents (Elt F) → (⟨S1x256, .f32⟩ : BufTy).Contents (Elt F)),
    unary main_v47 main_v48 (broadcastInDim S65536x256 ![0, 1] bcast_S1x256_S65536x256_0_1 : (⟨S1x256, .f32⟩ : BufTy).Contents (Elt F) → (⟨S65536x256, .f32⟩ : BufTy).Contents (Elt F)),
    binary main_v46 main_v48 main_v49 (addf : (⟨S65536x256, .f32⟩ : BufTy).Contents (Elt F) → (⟨S65536x256, .f32⟩ : BufTy).Contents (Elt F) → (⟨S65536x256, .f32⟩ : BufTy).Contents (Elt F)),
    nullary main_cst_9 (constant S_ .f32 0x00000000#32),
    unary main_cst_9 main_v50 (broadcastInDim S65536x256 ![] bcast_S_S65536x256 : (⟨S_, .f32⟩ : BufTy).Contents (Elt F) → (⟨S65536x256, .f32⟩ : BufTy).Contents (Elt F)),
    nullary main_cst_10 (constant S_ .f32 0x00000000#32),
    unary main_cst_10 main_v51 (broadcastInDim S65536x256 ![] bcast_S_S65536x256 : (⟨S_, .f32⟩ : BufTy).Contents (Elt F) → (⟨S65536x256, .f32⟩ : BufTy).Contents (Elt F)),
    unary main_arg8 main_v52 ((transpose S256x1024 [1, 0] · transposes_S1024x256_S256x1024_1_0) : (⟨S1024x256, .f32⟩ : BufTy).Contents (Elt F) → (⟨S256x1024, .f32⟩ : BufTy).Contents (Elt F)),
    binary main_arg0 main_v52 main_v53 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v54 ((transpose S256x1024 [1, 0] · transposes_S1024x256_S256x1024_1_0) : (⟨S1024x256, .f32⟩ : BufTy).Contents (Elt F) → (⟨S256x1024, .f32⟩ : BufTy).Contents (Elt F)),
    binary main_v50 main_v54 main_v55 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v53 main_v55 main_v56 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v57 (addf : (⟨S1024, .f32⟩ : BufTy).Contents (Elt F) → (⟨S1024, .f32⟩ : BufTy).Contents (Elt F) → (⟨S1024, .f32⟩ : BufTy).Contents (Elt F)),
    unary main_v57 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    binary main_v56 main_v59 main_v60 (addf : (⟨S65536x1024, .f32⟩ : BufTy).Contents (Elt F) → (⟨S65536x1024, .f32⟩ : BufTy).Contents (Elt F) → (⟨S65536x1024, .f32⟩ : BufTy).Contents (Elt F)),
    unary main_v60 main_v61 ((extractStridedSlice S65536x256 ![0, 0] · slices_S65536x1024_S65536x256_0_0) : (⟨S65536x1024, .f32⟩ : BufTy).Contents (Elt F) → (⟨S65536x256, .f32⟩ : BufTy).Contents (Elt F)),
    unary main_v60 main_v62 ((extractStridedSlice S65536x256 ![0, 256] · slices_S65536x1024_S65536x256_0_256) : (⟨S65536x1024, .f32⟩ : BufTy).Contents (Elt F) → (⟨S65536x256, .f32⟩ : BufTy).Contents (Elt F)),
    unary main_v60 main_v63 ((extractStridedSlice S65536x256 ![0, 512] · slices_S65536x1024_S65536x256_0_512) : (⟨S65536x1024, .f32⟩ : BufTy).Contents (Elt F) → (⟨S65536x256, .f32⟩ : BufTy).Contents (Elt F)),
    unary main_v60 main_v64 ((extractStridedSlice S65536x256 ![0, 768] · slices_S65536x1024_S65536x256_0_768) : (⟨S65536x1024, .f32⟩ : BufTy).Contents (Elt F) → (⟨S65536x256, .f32⟩ : BufTy).Contents (Elt F)),
    unary main_v62 main_v65 (Host.negf : (⟨S65536x256, .f32⟩ : BufTy).Contents (Elt F) → (⟨S65536x256, .f32⟩ : BufTy).Contents (Elt F)),
    unary main_v65 main_v66 (Host.exp : (⟨S65536x256, .f32⟩ : BufTy).Contents (Elt F) → (⟨S65536x256, .f32⟩ : BufTy).Contents (Elt F)),
    nullary main_cst_11 (constant S_ .f32 0x3F800000#32),
    unary main_cst_11 main_v67 (broadcastInDim S65536x256 ![] bcast_S_S65536x256 : (⟨S_, .f32⟩ : BufTy).Contents (Elt F) → (⟨S65536x256, .f32⟩ : BufTy).Contents (Elt F)),
    binary main_v67 main_v66 main_v68 (addf : (⟨S65536x256, .f32⟩ : BufTy).Contents (Elt F) → (⟨S65536x256, .f32⟩ : BufTy).Contents (Elt F) → (⟨S65536x256, .f32⟩ : BufTy).Contents (Elt F)),
    nullary main_cst_12 (constant S_ .f32 0x3F800000#32),
    unary main_cst_12 main_v69 (broadcastInDim S65536x256 ![] bcast_S_S65536x256 : (⟨S_, .f32⟩ : BufTy).Contents (Elt F) → (⟨S65536x256, .f32⟩ : BufTy).Contents (Elt F)),
    binary main_v69 main_v68 main_v70 (Host.divf : (⟨S65536x256, .f32⟩ : BufTy).Contents (Elt F) → (⟨S65536x256, .f32⟩ : BufTy).Contents (Elt F) → (⟨S65536x256, .f32⟩ : BufTy).Contents (Elt F)),
    binary main_v70 main_v51 main_v71 (mulf : (⟨S65536x256, .f32⟩ : BufTy).Contents (Elt F) → (⟨S65536x256, .f32⟩ : BufTy).Contents (Elt F) → (⟨S65536x256, .f32⟩ : BufTy).Contents (Elt F)),
    unary main_v61 main_v72 (Host.negf : (⟨S65536x256, .f32⟩ : BufTy).Contents (Elt F) → (⟨S65536x256, .f32⟩ : BufTy).Contents (Elt F)),
    unary main_v72 main_v73 (Host.exp : (⟨S65536x256, .f32⟩ : BufTy).Contents (Elt F) → (⟨S65536x256, .f32⟩ : BufTy).Contents (Elt F)),
    nullary main_cst_13 (constant S_ .f32 0x3F800000#32),
    unary main_cst_13 main_v74 (broadcastInDim S65536x256 ![] bcast_S_S65536x256 : (⟨S_, .f32⟩ : BufTy).Contents (Elt F) → (⟨S65536x256, .f32⟩ : BufTy).Contents (Elt F)),
    binary main_v74 main_v73 main_v75 (addf : (⟨S65536x256, .f32⟩ : BufTy).Contents (Elt F) → (⟨S65536x256, .f32⟩ : BufTy).Contents (Elt F) → (⟨S65536x256, .f32⟩ : BufTy).Contents (Elt F)),
    nullary main_cst_14 (constant S_ .f32 0x3F800000#32),
    unary main_cst_14 main_v76 (broadcastInDim S65536x256 ![] bcast_S_S65536x256 : (⟨S_, .f32⟩ : BufTy).Contents (Elt F) → (⟨S65536x256, .f32⟩ : BufTy).Contents (Elt F)),
    binary main_v76 main_v75 main_v77 (Host.divf : (⟨S65536x256, .f32⟩ : BufTy).Contents (Elt F) → (⟨S65536x256, .f32⟩ : BufTy).Contents (Elt F) → (⟨S65536x256, .f32⟩ : BufTy).Contents (Elt F)),
    unary main_v63 main_v78 (Host.tanh : (⟨S65536x256, .f32⟩ : BufTy).Contents (Elt F) → (⟨S65536x256, .f32⟩ : BufTy).Contents (Elt F)),
    binary main_v77 main_v78 main_v79 (mulf : (⟨S65536x256, .f32⟩ : BufTy).Contents (Elt F) → (⟨S65536x256, .f32⟩ : BufTy).Contents (Elt F) → (⟨S65536x256, .f32⟩ : BufTy).Contents (Elt F)),
    binary main_v71 main_v79 main_v80 (addf : (⟨S65536x256, .f32⟩ : BufTy).Contents (Elt F) → (⟨S65536x256, .f32⟩ : BufTy).Contents (Elt F) → (⟨S65536x256, .f32⟩ : BufTy).Contents (Elt F)),
    unary main_v64 main_v81 (Host.negf : (⟨S65536x256, .f32⟩ : BufTy).Contents (Elt F) → (⟨S65536x256, .f32⟩ : BufTy).Contents (Elt F)),
    unary main_v81 main_v82 (Host.exp : (⟨S65536x256, .f32⟩ : BufTy).Contents (Elt F) → (⟨S65536x256, .f32⟩ : BufTy).Contents (Elt F)),
    nullary main_cst_15 (constant S_ .f32 0x3F800000#32),
    unary main_cst_15 main_v83 (broadcastInDim S65536x256 ![] bcast_S_S65536x256 : (⟨S_, .f32⟩ : BufTy).Contents (Elt F) → (⟨S65536x256, .f32⟩ : BufTy).Contents (Elt F)),
    binary main_v83 main_v82 main_v84 (addf : (⟨S65536x256, .f32⟩ : BufTy).Contents (Elt F) → (⟨S65536x256, .f32⟩ : BufTy).Contents (Elt F) → (⟨S65536x256, .f32⟩ : BufTy).Contents (Elt F)),
    nullary main_cst_16 (constant S_ .f32 0x3F800000#32),
    unary main_cst_16 main_v85 (broadcastInDim S65536x256 ![] bcast_S_S65536x256 : (⟨S_, .f32⟩ : BufTy).Contents (Elt F) → (⟨S65536x256, .f32⟩ : BufTy).Contents (Elt F)),
    binary main_v85 main_v84 main_v86 (Host.divf : (⟨S65536x256, .f32⟩ : BufTy).Contents (Elt F) → (⟨S65536x256, .f32⟩ : BufTy).Contents (Elt F) → (⟨S65536x256, .f32⟩ : BufTy).Contents (Elt F)),
    unary main_v80 main_v87 (Host.tanh : (⟨S65536x256, .f32⟩ : BufTy).Contents (Elt F) → (⟨S65536x256, .f32⟩ : BufTy).Contents (Elt F)),
    binary main_v86 main_v87 main_v88 (mulf : (⟨S65536x256, .f32⟩ : BufTy).Contents (Elt F) → (⟨S65536x256, .f32⟩ : BufTy).Contents (Elt F) → (⟨S65536x256, .f32⟩ : BufTy).Contents (Elt F)),
    unary main_arg8 main_v89 ((transpose S256x1024 [1, 0] · transposes_S1024x256_S256x1024_1_0) : (⟨S1024x256, .f32⟩ : BufTy).Contents (Elt F) → (⟨S256x1024, .f32⟩ : BufTy).Contents (Elt F)),
    binary main_v49 main_v89 main_v90 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v91 ((transpose S256x1024 [1, 0] · transposes_S1024x256_S256x1024_1_0) : (⟨S1024x256, .f32⟩ : BufTy).Contents (Elt F) → (⟨S256x1024, .f32⟩ : BufTy).Contents (Elt F)),
    binary main_v88 main_v91 main_v92 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v90 main_v92 main_v93 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v94 (addf : (⟨S1024, .f32⟩ : BufTy).Contents (Elt F) → (⟨S1024, .f32⟩ : BufTy).Contents (Elt F) → (⟨S1024, .f32⟩ : BufTy).Contents (Elt F)),
    unary main_v94 main_v95 (broadcastInDim S1x1024 ![1] bcast_S1024_S1x1024_1 : (⟨S1024, .f32⟩ : BufTy).Contents (Elt F) → (⟨S1x1024, .f32⟩ : BufTy).Contents (Elt F)),
    unary main_v95 main_v96 (broadcastInDim S65536x1024 ![0, 1] bcast_S1x1024_S65536x1024_0_1 : (⟨S1x1024, .f32⟩ : BufTy).Contents (Elt F) → (⟨S65536x1024, .f32⟩ : BufTy).Contents (Elt F)),
    binary main_v93 main_v96 main_v97 (addf : (⟨S65536x1024, .f32⟩ : BufTy).Contents (Elt F) → (⟨S65536x1024, .f32⟩ : BufTy).Contents (Elt F) → (⟨S65536x1024, .f32⟩ : BufTy).Contents (Elt F)),
    unary main_v97 main_v98 ((extractStridedSlice S65536x256 ![0, 0] · slices_S65536x1024_S65536x256_0_0) : (⟨S65536x1024, .f32⟩ : BufTy).Contents (Elt F) → (⟨S65536x256, .f32⟩ : BufTy).Contents (Elt F)),
    unary main_v97 main_v99 ((extractStridedSlice S65536x256 ![0, 256] · slices_S65536x1024_S65536x256_0_256) : (⟨S65536x1024, .f32⟩ : BufTy).Contents (Elt F) → (⟨S65536x256, .f32⟩ : BufTy).Contents (Elt F)),
    unary main_v97 main_v100 ((extractStridedSlice S65536x256 ![0, 512] · slices_S65536x1024_S65536x256_0_512) : (⟨S65536x1024, .f32⟩ : BufTy).Contents (Elt F) → (⟨S65536x256, .f32⟩ : BufTy).Contents (Elt F)),
    unary main_v97 main_v101 ((extractStridedSlice S65536x256 ![0, 768] · slices_S65536x1024_S65536x256_0_768) : (⟨S65536x1024, .f32⟩ : BufTy).Contents (Elt F) → (⟨S65536x256, .f32⟩ : BufTy).Contents (Elt F)),
    unary main_v99 main_v102 (Host.negf : (⟨S65536x256, .f32⟩ : BufTy).Contents (Elt F) → (⟨S65536x256, .f32⟩ : BufTy).Contents (Elt F)),
    unary main_v102 main_v103 (Host.exp : (⟨S65536x256, .f32⟩ : BufTy).Contents (Elt F) → (⟨S65536x256, .f32⟩ : BufTy).Contents (Elt F)),
    nullary main_cst_17 (constant S_ .f32 0x3F800000#32),
    unary main_cst_17 main_v104 (broadcastInDim S65536x256 ![] bcast_S_S65536x256 : (⟨S_, .f32⟩ : BufTy).Contents (Elt F) → (⟨S65536x256, .f32⟩ : BufTy).Contents (Elt F)),
    binary main_v104 main_v103 main_v105 (addf : (⟨S65536x256, .f32⟩ : BufTy).Contents (Elt F) → (⟨S65536x256, .f32⟩ : BufTy).Contents (Elt F) → (⟨S65536x256, .f32⟩ : BufTy).Contents (Elt F)),
    nullary main_cst_18 (constant S_ .f32 0x3F800000#32),
    unary main_cst_18 main_v106 (broadcastInDim S65536x256 ![] bcast_S_S65536x256 : (⟨S_, .f32⟩ : BufTy).Contents (Elt F) → (⟨S65536x256, .f32⟩ : BufTy).Contents (Elt F)),
    binary main_v106 main_v105 main_v107 (Host.divf : (⟨S65536x256, .f32⟩ : BufTy).Contents (Elt F) → (⟨S65536x256, .f32⟩ : BufTy).Contents (Elt F) → (⟨S65536x256, .f32⟩ : BufTy).Contents (Elt F)),
    binary main_v107 main_v80 main_v108 (mulf : (⟨S65536x256, .f32⟩ : BufTy).Contents (Elt F) → (⟨S65536x256, .f32⟩ : BufTy).Contents (Elt F) → (⟨S65536x256, .f32⟩ : BufTy).Contents (Elt F)),
    unary main_v98 main_v109 (Host.negf : (⟨S65536x256, .f32⟩ : BufTy).Contents (Elt F) → (⟨S65536x256, .f32⟩ : BufTy).Contents (Elt F)),
    unary main_v109 main_v110 (Host.exp : (⟨S65536x256, .f32⟩ : BufTy).Contents (Elt F) → (⟨S65536x256, .f32⟩ : BufTy).Contents (Elt F)),
    nullary main_cst_19 (constant S_ .f32 0x3F800000#32),
    unary main_cst_19 main_v111 (broadcastInDim S65536x256 ![] bcast_S_S65536x256 : (⟨S_, .f32⟩ : BufTy).Contents (Elt F) → (⟨S65536x256, .f32⟩ : BufTy).Contents (Elt F)),
    binary main_v111 main_v110 main_v112 (addf : (⟨S65536x256, .f32⟩ : BufTy).Contents (Elt F) → (⟨S65536x256, .f32⟩ : BufTy).Contents (Elt F) → (⟨S65536x256, .f32⟩ : BufTy).Contents (Elt F)),
    nullary main_cst_20 (constant S_ .f32 0x3F800000#32),
    unary main_cst_20 main_v113 (broadcastInDim S65536x256 ![] bcast_S_S65536x256 : (⟨S_, .f32⟩ : BufTy).Contents (Elt F) → (⟨S65536x256, .f32⟩ : BufTy).Contents (Elt F)),
    binary main_v113 main_v112 main_v114 (Host.divf : (⟨S65536x256, .f32⟩ : BufTy).Contents (Elt F) → (⟨S65536x256, .f32⟩ : BufTy).Contents (Elt F) → (⟨S65536x256, .f32⟩ : BufTy).Contents (Elt F)),
    unary main_v100 main_v115 (Host.tanh : (⟨S65536x256, .f32⟩ : BufTy).Contents (Elt F) → (⟨S65536x256, .f32⟩ : BufTy).Contents (Elt F)),
    binary main_v114 main_v115 main_v116 (mulf : (⟨S65536x256, .f32⟩ : BufTy).Contents (Elt F) → (⟨S65536x256, .f32⟩ : BufTy).Contents (Elt F) → (⟨S65536x256, .f32⟩ : BufTy).Contents (Elt F)),
    binary main_v108 main_v116 main_v117 (addf : (⟨S65536x256, .f32⟩ : BufTy).Contents (Elt F) → (⟨S65536x256, .f32⟩ : BufTy).Contents (Elt F) → (⟨S65536x256, .f32⟩ : BufTy).Contents (Elt F)),
    unary main_v101 main_v118 (Host.negf : (⟨S65536x256, .f32⟩ : BufTy).Contents (Elt F) → (⟨S65536x256, .f32⟩ : BufTy).Contents (Elt F)),
    unary main_v118 main_v119 (Host.exp : (⟨S65536x256, .f32⟩ : BufTy).Contents (Elt F) → (⟨S65536x256, .f32⟩ : BufTy).Contents (Elt F)),
    nullary main_cst_21 (constant S_ .f32 0x3F800000#32),
    unary main_cst_21 main_v120 (broadcastInDim S65536x256 ![] bcast_S_S65536x256 : (⟨S_, .f32⟩ : BufTy).Contents (Elt F) → (⟨S65536x256, .f32⟩ : BufTy).Contents (Elt F)),
    binary main_v120 main_v119 main_v121 (addf : (⟨S65536x256, .f32⟩ : BufTy).Contents (Elt F) → (⟨S65536x256, .f32⟩ : BufTy).Contents (Elt F) → (⟨S65536x256, .f32⟩ : BufTy).Contents (Elt F)),
    nullary main_cst_22 (constant S_ .f32 0x3F800000#32),
    unary main_cst_22 main_v122 (broadcastInDim S65536x256 ![] bcast_S_S65536x256 : (⟨S_, .f32⟩ : BufTy).Contents (Elt F) → (⟨S65536x256, .f32⟩ : BufTy).Contents (Elt F)),
    binary main_v122 main_v121 main_v123 (Host.divf : (⟨S65536x256, .f32⟩ : BufTy).Contents (Elt F) → (⟨S65536x256, .f32⟩ : BufTy).Contents (Elt F) → (⟨S65536x256, .f32⟩ : BufTy).Contents (Elt F)),
    unary main_v117 main_v124 (Host.tanh : (⟨S65536x256, .f32⟩ : BufTy).Contents (Elt F) → (⟨S65536x256, .f32⟩ : BufTy).Contents (Elt F)),
    binary main_v123 main_v124 main_v125 (mulf : (⟨S65536x256, .f32⟩ : BufTy).Contents (Elt F) → (⟨S65536x256, .f32⟩ : BufTy).Contents (Elt F) → (⟨S65536x256, .f32⟩ : BufTy).Contents (Elt F)),
    unary main_arg6 main_v126 ((transpose S256x256 [1, 0] · transposes_S256x256_S256x256_1_0) : (⟨S256x256, .f32⟩ : BufTy).Contents (Elt F) → (⟨S256x256, .f32⟩ : BufTy).Contents (Elt F)),
    binary main_v125 main_v126 main_v127 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    nullary main_cst_23 (constant S_ .f32 0x00000000#32),
    unary main_cst_23 main_v128 (broadcastInDim S65536 ![] bcast_S_S65536 : (⟨S_, .f32⟩ : BufTy).Contents (Elt F) → (⟨S65536, .f32⟩ : BufTy).Contents (Elt F)),
    unary main_v6 main_v129 (broadcastInDim S327680x1 ![0] bcast_S327680_S327680x1_0 : (⟨S327680, .i32⟩ : BufTy).Contents (Elt F) → (⟨S327680x1, .i32⟩ : BufTy).Contents (Elt F)),
    ternary main_v128 main_v129 main_v8 main_v130 ((fun x i u => Host.scatterAdd scatter_S65536_S327680x1_S327680_n_0_0_1 x i u) : (⟨S65536, .f32⟩ : BufTy).Contents (Elt F) → (⟨S327680x1, .i32⟩ : BufTy).Contents (Elt F) → (⟨S327680, .f32⟩ : BufTy).Contents (Elt F) → (⟨S65536, .f32⟩ : BufTy).Contents (Elt F)),
    nullary main_cst_24 (constant S_ .f32 0x00000000#32),
    unary main_cst_24 main_v131 (broadcastInDim S65536 ![] bcast_S_S65536 : (⟨S_, .f32⟩ : BufTy).Contents (Elt F) → (⟨S65536, .f32⟩ : BufTy).Contents (Elt F)),
    binary main_v130 main_v131 main_v132 (cmpf .ogt : (⟨S65536, .f32⟩ : BufTy).Contents (Elt F) → (⟨S65536, .f32⟩ : BufTy).Contents (Elt F) → (⟨S65536, .i1⟩ : BufTy).Contents (Elt F)),
    unary main_v130 main_v133 (Host.rsqrt : (⟨S65536, .f32⟩ : BufTy).Contents (Elt F) → (⟨S65536, .f32⟩ : BufTy).Contents (Elt F)),
    nullary main_cst_25 (constant S_ .f32 0x00000000#32),
    TRef.unary (TRef.of (T := ⟨S_, .f32⟩) main_cst_25) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v132) (TRef.of (T := ⟨S65536, .f32⟩) main_v133) (TRef.of (T := ⟨S65536, .f32⟩) main_call1_v1) (TRef.of (T := ⟨S65536, .f32⟩) main_v134) select,
    nullary main_c_26 (constantI S_ 32 0#32),
    unary main_c_26 main_v135 (broadcastInDim S327680 ![] bcast_S_S327680 : (⟨S_, .i32⟩ : BufTy).Contents (Elt F) → (⟨S327680, .i32⟩ : BufTy).Contents (Elt F)),
    binary main_v3 main_v135 main_v136 (cmpi .slt : (⟨S327680, .i32⟩ : BufTy).Contents (Elt F) → (⟨S327680, .i32⟩ : BufTy).Contents (Elt F) → (⟨S327680, .i1⟩ : BufTy).Contents (Elt F)),
    nullary main_c_27 (constantI S_ 32 65536#32),
    unary main_c_27 main_v137 (broadcastInDim S327680 ![] bcast_S_S327680 : (⟨S_, .i32⟩ : BufTy).Contents (Elt F) → (⟨S327680, .i32⟩ : BufTy).Contents (Elt F)),
    binary main_v3 main_v137 main_v138 (addi : (⟨S327680, .i32⟩ : BufTy).Contents (Elt F) → (⟨S327680, .i32⟩ : BufTy).Contents (Elt F) → (⟨S327680, .i32⟩ : BufTy).Contents (Elt F)),
    ternary main_v136 main_v138 main_v3 main_v139 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v139 main_v140 (broadcastInDim S327680x1 ![0] bcast_S327680_S327680x1_0 : (⟨S327680, .i32⟩ : BufTy).Contents (Elt F) → (⟨S327680x1, .i32⟩ : BufTy).Contents (Elt F)),
    binary main_v134 main_v140 main_v141 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v141 main_v8 main_v142 (mulf : (⟨S327680, .f32⟩ : BufTy).Contents (Elt F) → (⟨S327680, .f32⟩ : BufTy).Contents (Elt F) → (⟨S327680, .f32⟩ : BufTy).Contents (Elt F)),
    nullary main_c_28 (constantI S_ 32 0#32),
    unary main_c_28 main_v143 (broadcastInDim S327680 ![] bcast_S_S327680 : (⟨S_, .i32⟩ : BufTy).Contents (Elt F) → (⟨S327680, .i32⟩ : BufTy).Contents (Elt F)),
    binary main_v6 main_v143 main_v144 (cmpi .slt : (⟨S327680, .i32⟩ : BufTy).Contents (Elt F) → (⟨S327680, .i32⟩ : BufTy).Contents (Elt F) → (⟨S327680, .i1⟩ : BufTy).Contents (Elt F)),
    nullary main_c_29 (constantI S_ 32 65536#32),
    unary main_c_29 main_v145 (broadcastInDim S327680 ![] bcast_S_S327680 : (⟨S_, .i32⟩ : BufTy).Contents (Elt F) → (⟨S327680, .i32⟩ : BufTy).Contents (Elt F)),
    binary main_v6 main_v145 main_v146 (addi : (⟨S327680, .i32⟩ : BufTy).Contents (Elt F) → (⟨S327680, .i32⟩ : BufTy).Contents (Elt F) → (⟨S327680, .i32⟩ : BufTy).Contents (Elt F)),
    ternary main_v144 main_v146 main_v6 main_v147 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v147 main_v148 (broadcastInDim S327680x1 ![0] bcast_S327680_S327680x1_0 : (⟨S327680, .i32⟩ : BufTy).Contents (Elt F) → (⟨S327680x1, .i32⟩ : BufTy).Contents (Elt F)),
    binary main_v134 main_v148 main_v149 ((fun x i => Host.gather gather_S65536_S327680x1_S327680_n_0_n_n_0_1_1 x i) : (⟨S65536, .f32⟩ : BufTy).Contents (Elt F) → (⟨S327680x1, .i32⟩ : BufTy).Contents (Elt F) → (⟨S327680, .f32⟩ : BufTy).Contents (Elt F)),
    binary main_v142 main_v149 main_v150 (mulf : (⟨S327680, .f32⟩ : BufTy).Contents (Elt F) → (⟨S327680, .f32⟩ : BufTy).Contents (Elt F) → (⟨S327680, .f32⟩ : BufTy).Contents (Elt F)),
    nullary main_c_30 (constantI S_ 32 0#32),
    unary main_c_30 main_v151 (broadcastInDim S327680 ![] bcast_S_S327680 : (⟨S_, .i32⟩ : BufTy).Contents (Elt F) → (⟨S327680, .i32⟩ : BufTy).Contents (Elt F)),
    binary main_v3 main_v151 main_v152 (cmpi .slt : (⟨S327680, .i32⟩ : BufTy).Contents (Elt F) → (⟨S327680, .i32⟩ : BufTy).Contents (Elt F) → (⟨S327680, .i1⟩ : BufTy).Contents (Elt F)),
    nullary main_c_31 (constantI S_ 32 65536#32),
    unary main_c_31 main_v153 (broadcastInDim S327680 ![] bcast_S_S327680 : (⟨S_, .i32⟩ : BufTy).Contents (Elt F) → (⟨S327680, .i32⟩ : BufTy).Contents (Elt F)),
    binary main_v3 main_v153 main_v154 (addi : (⟨S327680, .i32⟩ : BufTy).Contents (Elt F) → (⟨S327680, .i32⟩ : BufTy).Contents (Elt F) → (⟨S327680, .i32⟩ : BufTy).Contents (Elt F)),
    ternary main_v152 main_v154 main_v3 main_v155 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v155 main_v156 (broadcastInDim S327680x1 ![0] bcast_S327680_S327680x1_0 : (⟨S327680, .i32⟩ : BufTy).Contents (Elt F) → (⟨S327680x1, .i32⟩ : BufTy).Contents (Elt F)),
    binary main_v127 main_v156 main_v157 ((fun x i => Host.gather gather_S65536x256_S327680x1_S327680x256_1_0_n_n_0_1_1256 x i) : (⟨S65536x256, .f32⟩ : BufTy).Contents (Elt F) → (⟨S327680x1, .i32⟩ : BufTy).Contents (Elt F) → (⟨S327680x256, .f32⟩ : BufTy).Contents (Elt F)),
    unary main_v150 main_v158 (broadcastInDim S327680x1 ![0] bcast_S327680_S327680x1_0 : (⟨S327680, .f32⟩ : BufTy).Contents (Elt F) → (⟨S327680x1, .f32⟩ : BufTy).Contents (Elt F)),
    unary main_v158 main_v159 (broadcastInDim S327680x256 ![0, 1] bcast_S327680x1_S327680x256_0_1 : (⟨S327680x1, .f32⟩ : BufTy).Contents (Elt F) → (⟨S327680x256, .f32⟩ : BufTy).Contents (Elt F)),
    binary main_v157 main_v159 main_v160 (mulf : (⟨S327680x256, .f32⟩ : BufTy).Contents (Elt F) → (⟨S327680x256, .f32⟩ : BufTy).Contents (Elt F) → (⟨S327680x256, .f32⟩ : BufTy).Contents (Elt F)),
    nullary main_cst_32 (constant S_ .f32 0x00000000#32),
    unary main_cst_32 main_v161 (broadcastInDim S65536x256 ![] bcast_S_S65536x256 : (⟨S_, .f32⟩ : BufTy).Contents (Elt F) → (⟨S65536x256, .f32⟩ : BufTy).Contents (Elt F)),
    unary main_v6 main_v162 (broadcastInDim S327680x1 ![0] bcast_S327680_S327680x1_0 : (⟨S327680, .i32⟩ : BufTy).Contents (Elt F) → (⟨S327680x1, .i32⟩ : BufTy).Contents (Elt F)),
    ternary main_v161 main_v162 main_v160 main_v163 ((fun x i u => Host.scatterAdd scatter_S65536x256_S327680x1_S327680x256_1_0_0_1 x i u) : (⟨S65536x256, .f32⟩ : BufTy).Contents (Elt F) → (⟨S327680x1, .i32⟩ : BufTy).Contents (Elt F) → (⟨S327680x256, .f32⟩ : BufTy).Contents (Elt F) → (⟨S65536x256, .f32⟩ : BufTy).Contents (Elt F)),
    unary main_arg7 main_v164 (broadcastInDim S1x256 ![1] bcast_S256_S1x256_1 : (⟨S256, .f32⟩ : BufTy).Contents (Elt F) → (⟨S1x256, .f32⟩ : BufTy).Contents (Elt F)),
    unary main_v164 main_v165 (broadcastInDim S65536x256 ![0, 1] bcast_S1x256_S65536x256_0_1 : (⟨S1x256, .f32⟩ : BufTy).Contents (Elt F) → (⟨S65536x256, .f32⟩ : BufTy).Contents (Elt F)),
    binary main_v163 main_v165 main_v166 (addf : (⟨S65536x256, .f32⟩ : BufTy).Contents (Elt F) → (⟨S65536x256, .f32⟩ : BufTy).Contents (Elt F) → (⟨S65536x256, .f32⟩ : BufTy).Contents (Elt F)),
    nullary main_cst_33 (constant S_ .f32 0x00000000#32),
    unary main_cst_33 main_v167 (broadcastInDim S65536x256 ![] bcast_S_S65536x256 : (⟨S_, .f32⟩ : BufTy).Contents (Elt F) → (⟨S65536x256, .f32⟩ : BufTy).Contents (Elt F)),
    nullary main_cst_34 (constant S_ .f32 0x00000000#32),
    unary main_cst_34 main_v168 (broadcastInDim S65536x256 ![] bcast_S_S65536x256 : (⟨S_, .f32⟩ : BufTy).Contents (Elt F) → (⟨S65536x256, .f32⟩ : BufTy).Contents (Elt F)),
    unary main_arg8 main_v169 ((transpose S256x1024 [1, 0] · transposes_S1024x256_S256x1024_1_0) : (⟨S1024x256, .f32⟩ : BufTy).Contents (Elt F) → (⟨S256x1024, .f32⟩ : BufTy).Contents (Elt F)),
    binary main_v125 main_v169 main_v170 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v171 ((transpose S256x1024 [1, 0] · transposes_S1024x256_S256x1024_1_0) : (⟨S1024x256, .f32⟩ : BufTy).Contents (Elt F) → (⟨S256x1024, .f32⟩ : BufTy).Contents (Elt F)),
    binary main_v167 main_v171 main_v172 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v170 main_v172 main_v173 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v174 (addf : (⟨S1024, .f32⟩ : BufTy).Contents (Elt F) → (⟨S1024, .f32⟩ : BufTy).Contents (Elt F) → (⟨S1024, .f32⟩ : BufTy).Contents (Elt F)),
    unary main_v174 main_v175 (broadcastInDim S1x1024 ![1] bcast_S1024_S1x1024_1 : (⟨S1024, .f32⟩ : BufTy).Contents (Elt F) → (⟨S1x1024, .f32⟩ : BufTy).Contents (Elt F)),
    unary main_v175 main_v176 (broadcastInDim S65536x1024 ![0, 1] bcast_S1x1024_S65536x1024_0_1 : (⟨S1x1024, .f32⟩ : BufTy).Contents (Elt F) → (⟨S65536x1024, .f32⟩ : BufTy).Contents (Elt F)),
    binary main_v173 main_v176 main_v177 (addf : (⟨S65536x1024, .f32⟩ : BufTy).Contents (Elt F) → (⟨S65536x1024, .f32⟩ : BufTy).Contents (Elt F) → (⟨S65536x1024, .f32⟩ : BufTy).Contents (Elt F)),
    unary main_v177 main_v178 ((extractStridedSlice S65536x256 ![0, 0] · slices_S65536x1024_S65536x256_0_0) : (⟨S65536x1024, .f32⟩ : BufTy).Contents (Elt F) → (⟨S65536x256, .f32⟩ : BufTy).Contents (Elt F)),
    unary main_v177 main_v179 ((extractStridedSlice S65536x256 ![0, 256] · slices_S65536x1024_S65536x256_0_256) : (⟨S65536x1024, .f32⟩ : BufTy).Contents (Elt F) → (⟨S65536x256, .f32⟩ : BufTy).Contents (Elt F)),
    unary main_v177 main_v180 ((extractStridedSlice S65536x256 ![0, 512] · slices_S65536x1024_S65536x256_0_512) : (⟨S65536x1024, .f32⟩ : BufTy).Contents (Elt F) → (⟨S65536x256, .f32⟩ : BufTy).Contents (Elt F)),
    unary main_v177 main_v181 ((extractStridedSlice S65536x256 ![0, 768] · slices_S65536x1024_S65536x256_0_768) : (⟨S65536x1024, .f32⟩ : BufTy).Contents (Elt F) → (⟨S65536x256, .f32⟩ : BufTy).Contents (Elt F)),
    unary main_v179 main_v182 (Host.negf : (⟨S65536x256, .f32⟩ : BufTy).Contents (Elt F) → (⟨S65536x256, .f32⟩ : BufTy).Contents (Elt F)),
    unary main_v182 main_v183 (Host.exp : (⟨S65536x256, .f32⟩ : BufTy).Contents (Elt F) → (⟨S65536x256, .f32⟩ : BufTy).Contents (Elt F)),
    nullary main_cst_35 (constant S_ .f32 0x3F800000#32),
    unary main_cst_35 main_v184 (broadcastInDim S65536x256 ![] bcast_S_S65536x256 : (⟨S_, .f32⟩ : BufTy).Contents (Elt F) → (⟨S65536x256, .f32⟩ : BufTy).Contents (Elt F)),
    binary main_v184 main_v183 main_v185 (addf : (⟨S65536x256, .f32⟩ : BufTy).Contents (Elt F) → (⟨S65536x256, .f32⟩ : BufTy).Contents (Elt F) → (⟨S65536x256, .f32⟩ : BufTy).Contents (Elt F)),
    nullary main_cst_36 (constant S_ .f32 0x3F800000#32),
    unary main_cst_36 main_v186 (broadcastInDim S65536x256 ![] bcast_S_S65536x256 : (⟨S_, .f32⟩ : BufTy).Contents (Elt F) → (⟨S65536x256, .f32⟩ : BufTy).Contents (Elt F)),
    binary main_v186 main_v185 main_v187 (Host.divf : (⟨S65536x256, .f32⟩ : BufTy).Contents (Elt F) → (⟨S65536x256, .f32⟩ : BufTy).Contents (Elt F) → (⟨S65536x256, .f32⟩ : BufTy).Contents (Elt F)),
    binary main_v187 main_v168 main_v188 (mulf : (⟨S65536x256, .f32⟩ : BufTy).Contents (Elt F) → (⟨S65536x256, .f32⟩ : BufTy).Contents (Elt F) → (⟨S65536x256, .f32⟩ : BufTy).Contents (Elt F)),
    unary main_v178 main_v189 (Host.negf : (⟨S65536x256, .f32⟩ : BufTy).Contents (Elt F) → (⟨S65536x256, .f32⟩ : BufTy).Contents (Elt F)),
    unary main_v189 main_v190 (Host.exp : (⟨S65536x256, .f32⟩ : BufTy).Contents (Elt F) → (⟨S65536x256, .f32⟩ : BufTy).Contents (Elt F)),
    nullary main_cst_37 (constant S_ .f32 0x3F800000#32),
    unary main_cst_37 main_v191 (broadcastInDim S65536x256 ![] bcast_S_S65536x256 : (⟨S_, .f32⟩ : BufTy).Contents (Elt F) → (⟨S65536x256, .f32⟩ : BufTy).Contents (Elt F)),
    binary main_v191 main_v190 main_v192 (addf : (⟨S65536x256, .f32⟩ : BufTy).Contents (Elt F) → (⟨S65536x256, .f32⟩ : BufTy).Contents (Elt F) → (⟨S65536x256, .f32⟩ : BufTy).Contents (Elt F)),
    nullary main_cst_38 (constant S_ .f32 0x3F800000#32),
    unary main_cst_38 main_v193 (broadcastInDim S65536x256 ![] bcast_S_S65536x256 : (⟨S_, .f32⟩ : BufTy).Contents (Elt F) → (⟨S65536x256, .f32⟩ : BufTy).Contents (Elt F)),
    binary main_v193 main_v192 main_v194 (Host.divf : (⟨S65536x256, .f32⟩ : BufTy).Contents (Elt F) → (⟨S65536x256, .f32⟩ : BufTy).Contents (Elt F) → (⟨S65536x256, .f32⟩ : BufTy).Contents (Elt F)),
    unary main_v180 main_v195 (Host.tanh : (⟨S65536x256, .f32⟩ : BufTy).Contents (Elt F) → (⟨S65536x256, .f32⟩ : BufTy).Contents (Elt F)),
    binary main_v194 main_v195 main_v196 (mulf : (⟨S65536x256, .f32⟩ : BufTy).Contents (Elt F) → (⟨S65536x256, .f32⟩ : BufTy).Contents (Elt F) → (⟨S65536x256, .f32⟩ : BufTy).Contents (Elt F)),
    binary main_v188 main_v196 main_v197 (addf : (⟨S65536x256, .f32⟩ : BufTy).Contents (Elt F) → (⟨S65536x256, .f32⟩ : BufTy).Contents (Elt F) → (⟨S65536x256, .f32⟩ : BufTy).Contents (Elt F)),
    unary main_v181 main_v198 (Host.negf : (⟨S65536x256, .f32⟩ : BufTy).Contents (Elt F) → (⟨S65536x256, .f32⟩ : BufTy).Contents (Elt F)),
    unary main_v198 main_v199 (Host.exp : (⟨S65536x256, .f32⟩ : BufTy).Contents (Elt F) → (⟨S65536x256, .f32⟩ : BufTy).Contents (Elt F)),
    nullary main_cst_39 (constant S_ .f32 0x3F800000#32),
    unary main_cst_39 main_v200 (broadcastInDim S65536x256 ![] bcast_S_S65536x256 : (⟨S_, .f32⟩ : BufTy).Contents (Elt F) → (⟨S65536x256, .f32⟩ : BufTy).Contents (Elt F)),
    binary main_v200 main_v199 main_v201 (addf : (⟨S65536x256, .f32⟩ : BufTy).Contents (Elt F) → (⟨S65536x256, .f32⟩ : BufTy).Contents (Elt F) → (⟨S65536x256, .f32⟩ : BufTy).Contents (Elt F)),
    nullary main_cst_40 (constant S_ .f32 0x3F800000#32),
    unary main_cst_40 main_v202 (broadcastInDim S65536x256 ![] bcast_S_S65536x256 : (⟨S_, .f32⟩ : BufTy).Contents (Elt F) → (⟨S65536x256, .f32⟩ : BufTy).Contents (Elt F)),
    binary main_v202 main_v201 main_v203 (Host.divf : (⟨S65536x256, .f32⟩ : BufTy).Contents (Elt F) → (⟨S65536x256, .f32⟩ : BufTy).Contents (Elt F) → (⟨S65536x256, .f32⟩ : BufTy).Contents (Elt F)),
    unary main_v197 main_v204 (Host.tanh : (⟨S65536x256, .f32⟩ : BufTy).Contents (Elt F) → (⟨S65536x256, .f32⟩ : BufTy).Contents (Elt F)),
    binary main_v203 main_v204 main_v205 (mulf : (⟨S65536x256, .f32⟩ : BufTy).Contents (Elt F) → (⟨S65536x256, .f32⟩ : BufTy).Contents (Elt F) → (⟨S65536x256, .f32⟩ : BufTy).Contents (Elt F)),
    unary main_arg8 main_v206 ((transpose S256x1024 [1, 0] · transposes_S1024x256_S256x1024_1_0) : (⟨S1024x256, .f32⟩ : BufTy).Contents (Elt F) → (⟨S256x1024, .f32⟩ : BufTy).Contents (Elt F)),
    binary main_v166 main_v206 main_v207 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg9 main_v208 ((transpose S256x1024 [1, 0] · transposes_S1024x256_S256x1024_1_0) : (⟨S1024x256, .f32⟩ : BufTy).Contents (Elt F) → (⟨S256x1024, .f32⟩ : BufTy).Contents (Elt F)),
    binary main_v205 main_v208 main_v209 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v207 main_v209 main_v210 (addf : (⟨S65536x1024, .f32⟩ : BufTy).Contents (Elt F) → (⟨S65536x1024, .f32⟩ : BufTy).Contents (Elt F) → (⟨S65536x1024, .f32⟩ : BufTy).Contents (Elt F)),
    binary main_arg10 main_arg11 main_v211 (addf : (⟨S1024, .f32⟩ : BufTy).Contents (Elt F) → (⟨S1024, .f32⟩ : BufTy).Contents (Elt F) → (⟨S1024, .f32⟩ : BufTy).Contents (Elt F)),
    unary main_v211 main_v212 (broadcastInDim S1x1024 ![1] bcast_S1024_S1x1024_1 : (⟨S1024, .f32⟩ : BufTy).Contents (Elt F) → (⟨S1x1024, .f32⟩ : BufTy).Contents (Elt F)),
    unary main_v212 main_v213 (broadcastInDim S65536x1024 ![0, 1] bcast_S1x1024_S65536x1024_0_1 : (⟨S1x1024, .f32⟩ : BufTy).Contents (Elt F) → (⟨S65536x1024, .f32⟩ : BufTy).Contents (Elt F)),
    binary main_v210 main_v213 main_v214 (addf : (⟨S65536x1024, .f32⟩ : BufTy).Contents (Elt F) → (⟨S65536x1024, .f32⟩ : BufTy).Contents (Elt F) → (⟨S65536x1024, .f32⟩ : BufTy).Contents (Elt F)),
    unary main_v214 main_v215 ((extractStridedSlice S65536x256 ![0, 0] · slices_S65536x1024_S65536x256_0_0) : (⟨S65536x1024, .f32⟩ : BufTy).Contents (Elt F) → (⟨S65536x256, .f32⟩ : BufTy).Contents (Elt F)),
    unary main_v214 main_v216 ((extractStridedSlice S65536x256 ![0, 256] · slices_S65536x1024_S65536x256_0_256) : (⟨S65536x1024, .f32⟩ : BufTy).Contents (Elt F) → (⟨S65536x256, .f32⟩ : BufTy).Contents (Elt F)),
    unary main_v214 main_v217 ((extractStridedSlice S65536x256 ![0, 512] · slices_S65536x1024_S65536x256_0_512) : (⟨S65536x1024, .f32⟩ : BufTy).Contents (Elt F) → (⟨S65536x256, .f32⟩ : BufTy).Contents (Elt F)),
    unary main_v214 main_v218 ((extractStridedSlice S65536x256 ![0, 768] · slices_S65536x1024_S65536x256_0_768) : (⟨S65536x1024, .f32⟩ : BufTy).Contents (Elt F) → (⟨S65536x256, .f32⟩ : BufTy).Contents (Elt F)),
    unary main_v216 main_v219 (Host.negf : (⟨S65536x256, .f32⟩ : BufTy).Contents (Elt F) → (⟨S65536x256, .f32⟩ : BufTy).Contents (Elt F)),
    unary main_v219 main_v220 (Host.exp : (⟨S65536x256, .f32⟩ : BufTy).Contents (Elt F) → (⟨S65536x256, .f32⟩ : BufTy).Contents (Elt F)),
    nullary main_cst_41 (constant S_ .f32 0x3F800000#32),
    unary main_cst_41 main_v221 (broadcastInDim S65536x256 ![] bcast_S_S65536x256 : (⟨S_, .f32⟩ : BufTy).Contents (Elt F) → (⟨S65536x256, .f32⟩ : BufTy).Contents (Elt F)),
    binary main_v221 main_v220 main_v222 (addf : (⟨S65536x256, .f32⟩ : BufTy).Contents (Elt F) → (⟨S65536x256, .f32⟩ : BufTy).Contents (Elt F) → (⟨S65536x256, .f32⟩ : BufTy).Contents (Elt F)),
    nullary main_cst_42 (constant S_ .f32 0x3F800000#32),
    unary main_cst_42 main_v223 (broadcastInDim S65536x256 ![] bcast_S_S65536x256 : (⟨S_, .f32⟩ : BufTy).Contents (Elt F) → (⟨S65536x256, .f32⟩ : BufTy).Contents (Elt F)),
    binary main_v223 main_v222 main_v224 (Host.divf : (⟨S65536x256, .f32⟩ : BufTy).Contents (Elt F) → (⟨S65536x256, .f32⟩ : BufTy).Contents (Elt F) → (⟨S65536x256, .f32⟩ : BufTy).Contents (Elt F)),
    binary main_v224 main_v197 main_v225 (mulf : (⟨S65536x256, .f32⟩ : BufTy).Contents (Elt F) → (⟨S65536x256, .f32⟩ : BufTy).Contents (Elt F) → (⟨S65536x256, .f32⟩ : BufTy).Contents (Elt F)),
    unary main_v215 main_v226 (Host.negf : (⟨S65536x256, .f32⟩ : BufTy).Contents (Elt F) → (⟨S65536x256, .f32⟩ : BufTy).Contents (Elt F)),
    unary main_v226 main_v227 (Host.exp : (⟨S65536x256, .f32⟩ : BufTy).Contents (Elt F) → (⟨S65536x256, .f32⟩ : BufTy).Contents (Elt F)),
    nullary main_cst_43 (constant S_ .f32 0x3F800000#32),
    unary main_cst_43 main_v228 (broadcastInDim S65536x256 ![] bcast_S_S65536x256 : (⟨S_, .f32⟩ : BufTy).Contents (Elt F) → (⟨S65536x256, .f32⟩ : BufTy).Contents (Elt F)),
    binary main_v228 main_v227 main_v229 (addf : (⟨S65536x256, .f32⟩ : BufTy).Contents (Elt F) → (⟨S65536x256, .f32⟩ : BufTy).Contents (Elt F) → (⟨S65536x256, .f32⟩ : BufTy).Contents (Elt F)),
    nullary main_cst_44 (constant S_ .f32 0x3F800000#32),
    unary main_cst_44 main_v230 (broadcastInDim S65536x256 ![] bcast_S_S65536x256 : (⟨S_, .f32⟩ : BufTy).Contents (Elt F) → (⟨S65536x256, .f32⟩ : BufTy).Contents (Elt F)),
    binary main_v230 main_v229 main_v231 (Host.divf : (⟨S65536x256, .f32⟩ : BufTy).Contents (Elt F) → (⟨S65536x256, .f32⟩ : BufTy).Contents (Elt F) → (⟨S65536x256, .f32⟩ : BufTy).Contents (Elt F)),
    unary main_v217 main_v232 (Host.tanh : (⟨S65536x256, .f32⟩ : BufTy).Contents (Elt F) → (⟨S65536x256, .f32⟩ : BufTy).Contents (Elt F)),
    binary main_v231 main_v232 main_v233 (mulf : (⟨S65536x256, .f32⟩ : BufTy).Contents (Elt F) → (⟨S65536x256, .f32⟩ : BufTy).Contents (Elt F) → (⟨S65536x256, .f32⟩ : BufTy).Contents (Elt F)),
    binary main_v225 main_v233 main_v234 (addf : (⟨S65536x256, .f32⟩ : BufTy).Contents (Elt F) → (⟨S65536x256, .f32⟩ : BufTy).Contents (Elt F) → (⟨S65536x256, .f32⟩ : BufTy).Contents (Elt F)),
    unary main_v218 main_v235 (Host.negf : (⟨S65536x256, .f32⟩ : BufTy).Contents (Elt F) → (⟨S65536x256, .f32⟩ : BufTy).Contents (Elt F)),
    unary main_v235 main_v236 (Host.exp : (⟨S65536x256, .f32⟩ : BufTy).Contents (Elt F) → (⟨S65536x256, .f32⟩ : BufTy).Contents (Elt F)),
    nullary main_cst_45 (constant S_ .f32 0x3F800000#32),
    unary main_cst_45 main_v237 (broadcastInDim S65536x256 ![] bcast_S_S65536x256 : (⟨S_, .f32⟩ : BufTy).Contents (Elt F) → (⟨S65536x256, .f32⟩ : BufTy).Contents (Elt F)),
    binary main_v237 main_v236 main_v238 (addf : (⟨S65536x256, .f32⟩ : BufTy).Contents (Elt F) → (⟨S65536x256, .f32⟩ : BufTy).Contents (Elt F) → (⟨S65536x256, .f32⟩ : BufTy).Contents (Elt F)),
    nullary main_cst_46 (constant S_ .f32 0x3F800000#32),
    unary main_cst_46 main_v239 (broadcastInDim S65536x256 ![] bcast_S_S65536x256 : (⟨S_, .f32⟩ : BufTy).Contents (Elt F) → (⟨S65536x256, .f32⟩ : BufTy).Contents (Elt F)),
    binary main_v239 main_v238 main_v240 (Host.divf : (⟨S65536x256, .f32⟩ : BufTy).Contents (Elt F) → (⟨S65536x256, .f32⟩ : BufTy).Contents (Elt F) → (⟨S65536x256, .f32⟩ : BufTy).Contents (Elt F)),
    unary main_v234 main_v241 (Host.tanh : (⟨S65536x256, .f32⟩ : BufTy).Contents (Elt F) → (⟨S65536x256, .f32⟩ : BufTy).Contents (Elt F)),
    binary main_v240 main_v241 main_v242 (mulf : (⟨S65536x256, .f32⟩ : BufTy).Contents (Elt F) → (⟨S65536x256, .f32⟩ : BufTy).Contents (Elt F) → (⟨S65536x256, .f32⟩ : BufTy).Contents (Elt F)),
    reshape main_v242 main_v243 rfl shapeCasts_S65536x256_S128x512x256,
    unary main_arg3 main_v244 (broadcastInDim S128x512x256 ![0, 1, 2] bcast_S128x512x1_S128x512x256_0_1_2 : (⟨S128x512x1, .f32⟩ : BufTy).Contents (Elt F) → (⟨S128x512x256, .f32⟩ : BufTy).Contents (Elt F)),
    binary main_v243 main_v244 main_v245 (mulf : (⟨S128x512x256, .f32⟩ : BufTy).Contents (Elt F) → (⟨S128x512x256, .f32⟩ : BufTy).Contents (Elt F) → (⟨S128x512x256, .f32⟩ : BufTy).Contents (Elt F)) ]

/-- The list is the six stretches, one after the other. -/
theorem ops_split : (ops : List (HloOp τ sig (Elt F))) = opsA ++ (opsB ++ (opsC ++ (opsD ++ (opsE ++ opsG)))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., nullary_bufs_sub .., unary_bufs_sub .., unary_bufs_sub .., binary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., nullary_bufs_sub .., unary_bufs_sub .., unary_bufs_sub .., binary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub ..⟩

/-- The run: every buffer ends at the fold of the operations over the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.RefKept.lean ====
/-
  What the reference's six stretches of host operations leave alone: no operation writes an argument array, and a
  buffer written in one stretch is not written again by a later one. So a buffer read after a stretch that does not
  write it holds what it held before the stretch; in particular every argument array ends as launched.
-/
import proofs.«156547_j23003844837986_1_alg».proof.Proof.RefSegs
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold over two stretches run one after the other is the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## A stretch leaves alone every buffer it does not write -/

set_option maxRecDepth 65536 in
theorem keptA_arg0 (V : Valuation τ sig (Elt Ideal)) :
    after (opsA (F := Ideal)) V (Proc.devRef .tc main_arg0) = V (Proc.devRef .tc main_arg0) := by after_results_simp
set_option maxRecDepth 65536 in
theorem keptA_arg1 (V : Valuation τ sig (Elt Ideal)) :
    after (opsA (F := Ideal)) V (Proc.devRef .tc main_arg1) = V (Proc.devRef .tc main_arg1) := by after_results_simp
set_option maxRecDepth 65536 in
theorem keptA_arg2 (V : Valuation τ sig (Elt Ideal)) :
    after (opsA (F := Ideal)) V (Proc.devRef .tc main_arg2) = V (Proc.devRef .tc main_arg2) := by after_results_simp
set_option maxRecDepth 65536 in
theorem keptA_arg3 (V : Valuation τ sig (Elt Ideal)) :
    after (opsA (F := Ideal)) V (Proc.devRef .tc main_arg3) = V (Proc.devRef .tc main_arg3) := by after_results_simp
set_option maxRecDepth 65536 in
theorem keptA_arg4 (V : Valuation τ sig (Elt Ideal)) :
    after (opsA (F := Ideal)) V (Proc.devRef .tc main_arg4) = V (Proc.devRef .tc main_arg4) := by after_results_simp
set_option maxRecDepth 65536 in
theorem keptA_arg5 (V : Valuation τ sig (Elt Ideal)) :
    after (opsA (F := Ideal)) V (Proc.devRef .tc main_arg5) = V (Proc.devRef .tc main_arg5) := by after_results_simp
set_option maxRecDepth 65536 in
theorem keptA_arg6 (V : Valuation τ sig (Elt Ideal)) :
    after (opsA (F := Ideal)) V (Proc.devRef .tc main_arg6) = V (Proc.devRef .tc main_arg6) := by after_results_simp
set_option maxRecDepth 65536 in
theorem keptA_arg7 (V : Valuation τ sig (Elt Ideal)) :
    after (opsA (F := Ideal)) V (Proc.devRef .tc main_arg7) = V (Proc.devRef .tc main_arg7) := by after_results_simp
set_option maxRecDepth 65536 in
theorem keptA_arg8 (V : Valuation τ sig (Elt Ideal)) :
    after (opsA (F := Ideal)) V (Proc.devRef .tc main_arg8) = V (Proc.devRef .tc main_arg8) := by after_results_simp
set_option maxRecDepth 65536 in
theorem keptA_arg9 (V : Valuation τ sig (Elt Ideal)) :
    after (opsA (F := Ideal)) V (Proc.devRef .tc main_arg9) = V (Proc.devRef .tc main_arg9) := by after_results_simp
set_option maxRecDepth 65536 in
theorem keptA_arg10 (V : Valuation τ sig (Elt Ideal)) :
    after (opsA (F := Ideal)) V (Proc.devRef .tc main_arg10) = V (Proc.devRef .tc main_arg10) := by after_results_simp
set_option maxRecDepth 65536 in
theorem keptA_arg11 (V : Valuation τ sig (Elt Ideal)) :
    after (opsA (F := Ideal)) V (Proc.devRef .tc main_arg11) = V (Proc.devRef .tc main_arg11) := by after_results_simp
set_option maxRecDepth 65536 in
theorem keptB_arg0 (V : Valuation τ sig (Elt Ideal)) :
    after (opsB (F := Ideal)) V (Proc.devRef .tc main_arg0) = V (Proc.devRef .tc main_arg0) := by after_results_simp
set_option maxRecDepth 65536 in
theorem keptB_arg1 (V : Valuation τ sig (Elt Ideal)) :
    after (opsB (F := Ideal)) V (Proc.devRef .tc main_arg1) = V (Proc.devRef .tc main_arg1) := by after_results_simp
set_option maxRecDepth 65536 in
theorem keptB_arg2 (V : Valuation τ sig (Elt Ideal)) :
    after (opsB (F := Ideal)) V (Proc.devRef .tc main_arg2) = V (Proc.devRef .tc main_arg2) := by after_results_simp
set_option maxRecDepth 65536 in
theorem keptB_arg3 (V : Valuation τ sig (Elt Ideal)) :
    after (opsB (F := Ideal)) V (Proc.devRef .tc main_arg3) = V (Proc.devRef .tc main_arg3) := by after_results_simp
set_option maxRecDepth 65536 in
theorem keptB_arg4 (V : Valuation τ sig (Elt Ideal)) :
    after (opsB (F := Ideal)) V (Proc.devRef .tc main_arg4) = V (Proc.devRef .tc main_arg4) := by after_results_simp
set_option maxRecDepth 65536 in
theorem keptB_arg5 (V : Valuation τ sig (Elt Ideal)) :
    after (opsB (F := Ideal)) V (Proc.devRef .tc main_arg5) = V (Proc.devRef .tc main_arg5) := by after_results_simp
set_option maxRecDepth 65536 in
theorem keptB_arg6 (V : Valuation τ sig (Elt Ideal)) :
    after (opsB (F := Ideal)) V (Proc.devRef .tc main_arg6) = V (Proc.devRef .tc main_arg6) := by after_results_simp
set_option maxRecDepth 65536 in
theorem keptB_arg7 (V : Valuation τ sig (Elt Ideal)) :
    after (opsB (F := Ideal)) V (Proc.devRef .tc main_arg7) = V (Proc.devRef .tc main_arg7) := by after_results_simp
set_option maxRecDepth 65536 in
theorem keptB_arg8 (V : Valuation τ sig (Elt Ideal)) :
    after (opsB (F := Ideal)) V (Proc.devRef .tc main_arg8) = V (Proc.devRef .tc main_arg8) := by after_results_simp
set_option maxRecDepth 65536 in
theorem keptB_arg9 (V : Valuation τ sig (Elt Ideal)) :
    after (opsB (F := Ideal)) V (Proc.devRef .tc main_arg9) = V (Proc.devRef .tc main_arg9) := by after_results_simp
set_option maxRecDepth 65536 in
theorem keptB_arg10 (V : Valuation τ sig (Elt Ideal)) :
    after (opsB (F := Ideal)) V (Proc.devRef .tc main_arg10) = V (Proc.devRef .tc main_arg10) := by after_results_simp
set_option maxRecDepth 65536 in
theorem keptB_arg11 (V : Valuation τ sig (Elt Ideal)) :
    after (opsB (F := Ideal)) V (Proc.devRef .tc main_arg11) = V (Proc.devRef .tc main_arg11) := by after_results_simp
set_option maxRecDepth 65536 in
theorem keptC_arg0 (V : Valuation τ sig (Elt Ideal)) :
    after (opsC (F := Ideal)) V (Proc.devRef .tc main_arg0) = V (Proc.devRef .tc main_arg0) := by after_results_simp
set_option maxRecDepth 65536 in
theorem keptC_arg1 (V : Valuation τ sig (Elt Ideal)) :
    after (opsC (F := Ideal)) V (Proc.devRef .tc main_arg1) = V (Proc.devRef .tc main_arg1) := by after_results_simp
set_option maxRecDepth 65536 in
theorem keptC_arg2 (V : Valuation τ sig (Elt Ideal)) :
    after (opsC (F := Ideal)) V (Proc.devRef .tc main_arg2) = V (Proc.devRef .tc main_arg2) := by after_results_simp
set_option maxRecDepth 65536 in
theorem keptC_arg3 (V : Valuation τ sig (Elt Ideal)) :
    after (opsC (F := Ideal)) V (Proc.devRef .tc main_arg3) = V (Proc.devRef .tc main_arg3) := by after_results_simp
set_option maxRecDepth 65536 in
theorem keptC_arg4 (V : Valuation τ sig (Elt Ideal)) :
    after (opsC (F := Ideal)) V (Proc.devRef .tc main_arg4) = V (Proc.devRef .tc main_arg4) := by after_results_simp
set_option maxRecDepth 65536 in
theorem keptC_arg5 (V : Valuation τ sig (Elt Ideal)) :
    after (opsC (F := Ideal)) V (Proc.devRef .tc main_arg5) = V (Proc.devRef .tc main_arg5) := by after_results_simp
set_option maxRecDepth 65536 in
theorem keptC_arg6 (V : Valuation τ sig (Elt Ideal)) :
    after (opsC (F := Ideal)) V (Proc.devRef .tc main_arg6) = V (Proc.devRef .tc main_arg6) := by after_results_simp
set_option maxRecDepth 65536 in
theorem keptC_arg7 (V : Valuation τ sig (Elt Ideal)) :
    after (opsC (F := Ideal)) V (Proc.devRef .tc main_arg7) = V (Proc.devRef .tc main_arg7) := by after_results_simp
set_option maxRecDepth 65536 in
theorem keptC_arg8 (V : Valuation τ sig (Elt Ideal)) :
    after (opsC (F := Ideal)) V (Proc.devRef .tc main_arg8) = V (Proc.devRef .tc main_arg8) := by after_results_simp
set_option maxRecDepth 65536 in
theorem keptC_arg9 (V : Valuation τ sig (Elt Ideal)) :
    after (opsC (F := Ideal)) V (Proc.devRef .tc main_arg9) = V (Proc.devRef .tc main_arg9) := by after_results_simp
set_option maxRecDepth 65536 in
theorem keptC_arg10 (V : Valuation τ sig (Elt Ideal)) :
    after (opsC (F := Ideal)) V (Proc.devRef .tc main_arg10) = V (Proc.devRef .tc main_arg10) := by after_results_simp
set_option maxRecDepth 65536 in
theorem keptC_arg11 (V : Valuation τ sig (Elt Ideal)) :
    after (opsC (F := Ideal)) V (Proc.devRef .tc main_arg11) = V (Proc.devRef .tc main_arg11) := by after_results_simp
set_option maxRecDepth 65536 in
theorem keptD_arg0 (V : Valuation τ sig (Elt Ideal)) :
    after (opsD (F := Ideal)) V (Proc.devRef .tc main_arg0) = V (Proc.devRef .tc main_arg0) := by after_results_simp
set_option maxRecDepth 65536 in
theorem keptD_arg1 (V : Valuation τ sig (Elt Ideal)) :
    after (opsD (F := Ideal)) V (Proc.devRef .tc main_arg1) = V (Proc.devRef .tc main_arg1) := by after_results_simp
set_option maxRecDepth 65536 in
theorem keptD_arg2 (V : Valuation τ sig (Elt Ideal)) :
    after (opsD (F := Ideal)) V (Proc.devRef .tc main_arg2) = V (Proc.devRef .tc main_arg2) := by after_results_simp
set_option maxRecDepth 65536 in
theorem keptD_arg3 (V : Valuation τ sig (Elt Ideal)) :
    after (opsD (F := Ideal)) V (Proc.devRef .tc main_arg3) = V (Proc.devRef .tc main_arg3) := by after_results_simp
set_option maxRecDepth 65536 in
theorem keptD_arg4 (V : Valuation τ sig (Elt Ideal)) :
    after (opsD (F := Ideal)) V (Proc.devRef .tc main_arg4) = V (Proc.devRef .tc main_arg4) := by after_results_simp
set_option maxRecDepth 65536 in
theorem keptD_arg5 (V : Valuation τ sig (Elt Ideal)) :
    after (opsD (F := Ideal)) V (Proc.devRef .tc main_arg5) = V (Proc.devRef .tc main_arg5) := by after_results_simp
set_option maxRecDepth 65536 in
theorem keptD_arg6 (V : Valuation τ sig (Elt Ideal)) :
    after (opsD (F := Ideal)) V (Proc.devRef .tc main_arg6) = V (Proc.devRef .tc main_arg6) := by after_results_simp
set_option maxRecDepth 65536 in
theorem keptD_arg7 (V : Valuation τ sig (Elt Ideal)) :
    after (opsD (F := Ideal)) V (Proc.devRef .tc main_arg7) = V (Proc.devRef .tc main_arg7) := by after_results_simp
set_option maxRecDepth 65536 in
theorem keptD_arg8 (V : Valuation τ sig (Elt Ideal)) :
    after (opsD (F := Ideal)) V (Proc.devRef .tc main_arg8) = V (Proc.devRef .tc main_arg8) := by after_results_simp
set_option maxRecDepth 65536 in
theorem keptD_arg9 (V : Valuation τ sig (Elt Ideal)) :
    after (opsD (F := Ideal)) V (Proc.devRef .tc main_arg9) = V (Proc.devRef .tc main_arg9) := by after_results_simp
set_option maxRecDepth 65536 in
theorem keptD_arg10 (V : Valuation τ sig (Elt Ideal)) :
    after (opsD (F := Ideal)) V (Proc.devRef .tc main_arg10) = V (Proc.devRef .tc main_arg10) := by after_results_simp
set_option maxRecDepth 65536 in
theorem keptD_arg11 (V : Valuation τ sig (Elt Ideal)) :
    after (opsD (F := Ideal)) V (Proc.devRef .tc main_arg11) = V (Proc.devRef .tc main_arg11) := by after_results_simp
set_option maxRecDepth 65536 in
theorem keptE_arg0 (V : Valuation τ sig (Elt Ideal)) :
    after (opsE (F := Ideal)) V (Proc.devRef .tc main_arg0) = V (Proc.devRef .tc main_arg0) := by after_results_simp
set_option maxRecDepth 65536 in
theorem keptE_arg1 (V : Valuation τ sig (Elt Ideal)) :
    after (opsE (F := Ideal)) V (Proc.devRef .tc main_arg1) = V (Proc.devRef .tc main_arg1) := by after_results_simp
set_option maxRecDepth 65536 in
theorem keptE_arg2 (V : Valuation τ sig (Elt Ideal)) :
    after (opsE (F := Ideal)) V (Proc.devRef .tc main_arg2) = V (Proc.devRef .tc main_arg2) := by after_results_simp
set_option maxRecDepth 65536 in
theorem keptE_arg3 (V : Valuation τ sig (Elt Ideal)) :
    after (opsE (F := Ideal)) V (Proc.devRef .tc main_arg3) = V (Proc.devRef .tc main_arg3) := by after_results_simp
set_option maxRecDepth 65536 in
theorem keptE_arg4 (V : Valuation τ sig (Elt Ideal)) :
    after (opsE (F := Ideal)) V (Proc.devRef .tc main_arg4) = V (Proc.devRef .tc main_arg4) := by after_results_simp
set_option maxRecDepth 65536 in
theorem keptE_arg5 (V : Valuation τ sig (Elt Ideal)) :
    after (opsE (F := Ideal)) V (Proc.devRef .tc main_arg5) = V (Proc.devRef .tc main_arg5) := by after_results_simp
set_option maxRecDepth 65536 in
theorem keptE_arg6 (V : Valuation τ sig (Elt Ideal)) :
    after (opsE (F := Ideal)) V (Proc.devRef .tc main_arg6) = V (Proc.devRef .tc main_arg6) := by after_results_simp
set_option maxRecDepth 65536 in
theorem keptE_arg7 (V : Valuation τ sig (Elt Ideal)) :
    after (opsE (F := Ideal)) V (Proc.devRef .tc main_arg7) = V (Proc.devRef .tc main_arg7) := by after_results_simp
set_option maxRecDepth 65536 in
theorem keptE_arg8 (V : Valuation τ sig (Elt Ideal)) :
    after (opsE (F := Ideal)) V (Proc.devRef .tc main_arg8) = V (Proc.devRef .tc main_arg8) := by after_results_simp
set_option maxRecDepth 65536 in
theorem keptE_arg9 (V : Valuation τ sig (Elt Ideal)) :
    after (opsE (F := Ideal)) V (Proc.devRef .tc main_arg9) = V (Proc.devRef .tc main_arg9) := by after_results_simp
set_option maxRecDepth 65536 in
theorem keptE_arg10 (V : Valuation τ sig (Elt Ideal)) :
    after (opsE (F := Ideal)) V (Proc.devRef .tc main_arg10) = V (Proc.devRef .tc main_arg10) := by after_results_simp
set_option maxRecDepth 65536 in
theorem keptE_arg11 (V : Valuation τ sig (Elt Ideal)) :
    after (opsE (F := Ideal)) V (Proc.devRef .tc main_arg11) = V (Proc.devRef .tc main_arg11) := by after_results_simp
set_option maxRecDepth 65536 in
theorem keptG_arg0 (V : Valuation τ sig (Elt Ideal)) :
    after (opsG (F := Ideal)) V (Proc.devRef .tc main_arg0) = V (Proc.devRef .tc main_arg0) := by after_results_simp
set_option maxRecDepth 65536 in
theorem keptG_arg1 (V : Valuation τ sig (Elt Ideal)) :
    after (opsG (F := Ideal)) V (Proc.devRef .tc main_arg1) = V (Proc.devRef .tc main_arg1) := by after_results_simp
set_option maxRecDepth 65536 in
theorem keptG_arg2 (V : Valuation τ sig (Elt Ideal)) :
    after (opsG (F := Ideal)) V (Proc.devRef .tc main_arg2) = V (Proc.devRef .tc main_arg2) := by after_results_simp
set_option maxRecDepth 65536 in
theorem keptG_arg3 (V : Valuation τ sig (Elt Ideal)) :
    after (opsG (F := Ideal)) V (Proc.devRef .tc main_arg3) = V (Proc.devRef .tc main_arg3) := by after_results_simp
set_option maxRecDepth 65536 in
theorem keptG_arg4 (V : Valuation τ sig (Elt Ideal)) :
    after (opsG (F := Ideal)) V (Proc.devRef .tc main_arg4) = V (Proc.devRef .tc main_arg4) := by after_results_simp
set_option maxRecDepth 65536 in
theorem keptG_arg5 (V : Valuation τ sig (Elt Ideal)) :
    after (opsG (F := Ideal)) V (Proc.devRef .tc main_arg5) = V (Proc.devRef .tc main_arg5) := by after_results_simp
set_option maxRecDepth 65536 in
theorem keptG_arg6 (V : Valuation τ sig (Elt Ideal)) :
    after (opsG (F := Ideal)) V (Proc.devRef .tc main_arg6) = V (Proc.devRef .tc main_arg6) := by after_results_simp
set_option maxRecDepth 65536 in
theorem keptG_arg7 (V : Valuation τ sig (Elt Ideal)) :
    after (opsG (F := Ideal)) V (Proc.devRef .tc main_arg7) = V (Proc.devRef .tc main_arg7) := by after_results_simp
set_option maxRecDepth 65536 in
theorem keptG_arg8 (V : Valuation τ sig (Elt Ideal)) :
    after (opsG (F := Ideal)) V (Proc.devRef .tc main_arg8) = V (Proc.devRef .tc main_arg8) := by after_results_simp
set_option maxRecDepth 65536 in
theorem keptG_arg9 (V : Valuation τ sig (Elt Ideal)) :
    after (opsG (F := Ideal)) V (Proc.devRef .tc main_arg9) = V (Proc.devRef .tc main_arg9) := by after_results_simp
set_option maxRecDepth 65536 in
theorem keptG_arg10 (V : Valuation τ sig (Elt Ideal)) :
    after (opsG (F := Ideal)) V (Proc.devRef .tc main_arg10) = V (Proc.devRef .tc main_arg10) := by after_results_simp
set_option maxRecDepth 65536 in
theorem keptG_arg11 (V : Valuation τ sig (Elt Ideal)) :
    after (opsG (F := Ideal)) V (Proc.devRef .tc main_arg11) = V (Proc.devRef .tc main_arg11) := by after_results_simp
set_option maxRecDepth 65536 in
theorem keptB_v3 (V : Valuation τ sig (Elt Ideal)) :
    after (opsB (F := Ideal)) V (Proc.devRef .tc main_v3) = V (Proc.devRef .tc main_v3) := by after_results_simp
set_option maxRecDepth 65536 in
theorem keptB_v6 (V : Valuation τ sig (Elt Ideal)) :
    after (opsB (F := Ideal)) V (Proc.devRef .tc main_v6) = V (Proc.devRef .tc main_v6) := by after_results_simp
set_option maxRecDepth 65536 in
theorem keptB_v8 (V : Valuation τ sig (Elt Ideal)) :
    after (opsB (F := Ideal)) V (Proc.devRef .tc main_v8) = V (Proc.devRef .tc main_v8) := by after_results_simp
set_option maxRecDepth 65536 in
theorem keptB_v49 (V : Valuation τ sig (Elt Ideal)) :
    after (opsB (F := Ideal)) V (Proc.devRef .tc main_v49) = V (Proc.devRef .tc main_v49) := by after_results_simp
set_option maxRecDepth 65536 in
theorem keptC_v3 (V : Valuation τ sig (Elt Ideal)) :
    after (opsC (F := Ideal)) V (Proc.devRef .tc main_v3) = V (Proc.devRef .tc main_v3) := by after_results_simp
set_option maxRecDepth 65536 in
theorem keptC_v6 (V : Valuation τ sig (Elt Ideal)) :
    after (opsC (F := Ideal)) V (Proc.devRef .tc main_v6) = V (Proc.devRef .tc main_v6) := by after_results_simp
set_option maxRecDepth 65536 in
theorem keptC_v8 (V : Valuation τ sig (Elt Ideal)) :
    after (opsC (F := Ideal)) V (Proc.devRef .tc main_v8) = V (Proc.devRef .tc main_v8) := by after_results_simp
set_option maxRecDepth 65536 in
theorem keptD_v125 (V : Valuation τ sig (Elt Ideal)) :
    after (opsD (F := Ideal)) V (Proc.devRef .tc main_v125) = V (Proc.devRef .tc main_v125) := by after_results_simp
set_option maxRecDepth 65536 in
theorem keptE_v166 (V : Valuation τ sig (Elt Ideal)) :
    after (opsE (F := Ideal)) V (Proc.devRef .tc main_v166) = V (Proc.devRef .tc main_v166) := by after_results_simp

/-! ## The arguments end as launched -/

/-- Argument 0 is as launched after the whole program. -/
theorem arg_0 (m : (ℓ : Loc nD τ sig) → Buf (Elt Ideal) ℓ) (c : Dev nD) :
    after (opsA (F := Ideal) ++ (opsB ++ (opsC ++ (opsD ++ (opsE ++ opsG))))) (launchContents m c) (Proc.devRef .tc main_arg0)
      = m ((c.tc : Thread nD τ).loc main_arg0) := by
  rw [after_append, after_append, after_append, after_append, after_append, keptG_arg0, keptE_arg0, keptD_arg0, keptC_arg0, keptB_arg0, keptA_arg0]

/-- Argument 1 is as launched after the whole program. -/
theorem arg_1 (m : (ℓ : Loc nD τ sig) → Buf (Elt Ideal) ℓ) (c : Dev nD) :
    after (opsA (F := Ideal) ++ (opsB ++ (opsC ++ (opsD ++ (opsE ++ opsG))))) (launchContents m c) (Proc.devRef .tc main_arg1)
      = m ((c.tc : Thread nD τ).loc main_arg1) := by
  rw [after_append, after_append, after_append, after_append, after_append, keptG_arg1, keptE_arg1, keptD_arg1, keptC_arg1, keptB_arg1, keptA_arg1]

/-- Argument 2 is as launched after the whole program. -/
theorem arg_2 (m : (ℓ : Loc nD τ sig) → Buf (Elt Ideal) ℓ) (c : Dev nD) :
    after (opsA (F := Ideal) ++ (opsB ++ (opsC ++ (opsD ++ (opsE ++ opsG))))) (launchContents m c) (Proc.devRef .tc main_arg2)
      = m ((c.tc : Thread nD τ).loc main_arg2) := by
  rw [after_append, after_append, after_append, after_append, after_append, keptG_arg2, keptE_arg2, keptD_arg2, keptC_arg2, keptB_arg2, keptA_arg2]

/-- Argument 3 is as launched after the whole program. -/
theorem arg_3 (m : (ℓ : Loc nD τ sig) → Buf (Elt Ideal) ℓ) (c : Dev nD) :
    after (opsA (F := Ideal) ++ (opsB ++ (opsC ++ (opsD ++ (opsE ++ opsG))))) (launchContents m c) (Proc.devRef .tc main_arg3)
      = m ((c.tc : Thread nD τ).loc main_arg3) := by
  rw [after_append, after_append, after_append, after_append, after_append, keptG_arg3, keptE_arg3, keptD_arg3, keptC_arg3, keptB_arg3, keptA_arg3]

/-- Argument 4 is as launched after the whole program. -/
theorem arg_4 (m : (ℓ : Loc nD τ sig) → Buf (Elt Ideal) ℓ) (c : Dev nD) :
    after (opsA (F := Ideal) ++ (opsB ++ (opsC ++ (opsD ++ (opsE ++ opsG))))) (launchContents m c) (Proc.devRef .tc main_arg4)
      = m ((c.tc : Thread nD τ).loc main_arg4) := by
  rw [after_append, after_append, after_append, after_append, after_append, keptG_arg4, keptE_arg4, keptD_arg4, keptC_arg4, keptB_arg4, keptA_arg4]

/-- Argument 5 is as launched after the whole program. -/
theorem arg_5 (m : (ℓ : Loc nD τ sig) → Buf (Elt Ideal) ℓ) (c : Dev nD) :
    after (opsA (F := Ideal) ++ (opsB ++ (opsC ++ (opsD ++ (opsE ++ opsG))))) (launchContents m c) (Proc.devRef .tc main_arg5)
      = m ((c.tc : Thread nD τ).loc main_arg5) := by
  rw [after_append, after_append, after_append, after_append, after_append, keptG_arg5, keptE_arg5, keptD_arg5, keptC_arg5, keptB_arg5, keptA_arg5]

/-- Argument 6 is as launched after the whole program. -/
theorem arg_6 (m : (ℓ : Loc nD τ sig) → Buf (Elt Ideal) ℓ) (c : Dev nD) :
    after (opsA (F := Ideal) ++ (opsB ++ (opsC ++ (opsD ++ (opsE ++ opsG))))) (launchContents m c) (Proc.devRef .tc main_arg6)
      = m ((c.tc : Thread nD τ).loc main_arg6) := by
  rw [after_append, after_append, after_append, after_append, after_append, keptG_arg6, keptE_arg6, keptD_arg6, keptC_arg6, keptB_arg6, keptA_arg6]

/-- Argument 7 is as launched after the whole program. -/
theorem arg_7 (m : (ℓ : Loc nD τ sig) → Buf (Elt Ideal) ℓ) (c : Dev nD) :
    after (opsA (F := Ideal) ++ (opsB ++ (opsC ++ (opsD ++ (opsE ++ opsG))))) (launchContents m c) (Proc.devRef .tc main_arg7)
      = m ((c.tc : Thread nD τ).loc main_arg7) := by
  rw [after_append, after_append, after_append, after_append, after_append, keptG_arg7, keptE_arg7, keptD_arg7, keptC_arg7, keptB_arg7, keptA_arg7]

/-- Argument 8 is as launched after the whole program. -/
theorem arg_8 (m : (ℓ : Loc nD τ sig) → Buf (Elt Ideal) ℓ) (c : Dev nD) :
    after (opsA (F := Ideal) ++ (opsB ++ (opsC ++ (opsD ++ (opsE ++ opsG))))) (launchContents m c) (Proc.devRef .tc main_arg8)
      = m ((c.tc : Thread nD τ).loc main_arg8) := by
  rw [after_append, after_append, after_append, after_append, after_append, keptG_arg8, keptE_arg8, keptD_arg8, keptC_arg8, keptB_arg8, keptA_arg8]

/-- Argument 9 is as launched after the whole program. -/
theorem arg_9 (m : (ℓ : Loc nD τ sig) → Buf (Elt Ideal) ℓ) (c : Dev nD) :
    after (opsA (F := Ideal) ++ (opsB ++ (opsC ++ (opsD ++ (opsE ++ opsG))))) (launchContents m c) (Proc.devRef .tc main_arg9)
      = m ((c.tc : Thread nD τ).loc main_arg9) := by
  rw [after_append, after_append, after_append, after_append, after_append, keptG_arg9, keptE_arg9, keptD_arg9, keptC_arg9, keptB_arg9, keptA_arg9]

/-- Argument 10 is as launched after the whole program. -/
theorem arg_10 (m : (ℓ : Loc nD τ sig) → Buf (Elt Ideal) ℓ) (c : Dev nD) :
    after (opsA (F := Ideal) ++ (opsB ++ (opsC ++ (opsD ++ (opsE ++ opsG))))) (launchContents m c) (Proc.devRef .tc main_arg10)
      = m ((c.tc : Thread nD τ).loc main_arg10) := by
  rw [after_append, after_append, after_append, after_append, after_append, keptG_arg10, keptE_arg10, keptD_arg10, keptC_arg10, keptB_arg10, keptA_arg10]

/-- Argument 11 is as launched after the whole program. -/
theorem arg_11 (m : (ℓ : Loc nD τ sig) → Buf (Elt Ideal) ℓ) (c : Dev nD) :
    after (opsA (F := Ideal) ++ (opsB ++ (opsC ++ (opsD ++ (opsE ++ opsG))))) (launchContents m c) (Proc.devRef .tc main_arg11)
      = m ((c.tc : Thread nD τ).loc main_arg11) := by
  rw [after_append, after_append, after_append, after_append, after_append, keptG_arg11, keptE_arg11, keptD_arg11, keptC_arg11, keptB_arg11, keptA_arg11]

end Cert.ReferenceIdeal.RefRun

end
-- ==== Proof.RefStagesA.lean ====
/-
  The first stretch of the reference's host operations, read back: the two edge-index arrays and the edge-weight array
  with their self loops (each a concatenation of a part cut from an argument with a constant part), and the first graph
  layer's output (projection, degree normalisation, gather along the edges, scatter-add, bias).

  The stretch is cut after the three concatenations: what they produce is carried into the rest of the stretch as named
  values, and the rest is read as the same operations applied to those values.
-/
import proofs.«156547_j23003844837986_1_alg».proof.Proof.RefSegs
import proofs.«156547_j23003844837986_1_alg».proof.Proof.RefKept
import proofs.«156547_j23003844837986_1_alg».proof.Proof.ReadP
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

/-- Running two lines of operations one after the other is running their concatenation. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The outlined `where` of the first graph layer: its typed references only re-type the buffers' contents, so the value
    is the plain select of the operands. -/
theorem where0 (a : (⟨S65536, .i1⟩ : BufTy).Contents (Elt Ideal)) (b : (⟨S65536, .f32⟩ : BufTy).Contents (Elt Ideal)) (z : (⟨S_, .f32⟩ : BufTy).Contents (Elt Ideal)) :
    (TRef.of main_v17 : TRef sig ⟨S65536, .f32⟩).toBuf (select ((TRef.of main_v15 : TRef sig ⟨S65536, .i1⟩).ofBuf a) ((TRef.of main_v16 : TRef sig ⟨S65536, .f32⟩).ofBuf b)
      ((TRef.of main_call0_v1 : TRef sig ⟨S65536, .f32⟩).ofBuf ((TRef.of main_call0_v1 : TRef sig ⟨S65536, .f32⟩).toBuf (broadcastInDim S65536 ![] bcast_S_S65536
        ((TRef.of main_call0_v0 : TRef sig ⟨S_, .f32⟩).ofBuf ((TRef.of main_call0_v0 : TRef sig ⟨S_, .f32⟩).toBuf (id ((TRef.of main_cst_2 : TRef sig ⟨S_, .f32⟩).ofBuf z))))))))
      = select a b (broadcastInDim S65536 ![] bcast_S_S65536 (id z)) := rfl

/-! ## The first ten operations: the three arrays with their self loops -/

set_option maxRecDepth 65536 in
/-- The source-index array with its self loops, after the first ten operations: the first row of the edge-index argument followed by the node numbers. -/
theorem S1_v3 (V : Valuation τ sig (Elt Ideal)) :
    after (List.take 10 (opsA (F := Ideal))) V (Proc.devRef .tc main_v3) = val_main_v3 (F := Ideal) (V (Proc.devRef .tc main_arg1)) := by
  simp only [List.take_succ_cons, List.take_zero, List.drop_succ_cons, List.drop_zero]
  after_results_simp
  rfl

set_option maxRecDepth 65536 in
/-- The target-index array with its self loops, after the first ten operations: the second row of the edge-index argument followed by the node numbers. -/
theorem S1_v6 (V : Valuation τ sig (Elt Ideal)) :
    after (List.take 10 (opsA (F := Ideal))) V (Proc.devRef .tc main_v6) = val_main_v6 (F := Ideal) (V (Proc.devRef .tc main_arg1)) := by
  simp only [List.take_succ_cons, List.take_zero, List.drop_succ_cons, List.drop_zero]
  after_results_simp
  rfl

set_option maxRecDepth 65536 in
/-- The edge-weight array with its self loops, after the first ten operations: the edge-weight argument followed by ones. -/
theorem S1_v8 (V : Valuation τ sig (Elt Ideal)) :
    after (List.take 10 (opsA (F := Ideal))) V (Proc.devRef .tc main_v8) = val_main_v8 (F := Ideal) (V (Proc.devRef .tc main_arg2)) := by
  simp only [List.take_succ_cons, List.take_zero, List.drop_succ_cons, List.drop_zero]
  after_results_simp
  rfl

set_option maxRecDepth 65536 in
/-- The first ten operations do not write argument 0. -/
theorem keptS1_arg0 (V : Valuation τ sig (Elt Ideal)) : after (List.take 10 (opsA (F := Ideal))) V (Proc.devRef .tc main_arg0) = V (Proc.devRef .tc main_arg0) := by
  simp only [List.take_succ_cons, List.take_zero, List.drop_succ_cons, List.drop_zero]
  after_results_simp

set_option maxRecDepth 65536 in
/-- The first ten operations do not write argument 4. -/
theorem keptS1_arg4 (V : Valuation τ sig (Elt Ideal)) : after (List.take 10 (opsA (F := Ideal))) V (Proc.devRef .tc main_arg4) = V (Proc.devRef .tc main_arg4) := by
  simp only [List.take_succ_cons, List.take_zero, List.drop_succ_cons, List.drop_zero]
  after_results_simp

set_option maxRecDepth 65536 in
/-- The first ten operations do not write argument 5. -/
theorem keptS1_arg5 (V : Valuation τ sig (Elt Ideal)) : after (List.take 10 (opsA (F := Ideal))) V (Proc.devRef .tc main_arg5) = V (Proc.devRef .tc main_arg5) := by
  simp only [List.take_succ_cons, List.take_zero, List.drop_succ_cons, List.drop_zero]
  after_results_simp

/-! ## The rest of the stretch: the first graph layer over the three arrays as named values -/

set_option maxRecDepth 65536 in
/-- From contents in which the three arrays with self loops are those functions of the arguments, the remaining
    operations leave the first graph layer's output: the projection of the node features, normalised by the inverse
    square roots of the weighted degrees at both ends of each edge, summed into the target nodes, plus the bias. -/
theorem A2_v49 (V : Valuation τ sig (Elt Ideal)) (x0 : (⟨S65536x256, .f32⟩ : BufTy).Contents (Elt Ideal)) (x1 : (⟨S2x262144, .i32⟩ : BufTy).Contents (Elt Ideal)) (x2 : (⟨S262144, .f32⟩ : BufTy).Contents (Elt Ideal)) (x4 : (⟨S256x256, .f32⟩ : BufTy).Contents (Elt Ideal)) (x5 : (⟨S256, .f32⟩ : BufTy).Contents (Elt Ideal))
    (hv3 : V (Proc.devRef .tc main_v3) = val_main_v3 (F := Ideal) x1) (hv6 : V (Proc.devRef .tc main_v6) = val_main_v6 (F := Ideal) x1) (hv8 : V (Proc.devRef .tc main_v8) = val_main_v8 (F := Ideal) x2)
    (ha0 : V (Proc.devRef .tc main_arg0) = x0) (ha4 : V (Proc.devRef .tc main_arg4) = x4) (ha5 : V (Proc.devRef .tc main_arg5) = x5) :
    after (List.drop 10 (opsA (F := Ideal))) V (Proc.devRef .tc main_v49) = val_main_v49 (F := Ideal) x0 x1 x2 x4 x5 := by
  simp only [List.take_succ_cons, List.take_zero, List.drop_succ_cons, List.drop_zero]
  after_results_simp
  rw [hv3, hv6, hv8, where0]
  subst ha0 ha4 ha5
  rfl

/-! ## The whole stretch -/

set_option maxRecDepth 65536 in
/-- After the whole stretch the source-index array is that function of the edge-index argument. -/
theorem A_v3 (V : Valuation τ sig (Elt Ideal)) : after (opsA (F := Ideal)) V (Proc.devRef .tc main_v3) = val_main_v3 (F := Ideal) (V (Proc.devRef .tc main_arg1)) := by
  after_results_simp
  rfl

set_option maxRecDepth 65536 in
/-- After the whole stretch the target-index array is that function of the edge-index argument. -/
theorem A_v6 (V : Valuation τ sig (Elt Ideal)) : after (opsA (F := Ideal)) V (Proc.devRef .tc main_v6) = val_main_v6 (F := Ideal) (V (Proc.devRef .tc main_arg1)) := by
  after_results_simp
  rfl

set_option maxRecDepth 65536 in
/-- After the whole stretch the edge-weight array is that function of the edge-weight argument. -/
theorem A_v8 (V : Valuation τ sig (Elt Ideal)) : after (opsA (F := Ideal)) V (Proc.devRef .tc main_v8) = val_main_v8 (F := Ideal) (V (Proc.devRef .tc main_arg2)) := by
  after_results_simp
  rfl

/-- After the whole stretch the first graph layer's output is that function of the five arguments it reads: the first
    ten operations, then the rest from what they leave. -/
theorem A_v49 (V : Valuation τ sig (Elt Ideal)) : after (opsA (F := Ideal)) V (Proc.devRef .tc main_v49) = val_main_v49 (F := Ideal) (V (Proc.devRef .tc main_arg0)) (V (Proc.devRef .tc main_arg1)) (V (Proc.devRef .tc main_arg2)) (V (Proc.devRef .tc main_arg4)) (V (Proc.devRef .tc main_arg5)) := by
  calc after (opsA (F := Ideal)) V (Proc.devRef .tc main_v49)
      = after (List.drop 10 (opsA (F := Ideal))) (after (List.take 10 (opsA (F := Ideal))) V) (Proc.devRef .tc main_v49) := by
        rw [← after_app, List.take_append_drop]
    _ = _ := A2_v49 (after (List.take 10 (opsA (F := Ideal))) V) _ _ _ _ _ (S1_v3 V) (S1_v6 V) (S1_v8 V) (keptS1_arg0 V) (keptS1_arg4 V) (keptS1_arg5 V)

end Cert.ReferenceIdeal.RefRun

end
-- ==== Proof.RefStages.lean ====
/-
  The reference's run read back stretch by stretch. For an arbitrary valuation `V` of the buffers before a stretch,
  each buffer a later stretch reads is, after the stretch, the reference's named value (`val_main_vN` of the argument
  arrays) whenever the buffers the stretch takes over hold their named values in `V`. Chained through the six stretches
  from the launch contents this gives the result buffer: the last operation's value of the argument arrays.
-/
import proofs.«156547_j23003844837986_1_alg».proof.Proof.RefSegs
import proofs.«156547_j23003844837986_1_alg».proof.Proof.RefKept
import proofs.«156547_j23003844837986_1_alg».proof.Proof.RefStagesA
import proofs.«156547_j23003844837986_1_alg».proof.Proof.ReadP
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

/-- Contents of a float buffer of shape `s` at the extended reals. -/
abbrev FA (s : Shape) : Type := (⟨s, .f32⟩ : BufTy).Contents (Elt Ideal)
/-- Contents of a 32-bit integer buffer of shape `s`. -/
abbrev IA (s : Shape) : Type := (⟨s, .i32⟩ : BufTy).Contents (Elt Ideal)

/-- The outlined `where` of the second layer, read through its typed references: the plain select. -/
theorem where1 (a : (⟨S65536, .i1⟩ : BufTy).Contents (Elt Ideal)) (b : (⟨S65536, .f32⟩ : BufTy).Contents (Elt Ideal)) (z : (⟨S_, .f32⟩ : BufTy).Contents (Elt Ideal)) :
    (TRef.of main_v134 : TRef sig ⟨S65536, .f32⟩).toBuf (select ((TRef.of main_v132 : TRef sig ⟨S65536, .i1⟩).ofBuf a) ((TRef.of main_v133 : TRef sig ⟨S65536, .f32⟩).ofBuf b)
      ((TRef.of main_call1_v1 : TRef sig ⟨S65536, .f32⟩).ofBuf ((TRef.of main_call1_v1 : TRef sig ⟨S65536, .f32⟩).toBuf (broadcastInDim S65536 ![] bcast_S_S65536
        ((TRef.of main_call1_v0 : TRef sig ⟨S_, .f32⟩).ofBuf ((TRef.of main_call1_v0 : TRef sig ⟨S_, .f32⟩).toBuf (id ((TRef.of main_cst_25 : TRef sig ⟨S_, .f32⟩).ofBuf z))))))))
      = select a b (broadcastInDim S65536 ![] bcast_S_S65536 (id z)) := rfl

/-! ## The first cell's first step: from the zero state, of `x` and the cell's weights only -/

set_option maxRecDepth 65536 in
theorem B_v80 (V : Valuation τ sig (Elt Ideal)) :
    after (opsB (F := Ideal)) V (Proc.devRef .tc main_v80)
      = val_main_v80 (F := Ideal) (V (Proc.devRef .tc main_arg0)) (V (Proc.devRef .tc main_arg8)) (V (Proc.devRef .tc main_arg9)) (V (Proc.devRef .tc main_arg10)) (V (Proc.devRef .tc main_arg11)) := by
  after_results_simp
  rfl

set_option maxRecDepth 65536 in
theorem B_v88 (V : Valuation τ sig (Elt Ideal)) :
    after (opsB (F := Ideal)) V (Proc.devRef .tc main_v88)
      = val_main_v88 (F := Ideal) (V (Proc.devRef .tc main_arg0)) (V (Proc.devRef .tc main_arg8)) (V (Proc.devRef .tc main_arg9)) (V (Proc.devRef .tc main_arg10)) (V (Proc.devRef .tc main_arg11)) := by
  after_results_simp
  rfl

/-! ## The first cell's second step -/

set_option maxRecDepth 65536 in
theorem C_v125 (V : Valuation τ sig (Elt Ideal)) (x0 : FA S65536x256) (x1 : IA S2x262144) (x2 : FA S262144) (x4 : FA S256x256) (x5 : FA S256)
    (h49 : V (Proc.devRef .tc main_v49) = val_main_v49 (F := Ideal) x0 x1 x2 x4 x5)
    (h80 : V (Proc.devRef .tc main_v80) = val_main_v80 (F := Ideal) x0 (V (Proc.devRef .tc main_arg8)) (V (Proc.devRef .tc main_arg9)) (V (Proc.devRef .tc main_arg10)) (V (Proc.devRef .tc main_arg11)))
    (h88 : V (Proc.devRef .tc main_v88) = val_main_v88 (F := Ideal) x0 (V (Proc.devRef .tc main_arg8)) (V (Proc.devRef .tc main_arg9)) (V (Proc.devRef .tc main_arg10)) (V (Proc.devRef .tc main_arg11))) :
    after (opsC (F := Ideal)) V (Proc.devRef .tc main_v125)
      = val_main_v125 (F := Ideal) x0 x1 x2 x4 x5 (V (Proc.devRef .tc main_arg8)) (V (Proc.devRef .tc main_arg9)) (V (Proc.devRef .tc main_arg10)) (V (Proc.devRef .tc main_arg11)) := by
  after_results_simp
  rw [h49, h80, h88]
  rfl

/-! ## The second projection and graph layer -/

set_option maxRecDepth 65536 in
theorem D_v166 (V : Valuation τ sig (Elt Ideal)) (x0 : FA S65536x256) (x1 : IA S2x262144) (x2 : FA S262144) (x4 : FA S256x256) (x5 : FA S256)
    (x8 x9 : FA S1024x256) (x10 x11 : FA S1024)
    (h125 : V (Proc.devRef .tc main_v125) = val_main_v125 (F := Ideal) x0 x1 x2 x4 x5 x8 x9 x10 x11)
    (h3 : V (Proc.devRef .tc main_v3) = val_main_v3 (F := Ideal) x1)
    (h6 : V (Proc.devRef .tc main_v6) = val_main_v6 (F := Ideal) x1)
    (h8 : V (Proc.devRef .tc main_v8) = val_main_v8 (F := Ideal) x2) :
    after (opsD (F := Ideal)) V (Proc.devRef .tc main_v166)
      = val_main_v166 (F := Ideal) x0 x1 x2 x4 x5 (V (Proc.devRef .tc main_arg6)) (V (Proc.devRef .tc main_arg7)) x8 x9 x10 x11 := by
  after_results_simp
  rw [h125, h3, h6, h8, where1]
  rfl

/-! ## The second cell's first step -/

set_option maxRecDepth 65536 in
theorem E_v197 (V : Valuation τ sig (Elt Ideal)) (x0 : FA S65536x256) (x1 : IA S2x262144) (x2 : FA S262144) (x4 : FA S256x256) (x5 : FA S256)
    (h125 : V (Proc.devRef .tc main_v125) = val_main_v125 (F := Ideal) x0 x1 x2 x4 x5 (V (Proc.devRef .tc main_arg8)) (V (Proc.devRef .tc main_arg9)) (V (Proc.devRef .tc main_arg10)) (V (Proc.devRef .tc main_arg11))) :
    after (opsE (F := Ideal)) V (Proc.devRef .tc main_v197)
      = val_main_v197 (F := Ideal) x0 x1 x2 x4 x5 (V (Proc.devRef .tc main_arg8)) (V (Proc.devRef .tc main_arg9)) (V (Proc.devRef .tc main_arg10)) (V (Proc.devRef .tc main_arg11)) := by
  after_results_simp
  rw [h125]
  rfl

set_option maxRecDepth 65536 in
theorem E_v205 (V : Valuation τ sig (Elt Ideal)) (x0 : FA S65536x256) (x1 : IA S2x262144) (x2 : FA S262144) (x4 : FA S256x256) (x5 : FA S256)
    (h125 : V (Proc.devRef .tc main_v125) = val_main_v125 (F := Ideal) x0 x1 x2 x4 x5 (V (Proc.devRef .tc main_arg8)) (V (Proc.devRef .tc main_arg9)) (V (Proc.devRef .tc main_arg10)) (V (Proc.devRef .tc main_arg11))) :
    after (opsE (F := Ideal)) V (Proc.devRef .tc main_v205)
      = val_main_v205 (F := Ideal) x0 x1 x2 x4 x5 (V (Proc.devRef .tc main_arg8)) (V (Proc.devRef .tc main_arg9)) (V (Proc.devRef .tc main_arg10)) (V (Proc.devRef .tc main_arg11)) := by
  after_results_simp
  rw [h125]
  rfl

/-! ## The second cell's second step, the reshape and the mask -/

set_option maxRecDepth 65536 in
theorem G_v245 (V : Valuation τ sig (Elt Ideal)) (x0 : FA S65536x256) (x1 : IA S2x262144) (x2 : FA S262144) (x4 : FA S256x256) (x5 : FA S256)
    (x6 : FA S256x256) (x7 : FA S256)
    (h166 : V (Proc.devRef .tc main_v166) = val_main_v166 (F := Ideal) x0 x1 x2 x4 x5 x6 x7 (V (Proc.devRef .tc main_arg8)) (V (Proc.devRef .tc main_arg9)) (V (Proc.devRef .tc main_arg10)) (V (Proc.devRef .tc main_arg11)))
    (h197 : V (Proc.devRef .tc main_v197) = val_main_v197 (F := Ideal) x0 x1 x2 x4 x5 (V (Proc.devRef .tc main_arg8)) (V (Proc.devRef .tc main_arg9)) (V (Proc.devRef .tc main_arg10)) (V (Proc.devRef .tc main_arg11)))
    (h205 : V (Proc.devRef .tc main_v205) = val_main_v205 (F := Ideal) x0 x1 x2 x4 x5 (V (Proc.devRef .tc main_arg8)) (V (Proc.devRef .tc main_arg9)) (V (Proc.devRef .tc main_arg10)) (V (Proc.devRef .tc main_arg11))) :
    after (opsG (F := Ideal)) V (Proc.devRef .tc main_v245)
      = val_main_v245 (F := Ideal) x0 x1 x2 (V (Proc.devRef .tc main_arg3)) x4 x5 x6 x7 (V (Proc.devRef .tc main_arg8)) (V (Proc.devRef .tc main_arg9)) (V (Proc.devRef .tc main_arg10)) (V (Proc.devRef .tc main_arg11)) := by
  after_results_simp
  rw [h166, h197, h205]
  rfl

/-! ## The six stretches chained -/

set_option maxRecDepth 16384 in
/-- From any contents `W` holding the argument arrays `x0 … x11`, after the six stretches the result buffer holds the
    last operation's value of the arguments: each stretch's named values are carried to the stretches that read them. -/
theorem value_of (W : Valuation τ sig (Elt Ideal))
    (x0 : FA S65536x256) (x1 : IA S2x262144) (x2 : FA S262144) (x3 : FA S128x512x1) (x4 : FA S256x256) (x5 : FA S256) (x6 : FA S256x256) (x7 : FA S256) (x8 : FA S1024x256) (x9 : FA S1024x256) (x10 : FA S1024) (x11 : FA S1024)
    (w0 : W (Proc.devRef .tc main_arg0) = x0) (w1 : W (Proc.devRef .tc main_arg1) = x1) (w2 : W (Proc.devRef .tc main_arg2) = x2) (w3 : W (Proc.devRef .tc main_arg3) = x3) (w4 : W (Proc.devRef .tc main_arg4) = x4) (w5 : W (Proc.devRef .tc main_arg5) = x5) (w6 : W (Proc.devRef .tc main_arg6) = x6) (w7 : W (Proc.devRef .tc main_arg7) = x7) (w8 : W (Proc.devRef .tc main_arg8) = x8) (w9 : W (Proc.devRef .tc main_arg9) = x9) (w10 : W (Proc.devRef .tc main_arg10) = x10) (w11 : W (Proc.devRef .tc main_arg11) = x11) :
    after opsG (after opsE (after opsD (after opsC (after opsB (after (opsA (F := Ideal)) W))))) (Proc.devRef .tc main_v245)
      = val_main_v245 (F := Ideal) x0 x1 x2 x3 x4 x5 x6 x7 x8 x9 x10 x11 := by
  have u1_0 : (after (opsA (F := Ideal)) W) (Proc.devRef .tc main_arg0) = x0 := (keptA_arg0 W).trans w0
  have u1_1 : (after (opsA (F := Ideal)) W) (Proc.devRef .tc main_arg1) = x1 := (keptA_arg1 W).trans w1
  have u1_2 : (after (opsA (F := Ideal)) W) (Proc.devRef .tc main_arg2) = x2 := (keptA_arg2 W).trans w2
  have u1_3 : (after (opsA (F := Ideal)) W) (Proc.devRef .tc main_arg3) = x3 := (keptA_arg3 W).trans w3
  have u1_4 : (after (opsA (F := Ideal)) W) (Proc.devRef .tc main_arg4) = x4 := (keptA_arg4 W).trans w4
  have u1_5 : (after (opsA (F := Ideal)) W) (Proc.devRef .tc main_arg5) = x5 := (keptA_arg5 W).trans w5
  have u1_6 : (after (opsA (F := Ideal)) W) (Proc.devRef .tc main_arg6) = x6 := (keptA_arg6 W).trans w6
  have u1_7 : (after (opsA (F := Ideal)) W) (Proc.devRef .tc main_arg7) = x7 := (keptA_arg7 W).trans w7
  have u1_8 : (after (opsA (F := Ideal)) W) (Proc.devRef .tc main_arg8) = x8 := (keptA_arg8 W).trans w8
  have u1_9 : (after (opsA (F := Ideal)) W) (Proc.devRef .tc main_arg9) = x9 := (keptA_arg9 W).trans w9
  have u1_10 : (after (opsA (F := Ideal)) W) (Proc.devRef .tc main_arg10) = x10 := (keptA_arg10 W).trans w10
  have u1_11 : (after (opsA (F := Ideal)) W) (Proc.devRef .tc main_arg11) = x11 := (keptA_arg11 W).trans w11
  have u2_0 : (after opsB (after (opsA (F := Ideal)) W)) (Proc.devRef .tc main_arg0) = x0 := (keptB_arg0 (after (opsA (F := Ideal)) W)).trans u1_0
  have u2_1 : (after opsB (after (opsA (F := Ideal)) W)) (Proc.devRef .tc main_arg1) = x1 := (keptB_arg1 (after (opsA (F := Ideal)) W)).trans u1_1
  have u2_2 : (after opsB (after (opsA (F := Ideal)) W)) (Proc.devRef .tc main_arg2) = x2 := (keptB_arg2 (after (opsA (F := Ideal)) W)).trans u1_2
  have u2_3 : (after opsB (after (opsA (F := Ideal)) W)) (Proc.devRef .tc main_arg3) = x3 := (keptB_arg3 (after (opsA (F := Ideal)) W)).trans u1_3
  have u2_4 : (after opsB (after (opsA (F := Ideal)) W)) (Proc.devRef .tc main_arg4) = x4 := (keptB_arg4 (after (opsA (F := Ideal)) W)).trans u1_4
  have u2_5 : (after opsB (after (opsA (F := Ideal)) W)) (Proc.devRef .tc main_arg5) = x5 := (keptB_arg5 (after (opsA (F := Ideal)) W)).trans u1_5
  have u2_6 : (after opsB (after (opsA (F := Ideal)) W)) (Proc.devRef .tc main_arg6) = x6 := (keptB_arg6 (after (opsA (F := Ideal)) W)).trans u1_6
  have u2_7 : (after opsB (after (opsA (F := Ideal)) W)) (Proc.devRef .tc main_arg7) = x7 := (keptB_arg7 (after (opsA (F := Ideal)) W)).trans u1_7
  have u2_8 : (after opsB (after (opsA (F := Ideal)) W)) (Proc.devRef .tc main_arg8) = x8 := (keptB_arg8 (after (opsA (F := Ideal)) W)).trans u1_8
  have u2_9 : (after opsB (after (opsA (F := Ideal)) W)) (Proc.devRef .tc main_arg9) = x9 := (keptB_arg9 (after (opsA (F := Ideal)) W)).trans u1_9
  have u2_10 : (after opsB (after (opsA (F := Ideal)) W)) (Proc.devRef .tc main_arg10) = x10 := (keptB_arg10 (after (opsA (F := Ideal)) W)).trans u1_10
  have u2_11 : (after opsB (after (opsA (F := Ideal)) W)) (Proc.devRef .tc main_arg11) = x11 := (keptB_arg11 (after (opsA (F := Ideal)) W)).trans u1_11
  have u3_0 : (after opsC (after opsB (after (opsA (F := Ideal)) W))) (Proc.devRef .tc main_arg0) = x0 := (keptC_arg0 (after opsB (after (opsA (F := Ideal)) W))).trans u2_0
  have u3_1 : (after opsC (after opsB (after (opsA (F := Ideal)) W))) (Proc.devRef .tc main_arg1) = x1 := (keptC_arg1 (after opsB (after (opsA (F := Ideal)) W))).trans u2_1
  have u3_2 : (after opsC (after opsB (after (opsA (F := Ideal)) W))) (Proc.devRef .tc main_arg2) = x2 := (keptC_arg2 (after opsB (after (opsA (F := Ideal)) W))).trans u2_2
  have u3_3 : (after opsC (after opsB (after (opsA (F := Ideal)) W))) (Proc.devRef .tc main_arg3) = x3 := (keptC_arg3 (after opsB (after (opsA (F := Ideal)) W))).trans u2_3
  have u3_4 : (after opsC (after opsB (after (opsA (F := Ideal)) W))) (Proc.devRef .tc main_arg4) = x4 := (keptC_arg4 (after opsB (after (opsA (F := Ideal)) W))).trans u2_4
  have u3_5 : (after opsC (after opsB (after (opsA (F := Ideal)) W))) (Proc.devRef .tc main_arg5) = x5 := (keptC_arg5 (after opsB (after (opsA (F := Ideal)) W))).trans u2_5
  have u3_6 : (after opsC (after opsB (after (opsA (F := Ideal)) W))) (Proc.devRef .tc main_arg6) = x6 := (keptC_arg6 (after opsB (after (opsA (F := Ideal)) W))).trans u2_6
  have u3_7 : (after opsC (after opsB (after (opsA (F := Ideal)) W))) (Proc.devRef .tc main_arg7) = x7 := (keptC_arg7 (after opsB (after (opsA (F := Ideal)) W))).trans u2_7
  have u3_8 : (after opsC (after opsB (after (opsA (F := Ideal)) W))) (Proc.devRef .tc main_arg8) = x8 := (keptC_arg8 (after opsB (after (opsA (F := Ideal)) W))).trans u2_8
  have u3_9 : (after opsC (after opsB (after (opsA (F := Ideal)) W))) (Proc.devRef .tc main_arg9) = x9 := (keptC_arg9 (after opsB (after (opsA (F := Ideal)) W))).trans u2_9
  have u3_10 : (after opsC (after opsB (after (opsA (F := Ideal)) W))) (Proc.devRef .tc main_arg10) = x10 := (keptC_arg10 (after opsB (after (opsA (F := Ideal)) W))).trans u2_10
  have u3_11 : (after opsC (after opsB (after (opsA (F := Ideal)) W))) (Proc.devRef .tc main_arg11) = x11 := (keptC_arg11 (after opsB (after (opsA (F := Ideal)) W))).trans u2_11
  have u4_0 : (after opsD (after opsC (after opsB (after (opsA (F := Ideal)) W)))) (Proc.devRef .tc main_arg0) = x0 := (keptD_arg0 (after opsC (after opsB (after (opsA (F := Ideal)) W)))).trans u3_0
  have u4_1 : (after opsD (after opsC (after opsB (after (opsA (F := Ideal)) W)))) (Proc.devRef .tc main_arg1) = x1 := (keptD_arg1 (after opsC (after opsB (after (opsA (F := Ideal)) W)))).trans u3_1
  have u4_2 : (after opsD (after opsC (after opsB (after (opsA (F := Ideal)) W)))) (Proc.devRef .tc main_arg2) = x2 := (keptD_arg2 (after opsC (after opsB (after (opsA (F := Ideal)) W)))).trans u3_2
  have u4_3 : (after opsD (after opsC (after opsB (after (opsA (F := Ideal)) W)))) (Proc.devRef .tc main_arg3) = x3 := (keptD_arg3 (after opsC (after opsB (after (opsA (F := Ideal)) W)))).trans u3_3
  have u4_4 : (after opsD (after opsC (after opsB (after (opsA (F := Ideal)) W)))) (Proc.devRef .tc main_arg4) = x4 := (keptD_arg4 (after opsC (after opsB (after (opsA (F := Ideal)) W)))).trans u3_4
  have u4_5 : (after opsD (after opsC (after opsB (after (opsA (F := Ideal)) W)))) (Proc.devRef .tc main_arg5) = x5 := (keptD_arg5 (after opsC (after opsB (after (opsA (F := Ideal)) W)))).trans u3_5
  have u4_6 : (after opsD (after opsC (after opsB (after (opsA (F := Ideal)) W)))) (Proc.devRef .tc main_arg6) = x6 := (keptD_arg6 (after opsC (after opsB (after (opsA (F := Ideal)) W)))).trans u3_6
  have u4_7 : (after opsD (after opsC (after opsB (after (opsA (F := Ideal)) W)))) (Proc.devRef .tc main_arg7) = x7 := (keptD_arg7 (after opsC (after opsB (after (opsA (F := Ideal)) W)))).trans u3_7
  have u4_8 : (after opsD (after opsC (after opsB (after (opsA (F := Ideal)) W)))) (Proc.devRef .tc main_arg8) = x8 := (keptD_arg8 (after opsC (after opsB (after (opsA (F := Ideal)) W)))).trans u3_8
  have u4_9 : (after opsD (after opsC (after opsB (after (opsA (F := Ideal)) W)))) (Proc.devRef .tc main_arg9) = x9 := (keptD_arg9 (after opsC (after opsB (after (opsA (F := Ideal)) W)))).trans u3_9
  have u4_10 : (after opsD (after opsC (after opsB (after (opsA (F := Ideal)) W)))) (Proc.devRef .tc main_arg10) = x10 := (keptD_arg10 (after opsC (after opsB (after (opsA (F := Ideal)) W)))).trans u3_10
  have u4_11 : (after opsD (after opsC (after opsB (after (opsA (F := Ideal)) W)))) (Proc.devRef .tc main_arg11) = x11 := (keptD_arg11 (after opsC (after opsB (after (opsA (F := Ideal)) W)))).trans u3_11
  have u5_0 : (after opsE (after opsD (after opsC (after opsB (after (opsA (F := Ideal)) W))))) (Proc.devRef .tc main_arg0) = x0 := (keptE_arg0 (after opsD (after opsC (after opsB (after (opsA (F := Ideal)) W))))).trans u4_0
  have u5_1 : (after opsE (after opsD (after opsC (after opsB (after (opsA (F := Ideal)) W))))) (Proc.devRef .tc main_arg1) = x1 := (keptE_arg1 (after opsD (after opsC (after opsB (after (opsA (F := Ideal)) W))))).trans u4_1
  have u5_2 : (after opsE (after opsD (after opsC (after opsB (after (opsA (F := Ideal)) W))))) (Proc.devRef .tc main_arg2) = x2 := (keptE_arg2 (after opsD (after opsC (after opsB (after (opsA (F := Ideal)) W))))).trans u4_2
  have u5_3 : (after opsE (after opsD (after opsC (after opsB (after (opsA (F := Ideal)) W))))) (Proc.devRef .tc main_arg3) = x3 := (keptE_arg3 (after opsD (after opsC (after opsB (after (opsA (F := Ideal)) W))))).trans u4_3
  have u5_4 : (after opsE (after opsD (after opsC (after opsB (after (opsA (F := Ideal)) W))))) (Proc.devRef .tc main_arg4) = x4 := (keptE_arg4 (after opsD (after opsC (after opsB (after (opsA (F := Ideal)) W))))).trans u4_4
  have u5_5 : (after opsE (after opsD (after opsC (after opsB (after (opsA (F := Ideal)) W))))) (Proc.devRef .tc main_arg5) = x5 := (keptE_arg5 (after opsD (after opsC (after opsB (after (opsA (F := Ideal)) W))))).trans u4_5
  have u5_6 : (after opsE (after opsD (after opsC (after opsB (after (opsA (F := Ideal)) W))))) (Proc.devRef .tc main_arg6) = x6 := (keptE_arg6 (after opsD (after opsC (after opsB (after (opsA (F := Ideal)) W))))).trans u4_6
  have u5_7 : (after opsE (after opsD (after opsC (after opsB (after (opsA (F := Ideal)) W))))) (Proc.devRef .tc main_arg7) = x7 := (keptE_arg7 (after opsD (after opsC (after opsB (after (opsA (F := Ideal)) W))))).trans u4_7
  have u5_8 : (after opsE (after opsD (after opsC (after opsB (after (opsA (F := Ideal)) W))))) (Proc.devRef .tc main_arg8) = x8 := (keptE_arg8 (after opsD (after opsC (after opsB (after (opsA (F := Ideal)) W))))).trans u4_8
  have u5_9 : (after opsE (after opsD (after opsC (after opsB (after (opsA (F := Ideal)) W))))) (Proc.devRef .tc main_arg9) = x9 := (keptE_arg9 (after opsD (after opsC (after opsB (after (opsA (F := Ideal)) W))))).trans u4_9
  have u5_10 : (after opsE (after opsD (after opsC (after opsB (after (opsA (F := Ideal)) W))))) (Proc.devRef .tc main_arg10) = x10 := (keptE_arg10 (after opsD (after opsC (after opsB (after (opsA (F := Ideal)) W))))).trans u4_10
  have u5_11 : (after opsE (after opsD (after opsC (after opsB (after (opsA (F := Ideal)) W))))) (Proc.devRef .tc main_arg11) = x11 := (keptE_arg11 (after opsD (after opsC (after opsB (after (opsA (F := Ideal)) W))))).trans u4_11
  -- stretch A
  have f1_v3 : (after (opsA (F := Ideal)) W) (Proc.devRef .tc main_v3) = val_main_v3 (F := Ideal) x1 := by rw [A_v3 W, w1]
  have f1_v6 : (after (opsA (F := Ideal)) W) (Proc.devRef .tc main_v6) = val_main_v6 (F := Ideal) x1 := by rw [A_v6 W, w1]
  have f1_v8 : (after (opsA (F := Ideal)) W) (Proc.devRef .tc main_v8) = val_main_v8 (F := Ideal) x2 := by rw [A_v8 W, w2]
  have f1_v49 : (after (opsA (F := Ideal)) W) (Proc.devRef .tc main_v49) = val_main_v49 (F := Ideal) x0 x1 x2 x4 x5 := by rw [A_v49 W, w0, w1, w2, w4, w5]
  -- stretch B
  have f2_v80 : (after opsB (after (opsA (F := Ideal)) W)) (Proc.devRef .tc main_v80) = val_main_v80 (F := Ideal) x0 x8 x9 x10 x11 := by rw [B_v80 (after (opsA (F := Ideal)) W), u1_0, u1_8, u1_9, u1_10, u1_11]
  have f2_v88 : (after opsB (after (opsA (F := Ideal)) W)) (Proc.devRef .tc main_v88) = val_main_v88 (F := Ideal) x0 x8 x9 x10 x11 := by rw [B_v88 (after (opsA (F := Ideal)) W), u1_0, u1_8, u1_9, u1_10, u1_11]
  have f2_v49 : (after opsB (after (opsA (F := Ideal)) W)) (Proc.devRef .tc main_v49) = val_main_v49 (F := Ideal) x0 x1 x2 x4 x5 := (keptB_v49 (after (opsA (F := Ideal)) W)).trans f1_v49
  have f2_v3 : (after opsB (after (opsA (F := Ideal)) W)) (Proc.devRef .tc main_v3) = val_main_v3 (F := Ideal) x1 := (keptB_v3 (after (opsA (F := Ideal)) W)).trans f1_v3
  have f2_v6 : (after opsB (after (opsA (F := Ideal)) W)) (Proc.devRef .tc main_v6) = val_main_v6 (F := Ideal) x1 := (keptB_v6 (after (opsA (F := Ideal)) W)).trans f1_v6
  have f2_v8 : (after opsB (after (opsA (F := Ideal)) W)) (Proc.devRef .tc main_v8) = val_main_v8 (F := Ideal) x2 := (keptB_v8 (after (opsA (F := Ideal)) W)).trans f1_v8
  -- stretch C
  have f3_v125 : (after opsC (after opsB (after (opsA (F := Ideal)) W))) (Proc.devRef .tc main_v125) = val_main_v125 (F := Ideal) x0 x1 x2 x4 x5 x8 x9 x10 x11 := by
    rw [C_v125 (after opsB (after (opsA (F := Ideal)) W)) x0 x1 x2 x4 x5 f2_v49 (by rw [u2_8, u2_9, u2_10, u2_11]; exact f2_v80) (by rw [u2_8, u2_9, u2_10, u2_11]; exact f2_v88),
      u2_8, u2_9, u2_10, u2_11]
  have f3_v3 : (after opsC (after opsB (after (opsA (F := Ideal)) W))) (Proc.devRef .tc main_v3) = val_main_v3 (F := Ideal) x1 := (keptC_v3 (after opsB (after (opsA (F := Ideal)) W))).trans f2_v3
  have f3_v6 : (after opsC (after opsB (after (opsA (F := Ideal)) W))) (Proc.devRef .tc main_v6) = val_main_v6 (F := Ideal) x1 := (keptC_v6 (after opsB (after (opsA (F := Ideal)) W))).trans f2_v6
  have f3_v8 : (after opsC (after opsB (after (opsA (F := Ideal)) W))) (Proc.devRef .tc main_v8) = val_main_v8 (F := Ideal) x2 := (keptC_v8 (after opsB (after (opsA (F := Ideal)) W))).trans f2_v8
  -- stretch D
  have f4_v166 : (after opsD (after opsC (after opsB (after (opsA (F := Ideal)) W)))) (Proc.devRef .tc main_v166) = val_main_v166 (F := Ideal) x0 x1 x2 x4 x5 x6 x7 x8 x9 x10 x11 := by
    rw [D_v166 (after opsC (after opsB (after (opsA (F := Ideal)) W))) x0 x1 x2 x4 x5 x8 x9 x10 x11 f3_v125 f3_v3 f3_v6 f3_v8, u3_6, u3_7]
  have f4_v125 : (after opsD (after opsC (after opsB (after (opsA (F := Ideal)) W)))) (Proc.devRef .tc main_v125) = val_main_v125 (F := Ideal) x0 x1 x2 x4 x5 x8 x9 x10 x11 := (keptD_v125 (after opsC (after opsB (after (opsA (F := Ideal)) W)))).trans f3_v125
  -- stretch E
  have f5_v197 : (after opsE (after opsD (after opsC (after opsB (after (opsA (F := Ideal)) W))))) (Proc.devRef .tc main_v197) = val_main_v197 (F := Ideal) x0 x1 x2 x4 x5 x8 x9 x10 x11 := by
    rw [E_v197 (after opsD (after opsC (after opsB (after (opsA (F := Ideal)) W)))) x0 x1 x2 x4 x5 (by rw [u4_8, u4_9, u4_10, u4_11]; exact f4_v125), u4_8, u4_9, u4_10, u4_11]
  have f5_v205 : (after opsE (after opsD (after opsC (after opsB (after (opsA (F := Ideal)) W))))) (Proc.devRef .tc main_v205) = val_main_v205 (F := Ideal) x0 x1 x2 x4 x5 x8 x9 x10 x11 := by
    rw [E_v205 (after opsD (after opsC (after opsB (after (opsA (F := Ideal)) W)))) x0 x1 x2 x4 x5 (by rw [u4_8, u4_9, u4_10, u4_11]; exact f4_v125), u4_8, u4_9, u4_10, u4_11]
  have f5_v166 : (after opsE (after opsD (after opsC (after opsB (after (opsA (F := Ideal)) W))))) (Proc.devRef .tc main_v166) = val_main_v166 (F := Ideal) x0 x1 x2 x4 x5 x6 x7 x8 x9 x10 x11 := (keptE_v166 (after opsD (after opsC (after opsB (after (opsA (F := Ideal)) W))))).trans f4_v166
  -- stretch G
  rw [G_v245 (after opsE (after opsD (after opsC (after opsB (after (opsA (F := Ideal)) W))))) x0 x1 x2 x4 x5 x6 x7 (by rw [u5_8, u5_9, u5_10, u5_11]; exact f5_v166) (by rw [u5_8, u5_9, u5_10, u5_11]; exact f5_v197)
    (by rw [u5_8, u5_9, u5_10, u5_11]; exact f5_v205), u5_3, u5_8, u5_9, u5_10, u5_11]

/-- The result buffer after the whole program, from the launch contents. -/
theorem value (m : (ℓ : Loc nD τ sig) → Buf (Elt Ideal) ℓ) (c : Dev nD) :
    after (opsA (F := Ideal) ++ (opsB ++ (opsC ++ (opsD ++ (opsE ++ opsG))))) (launchContents m c) (Proc.devRef .tc main_v245)
      = val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_append, after_append, after_append, after_append, after_append]
  exact value_of (launchContents m c) _ _ _ _ _ _ _ _ _ _ _ _ rfl rfl rfl rfl rfl rfl rfl rfl rfl rfl rfl rfl

end Cert.ReferenceIdeal.RefRun

end
-- ==== Proof.RefRun.lean ====
/-
  The reference program's run with its result named: every weakly fair execution terminates, nothing faulting, with the
  result buffer at the last operation's value `val_main_v245` of the argument arrays and the arguments as launched.
  The run is the fold of the 299 host operations over the launch contents; the fold is read back stretch by stretch.
-/
import proofs.«156547_j23003844837986_1_alg».proof.Proof.RefOps
import proofs.«156547_j23003844837986_1_alg».proof.Proof.RefStages

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v245) = val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v245).trans (by rw [ops_split]; exact value m c),
     (h c main_arg0).trans (by rw [ops_split]; exact arg_0 m c),
     (h c main_arg1).trans (by rw [ops_split]; exact arg_1 m c),
     (h c main_arg2).trans (by rw [ops_split]; exact arg_2 m c),
     (h c main_arg3).trans (by rw [ops_split]; exact arg_3 m c),
     (h c main_arg4).trans (by rw [ops_split]; exact arg_4 m c),
     (h c main_arg5).trans (by rw [ops_split]; exact arg_5 m c),
     (h c main_arg6).trans (by rw [ops_split]; exact arg_6 m c),
     (h c main_arg7).trans (by rw [ops_split]; exact arg_7 m c),
     (h c main_arg8).trans (by rw [ops_split]; exact arg_8 m c),
     (h c main_arg9).trans (by rw [ops_split]; exact arg_9 m c),
     (h c main_arg10).trans (by rw [ops_split]; exact arg_10 m c),
     (h c main_arg11).trans (by rw [ops_split]; exact arg_11 m c)⟩)
    (run0 (F := Ideal) m ρ)

end Cert.ReferenceIdeal.RefRun

end
-- ==== Proof.RefLstm1.lean ====
/-
  The reference's two projections and its first two-step cell, entry by entry.

  * A projection's entry `(p, j)` is the sum over `k` of `x (p, k) · w (j, k)`: the weights are read transposed.
  * The first cell starts from `h = c = 0`. In step one the recurrent product is a sum of terms `0 · w = 0`, hence `0`,
    and `x + 0 = x`; the forget term is `σ(f) · 0 = 0` and `0 + y = y`. So `c₁ = σ(i₁) · tanh(g₁)` and
    `h₁ = σ(o₁) · tanh(c₁)`, with the four gates read at columns `j`, `j + 256`, `j + 512`, `j + 768` of the
    pre-activation. The logistic function is spelt `1 / (1 + exp (−z))`, which is its definition on the extended reals.
  * Step two is the full cell on the second input with the state `(h₁, c₁)`; its recurrent product sums `h₁ (p, k)`
    over `k`, so step one's hidden state is stated at a general entry. The result is unmasked: a final factor `1`.
-/
import proofs.«156547_j23003844837986_1_alg».proof.Proof.ReadP
import proofs.«156547_j23003844837986_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RV1

open scoped BigOperators
open Cert.ReferenceIdeal Cert.ReferenceIdeal.ReadP Idealize.ShloMosaic Idealize.ShloMosaic.TcCoe Idealize.ShloMosaic.ValueIdx

/-- Contents of a float buffer of shape `s` at the extended reals. -/
abbrev FA (s : Shape) : Type := (⟨s, .f32⟩ : BufTy).Contents (Elt Ideal)
/-- Contents of a 32-bit integer buffer of shape `s`. -/
abbrev IA (s : Shape) : Type := (⟨s, .i32⟩ : BufTy).Contents (Elt Ideal)

/-! ### The projections -/

/-- The reference's first projection is `x · W1ᵀ` entry by entry: entry `(p, j)` is the sum over `k` of `x (p, k) · wt (k, j)`. -/
theorem ref_mm1 (x0 : FA S65536x256) (x4 : FA S256x256) :
    val_main_v10 (F := Ideal) x0 x4 = Cert.Spec.mm x0 (val_main_v9 (F := Ideal) x4) := by
  funext i
  obtain ⟨p, j, rfl⟩ : ∃ (p : Fin 65536) (j : Fin 256), i = ix2 p j := ⟨i 0, i 1, eq_ix2 i⟩
  rw [val_main_v10_apply]
  unfold Cert.Spec.mm Cert.Spec.mmAt
  refine Finset.sum_congr rfl fun k _ => ?_
  have el : lidx_main_v10 (ix2 p j) k = ix2 p k :=
    funext fun a => Fin.ext (by match a with | ⟨0, _⟩ => rfl | ⟨1, _⟩ => rfl)
  have er : ridx_main_v10 (ix2 p j) k = ix2 k j :=
    funext fun a => Fin.ext (by match a with | ⟨0, _⟩ => rfl | ⟨1, _⟩ => rfl)
  rw [el, er]

/-! ### The cell, entry by entry

Throughout, `x0` is the first step's input, `val_main_v49 …` the second step's, the weights are read transposed
(`val_main_v52 x8` for the input weights, `val_main_v54 x9` for the recurrent ones) and the bias is the sum of the two bias rows. -/

section cell

variable (x0 : FA S65536x256) (x1 : IA S2x262144) (x2 : FA S262144) (x4 : FA S256x256) (x5 : FA S256)
  (x8 x9 : FA S1024x256) (x10 x11 : FA S1024)

/-- The bias `b_ih + b_hh` as a function of the gate column. -/
abbrev bias (x10 x11 : FA S1024) : Fin 1024 → EReal := fun g => val_main_v57 (F := Ideal) x10 x11 (ix1 g)

/-- A 256-column slice starting at column `off` reads entry `(p, j)` at the gate column `j + off`. -/
theorem slice_idx (p : Fin 65536) (j : Fin 256) (off : Nat) (h : off + 256 ≤ 1024)
    (f : S65536x256.Idx → S65536x1024.Idx)
    (h0 : (f (ix2 p j) 0).val = p.val) (h1 : (f (ix2 p j) 1).val = off + j.val) :
    f (ix2 p j) = ix2 p (Cert.Spec.gate off h j) :=
  funext fun a => Fin.ext (by
    match a with
    | ⟨0, _⟩ => exact h0
    | ⟨1, _⟩ => exact h1.trans (Nat.add_comm _ _))

/-- Left operand of a row-by-column product at entry `(p, g)`, term `k`: entry `(p, k)`. -/
theorem lidx_at (p : Fin 65536) (g : Fin 1024) (k : Fin 256) : lidx_main_v53 (ix2 p g) k = ix2 p k :=
  funext fun a => Fin.ext (by match a with | ⟨0, _⟩ => rfl | ⟨1, _⟩ => rfl)
/-- Right operand of the same term: entry `(k, g)`. -/
theorem ridx_at (p : Fin 65536) (g : Fin 1024) (k : Fin 256) : ridx_main_v53 (ix2 p g) k = ix2 k g :=
  funext fun a => Fin.ext (by match a with | ⟨0, _⟩ => rfl | ⟨1, _⟩ => rfl)
/-- The bias broadcast along the rows reads entry `(p, g)` at `g`. -/
theorem bidx_at (p : Fin 65536) (g : Fin 1024) : idx_main_v58 (idx_main_v59 (ix2 p g)) = ix1 g :=
  funext fun a => Fin.ext (by match a with | ⟨0, _⟩ => rfl)

/-- The zero state. -/
theorem zero_h (i : S65536x256.Idx) : val_main_v50 (F := Ideal) i = (0 : EReal) := by
  rw [val_main_v50_apply, val_main_cst_9_apply]; exact Ideal.ofBits_zero_f32
theorem zero_c (i : S65536x256.Idx) : val_main_v51 (F := Ideal) i = (0 : EReal) := by
  rw [val_main_v51_apply, val_main_cst_10_apply]; exact Ideal.ofBits_zero_f32

/-- Step one's pre-activation: the recurrent product of the zero state is a sum of zeros. -/
theorem z1_at (p : Fin 65536) (g : Fin 1024) :
    val_main_v60 (F := Ideal) x0 x8 x9 x10 x11 (ix2 p g)
      = Cert.Spec.z1 (Cert.Spec.row x0 p) (val_main_v52 (F := Ideal) x8) (bias x10 x11) g := by
  rw [val_main_v60_apply, val_main_v56_apply, val_main_v53_apply, val_main_v55_apply, val_main_v59_apply,
    val_main_v58_apply]
  unfold Cert.Spec.z1
  simp only [Ideal.addf_def, zero_h, zero_mul, Finset.sum_const_zero, add_zero, lidx_at, ridx_at, bidx_at, Cert.Spec.row, bias]

/-- The four gate slices of step one read the pre-activation at the gate's column. -/
theorem s61_at (p : Fin 65536) (j : Fin 256) : idx_main_v61 (ix2 p j) = ix2 p (Cert.Spec.gate 0 (by omega) j) :=
  slice_idx p j 0 (by omega) idx_main_v61 rfl (Nat.zero_add _).symm
theorem s62_at (p : Fin 65536) (j : Fin 256) : idx_main_v62 (ix2 p j) = ix2 p (Cert.Spec.gate 256 (by omega) j) :=
  slice_idx p j 256 (by omega) idx_main_v62 rfl rfl
theorem s63_at (p : Fin 65536) (j : Fin 256) : idx_main_v63 (ix2 p j) = ix2 p (Cert.Spec.gate 512 (by omega) j) :=
  slice_idx p j 512 (by omega) idx_main_v63 rfl rfl
theorem s64_at (p : Fin 65536) (j : Fin 256) : idx_main_v64 (ix2 p j) = ix2 p (Cert.Spec.gate 768 (by omega) j) :=
  slice_idx p j 768 (by omega) idx_main_v64 rfl rfl

/-- The literal one. -/
theorem one_lit : FloatOps.ofBits (F := Ideal) .f32 0x3F800000#32 = (1 : EReal) := Ideal.ofBits_one_f32

/-- The logistic function spelt as negate, exponential, add one, divide one by. -/
theorem logistic_spelt (z : EReal) :
    FloatOps.hostDivf (F := Ideal) (φ := .f32) (1 : EReal)
      (FloatOps.addf (F := Ideal) (φ := .f32) (1 : EReal)
        (FloatOps.hostUnary (F := Ideal) (φ := .f32) .exp (FloatOps.hostNegf (F := Ideal) (φ := .f32) z)))
      = Ideal.logistic z := rfl

/-- Step one's cell state: the forget term multiplies the zero state and drops out. -/
theorem c1_at (p : Fin 65536) (j : Fin 256) :
    val_main_v80 (F := Ideal) x0 x8 x9 x10 x11 (ix2 p j)
      = Cert.Spec.c1 (Cert.Spec.row x0 p) (val_main_v52 (F := Ideal) x8) (bias x10 x11) j := by
  rw [val_main_v80_apply, val_main_v71_apply, zero_c, val_main_v79_apply,
    val_main_v77_apply, val_main_v76_apply, val_main_cst_14_apply, val_main_v75_apply, val_main_v74_apply,
    val_main_cst_13_apply, val_main_v73_apply, val_main_v72_apply, val_main_v61_apply, val_main_v78_apply,
    val_main_v63_apply, s61_at, s63_at, z1_at, z1_at, one_lit, logistic_spelt]
  unfold Cert.Spec.c1
  simp only [Ideal.addf_def, Ideal.mulf_def, Ideal.hostUnary_tanh_def, mul_zero, zero_add]

/-- Step one's hidden state. -/
theorem h1_at (p : Fin 65536) (j : Fin 256) :
    val_main_v88 (F := Ideal) x0 x8 x9 x10 x11 (ix2 p j)
      = Cert.Spec.h1 (Cert.Spec.row x0 p) (val_main_v52 (F := Ideal) x8) (bias x10 x11) j := by
  rw [val_main_v88_apply, val_main_v86_apply, val_main_v85_apply, val_main_cst_16_apply, val_main_v84_apply,
    val_main_v83_apply, val_main_cst_15_apply, val_main_v82_apply, val_main_v81_apply, val_main_v64_apply,
    val_main_v87_apply, c1_at, s64_at, z1_at, one_lit, logistic_spelt]
  unfold Cert.Spec.h1
  simp only [Ideal.mulf_def, Ideal.hostUnary_tanh_def]

/-! Step two reads the same transposed weights and the same bias under new names. -/
theorem wih_again : val_main_v89 (F := Ideal) x8 = val_main_v52 (F := Ideal) x8 := rfl
theorem whh_again : val_main_v91 (F := Ideal) x9 = val_main_v54 (F := Ideal) x9 := rfl
theorem bias_again : val_main_v94 (F := Ideal) x10 x11 = val_main_v57 (F := Ideal) x10 x11 := rfl

theorem lidx90_at (p : Fin 65536) (g : Fin 1024) (k : Fin 256) : lidx_main_v90 (ix2 p g) k = ix2 p k :=
  funext fun a => Fin.ext (by match a with | ⟨0, _⟩ => rfl | ⟨1, _⟩ => rfl)
theorem ridx90_at (p : Fin 65536) (g : Fin 1024) (k : Fin 256) : ridx_main_v90 (ix2 p g) k = ix2 k g :=
  funext fun a => Fin.ext (by match a with | ⟨0, _⟩ => rfl | ⟨1, _⟩ => rfl)
theorem lidx92_at (p : Fin 65536) (g : Fin 1024) (k : Fin 256) : lidx_main_v92 (ix2 p g) k = ix2 p k :=
  funext fun a => Fin.ext (by match a with | ⟨0, _⟩ => rfl | ⟨1, _⟩ => rfl)
theorem ridx92_at (p : Fin 65536) (g : Fin 1024) (k : Fin 256) : ridx_main_v92 (ix2 p g) k = ix2 k g :=
  funext fun a => Fin.ext (by match a with | ⟨0, _⟩ => rfl | ⟨1, _⟩ => rfl)
theorem bidx96_at (p : Fin 65536) (g : Fin 1024) : idx_main_v95 (idx_main_v96 (ix2 p g)) = ix1 g :=
  funext fun a => Fin.ext (by match a with | ⟨0, _⟩ => rfl)

/-- Step two's pre-activation: the input product, the recurrent product of step one's hidden row, and the bias. -/
theorem z2_at (p : Fin 65536) (g : Fin 1024) :
    val_main_v97 (F := Ideal) x0 x1 x2 x4 x5 x8 x9 x10 x11 (ix2 p g)
      = Cert.Spec.z2 (Cert.Spec.row x0 p) (Cert.Spec.row (val_main_v49 (F := Ideal) x0 x1 x2 x4 x5) p)
          (val_main_v52 (F := Ideal) x8) (val_main_v54 (F := Ideal) x9) (bias x10 x11) g := by
  rw [val_main_v97_apply, val_main_v93_apply, val_main_v90_apply, val_main_v92_apply, val_main_v96_apply,
    val_main_v95_apply, wih_again, whh_again, bias_again]
  unfold Cert.Spec.z2
  simp only [Ideal.addf_def, lidx90_at, ridx90_at, lidx92_at, ridx92_at, bidx96_at, h1_at, Cert.Spec.row, bias]

theorem s98_at (p : Fin 65536) (j : Fin 256) : idx_main_v98 (ix2 p j) = ix2 p (Cert.Spec.gate 0 (by omega) j) :=
  slice_idx p j 0 (by omega) idx_main_v98 rfl (Nat.zero_add _).symm
theorem s99_at (p : Fin 65536) (j : Fin 256) : idx_main_v99 (ix2 p j) = ix2 p (Cert.Spec.gate 256 (by omega) j) :=
  slice_idx p j 256 (by omega) idx_main_v99 rfl rfl
theorem s100_at (p : Fin 65536) (j : Fin 256) : idx_main_v100 (ix2 p j) = ix2 p (Cert.Spec.gate 512 (by omega) j) :=
  slice_idx p j 512 (by omega) idx_main_v100 rfl rfl
theorem s101_at (p : Fin 65536) (j : Fin 256) : idx_main_v101 (ix2 p j) = ix2 p (Cert.Spec.gate 768 (by omega) j) :=
  slice_idx p j 768 (by omega) idx_main_v101 rfl rfl

/-- Step two's cell state: the full cell, forget gate times step one's cell state plus input gate times candidate. -/
theorem c2_at (p : Fin 65536) (j : Fin 256) :
    val_main_v117 (F := Ideal) x0 x1 x2 x4 x5 x8 x9 x10 x11 (ix2 p j)
      = Cert.Spec.c2 (Cert.Spec.row x0 p) (Cert.Spec.row (val_main_v49 (F := Ideal) x0 x1 x2 x4 x5) p)
          (val_main_v52 (F := Ideal) x8) (val_main_v54 (F := Ideal) x9) (bias x10 x11) j := by
  rw [val_main_v117_apply, val_main_v108_apply, val_main_v107_apply, val_main_v106_apply, val_main_cst_18_apply,
    val_main_v105_apply, val_main_v104_apply, val_main_cst_17_apply, val_main_v103_apply, val_main_v102_apply,
    val_main_v99_apply, c1_at, val_main_v116_apply, val_main_v114_apply, val_main_v113_apply, val_main_cst_20_apply,
    val_main_v112_apply, val_main_v111_apply, val_main_cst_19_apply, val_main_v110_apply, val_main_v109_apply,
    val_main_v98_apply, val_main_v115_apply, val_main_v100_apply, s98_at, s99_at, s100_at, z2_at, z2_at, z2_at,
    one_lit, logistic_spelt, logistic_spelt]
  unfold Cert.Spec.c2
  simp only [Ideal.addf_def, Ideal.mulf_def, Ideal.hostUnary_tanh_def]

/-- Step two's hidden state, the cell's output. -/
theorem h2_at (p : Fin 65536) (j : Fin 256) :
    val_main_v125 (F := Ideal) x0 x1 x2 x4 x5 x8 x9 x10 x11 (ix2 p j)
      = Cert.Spec.h2 (Cert.Spec.row x0 p) (Cert.Spec.row (val_main_v49 (F := Ideal) x0 x1 x2 x4 x5) p)
          (val_main_v52 (F := Ideal) x8) (val_main_v54 (F := Ideal) x9) (bias x10 x11) j := by
  rw [val_main_v125_apply, val_main_v123_apply, val_main_v122_apply, val_main_cst_22_apply, val_main_v121_apply,
    val_main_v120_apply, val_main_cst_21_apply, val_main_v119_apply, val_main_v118_apply, val_main_v101_apply,
    val_main_v124_apply, c2_at, s101_at, z2_at, one_lit, logistic_spelt]
  unfold Cert.Spec.h2
  simp only [Ideal.mulf_def, Ideal.hostUnary_tanh_def]

end cell

/-- The reference's first two-step cell (from the zero state, its zero recurrent product and zero forget term dropped)
    is the specification's cell of `x` and the first graph layer's output, unmasked. -/
theorem ref_lstm1 (x0 : FA S65536x256) (x1 : IA S2x262144) (x2 : FA S262144) (x4 : FA S256x256) (x5 : FA S256)
    (x8 x9 : FA S1024x256) (x10 x11 : FA S1024) :
    val_main_v125 (F := Ideal) x0 x1 x2 x4 x5 x8 x9 x10 x11
      = Cert.Spec.lstm x0 (val_main_v49 (F := Ideal) x0 x1 x2 x4 x5) (val_main_v52 (F := Ideal) x8) (val_main_v54 (F := Ideal) x9)
          (fun g => val_main_v57 (F := Ideal) x10 x11 (ix1 g)) (fun _ => 1) := by
  funext i
  obtain ⟨p, j, rfl⟩ : ∃ (p : Fin 65536) (j : Fin 256), i = ix2 p j := ⟨i 0, i 1, eq_ix2 i⟩
  rw [h2_at]
  unfold Cert.Spec.lstm Cert.Spec.lstmAt
  exact (mul_one _).symm

/-- The reference's second projection likewise, of the first cell's output. -/
theorem ref_mm2 (x0 : FA S65536x256) (x1 : IA S2x262144) (x2 : FA S262144) (x4 : FA S256x256) (x5 : FA S256) (x6 : FA S256x256)
    (x8 x9 : FA S1024x256) (x10 x11 : FA S1024) :
    val_main_v127 (F := Ideal) x0 x1 x2 x4 x5 x6 x8 x9 x10 x11
      = Cert.Spec.mm (val_main_v125 (F := Ideal) x0 x1 x2 x4 x5 x8 x9 x10 x11) (val_main_v126 (F := Ideal) x6) := by
  funext i
  obtain ⟨p, j, rfl⟩ : ∃ (p : Fin 65536) (j : Fin 256), i = ix2 p j := ⟨i 0, i 1, eq_ix2 i⟩
  rw [val_main_v127_apply]
  unfold Cert.Spec.mm Cert.Spec.mmAt
  refine Finset.sum_congr rfl fun k _ => ?_
  have el : lidx_main_v127 (ix2 p j) k = ix2 p k :=
    funext fun a => Fin.ext (by match a with | ⟨0, _⟩ => rfl | ⟨1, _⟩ => rfl)
  have er : ridx_main_v127 (ix2 p j) k = ix2 k j :=
    funext fun a => Fin.ext (by match a with | ⟨0, _⟩ => rfl | ⟨1, _⟩ => rfl)
  rw [el, er]

end Cert.ReferenceIdeal.RV1

end
-- ==== Proof.RefLstm2.lean ====
/-
  The reference's second two-step cell, read entry by entry, is the specification's cell.

  Row `p` of the cell's output depends only on row `p` of its two inputs. Step one starts from the zero state: the
  recurrent product of the zero hidden state is a sum of terms `0 · w`, hence zero, and `x + 0 = x`; the forget gate
  multiplies the zero cell state, and `σ(f) · 0 = 0`, `0 + y = y`. So step one's pre-activation of gate column `g` is
  `∑ₖ x0 (p, k) · wih (k, g) + b g`, its cell state `σ(i)·tanh(g)` and its hidden state `σ(o)·tanh(c₁)`. Step two is the
  full cell: its recurrent product sums step one's hidden state of the same row. The logistic function is written
  `1 / (1 + exp (-z))`, which is its definition on the extended reals; the literal one is the extended real one.
  The transposed weights and the bias sum are computed again for each step with the same bodies, so they are the same arrays.
  Last, the `[65536, 256] → [128, 512, 256]` row-major reshape puts row `512·b + l` at `(b, l)`, and the mask is
  broadcast along the feature axis.
-/
import proofs.«156547_j23003844837986_1_alg».proof.Proof.ReadP
import proofs.«156547_j23003844837986_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RV2

open Cert.ReferenceIdeal Cert.ReferenceIdeal.ReadP Idealize.ShloMosaic Idealize.ShloMosaic.TcCoe Idealize.ShloMosaic.ValueIdx
open scoped BigOperators

/-- Contents of a float buffer of shape `s` at the extended reals. -/
abbrev FA (s : Shape) : Type := (⟨s, .f32⟩ : BufTy).Contents (Elt Ideal)
/-- Contents of a 32-bit integer buffer of shape `s`. -/
abbrev IA (s : Shape) : Type := (⟨s, .i32⟩ : BufTy).Contents (Elt Ideal)

/-! ## Index bookkeeping

Column `j` of the 256-column slice that starts at column `off` of a 1024-column row is gate column `j + off`; the matrix
product at `(p, g)` reads the left operand at `(p, k)` and the right one at `(k, g)`; the bias broadcast along the rows
reads the bias at the column. -/
theorem idx178_at (p : Fin 65536) (j : Fin 256) : idx_main_v178 (ix2 p j) = ix2 p (Cert.Spec.gate 0 (by omega) j) :=
  funext fun a => Fin.ext (by match a with | ⟨0, _⟩ => rfl | ⟨1, _⟩ => exact (rfl))
theorem idx179_at (p : Fin 65536) (j : Fin 256) : idx_main_v179 (ix2 p j) = ix2 p (Cert.Spec.gate 256 (by omega) j) :=
  funext fun a => Fin.ext (by match a with | ⟨0, _⟩ => rfl | ⟨1, _⟩ => exact (show 256 + j.val = j.val + 256 from Nat.add_comm _ _))
theorem idx180_at (p : Fin 65536) (j : Fin 256) : idx_main_v180 (ix2 p j) = ix2 p (Cert.Spec.gate 512 (by omega) j) :=
  funext fun a => Fin.ext (by match a with | ⟨0, _⟩ => rfl | ⟨1, _⟩ => exact (show 512 + j.val = j.val + 512 from Nat.add_comm _ _))
theorem idx181_at (p : Fin 65536) (j : Fin 256) : idx_main_v181 (ix2 p j) = ix2 p (Cert.Spec.gate 768 (by omega) j) :=
  funext fun a => Fin.ext (by match a with | ⟨0, _⟩ => rfl | ⟨1, _⟩ => exact (show 768 + j.val = j.val + 768 from Nat.add_comm _ _))
theorem idx215_at (p : Fin 65536) (j : Fin 256) : idx_main_v215 (ix2 p j) = ix2 p (Cert.Spec.gate 0 (by omega) j) :=
  funext fun a => Fin.ext (by match a with | ⟨0, _⟩ => rfl | ⟨1, _⟩ => exact (rfl))
theorem idx216_at (p : Fin 65536) (j : Fin 256) : idx_main_v216 (ix2 p j) = ix2 p (Cert.Spec.gate 256 (by omega) j) :=
  funext fun a => Fin.ext (by match a with | ⟨0, _⟩ => rfl | ⟨1, _⟩ => exact (show 256 + j.val = j.val + 256 from Nat.add_comm _ _))
theorem idx217_at (p : Fin 65536) (j : Fin 256) : idx_main_v217 (ix2 p j) = ix2 p (Cert.Spec.gate 512 (by omega) j) :=
  funext fun a => Fin.ext (by match a with | ⟨0, _⟩ => rfl | ⟨1, _⟩ => exact (show 512 + j.val = j.val + 512 from Nat.add_comm _ _))
theorem idx218_at (p : Fin 65536) (j : Fin 256) : idx_main_v218 (ix2 p j) = ix2 p (Cert.Spec.gate 768 (by omega) j) :=
  funext fun a => Fin.ext (by match a with | ⟨0, _⟩ => rfl | ⟨1, _⟩ => exact (show 768 + j.val = j.val + 768 from Nat.add_comm _ _))
theorem lidx170_at (p : Fin 65536) (g : Fin 1024) (k : Fin 256) : lidx_main_v170 (ix2 p g) k = ix2 p k :=
  funext fun a => Fin.ext (by match a with | ⟨0, _⟩ => rfl | ⟨1, _⟩ => rfl)
theorem ridx170_at (p : Fin 65536) (g : Fin 1024) (k : Fin 256) : ridx_main_v170 (ix2 p g) k = ix2 k g :=
  funext fun a => Fin.ext (by match a with | ⟨0, _⟩ => rfl | ⟨1, _⟩ => rfl)
theorem lidx207_at (p : Fin 65536) (g : Fin 1024) (k : Fin 256) : lidx_main_v207 (ix2 p g) k = ix2 p k :=
  funext fun a => Fin.ext (by match a with | ⟨0, _⟩ => rfl | ⟨1, _⟩ => rfl)
theorem ridx207_at (p : Fin 65536) (g : Fin 1024) (k : Fin 256) : ridx_main_v207 (ix2 p g) k = ix2 k g :=
  funext fun a => Fin.ext (by match a with | ⟨0, _⟩ => rfl | ⟨1, _⟩ => rfl)
theorem lidx209_at (p : Fin 65536) (g : Fin 1024) (k : Fin 256) : lidx_main_v209 (ix2 p g) k = ix2 p k :=
  funext fun a => Fin.ext (by match a with | ⟨0, _⟩ => rfl | ⟨1, _⟩ => rfl)
theorem ridx209_at (p : Fin 65536) (g : Fin 1024) (k : Fin 256) : ridx_main_v209 (ix2 p g) k = ix2 k g :=
  funext fun a => Fin.ext (by match a with | ⟨0, _⟩ => rfl | ⟨1, _⟩ => rfl)
theorem bidx176_at (p : Fin 65536) (g : Fin 1024) : idx_main_v175 (idx_main_v176 (ix2 p g)) = ix1 g :=
  funext fun a => Fin.ext (by match a with | ⟨0, _⟩ => rfl)
theorem bidx213_at (p : Fin 65536) (g : Fin 1024) : idx_main_v212 (idx_main_v213 (ix2 p g)) = ix1 g :=
  funext fun a => Fin.ext (by match a with | ⟨0, _⟩ => rfl)

/-! ## Literals

The zero arrays are the extended real zero everywhere, the one arrays the extended real one. -/
theorem zero167 (i : S65536x256.Idx) : val_main_v167 (F := Ideal) i = (0 : EReal) := by
  rw [val_main_v167_apply, val_main_cst_33_apply, Ideal.ofBits_def, Ideal.ofBits_zero_f32]
theorem zero168 (i : S65536x256.Idx) : val_main_v168 (F := Ideal) i = (0 : EReal) := by
  rw [val_main_v168_apply, val_main_cst_34_apply, Ideal.ofBits_def, Ideal.ofBits_zero_f32]
theorem one191 (i : S65536x256.Idx) : val_main_v191 (F := Ideal) i = (1 : EReal) := by
  rw [val_main_v191_apply, val_main_cst_37_apply, Ideal.ofBits_def, Ideal.ofBits_one_f32]
theorem one193 (i : S65536x256.Idx) : val_main_v193 (F := Ideal) i = (1 : EReal) := by
  rw [val_main_v193_apply, val_main_cst_38_apply, Ideal.ofBits_def, Ideal.ofBits_one_f32]
theorem one200 (i : S65536x256.Idx) : val_main_v200 (F := Ideal) i = (1 : EReal) := by
  rw [val_main_v200_apply, val_main_cst_39_apply, Ideal.ofBits_def, Ideal.ofBits_one_f32]
theorem one202 (i : S65536x256.Idx) : val_main_v202 (F := Ideal) i = (1 : EReal) := by
  rw [val_main_v202_apply, val_main_cst_40_apply, Ideal.ofBits_def, Ideal.ofBits_one_f32]
theorem one221 (i : S65536x256.Idx) : val_main_v221 (F := Ideal) i = (1 : EReal) := by
  rw [val_main_v221_apply, val_main_cst_41_apply, Ideal.ofBits_def, Ideal.ofBits_one_f32]
theorem one223 (i : S65536x256.Idx) : val_main_v223 (F := Ideal) i = (1 : EReal) := by
  rw [val_main_v223_apply, val_main_cst_42_apply, Ideal.ofBits_def, Ideal.ofBits_one_f32]
theorem one228 (i : S65536x256.Idx) : val_main_v228 (F := Ideal) i = (1 : EReal) := by
  rw [val_main_v228_apply, val_main_cst_43_apply, Ideal.ofBits_def, Ideal.ofBits_one_f32]
theorem one230 (i : S65536x256.Idx) : val_main_v230 (F := Ideal) i = (1 : EReal) := by
  rw [val_main_v230_apply, val_main_cst_44_apply, Ideal.ofBits_def, Ideal.ofBits_one_f32]
theorem one237 (i : S65536x256.Idx) : val_main_v237 (F := Ideal) i = (1 : EReal) := by
  rw [val_main_v237_apply, val_main_cst_45_apply, Ideal.ofBits_def, Ideal.ofBits_one_f32]
theorem one239 (i : S65536x256.Idx) : val_main_v239 (F := Ideal) i = (1 : EReal) := by
  rw [val_main_v239_apply, val_main_cst_46_apply, Ideal.ofBits_def, Ideal.ofBits_one_f32]

/-- The logistic function spelt `1 / (1 + exp (-z))` is the logistic function of the extended reals, by definition. -/
theorem logistic_spelt (z : EReal) :
    FloatOps.hostDivf (F := Ideal) (φ := .f32) (1 : EReal)
        (FloatOps.addf (F := Ideal) (φ := .f32) (1 : EReal)
          (FloatOps.hostUnary (F := Ideal) (φ := .f32) .exp (FloatOps.hostNegf (F := Ideal) (φ := .f32) z)))
      = Ideal.logistic z := rfl

section cells

variable (x0 : FA S65536x256) (x1 : IA S2x262144) (x2 : FA S262144) (x4 : FA S256x256) (x5 : FA S256) (x6 : FA S256x256)
    (x7 : FA S256) (x8 x9 : FA S1024x256) (x10 x11 : FA S1024)

/-! ## Step one (from the zero state)

The recurrent product of the zero hidden state is a sum of zeros, so the pre-activation at `(p, g)` is the input
product plus the bias; the forget gate multiplies the zero cell state, so the new cell state is `σ(i)·tanh(g)`.
The logistic function is spelt `1 / (1 + exp (-z))`, which is its definition on the extended reals. -/

/-- The bias row broadcast along the rows, read at `(p, g)`. -/
theorem bias1_at (p : Fin 65536) (g : Fin 1024) :
    val_main_v176 (F := Ideal) x10 x11 (ix2 p g) = val_main_v57 (F := Ideal) x10 x11 (ix1 g) := by
  rw [val_main_v176_apply, val_main_v175_apply, bidx176_at]; rfl

/-- The product of the zero hidden state with the recurrent weights is zero: every term is `0 · w`. -/
theorem rec1_zero (i : S65536x1024.Idx) : val_main_v172 (F := Ideal) x9 i = (0 : EReal) := by
  rw [val_main_v172_apply]
  exact Finset.sum_eq_zero fun k _ => by rw [zero167, zero_mul]

/-- The input product of step one at `(p, g)`. -/
theorem in1_at (p : Fin 65536) (g : Fin 1024) :
    val_main_v170 (F := Ideal) x0 x1 x2 x4 x5 x8 x9 x10 x11 (ix2 p g) = ∑ k : Fin 256, (val_main_v125 (F := Ideal) x0 x1 x2 x4 x5 x8 x9 x10 x11) (ix2 p k) * (val_main_v52 (F := Ideal) x8) (ix2 k g) := by
  rw [val_main_v170_apply]
  exact Finset.sum_congr rfl fun k _ => by rw [lidx170_at, ridx170_at]; rfl

/-- Step one's pre-activation at row `p`, gate column `g`. -/
theorem pre1_at (p : Fin 65536) (g : Fin 1024) :
    val_main_v177 (F := Ideal) x0 x1 x2 x4 x5 x8 x9 x10 x11 (ix2 p g) = (Cert.Spec.z1 (Cert.Spec.row (val_main_v125 (F := Ideal) x0 x1 x2 x4 x5 x8 x9 x10 x11) p) (val_main_v52 (F := Ideal) x8) (fun g => val_main_v57 (F := Ideal) x10 x11 (ix1 g)) g) := by
  rw [val_main_v177_apply, val_main_v173_apply, in1_at, rec1_zero, bias1_at]
  simp only [Ideal.addf_def, add_zero]
  rfl

/-- Step one's input gate. -/
theorem gi1_at (p : Fin 65536) (j : Fin 256) :
    val_main_v194 (F := Ideal) x0 x1 x2 x4 x5 x8 x9 x10 x11 (ix2 p j) = Ideal.logistic (Cert.Spec.z1 (Cert.Spec.row (val_main_v125 (F := Ideal) x0 x1 x2 x4 x5 x8 x9 x10 x11) p) (val_main_v52 (F := Ideal) x8) (fun g => val_main_v57 (F := Ideal) x10 x11 (ix1 g)) (Cert.Spec.gate 0 (by omega) j)) := by
  rw [val_main_v194_apply, one193, val_main_v192_apply, one191, val_main_v190_apply, val_main_v189_apply,
    val_main_v178_apply, idx178_at, pre1_at]
  exact logistic_spelt _

/-- Step one's cell candidate. -/
theorem gg1_at (p : Fin 65536) (j : Fin 256) :
    val_main_v195 (F := Ideal) x0 x1 x2 x4 x5 x8 x9 x10 x11 (ix2 p j) = Ideal.tanh (Cert.Spec.z1 (Cert.Spec.row (val_main_v125 (F := Ideal) x0 x1 x2 x4 x5 x8 x9 x10 x11) p) (val_main_v52 (F := Ideal) x8) (fun g => val_main_v57 (F := Ideal) x10 x11 (ix1 g)) (Cert.Spec.gate 512 (by omega) j)) := by
  rw [val_main_v195_apply, val_main_v180_apply, idx180_at, pre1_at, Ideal.hostUnary_tanh_def]

/-- Step one's output gate. -/
theorem go1_at (p : Fin 65536) (j : Fin 256) :
    val_main_v203 (F := Ideal) x0 x1 x2 x4 x5 x8 x9 x10 x11 (ix2 p j) = Ideal.logistic (Cert.Spec.z1 (Cert.Spec.row (val_main_v125 (F := Ideal) x0 x1 x2 x4 x5 x8 x9 x10 x11) p) (val_main_v52 (F := Ideal) x8) (fun g => val_main_v57 (F := Ideal) x10 x11 (ix1 g)) (Cert.Spec.gate 768 (by omega) j)) := by
  rw [val_main_v203_apply, one202, val_main_v201_apply, one200, val_main_v199_apply, val_main_v198_apply,
    val_main_v181_apply, idx181_at, pre1_at]
  exact logistic_spelt _

/-- Step one's cell state: the forget gate times the zero state drops out. -/
theorem c1_at (p : Fin 65536) (j : Fin 256) :
    val_main_v197 (F := Ideal) x0 x1 x2 x4 x5 x8 x9 x10 x11 (ix2 p j) = Cert.Spec.c1 (Cert.Spec.row (val_main_v125 (F := Ideal) x0 x1 x2 x4 x5 x8 x9 x10 x11) p) (val_main_v52 (F := Ideal) x8) (fun g => val_main_v57 (F := Ideal) x10 x11 (ix1 g)) j := by
  rw [val_main_v197_apply, val_main_v188_apply, zero168, val_main_v196_apply, gi1_at, gg1_at]
  simp only [Ideal.mulf_def, Ideal.addf_def, mul_zero, zero_add]
  rfl

/-- Step one's hidden state at row `p`, column `j`. -/
theorem h1_at (p : Fin 65536) (j : Fin 256) :
    val_main_v205 (F := Ideal) x0 x1 x2 x4 x5 x8 x9 x10 x11 (ix2 p j) = Cert.Spec.h1 (Cert.Spec.row (val_main_v125 (F := Ideal) x0 x1 x2 x4 x5 x8 x9 x10 x11) p) (val_main_v52 (F := Ideal) x8) (fun g => val_main_v57 (F := Ideal) x10 x11 (ix1 g)) j := by
  unfold Cert.Spec.h1
  rw [val_main_v205_apply, go1_at, val_main_v204_apply, c1_at, Ideal.hostUnary_tanh_def, Ideal.mulf_def]

/-! ## Step two (the full cell) -/

/-- The bias row broadcast along the rows, read at `(p, g)`. -/
theorem bias2_at (p : Fin 65536) (g : Fin 1024) :
    val_main_v213 (F := Ideal) x10 x11 (ix2 p g) = val_main_v57 (F := Ideal) x10 x11 (ix1 g) := by
  rw [val_main_v213_apply, val_main_v212_apply, bidx213_at]; rfl

/-- The input product of step two at `(p, g)`. -/
theorem in2_at (p : Fin 65536) (g : Fin 1024) :
    val_main_v207 (F := Ideal) x0 x1 x2 x4 x5 x6 x7 x8 x9 x10 x11 (ix2 p g) = ∑ k : Fin 256, (val_main_v166 (F := Ideal) x0 x1 x2 x4 x5 x6 x7 x8 x9 x10 x11) (ix2 p k) * (val_main_v52 (F := Ideal) x8) (ix2 k g) := by
  rw [val_main_v207_apply]
  exact Finset.sum_congr rfl fun k _ => by rw [lidx207_at, ridx207_at]; rfl

/-- The recurrent product of step two at `(p, g)`: it sums step one's hidden state of row `p` over its columns. -/
theorem rec2_at (p : Fin 65536) (g : Fin 1024) :
    val_main_v209 (F := Ideal) x0 x1 x2 x4 x5 x8 x9 x10 x11 (ix2 p g)
      = ∑ k : Fin 256, Cert.Spec.h1 (Cert.Spec.row (val_main_v125 (F := Ideal) x0 x1 x2 x4 x5 x8 x9 x10 x11) p) (val_main_v52 (F := Ideal) x8) (fun g => val_main_v57 (F := Ideal) x10 x11 (ix1 g)) k * (val_main_v54 (F := Ideal) x9) (ix2 k g) := by
  rw [val_main_v209_apply]
  exact Finset.sum_congr rfl fun k _ => by rw [lidx209_at, ridx209_at, h1_at]; rfl

/-- Step two's pre-activation at row `p`, gate column `g`. -/
theorem pre2_at (p : Fin 65536) (g : Fin 1024) :
    val_main_v214 (F := Ideal) x0 x1 x2 x4 x5 x6 x7 x8 x9 x10 x11 (ix2 p g) = (Cert.Spec.z2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) g) := by
  rw [val_main_v214_apply, val_main_v210_apply, in2_at, rec2_at, bias2_at]
  rfl

/-- Step two's forget gate. -/
theorem gf2_at (p : Fin 65536) (j : Fin 256) :
    val_main_v224 (F := Ideal) x0 x1 x2 x4 x5 x6 x7 x8 x9 x10 x11 (ix2 p j) = Ideal.logistic (Cert.Spec.z2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) (Cert.Spec.gate 256 (by omega) j)) := by
  rw [val_main_v224_apply, one223, val_main_v222_apply, one221, val_main_v220_apply, val_main_v219_apply,
    val_main_v216_apply, idx216_at, pre2_at]
  exact logistic_spelt _

/-- Step two's input gate. -/
theorem gi2_at (p : Fin 65536) (j : Fin 256) :
    val_main_v231 (F := Ideal) x0 x1 x2 x4 x5 x6 x7 x8 x9 x10 x11 (ix2 p j) = Ideal.logistic (Cert.Spec.z2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) (Cert.Spec.gate 0 (by omega) j)) := by
  rw [val_main_v231_apply, one230, val_main_v229_apply, one228, val_main_v227_apply, val_main_v226_apply,
    val_main_v215_apply, idx215_at, pre2_at]
  exact logistic_spelt _

/-- Step two's cell candidate. -/
theorem gg2_at (p : Fin 65536) (j : Fin 256) :
    val_main_v232 (F := Ideal) x0 x1 x2 x4 x5 x6 x7 x8 x9 x10 x11 (ix2 p j) = Ideal.tanh (Cert.Spec.z2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) (Cert.Spec.gate 512 (by omega) j)) := by
  rw [val_main_v232_apply, val_main_v217_apply, idx217_at, pre2_at, Ideal.hostUnary_tanh_def]

/-- Step two's output gate. -/
theorem go2_at (p : Fin 65536) (j : Fin 256) :
    val_main_v240 (F := Ideal) x0 x1 x2 x4 x5 x6 x7 x8 x9 x10 x11 (ix2 p j) = Ideal.logistic (Cert.Spec.z2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) (Cert.Spec.gate 768 (by omega) j)) := by
  rw [val_main_v240_apply, one239, val_main_v238_apply, one237, val_main_v236_apply, val_main_v235_apply,
    val_main_v218_apply, idx218_at, pre2_at]
  exact logistic_spelt _

/-- Step two's cell state. -/
theorem c2_at (p : Fin 65536) (j : Fin 256) :
    val_main_v234 (F := Ideal) x0 x1 x2 x4 x5 x6 x7 x8 x9 x10 x11 (ix2 p j) = Cert.Spec.c2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) j := by
  rw [val_main_v234_apply, val_main_v225_apply, gf2_at, c1_at, val_main_v233_apply, gi2_at, gg2_at]
  rfl

/-- Step two's hidden state, the cell's output at row `p`, column `j`. -/
theorem h2_at (p : Fin 65536) (j : Fin 256) :
    val_main_v242 (F := Ideal) x0 x1 x2 x4 x5 x6 x7 x8 x9 x10 x11 (ix2 p j) = Cert.Spec.h2 (Cert.Spec.row (val_main_v125 (F := Ideal) x0 x1 x2 x4 x5 x8 x9 x10 x11) p) (Cert.Spec.row (val_main_v166 (F := Ideal) x0 x1 x2 x4 x5 x6 x7 x8 x9 x10 x11) p) (val_main_v52 (F := Ideal) x8) (val_main_v54 (F := Ideal) x9) (fun g => val_main_v57 (F := Ideal) x10 x11 (ix1 g)) j := by
  unfold Cert.Spec.h2
  rw [val_main_v242_apply, go2_at, val_main_v241_apply, c2_at, Ideal.hostUnary_tanh_def, Ideal.mulf_def]

end cells

/-! ## The reshape and the mask -/

/-- Element `(b, l, j)` of the row-major reshape `[65536, 256] → [128, 512, 256]` is element `(512·b + l, j)`. -/
theorem idx243_at (b : Fin 128) (l : Fin 512) (j : Fin 256) :
    idx_main_v243 (ix3 b l j)
      = ix2 (⟨512 * b.val + l.val, by have := b.isLt; have := l.isLt; omega⟩ : Fin 65536) j :=
  funext fun a => Fin.ext (by
    have hb := b.isLt; have hl := l.isLt; have hj := j.isLt
    match a with
    | ⟨0, _⟩ => show ((b.val * 512 + l.val) * 256 + j.val) / 256 = 512 * b.val + l.val; omega
    | ⟨1, _⟩ => show ((b.val * 512 + l.val) * 256 + j.val) % 256 = j.val; omega)

/-- The mask broadcast along the last axis reads the mask at `(b, l, 0)`. -/
theorem idx244_at (b : Fin 128) (l : Fin 512) (j : Fin 256) :
    idx_main_v244 (ix3 b l j) = ix3 b l (0 : Fin 1) :=
  funext fun a => Fin.ext (by match a with | ⟨0, _⟩ => rfl | ⟨1, _⟩ => rfl | ⟨2, _⟩ => rfl)

/-- The reference's second two-step cell is the specification's cell of the first cell's output and the second graph
    layer's output, unmasked. -/
theorem ref_lstm2 (x0 : FA S65536x256) (x1 : IA S2x262144) (x2 : FA S262144) (x4 : FA S256x256) (x5 : FA S256) (x6 : FA S256x256)
    (x7 : FA S256) (x8 x9 : FA S1024x256) (x10 x11 : FA S1024) :
    val_main_v242 (F := Ideal) x0 x1 x2 x4 x5 x6 x7 x8 x9 x10 x11
      = Cert.Spec.lstm (val_main_v125 (F := Ideal) x0 x1 x2 x4 x5 x8 x9 x10 x11)
          (val_main_v166 (F := Ideal) x0 x1 x2 x4 x5 x6 x7 x8 x9 x10 x11) (val_main_v52 (F := Ideal) x8) (val_main_v54 (F := Ideal) x9)
          (fun g => val_main_v57 (F := Ideal) x10 x11 (ix1 g)) (fun _ => 1) := by
  funext i
  obtain ⟨p, j, rfl⟩ : ∃ (p : Fin 65536) (j : Fin 256), i = ix2 p j := ⟨i 0, i 1, eq_ix2 i⟩
  rw [h2_at]
  unfold Cert.Spec.lstm Cert.Spec.lstmAt
  exact (mul_one _).symm

/-- The reference's result at sequence `b`, position `l`, feature `j`: the second cell's output at row `512·b + l`
    times the padding mask at `(b, l)`. -/
theorem ref_out (x0 : FA S65536x256) (x1 : IA S2x262144) (x2 : FA S262144) (x3 : FA S128x512x1) (x4 : FA S256x256) (x5 : FA S256)
    (x6 : FA S256x256) (x7 : FA S256) (x8 x9 : FA S1024x256) (x10 x11 : FA S1024) (b : Fin 128) (l : Fin 512) (j : Fin 256) :
    val_main_v245 (F := Ideal) x0 x1 x2 x3 x4 x5 x6 x7 x8 x9 x10 x11 (ix3 b l j)
      = val_main_v242 (F := Ideal) x0 x1 x2 x4 x5 x6 x7 x8 x9 x10 x11
          (ix2 (⟨512 * b.val + l.val, by have := b.isLt; have := l.isLt; omega⟩ : Fin 65536) j) * x3 (ix3 b l (0 : Fin 1)) := by
  rw [val_main_v245_apply, val_main_v243_apply, val_main_v244_apply, idx243_at, idx244_at]
  rfl

end Cert.ReferenceIdeal.RV2

end
-- ==== Proof.Bridge.lean ====
/-
  The two programs' values are one function of the argument arrays.

  Both sides are built from the same pieces: the projection `Cert.Spec.mm`, the two-step cell `Cert.Spec.lstm`, and
  between them one graph layer (gather the projected rows at the sources, scale each by its edge's normalisation, sum at
  the targets, add the bias), which both programs compute with the same host operations on the same index and weight
  arrays: the two layers agree term by term as functions of the projection. What remains is bookkeeping of layouts:
  the transposed weights agree, the bias row read at column `g` is the bias sum at `g`, the all-ones mask is `1`, the
  flattened padding mask at row `512·b + l` is the mask at `(b, l)`, and the reshape into 128 sequences of 512 rows reads
  row `512·b + l`. The kernel multiplies the last hidden state by the mask before that reshape and the reference after
  it; entry by entry these are the same product.
-/
import proofs.«156547_j23003844837986_1_alg».proof.Proof.KDefs
import proofs.«156547_j23003844837986_1_alg».proof.Proof.RefLstm1
import proofs.«156547_j23003844837986_1_alg».proof.Proof.RefLstm2
import Idealize.ShloMosaic.Lib.Pipeline.Value
import Idealize.ShloMosaic.PureOps.IdealRules

noncomputable section

namespace Cert.Bridge

open Idealize.ShloMosaic Idealize.ShloMosaic.ValueIdx
open Cert.KernelIdeal.KV Cert.ReferenceIdeal.ReadP
open Cert.ReferenceIdeal

/-! ## The operands the launches take are the reference's -/

/-- The transposed projection weights (the format change is the identity on the extended reals). -/
theorem wt_eq (w : FVec Ideal S256x256 .f32) : kWt w = val_main_v9 (F := Ideal) w := rfl
theorem wt_eq' (w : FVec Ideal S256x256 .f32) : kWt w = val_main_v126 (F := Ideal) w := rfl
/-- The transposed cell weights. -/
theorem wg_eq8 (w : FVec Ideal S1024x256 .f32) : kWg w = val_main_v52 (F := Ideal) w := rfl
theorem wg_eq9 (w : FVec Ideal S1024x256 .f32) : kWg w = val_main_v54 (F := Ideal) w := rfl

/-- The bias row at column `g` is the bias sum at `g`. -/
theorem bias_eq (x10 x11 : FVec Ideal S1024 .f32) (g : Fin 1024) :
    kBias x10 x11 (ix2 (0 : Fin 1) g) = val_main_v57 (F := Ideal) x10 x11 (ix1 g) := by
  unfold kBias val_main_v57
  exact shapeCast_apply _ _ (ix2 (0 : Fin 1) g) (ix1 g)
    (by rewrite [Shape.rowMajor_val_one, Shape.rowMajor_val_two]; show g.val = 0 * 1024 + g.val; omega)

/-- The flattened padding mask at row `512·b + l` is the mask at `(b, l)`. -/
theorem mask_eq (x3 : FVec Ideal S128x512x1 .f32) (b : Fin 128) (l : Fin 512) (hp : 512 * b.val + l.val < 65536) :
    kMask x3 (ix2 (⟨512 * b.val + l.val, hp⟩ : Fin 65536) (0 : Fin 1)) = x3 (ix3 b l (0 : Fin 1)) := by
  unfold kMask
  exact shapeCast_apply _ _ _ (ix3 b l (0 : Fin 1))
    (by rewrite [Shape.rowMajor_val_three, Shape.rowMajor_val_two]
        show (b.val * 512 + l.val) * 1 + 0 = (512 * b.val + l.val) * 1 + 0; omega)

/-- The all-ones mask column is `1` at every row. -/
theorem ones_eq (p : Fin 65536) : kOnes (ix2 p (0 : Fin 1)) = 1 := by
  unfold kOnes
  show Ideal.ofBits .f32 0x3F800000#32 = 1
  exact IdealRules.sign_bit.ideal_onePat .f32

/-! ## The graph layer is one function of the projection -/

/-- The reference's graph layer as a function of the projection `h`: its first layer's operations with the projection
    left as a variable. -/
def rAgg (h : FVec Ideal S65536x256 .f32) (x1 : IVec S2x262144 32) (x2 : FVec Ideal S262144 .f32) (b : FVec Ideal S256 .f32) :
    FVec Ideal S65536x256 .f32 :=
  addf (Host.scatterAdd scatter_S65536x256_S327680x1_S327680x256_1_0_0_1 (val_main_v44 (F := Ideal)) (val_main_v45 (F := Ideal) x1)
    (mulf (Host.gather gather_S65536x256_S327680x1_S327680x256_1_0_n_n_0_1_1256 h (val_main_v39 (F := Ideal) x1)) (val_main_v42 (F := Ideal) x1 x2)))
    (val_main_v48 (F := Ideal) b)

/-- The reference's first layer is that function of its first projection. -/
theorem v49_eq (x0 : FVec Ideal S65536x256 .f32) (x1 : IVec S2x262144 32) (x2 : FVec Ideal S262144 .f32) (x4 : FVec Ideal S256x256 .f32)
    (x5 : FVec Ideal S256 .f32) :
    val_main_v49 (F := Ideal) x0 x1 x2 x4 x5 = rAgg (val_main_v10 (F := Ideal) x0 x4) x1 x2 x5 := rfl

/-- The reference's second layer computes the degrees and the normalisation again, by the same operations: it is the
    same function of its second projection. -/
theorem v166_eq (x0 : FVec Ideal S65536x256 .f32) (x1 : IVec S2x262144 32) (x2 : FVec Ideal S262144 .f32) (x4 : FVec Ideal S256x256 .f32)
    (x5 : FVec Ideal S256 .f32) (x6 : FVec Ideal S256x256 .f32) (x7 : FVec Ideal S256 .f32) (x8 x9 : FVec Ideal S1024x256 .f32)
    (x10 x11 : FVec Ideal S1024 .f32) :
    val_main_v166 (F := Ideal) x0 x1 x2 x4 x5 x6 x7 x8 x9 x10 x11
      = rAgg (val_main_v127 (F := Ideal) x0 x1 x2 x4 x5 x6 x8 x9 x10 x11) x1 x2 x7 := rfl

/-- The kernel program's layer, which computes the normalisation once and widens the gathered rows from the narrower
    format (the identity on the extended reals), is the same function too. -/
theorem agg_eq (h : FVec Ideal S65536x256 .f32) (x1 : IVec S2x262144 32) (x2 : FVec Ideal S262144 .f32) (b : FVec Ideal S256 .f32) :
    kAgg h x1 x2 b = rAgg h x1 x2 b := rfl

/-! ## The two cells and the result -/

section
variable (x0 : FVec Ideal S65536x256 .f32) (x1 : IVec S2x262144 32) (x2 : FVec Ideal S262144 .f32) (x3 : FVec Ideal S128x512x1 .f32)
  (x4 : FVec Ideal S256x256 .f32) (x5 : FVec Ideal S256 .f32) (x6 : FVec Ideal S256x256 .f32) (x7 : FVec Ideal S256 .f32)
  (x8 x9 : FVec Ideal S1024x256 .f32) (x10 x11 : FVec Ideal S1024 .f32)

/-- The first cell's output is the reference's. -/
theorem s1_eq : kS1 x0 x1 x2 x4 x5 x8 x9 x10 x11 = val_main_v125 (F := Ideal) x0 x1 x2 x4 x5 x8 x9 x10 x11 := by
  rw [RV1.ref_lstm1]
  unfold kS1 kH1
  have e1 : kAgg (Cert.Spec.mm x0 (kWt x4)) x1 x2 x5 = val_main_v49 (F := Ideal) x0 x1 x2 x4 x5 := by
    rw [v49_eq, RV1.ref_mm1, wt_eq, agg_eq]
  have e2 : (fun g : Fin 1024 => kBias x10 x11 (ix2 (0 : Fin 1) g)) = fun g => val_main_v57 (F := Ideal) x10 x11 (ix1 g) :=
    funext (bias_eq x10 x11)
  have e3 : (fun p : Fin 65536 => kOnes (ix2 p (0 : Fin 1))) = fun _ => (1 : EReal) := funext ones_eq
  rw [e1, wg_eq8, wg_eq9, e2, e3]

/-- The second graph layer's output is the reference's. -/
theorem mid2_eq : kAgg (Cert.Spec.mm (kS1 x0 x1 x2 x4 x5 x8 x9 x10 x11) (kWt x6)) x1 x2 x7
    = val_main_v166 (F := Ideal) x0 x1 x2 x4 x5 x6 x7 x8 x9 x10 x11 := by
  rw [v166_eq, RV1.ref_mm2, s1_eq, wt_eq', agg_eq]

/-- The kernel program's value at sequence `b`, position `l`, feature `j` is the reference's. -/
theorem out_at (b : Fin 128) (l : Fin 512) (j : Fin 256) :
    kOut x0 x1 x2 x3 x4 x5 x6 x7 x8 x9 x10 x11 (ix3 b l j)
      = val_main_v245 (F := Ideal) x0 x1 x2 x3 x4 x5 x6 x7 x8 x9 x10 x11 (ix3 b l j) := by
  have hp : 512 * b.val + l.val < 65536 := by have := b.isLt; have := l.isLt; omega
  rw [RV2.ref_out, RV2.ref_lstm2]
  unfold kOut
  rw [shapeCast_apply _ _ (ix3 b l j) (ix2 (⟨512 * b.val + l.val, hp⟩ : Fin 65536) j)
    (by rewrite [Shape.rowMajor_val_two, Shape.rowMajor_val_three]
        show (512 * b.val + l.val) * 256 + j.val = (b.val * 512 + l.val) * 256 + j.val; omega)]
  unfold kS2
  rw [mid2_eq, s1_eq, wg_eq8, wg_eq9]
  show Cert.Spec.lstmAt _ _ _ _ _ _ (⟨512 * b.val + l.val, hp⟩ : Fin 65536) j
      = Cert.Spec.lstmAt _ _ _ _ _ _ (⟨512 * b.val + l.val, hp⟩ : Fin 65536) j * _
  unfold Cert.Spec.lstmAt
  beta_reduce
  rw [mask_eq x3 b l hp, mul_one]
  rw [show (fun g : Fin 1024 => kBias x10 x11 (ix2 (0 : Fin 1) g)) = fun g => val_main_v57 (F := Ideal) x10 x11 (ix1 g) from
    funext (bias_eq x10 x11)]

/-- The two values are one array. -/
theorem out_eq : kOut x0 x1 x2 x3 x4 x5 x6 x7 x8 x9 x10 x11 = val_main_v245 (F := Ideal) x0 x1 x2 x3 x4 x5 x6 x7 x8 x9 x10 x11 := by
  funext i
  obtain ⟨b, l, j, rfl⟩ : ∃ (b : Fin 128) (l : Fin 512) (j : Fin 256), i = ix3 b l j := ⟨i 0, i 1, i 2, eq_ix3 i⟩
  exact out_at x0 x1 x2 x3 x4 x5 x6 x7 x8 x9 x10 x11 b l j

end

end Cert.Bridge

end
-- ==== Proof.lean ====
/-
  The certificate's claim: the three frames, the idealization's ledger (empty), and the equality of the two idealized
  programs' results over the extended reals.

  The kernel program is four launches among stretches of host operations: a dense projection `x · Wᵀ`, a graph layer on
  the host (gather at the edge sources, scale by the symmetric normalisation, sum at the edge targets, add the bias), a
  fused two-step LSTM cell from the zero state, and the same three once more on the first cell's output, the second cell
  masked by the padding mask. The reference computes the same chain with host operations only. The proof names the
  kernel program's value piece by piece (each launch's result array is the specification's function of the launch's
  operand arrays, block by block, and the blocks cover the array), reads the reference's run back stretch by stretch into
  the same specification functions (the cell's first step from the zero state drops a zero recurrent product and a zero
  forget term; the logistic function is spelt `1 / (1 + e⁻ˣ)` on one side and named on the other), and joins the two:
  the graph layers agree term by term as functions of the projection, and the mask is multiplied in before the final
  reshape on one side and after it on the other. No step needs the inputs to be finite: only `0 · w = 0`, `x + 0 = x`,
  `0 + y = y` and `y · 1 = y` on the extended reals are used.
-/
import proofs.«156547_j23003844837986_1_alg».proof.Defs
import proofs.«156547_j23003844837986_1_alg».proof.Proof.Gen.Kernel
import proofs.«156547_j23003844837986_1_alg».proof.Proof.Gen.Kernel.Skeleton
import proofs.«156547_j23003844837986_1_alg».proof.Proof.Gen.Kernel.Launch
import proofs.«156547_j23003844837986_1_alg».proof.Proof.Gen.Kernel.Points
import proofs.«156547_j23003844837986_1_alg».proof.Proof.Gen.Kernel.Frame
import proofs.«156547_j23003844837986_1_alg».proof.Proof.Gen.KernelIdeal
import proofs.«156547_j23003844837986_1_alg».proof.Proof.Gen.KernelIdeal.Skeleton
import proofs.«156547_j23003844837986_1_alg».proof.Proof.Gen.KernelIdeal.Launch
import proofs.«156547_j23003844837986_1_alg».proof.Proof.Gen.KernelIdeal.Points
import proofs.«156547_j23003844837986_1_alg».proof.Proof.Gen.KernelIdeal.Frame
import proofs.«156547_j23003844837986_1_alg».proof.Proof.Gen.ReferenceIdeal
import proofs.«156547_j23003844837986_1_alg».proof.Proof.Gen.Pre_finite_inputs
import proofs.«156547_j23003844837986_1_alg».proof.Proof.KRun
import proofs.«156547_j23003844837986_1_alg».proof.Proof.KHost
import proofs.«156547_j23003844837986_1_alg».proof.Proof.RefRun
import proofs.«156547_j23003844837986_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and keeps its arguments: its run, with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both idealized programs end with the same result array: the kernel
    program's named value `kOut` of the arguments, which is the reference's last operation's value. -/
theorem algebraic : Cert.algebraic_KernelIdeal_ReferenceIdeal := by
  intro m ρ m' ρ' _ hagree
  refine ⟨fun c => Cert.KernelIdeal.KV.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KV.kernel_value m ρ c), (h c).2⟩)
      (Cert.KernelIdeal.KV.run_result (F := Ideal) m ρ)
  · refine (θ_run Cert.ReferenceIdeal.defs _ _).mono (fun _ h c => ⟨(h c).1.trans ?_, (h c).2⟩)
      (Cert.ReferenceIdeal.RefRun.run m' ρ')
    obtain ⟨a0, a1, a2, a3, a4, a5, a6, a7, a8, a9, a10, a11⟩ := hagree c
    rw [a0, a1, a2, a3, a4, a5, a6, a7, a8, a9, a10, a11]
    exact (Cert.Bridge.out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
